-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32
  ∧ IdealRules.sign_bit.Statement Cert.KernelIdeal.S64x1024 .f32

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x4096 : Shape := ⟨2, ![4096, 4096]⟩
abbrev S1000000x15 : Shape := ⟨2, ![1000000, 15]⟩
abbrev S17x1 : Shape := ⟨2, ![17, 1]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1000000x15 : S_.BroadcastsInDim S1000000x15 (![] : Fin 0 → Fin S1000000x15.rank)
  reducesTo_S1000000x15_S_d0_1 : S1000000x15.ReducesTo [0, 1] S_
  bcast_S_S17x1 : S_.BroadcastsInDim S17x1 (![] : Fin 0 → Fin S17x1.rank)
  reducesTo_S17x1_S_d0_1 : S17x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg2 : IVec S4096x4096 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg2 main_v19
  let main_c_7 : IVec S_ 32 := constantI S_ 32 999999#32
  let main_v21 : IVec S4096x4096 32 := broadcastInDim S4096x4096 ![] bcast_S_S4096x4096 main_c_7
  let main_v22 : IVec S4096x4096 1 := cmpi .sle main_arg2 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S4096x4096 .f32) (main_arg1 : FVec F S1000000x15 .f32) (main_arg2 : IVec S4096x4096 32) (main_arg3 : FVec F S17x1 .f32) (main_arg4 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1000000x15 .f32 := Host.absf main_arg1
  let main_cst_0 : FVec F S_ .f32 := constant S_ .f32 0x7F800000#32
  let main_v5 : FVec F S1000000x15 .f32 := broadcastInDim S1000000x15 ![] bcast_S_S1000000x15 main_cst_0
  let main_v6 : IVec S1000000x15 1 := cmpf .olt main_v4 main_v5
  let main_c_1 : IVec S_ 1 := constantI S_ 1 1#1
  let main_v7 : IVec S_ 1 := (fun x v => Host.reduce IntOp.andi x v reducesTo_S1000000x15_S_d0_1 h_S_) main_v6 main_c_1
  let main_v8 : IVec S_ 1 := andi main_v3 main_v7
  let main_v9 : FVec F S17x1 .f32 := Host.absf main_arg3
  let main_cst_2 : FVec F S_ .f32 := constant S_ .f32 0x7F800000#32
  let main_v10 : FVec F S17x1 .f32 := broadcastInDim S17x1 ![] bcast_S_S17x1 main_cst_2
  let main_v11 : IVec S17x1 1 := cmpf .olt main_v9 main_v10
  let main_c_3 : IVec S_ 1 := constantI S_ 1 1#1
  let main_v12 : IVec S_ 1 := (fun x v => Host.reduce IntOp.andi x v reducesTo_S17x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_v13 main_v16
-- ==== Kernel.lean ====
abbrev S4096x4096 : Shape := ⟨2, ![4096, 4096]⟩
abbrev S1000000x15 : Shape := ⟨2, ![1000000, 15]⟩
abbrev S17x1 : Shape := ⟨2, ![17, 1]⟩
abbrev S1 : Shape := ⟨1, ![1]⟩
abbrev S_ : Shape := ⟨0, ![]⟩
abbrev S48576x15 : Shape := ⟨2, ![48576, 15]⟩
abbrev S1048576x15 : Shape := ⟨2, ![1048576, 15]⟩
abbrev S15x1048576 : Shape := ⟨2, ![15, 1048576]⟩
abbrev S15x1024x1024 : Shape := ⟨3, ![15, 1024, 1024]⟩
abbrev S17 : Shape := ⟨1, ![17]⟩
abbrev S18 : Shape := ⟨1, ![18]⟩
abbrev S1024x1024 : Shape := ⟨2, ![1024, 1024]⟩
abbrev S15x64x1024 : Shape := ⟨3, ![15, 64, 1024]⟩
abbrev S64x1024 : Shape := ⟨2, ![64, 1024]⟩
abbrev S1x64x1024 : Shape := ⟨3, ![1, 64, 1024]⟩
abbrev S1048576 : Shape := ⟨1, ![1048576]⟩
abbrev S16777216 : Shape := ⟨1, ![16777216]⟩
abbrev S8192 : Shape := ⟨1, ![8192]⟩
abbrev S2 : Shape := ⟨1, ![2]⟩
abbrev S65536 : Shape := ⟨1, ![65536]⟩
abbrev S16 : Shape := ⟨1, ![16]⟩

abbrev nBuf : Table → Nat
  | .hbm => 18
  | .local .tc .vmem => 4
  | .local .tc .smem => 1
  | .shared => 1
  | .local .scVector .vmem => 6
  | _ => 0

abbrev bufTy : (tb : Table) → Fin (nBuf tb) → BufTy
  | .hbm, ⟨0, _⟩ => ⟨S4096x4096, .f32⟩
  | .hbm, ⟨1, _⟩ => ⟨S1000000x15, .f32⟩
  | .hbm, ⟨2, _⟩ => ⟨S4096x4096, .i32⟩
  | .hbm, ⟨3, _⟩ => ⟨S17x1, .f32⟩
  | .hbm, ⟨4, _⟩ => ⟨S1, .f32⟩
  | .hbm, ⟨5, _⟩ => ⟨S_, .f32⟩
  | .hbm, ⟨6, _⟩ => ⟨S48576x15, .f32⟩
  | .hbm, ⟨7, _⟩ => ⟨S1048576x15, .f32⟩
  | .hbm, ⟨8, _⟩ => ⟨S15x1048576, .f32⟩
  | .hbm, ⟨9, _⟩ => ⟨S15x1024x1024, .f32⟩
  | .hbm, ⟨10, _⟩ => ⟨S17, .f32⟩
  | .hbm, ⟨11, _⟩ => ⟨S18, .f32⟩
  | .hbm, ⟨12, _⟩ => ⟨S1024x1024, .f32⟩
  | .hbm, ⟨13, _⟩ => ⟨S1048576, .f32⟩
  | .hbm, ⟨14, _⟩ => ⟨S16777216, .i32⟩
  | .hbm, ⟨15, _⟩ => ⟨S16777216, .f32⟩
  | .hbm, ⟨16, _⟩ => ⟨S16777216, .f32⟩
  | .hbm, ⟨17, _⟩ => ⟨S4096x4096, .f32⟩
  | .local .tc .vmem, ⟨0, _⟩ => ⟨S15x64x1024, .f32⟩
  | .local .tc .vmem, ⟨1, _⟩ => ⟨S15x64x1024, .f32⟩
  | .local .tc .vmem, ⟨2, _⟩ => ⟨S64x1024, .f32⟩
  | .local .tc .vmem, ⟨3, _⟩ => ⟨S64x1024, .f32⟩
  | .local .tc .smem, ⟨0, _⟩ => ⟨S18, .f32⟩
  | .shared, ⟨0, _⟩ => ⟨S1048576, .f32⟩
  | .local .scVector .vmem, ⟨0, _⟩ => ⟨S8192, .i32⟩
  | .local .scVector .vmem, ⟨1, _⟩ => ⟨S8192, .i32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 5 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v7_scv : Ref sig .scVector := ⟨.hbm, 13, rfl⟩
abbrev main_v9_scv : Ref sig .scVector := ⟨.hbm, 15, rfl⟩
abbrev main_v8_scv : Ref sig .scVector := ⟨.hbm, 14, rfl⟩
abbrev main_v10_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg1_0 : Ref sig .tc := ⟨.smem, 0, rfl⟩
abbrev cc1_scratch0 : Ref sig .scVector := ⟨.shared, 0, rfl⟩
abbrev cc1_scratch1 : Ref sig .scVector := ⟨.vmem, 0, rfl⟩
abbrev cc1_scratch2 : Ref sig .scVector := ⟨.vmem, 1, rfl⟩
abbrev cc1_scratch3 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
def k1_off2 (i : grid1.Coords) : Fin 1 → Nat :=
  let arg1 : BitVec 32 := BitVec.ofNat 32 (i 1).val
  let c65536_i32_3 : BitVec 32 := 65536#32
  let v22 : BitVec 32 := Scalar.muli arg1 c65536_i32_3
  ![v22.toNat]
@[reducible] def k1_t1_loop : Scf.Loop 32 :=
  let c0_i32_13 : BitVec 32 := 0#32
  let c32_i32 : BitVec 32 := 32#32
  let v34 : BitVec 32 := Scalar.addi c0_i32_13 c32_i32
  let c1_i32_14 : BitVec 32 := 1#32
  ⟨c0_i32_13, v34, c1_i32_14⟩
@[reducible] def k1_t2_loop : Scf.Loop 32 :=
  let c0_i32_29 : BitVec 32 := 0#32
  let c512_i32 : BitVec 32 := 512#32
  let v52 : BitVec 32 := Scalar.addi c0_i32_29 c512_i32
  let c1_i32_30 : BitVec 32 := 1#32
  ⟨c0_i32_29, v52, c1_i32_30⟩
def k1_off3 (k1_t2 : Fin k1_t2_loop.trips) : Fin 1 → Nat :=
  let c0_i32_29 : BitVec 32 := 0#32
  let c1_i32_30 : BitVec 32 := 1#32
  let arg18 : BitVec 32 := Scf.iv c0_i32_29 c1_i32_30 k1_t2
  let c16_i32 : BitVec 32 := 16#32
  let v83 : BitVec 32 := Scalar.muli arg18 c16_i32
  let v84 : Index := Scalar.indexCast v83
  ![v84.toNat]
def k1_off4 (i : grid1.Coords) (k1_t1 : Fin k1_t1_loop.trips) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c2_i32_22 : BitVec 32 := 2#32
  let c0_i32_13 : BitVec 32 := 0#32
  let c1_i32_14 : BitVec 32 := 1#32
  let arg17 : BitVec 32 := Scf.iv c0_i32_13 c1_i32_14 k1_t1
  let v43 : BitVec 32 := Scalar.muli c2_i32_22 arg17
  let v44 : BitVec 32 := Scalar.addi v43 c0_i32_23
  let c8192_i32_32 : BitVec 32 := 8192#32
  let v53 : BitVec 32 := Scalar.muli v44 c8192_i32_32
  let v54 : BitVec 32 := Scalar.addi v2 v53
  ![v54.toNat]
def k1_cond3 (k1_t1 : Fin k1_t1_loop.trips) : BitVec 1 :=
  let c2_i32_22 : BitVec 32 := 2#32
  let c0_i32_13 : BitVec 32 := 0#32
  let c1_i32_14 : BitVec 32 := 1#32
  let arg17 : BitVec 32 := Scf.iv c0_i32_13 c1_i32_14 k1_t1
  let v43 : BitVec 32 := Scalar.muli c2_i32_22 arg17
  let c0_i32_23 : BitVec 32 := 0#32
  let v44 : BitVec 32 := Scalar.addi v43 c0_i32_23
  let c2_i32_34 : BitVec 32 := 2#32
  let v59 : BitVec 32 := Scalar.addi v44 c2_i32_34
  let c64_i32_35 : BitVec 32 := 64#32
  let v60 : BitVec 1 := Scalar.cmpi .slt v59 c64_i32_35
  let v61 : BitVec 32 := Scalar.extui v60
  let c0_i32_36 : BitVec 32 := 0#32
  let v62 : BitVec 1 := Scalar.cmpi .ne v61 c0_i32_36
  v62

def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c2_i32_22 : BitVec 32 := 2#32
  let c0_i32_13 : BitVec 32 := 0#32
  let c1_i32_14 : BitVec 32 := 1#32
  let arg17 : BitVec 32 := Scf.iv c0_i32_13 c1_i32_14 k1_t1
  let v43 : BitVec 32 := Scalar.muli c2_i32_22 arg17
  let c0_i32_23 : BitVec 32 := 0#32
  let v44 : BitVec 32 := Scalar.addi v43 c0_i32_23
  let c2_i32_54 : BitVec 32 := 2#32
  let v83 : BitVec 32 := Scalar.addi v44 c2_i32_54
  let c8192_i32_55 : BitVec 32 := 8192#32
  let v84 : BitVec 32 := Scalar.muli v83 c8192_i32_55
  let v85 : BitVec 32 := Scalar.addi v2 v84
  ![v85.toNat]
@[reducible] def k1_t3_loop : Scf.Loop 32 :=
  let c0_i32_45 : BitVec 32 := 0#32
  let c512_i32_46 : BitVec 32 := 512#32
  let v72 : BitVec 32 := Scalar.addi c0_i32_45 c512_i32_46
  let c1_i32_47 : BitVec 32 := 1#32
  ⟨c0_i32_45, v72, c1_i32_47⟩
def k1_off6 (k1_t3 : Fin k1_t3_loop.trips) : Fin 1 → Nat :=
  let c0_i32_45 : BitVec 32 := 0#32
  let c1_i32_47 : BitVec 32 := 1#32
  let arg18 : BitVec 32 := Scf.iv c0_i32_45 c1_i32_47 k1_t3
  let c16_i32 : BitVec 32 := 16#32
  let v83 : BitVec 32 := Scalar.muli arg18 c16_i32
  let v84 : Index := Scalar.indexCast v83
  ![v84.toNat]
def k1_cond6 (k1_t1 : Fin k1_t1_loop.trips) : BitVec 1 :=
  let c2_i32_37 : BitVec 32 := 2#32
  let c0_i32_13 : BitVec 32 := 0#32
  let c1_i32_14 : BitVec 32 := 1#32
  let arg17 : BitVec 32 := Scf.iv c0_i32_13 c1_i32_14 k1_t1
  let v63 : BitVec 32 := Scalar.muli c2_i32_37 arg17
  let c1_i32_38 : BitVec 32 := 1#32
  let v64 : BitVec 32 := Scalar.addi v63 c1_i32_38
  let c2_i32_51 : BitVec 32 := 2#32
  let v79 : BitVec 32 := Scalar.addi v64 c2_i32_51
  let c64_i32_52 : BitVec 32 := 64#32
  let v80 : BitVec 1 := Scalar.cmpi .slt v79 c64_i32_52
  let v81 : BitVec 32 := Scalar.extui v80
  let c0_i32_53 : BitVec 32 := 0#32
  let v82 : BitVec 1 := Scalar.cmpi .ne v81 c0_i32_53
  v82

def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c2_i32_37 : BitVec 32 := 2#32
  let c0_i32_13 : BitVec 32 := 0#32
  let c1_i32_14 : BitVec 32 := 1#32
  let arg17 : BitVec 32 := Scf.iv c0_i32_13 c1_i32_14 k1_t1
  let v63 : BitVec 32 := Scalar.muli c2_i32_37 arg17
  let c1_i32_38 : BitVec 32 := 1#32
  let v64 : BitVec 32 := Scalar.addi v63 c1_i32_38
  let c2_i32_54 : BitVec 32 := 2#32
  let v83 : BitVec 32 := Scalar.addi v64 c2_i32_54
  let c8192_i32_55 : BitVec 32 := 8192#32
  let v84 : BitVec 32 := Scalar.muli v83 c8192_i32_55
  let v85 : BitVec 32 := Scalar.addi v2 v84
  ![v85.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S48576x15 : S_.BroadcastsInDim S48576x15 (![] : Fin 0 → Fin S48576x15.rank)
  concatenates_S1000000x15_S48576x15_S1048576x15_d0 : Shape.Concatenates [S1000000x15, S48576x15] S1048576x15 0
  transposes_S1048576x15_S15x1048576_1_0 : S1048576x15.Transposes [1, 0] S15x1048576
  shapeCasts_S15x1048576_S15x1024x1024 : S15x1048576.ShapeCasts S15x1024x1024
  shapeCasts_S17x1_S17 : S17x1.ShapeCasts S17
  concatenates_S17_S1_S18_d0 : Shape.Concatenates [S17, S1] S18 0
  inb_S18_S1_0 : ∀ a, (![0] : Fin 1 → Nat) a + S1.size a ≤ S18.size a
  numel1_S1 : S1.numel = 1
  inb_S15x64x1024_S1x64x1024_0_0_0 : ∀ a, (![0, 0, 0] : Fin 3 → Nat) a + S1x64x1024.size a ≤ S15x64x1024.size a
  h_S1x64x1024 : 0 < S1x64x1024.numel
  shapeCasts_S1x64x1024_S64x1024 : S1x64x1024.ShapeCasts S64x1024
  inb_S18_S1_1 : ∀ a, (![1] : Fin 1 → Nat) a + S1.size a ≤ S18.size a
  inb_S15x64x1024_S1x64x1024_1_0_0 : ∀ a, (![1, 0, 0] : Fin 3 → Nat) a + S1x64x1024.size a ≤ S15x64x1024.size a
  inb_S18_S1_2 : ∀ a, (![2] : Fin 1 → Nat) a + S1.size a ≤ S18.size a
  inb_S15x64x1024_S1x64x1024_2_0_0 : ∀ a, (![2, 0, 0] : Fin 3 → Nat) a + S1x64x1024.size a ≤ S15x64x1024.size a
  inb_S18_S1_3 : ∀ a, (![3] : Fin 1 → Nat) a + S1.size a ≤ S18.size a
  inb_S15x64x1024_S1x64x1024_3_0_0 : ∀ a, (![3, 0, 0] : Fin 3 → Nat) a + S1x64x1024.size a ≤ S15x64x1024.size a
  inb_S18_S1_4 : ∀ a, (![4] : Fin 1 → Nat) a + S1.size a ≤ S18.size a
  inb_S15x64x1024_S1x64x1024_4_0_0 : ∀ a, (![4, 0, 0] : Fin 3 → Nat) a + S1x64x1024.size a ≤ S15x64x1024.size a
  inb_S15x64x1024_S1x64x1024_6_0_0 : ∀ a, (![6, 0, 0] : Fin 3 → Nat) a + S1x64x1024.size a ≤ S15x64x1024.size a
  inb_S18_S1_5 : ∀ a, (![5] : Fin 1 → Nat) a + S1.size a ≤ S18.size a
  inb_S15x64x1024_S1x64x1024_7_0_0 : ∀ a, (![7, 0, 0] : Fin 3 → Nat) a + S1x64x1024.size a ≤ S15x64x1024.size a
  inb_S18_S1_6 : ∀ a, (![6] : Fin 1 → Nat) a + S1.size a ≤ S18.size a
  inb_S15x64x1024_S1x64x1024_8_0_0 : ∀ a, (![8, 0, 0] : Fin 3 → Nat) a + S1x64x1024.size a ≤ S15x64x1024.size a
  inb_S18_S1_7 : ∀ a, (![7] : Fin 1 → Nat) a + S1.size a ≤ S18.size a
  inb_S15x64x1024_S1x64x1024_9_0_0 : ∀ a, (![9, 0, 0] : Fin 3 → Nat) a + S1x64x1024.size a ≤ S15x64x1024.size a
  inb_S18_S1_8 : ∀ a, (![8] : Fin 1 → Nat) a + S1.size a ≤ S18.size a
  inb_S15x64x1024_S1x64x1024_10_0_0 : ∀ a, (![10, 0, 0] : Fin 3 → Nat) a + S1x64x1024.size a ≤ S15x64x1024.size a
  inb_S18_S1_9 : ∀ a, (![9] : Fin 1 → Nat) a + S1.size a ≤ S18.size a
  inb_S15x64x1024_S1x64x1024_11_0_0 : ∀ a, (![11, 0, 0] : Fin 3 → Nat) a + S1x64x1024.size a ≤ S15x64x1024.size a
  inb_S18_S1_10 : ∀ a, (![10] : Fin 1 → Nat) a + S1.size a ≤ S18.size a
  inb_S15x64x1024_S1x64x1024_12_0_0 : ∀ a, (![12, 0, 0] : Fin 3 → Nat) a + S1x64x1024.size a ≤ S15x64x1024.size a
  inb_S18_S1_11 : ∀ a, (![11] : Fin 1 → Nat) a + S1.size a ≤ S18.size a
  inb_S15x64x1024_S1x64x1024_13_0_0 : ∀ a, (![13, 0, 0] : Fin 3 → Nat) a + S1x64x1024.size a ≤ S15x64x1024.size a
  inb_S18_S1_12 : ∀ a, (![12] : Fin 1 → Nat) a + S1.size a ≤ S18.size a
  inb_S15x64x1024_S1x64x1024_14_0_0 : ∀ a, (![14, 0, 0] : Fin 3 → Nat) a + S1x64x1024.size a ≤ S15x64x1024.size a
  inb_S18_S1_13 : ∀ a, (![13] : Fin 1 → Nat) a + S1.size a ≤ S18.size a
  inb_S18_S1_14 : ∀ a, (![14] : Fin 1 → Nat) a + S1.size a ≤ S18.size a
  inb_S18_S1_15 : ∀ a, (![15] : Fin 1 → Nat) a + S1.size a ≤ S18.size a
  inb_S15x64x1024_S1x64x1024_5_0_0 : ∀ a, (![5, 0, 0] : Fin 3 → Nat) a + S1x64x1024.size a ≤ S15x64x1024.size a
  inb_S18_S1_16 : ∀ a, (![16] : Fin 1 → Nat) a + S1.size a ≤ S18.size a
  inb_S18_S1_17 : ∀ a, (![17] : Fin 1 → Nat) a + S1.size a ≤ S18.size a
  inb_S64x1024_S64x1024_0_0 : ∀ a, (![0, 0] : Fin 2 → Nat) a + S64x1024.size a ≤ S64x1024.size a
  h_S64x1024 : 0 < S64x1024.numel
  shapeCasts_S1024x1024_S1048576 : S1024x1024.ShapeCasts S1048576
  shapeCasts_S4096x4096_S16777216 : S4096x4096.ShapeCasts S16777216
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S16777216_S8192_0 : ∀ a, (![0] : Fin 1 → Nat) a + S8192.size a ≤ S16777216.size a
  inb_S1048576_S1048576_0 : ∀ a, (![0] : Fin 1 → Nat) a + S1048576.size a ≤ S1048576.size a
  gathers_S1048576_S8192 : S1048576.Gathers 0 S8192
  h_S16 : 0 < S16.numel
  shapeCasts_S16_S16 : S16.ShapeCasts S16
  shapeCasts_S16777216_S4096x4096 : S16777216.ShapeCasts S4096x4096
  hcc1_scratch7 : 5 + S2.numel ≤ 14
  hcc1_scratch8 : 7 + S2.numel ≤ 14
  hcc1_scratch9 : 9 + S2.numel ≤ 14
  hcc1_scratch10 : 11 + S2.numel ≤ 14
  hcc1_scoped0 : 13 + S_.numel ≤ 14
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15x64x1024.size a ≤ S15x1024x1024.size a
  hwx0_0 : ∀ i : grid0.Coords, EltTy.bits .f32 = 32 ∨ (Rect.block (s := S15x1024x1024) S15x64x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S18.size a ≤ S18.size a
  hwx0_1 : ∀ i : grid0.Coords, EltTy.bits .f32 = 32 ∨ (Rect.block (s := S18) S18.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S1024x1024.size a
  hwx0_2 : ∀ i : grid0.Coords, EltTy.bits .f32 = 32 ∨ (Rect.block (s := S1024x1024) S64x1024.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (8192 * r.val))) a + S8192.size a ≤ S16777216.size a
  k1_off2_inb : ∀ i : grid1.Coords, ∀ a, (k1_off2 i) a + S65536.size a ≤ S1048576.size a
  k1_t1_ok : k1_t1_loop.OK
  k1_t2_ok : k1_t2_loop.OK
  k1_off3_inb : ∀ k1_t2 : Fin k1_t2_loop.trips, ∀ a, (k1_off3 k1_t2) a + S16.size a ≤ S8192.size a
  k1_off4_inb : ∀ (i : grid1.Coords) (k1_t1 : Fin k1_t1_loop.trips), ∀ (r : Fin 2), ∀ a, (k1_off4 i k1_t1 (BitVec.ofNat 32 r.val)) a + S8192.size a ≤ S16777216.size a
  k1_off5_inb : ∀ (i : grid1.Coords) (k1_t1 : Fin k1_t1_loop.trips), ∀ (k1_h3 : k1_cond3 k1_t1 = 1#1), ∀ a, (k1_off5 i k1_t1) a + S8192.size a ≤ S16777216.size a
  k1_t3_ok : k1_t3_loop.OK
  k1_off6_inb : ∀ k1_t3 : Fin k1_t3_loop.trips, ∀ a, (k1_off6 k1_t3) a + S16.size a ≤ S8192.size a
  k1_off7_inb : ∀ (i : grid1.Coords) (k1_t1 : Fin k1_t1_loop.trips), ∀ (k1_h6 : k1_cond6 k1_t1 = 1#1), ∀ a, (k1_off7 i k1_t1) a + S8192.size a ≤ S16777216.size a

variable [Facts₀]

abbrev cc1_scratch7 : DmaSems sig S2 := SemArray.consecutive 5 S2 hcc1_scratch7
abbrev cc1_scratch8 : DmaSems sig S2 := SemArray.consecutive 7 S2 hcc1_scratch8
abbrev cc1_scratch9 : DmaSems sig S2 := SemArray.consecutive 9 S2 hcc1_scratch9
abbrev cc1_scratch10 : DmaSems sig S2 := SemArray.consecutive 11 S2 hcc1_scratch10
abbrev cc1_scoped0 : DmaSems sig S_ := SemArray.consecutive 13 S_ hcc1_scoped0

abbrev win0_0 : Pipeline.Window sig grid0 :=
  Pipeline.Window.ofSpec (Memref.whole main_v3) S15x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S18.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1000000x15 : Shape := ⟨2, ![1000000, 15]⟩
abbrev S17x1 : Shape := ⟨2, ![17, 1]⟩
abbrev S1 : Shape := ⟨1, ![1]⟩
abbrev S1000000x1 : Shape := ⟨2, ![1000000, 1]⟩
abbrev S_ : Shape := ⟨0, ![]⟩
abbrev S1000000x9 : Shape := ⟨2, ![1000000, 9]⟩
abbrev S1000000x4 : Shape := ⟨2, ![1000000, 4]⟩
abbrev S1000000x17 : Shape := ⟨2, ![1000000, 17]⟩
abbrev S1x1 : Shape := ⟨2, ![1, 1]⟩
abbrev S1000000 : Shape := ⟨1, ![1000000]⟩
abbrev S4096x4096x1 : Shape := ⟨3, ![4096, 4096, 1]⟩
abbrev S1x1x1 : Shape := ⟨3, ![1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1000000x15, .f32⟩
  | .hbm, ⟨2, _⟩ => ⟨S4096x4096, .i32⟩
  | .hbm, ⟨3, _⟩ => ⟨S17x1, .f32⟩
  | .hbm, ⟨4, _⟩ => ⟨S1, .f32⟩
  | .hbm, ⟨5, _⟩ => ⟨S1000000x1, .f32⟩
  | .hbm, ⟨6, _⟩ => ⟨S1000000x1, .f32⟩
  | .hbm, ⟨7, _⟩ => ⟨S1000000x1, .f32⟩
  | .hbm, ⟨8, _⟩ => ⟨S1000000x1, .f32⟩
  | .hbm, ⟨9, _⟩ => ⟨S_, .f32⟩
  | .hbm, ⟨10, _⟩ => ⟨S1000000x1, .f32⟩
  | .hbm, ⟨11, _⟩ => ⟨S1000000x1, .f32⟩
  | .hbm, ⟨12, _⟩ => ⟨S1000000x1, .f32⟩
  | .hbm, ⟨13, _⟩ => ⟨S1000000x1, .f32⟩
  | .hbm, ⟨14, _⟩ => ⟨S1000000x1, .f32⟩
  | .hbm, ⟨15, _⟩ => ⟨S1000000x1, .f32⟩
  | .hbm, ⟨16, _⟩ => ⟨S1000000x1, .f32⟩
  | .hbm, ⟨17, _⟩ => ⟨S1000000x1, .f32⟩
  | .hbm, ⟨18, _⟩ => ⟨S1000000x1, .f32⟩
  | .hbm, ⟨19, _⟩ => ⟨S1000000x9, .f32⟩
  | .hbm, ⟨20, _⟩ => ⟨S1000000x9, .f32⟩
  | .hbm, ⟨21, _⟩ => ⟨S_, .f32⟩
  | .hbm, ⟨22, _⟩ => ⟨S1000000x9, .f32⟩
  | .hbm, ⟨23, _⟩ => ⟨S1000000x9, .f32⟩
  | .hbm, ⟨24, _⟩ => ⟨S1000000x9, .f32⟩
  | .hbm, ⟨25, _⟩ => ⟨S1000000x9, .f32⟩
  | .hbm, ⟨26, _⟩ => ⟨S1000000x9, .f32⟩
  | .hbm, ⟨27, _⟩ => ⟨S1000000x9, .f32⟩
  | .hbm, ⟨28, _⟩ => ⟨S1000000x4, .f32⟩
  | .hbm, ⟨29, _⟩ => ⟨S1000000x17, .f32⟩
  | .hbm, ⟨30, _⟩ => ⟨S1000000x1, .f32⟩
  | .hbm, ⟨31, _⟩ => ⟨S1x1, .f32⟩
  | .hbm, ⟨32, _⟩ => ⟨S1000000x1, .f32⟩
  | .hbm, ⟨33, _⟩ => ⟨S1000000x1, .f32⟩
  | .hbm, ⟨34, _⟩ => ⟨S1000000x1, .f32⟩
  | .hbm, ⟨35, _⟩ => ⟨S1000000x1, .f32⟩
  | .hbm, ⟨36, _⟩ => ⟨S_, .f32⟩
  | .hbm, ⟨37, _⟩ => ⟨S1000000x1, .f32⟩
  | .hbm, ⟨38, _⟩ => ⟨S1000000x1, .f32⟩
  | .hbm, ⟨39, _⟩ => ⟨S_, .f32⟩
  | .hbm, ⟨40, _⟩ => ⟨S1000000x1, .f32⟩
  | .hbm, ⟨41, _⟩ => ⟨S1000000x1, .f32⟩
  | .hbm, ⟨42, _⟩ => ⟨S1000000, .f32⟩
  | .hbm, ⟨43, _⟩ => ⟨S_, .i32⟩
  | .hbm, ⟨44, _⟩ => ⟨S4096x4096, .i32⟩
  | .hbm, ⟨45, _⟩ => ⟨S4096x4096, .i1⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S4096x4096x1, .i32⟩
  | .hbm, ⟨51, _⟩ => ⟨S1, .i32⟩
  | .hbm, ⟨52, _⟩ => ⟨S_, .i32⟩
  | .hbm, ⟨53, _⟩ => ⟨S4096x4096x1, .i32⟩
  | .hbm, ⟨54, _⟩ => ⟨S4096x4096x1, .i1⟩
  | .hbm, ⟨55, _⟩ => ⟨S1x1x1, .i32⟩
  | .hbm, ⟨56, _⟩ => ⟨S4096x4096x1, .i32⟩
  | .hbm, ⟨57, _⟩ => ⟨S4096x4096x1, .i1⟩
  | .hbm, ⟨58, _⟩ => ⟨S4096x4096x1, .i1⟩
  | .hbm, ⟨59, _⟩ => ⟨S_, .i1⟩
  | .hbm, ⟨60, _⟩ => ⟨S4096x4096, .i1⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v34 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  slices_S1000000x15_S1000000x1_0_7 : S1000000x15.Slices ![0, 7] S1000000x1
  slices_S1000000x15_S1000000x1_0_6 : S1000000x15.Slices ![0, 6] S1000000x1
  bcast_S_S1000000x1 : S_.BroadcastsInDim S1000000x1 (![] : Fin 0 → Fin S1000000x1.rank)
  slices_S1000000x15_S1000000x1_0_5 : S1000000x15.Slices ![0, 5] S1000000x1
  slices_S1000000x15_S1000000x1_0_4 : S1000000x15.Slices ![0, 4] S1000000x1
  slices_S1000000x15_S1000000x9_0_6 : S1000000x15.Slices ![0, 6] S1000000x9
  bcast_S_S1000000x9 : S_.BroadcastsInDim S1000000x9 (![] : Fin 0 → Fin S1000000x9.rank)
  slices_S1000000x15_S1000000x4_0_0 : S1000000x15.Slices ![0, 0] S1000000x4
  concatenates_S1000000x4_S1000000x1_S1000000x9_S1000000x1_S1000000x1_S1000000x1_S1000000x17_d1 : Shape.Concatenates [S1000000x4, S1000000x1, S1000000x9, S1000000x1, S1000000x1, S1000000x1] S1000000x17 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  dot_S1000000x17_S17x1_S1000000x1_1_0_0_1_n_n_wf : DotDims.WF S1000000x17 S17x1 S1000000x1 [1] [0] [0] [1] [] []
  gather_S1000000_S4096x4096x1_S4096x4096_n_0_n_n_0_2_1_wf : GatherDims.WF S1000000 S4096x4096x1 S4096x4096 [] [0] [] [0] [] 2 ![1]

variable [Facts₀]

def dot_S1000000x17_S17x1_S1000000x1_1_0_0_1_n_n : DotDims S1000000x17 S17x1 S1000000x1 where
  lhsContracting := [1]
  rhsContracting := [0]
  lhsNonContracting := [0]
  rhsNonContracting := [1]
  lhsBatch := []
  rhsBatch := []
  wf := dot_S1000000x17_S17x1_S1000000x1_1_0_0_1_n_n_wf
def gather_S1000000_S4096x4096x1_S4096x4096_n_0_n_n_0_2_1 : GatherDims S1000000 S4096x4096x1 S4096x4096 where
  offsetDims := []
  collapsedSliceDims := [0]
  operandBatchingDims := []
  startIndicesBatchingDims := []
  startIndexMap := [0]
  indexVectorDim := 2
  sliceSizes := ![1]
  wf := gather_S1000000_S4096x4096x1_S4096x4096_n_0_n_n_0_2_1_wf

class Facts : Prop extends Facts₀ where

variable [Facts]
-- ==== Proof.Preserves.lean ====
/-
  The idealized kernel differs from the kernel as printed at nine places, all of one kind: where the body forms
  "1.0 carrying x's sign bit" through the float's word (for the sign of each of the nine signed-logarithm columns), the
  idealized body compares x with zero instead. Each place's conjunct is the rule's own statement at the block's shape:
  at the extended reals the comparison form is -1 below zero and 1 elsewhere, and at the words the original form is
  ±1.0's pattern by the word's top bit.
-/
import proofs.«215733_g63187558859118_cont_9to1_m_256_17_alg».proof.Defs

noncomputable section

namespace Cert.Proof.Preserves

open Idealize.ShloMosaic

theorem one_site : IdealRules.sign_bit.Statement Cert.KernelIdeal.S64x1024 .f32 :=
  IdealRules.sign_bit.statement Cert.KernelIdeal.S64x1024 .f32

theorem preserves : Cert.preserves_Kernel_KernelIdeal :=
  ⟨one_site, one_site, one_site, one_site, one_site, one_site, one_site, one_site, one_site⟩

end Cert.Proof.Preserves

end
-- ==== Proof.SetupIdeal.lean ====
/-
  The program as the launch theorem of a SparseCore program sees it: its configuration (one call of a vector-subcore
  kernel on 2 SparseCores × 16 tiles, beside one TensorCore pallas_call), the side conditions of that configuration, and
  the ghost state of the proof: the handshakes' rounds, the subcore barrier cells' rounds, and the transfers' counters.
-/
import proofs.«215733_g63187558859118_cont_9to1_m_256_17_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215733_g63187558859118_cont_9to1_m_256_17_alg».proof.Proof.Gen.KernelIdeal
import proofs.«215733_g63187558859118_cont_9to1_m_256_17_alg».proof.Proof.Gen.KernelIdeal.Skeleton

noncomputable section

namespace Cert.Proof.KernelIdealSetup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
/-- The pallas_call's staging cells' rounds: the pipeline library's own algebra (duties unnamed). -/
abbrev UP : Type := UR sig nD τ
abbrev UU : Type := UH × (UB × (UP × Counters))

end Cert.Proof.KernelIdealSetup

end
-- ==== Proof.ScResIdeal.lean ====
/-
  What the tiles of the SparseCore kernel hold and return. Tile (c, s) — worker 2 s + c of 32 — handles the 524288
  consecutive pixels from 1048576 s + 524288 c on, in 64 chunks of 8192. It is handed a read share of the score table, of
  the component numbers and of the inputs (HBM arrays every tile reads), its 64 chunks of the result array outright, and
  segment s (65536 entries from 65536 s on) of its SparseCore's shared copy of the table; it returns the read shares, its
  chunks of the result holding component-score × input, and its part of the shared copy.
-/
import proofs.«215733_g63187558859118_cont_9to1_m_256_17_alg».proof.Proof.SetupIdeal
import Idealize.ShloMosaic.Lib.ValueIdx

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Places -/

abbrev cV (L : grid1.Coords) : Fin τ.nSC := (L 0).castLE hcore1
abbrev jV (L : grid1.Coords) : Fin τ.nSub := (L 1).castLE hsub1

/-- The HBM arrays the kernel names, as locations of the device. -/
abbrev loc7 (d : Dev nD) : Loc nD τ sig := (SparseCore.T d).loc main_v7
abbrev loc8 (d : Dev nD) : Loc nD τ sig := (SparseCore.T d).loc main_v8
abbrev loc9 (d : Dev nD) : Loc nD τ sig := (SparseCore.T d).loc main_v9
abbrev loc10 (d : Dev nD) : Loc nD τ sig := (SparseCore.T d).loc main_v10

/-- SparseCore `c`'s shared copy of the score table. -/
abbrev shRef (c : Fin τ.nSC) : DevRef τ sig := ⟨.shared, ⟨0, by decide⟩, c⟩
abbrev shLoc (d : Dev nD) (c : Fin τ.nSC) : Loc nD τ sig := (d, shRef c)

/-- Worker number 2 s + c of tile (c, s). -/
def wid (L : grid1.Coords) : Fin 32 := ⟨2 * (L 1).val + (L 0).val, by have h1 : (L 1).val < 16 := (L 1).isLt; have h0 : (L 0).val < 2 := (L 0).isLt; omega⟩

/-- The flat pixel array cut into 2048 chunks of 8192; the table into 16 segments of 65536. -/
theorem hdivChunk : 2048 ∣ S16777216.size 0 := ⟨8192, rfl⟩
theorem hdivSeg : 16 ∣ S1048576.size 0 := ⟨65536, rfl⟩

/-- Chunk `k` of tile `L` is chunk 128 s + 64 c + k of the 2048. -/
def chunkNo (L : grid1.Coords) (k : Fin 64) : Fin 2048 :=
  ⟨128 * (L 1).val + 64 * (L 0).val + k.val, by have h1 : (L 1).val < 16 := (L 1).isLt; have h0 : (L 0).val < 2 := (L 0).isLt; have := k.isLt; omega⟩

abbrev chunkR (L : grid1.Coords) (k : Fin 64) : Rect S16777216 := Rect.part (s := S16777216) (a₀ := 0) hdivChunk (chunkNo L k)
abbrev segR (i : Fin 16) : Rect S1048576 := Rect.part (s := S1048576) (a₀ := 0) hdivSeg i

/-! ## Sets and shares -/

local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)

/-- The pixels of chunk `k` of tile `L`. -/
abbrev chunkSet (L : grid1.Coords) (k : Fin 64) : Finset S16777216.Idx := ((oV).view.slice (chunkR L k)).set
/-- The entries of segment `i` of the table. -/
abbrev segSet (i : Fin 16) : Finset S1048576.Idx := ((tabV).view.slice (segR i)).set

/-- Tile `L`'s read share of an array all 32 tiles read. -/
abbrev tok (L : grid1.Coords) : PosShare TreeShare := Transfers.shareTok fullShare 32 (wid L)
/-- Tile `i`'s read share of its SparseCore's table once all sixteen segments are written, -/
abbrev tok16 (i : Fin 16) : PosShare TreeShare := Transfers.shareTok fullShare 16 i
/-- and what is left of a segment's full share once its sixteen read shares are dealt. -/
abbrev rest16 : PosShare TreeShare := Transfers.shareDrop fullShare 16

/-! ## Contents -/

variable [FloatOps F]

/-- The result array: at pixel `p` the table's entry at the pixel's component number (read as a natural number, reduced
    into the table's range — a no-op where the number is in range) times the pixel's input. -/
def outV (f7 : S1048576.Idx → Elt F .f32) (f8 : S16777216.Idx → Elt F .i32) (f9 : S16777216.Idx → Elt F .f32) : S16777216.Idx → Elt F .f32 :=
  fun p => FloatOps.mulf (f7 (ValueIdx.ix1 ⟨(f8 p : BitVec 32).toNat % 1048576, Nat.mod_lt _ (by decide)⟩)) (f9 p)

/-! ## What a tile is handed and hands back -/

section Hand

variable (d : Dev nD) (f7 : S1048576.Idx → Elt F .f32) (f8 : S16777216.Idx → Elt F .i32) (f9 : S16777216.Idx → Elt F .f32) (f10 : S16777216.Idx → Elt F .f32)

/-- Of the HBM arrays: the three read shares and the tile's 64 chunks of the result at their contents before the call. -/
def goH (L : grid1.Coords) : sProp 𝕄 :=
  iprop((loc7 d ↦{tok L} f7) ∗ (loc8 d ↦{tok L} f8) ∗ (loc9 d ↦{tok L} f9)
    ∗ bigSep Finset.univ fun k : Fin 64 => loc10 d ↦[chunkSet L k]{fullShare} f10)
/-- Back: the read shares, and the chunks holding table-entry × input. -/
def tdH (L : grid1.Coords) : sProp 𝕄 :=
  iprop((loc7 d ↦{tok L} f7) ∗ (loc8 d ↦{tok L} f8) ∗ (loc9 d ↦{tok L} f9)
    ∗ bigSep Finset.univ fun k : Fin 64 => loc10 d ↦[chunkSet L k]{fullShare} outV f7 f8 f9)
/-- Of its SparseCore's shared table: its own segment, at any contents; -/
def goS (c : Fin τ.nSC) (i : Fin 16) : sProp 𝕄 := iprop(∃ f, shLoc d c ↦[segSet i]{fullShare} f)
/-- back: what is left of its segment's share after the sixteen read shares were dealt, and its own read share of the
    whole table, all at the score table's contents. -/
def tdS (c : Fin τ.nSC) (i : Fin 16) : sProp 𝕄 :=
  iprop((shLoc d c ↦[segSet i]{rest16} f7) ∗ (shLoc d c ↦{tok16 i} f7))

end Hand

end Cert.Proof.KernelIdealSc

end
-- ==== Proof.ScBarrierIdeal.lean ====
/-
  The subcore barrier of the SparseCore kernel, as rounds of duties.

  Each tile copies its own segment of the score table into its SparseCore's shared copy, and then all sixteen tiles of
  the SparseCore meet at the barrier: every tile adds one unit to every tile's barrier semaphore and waits for sixteen
  on its own. The sixteen units a tile's semaphore receives are one round of sixteen duties, one per tile of the
  SparseCore, named by the tile's number. Tile n's duty in tile j's round CARRIES something: a read share — the j-th of
  sixteen — of segment n of the shared copy, at the score table's contents. So before the barrier a tile cuts the full
  share of its own segment into what is left over and sixteen read shares, one for each round it has a duty in; and
  after the barrier a tile's own round has collected the j-th read share of every segment, which together are the
  j-th read share of the whole shared copy. That is what lets a tile read any row of the table after the barrier.
-/
import proofs.«215733_g63187558859118_cont_9to1_m_256_17_alg».proof.Proof.ScResIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The barrier cells' rounds library: the left half of the middle factor of the ghost state. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

theorem nSub_eq : τ.nSub = 16 := rfl
theorem bound_one : grid1.bound 1 = 16 := rfl
/-- A tile's number within its SparseCore, as one of sixteen. -/
abbrev jL (L : grid1.Coords) : Fin 16 := Fin.cast bound_one (L 1)

/-! ## The segments of the table -/

local notation "tabV" => (Memref.whole Cert.KernelIdeal.cc1_scratch0 : Memref Cert.KernelIdeal.sig Kind.scVector Space.shared Cert.KernelIdeal.S1048576 EltTy.f32)

theorem segSet_eq (i : Fin 16) : segSet i = (segR i).set := by
  show ((View.whole (cc1_scratch0 : Ref sig .scVector)).slice (segR i)).set = _
  rw [View.set_slice]; exact Finset.map_refl
theorem segs_disjoint : ∀ i ∈ (Finset.univ : Finset (Fin 16)), ∀ j ∈ (Finset.univ : Finset (Fin 16)), i ≠ j → Disjoint (segSet i) (segSet j) :=
  fun i _ j _ h => by rw [segSet_eq, segSet_eq]; exact Rect.part_disjoint hdivSeg h
theorem segs_cover : (Finset.univ : Finset (Fin 16)).biUnion segSet = Finset.univ :=
  (Finset.biUnion_congr rfl fun i _ => segSet_eq i).trans (Rect.biUnion_part hdivSeg)

/-- The shared copy at one share is its sixteen segments at that share. -/
theorem shPts_segs (d : Dev nD) (c : Fin τ.nSC) (q : PosShare TreeShare) (f : Buf (Elt F) (shLoc d c)) :
    (shLoc d c ↦{q} f : sProp 𝕄) = bigSep Finset.univ fun i : Fin 16 => shLoc d c ↦[segSet i]{q} f := by
  rw [← pointsTo_biUnion Finset.univ (ℓ := shLoc d c) segSet segs_disjoint, segs_cover]; try rfl

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

section Table
variable (f7 : S1048576.Idx → Elt F .f32)

/-- What tile `n`'s duty in tile `(c, j)`'s round hands over: the `j`-th read share of segment `n` of SparseCore
    `c`'s shared copy, at the score table's contents. -/
def bPay (g : GSem nD τ sig) (n : ℕ) : sProp 𝕄 :=
  match g with
  | ((d, .scVector c j), _) =>
    if h : n < 16 then (shLoc d c ↦[segSet ⟨n, h⟩]{tok16 (Fin.cast nSub_eq j)} f7 : sProp 𝕄) else iprop(emp)
  | _ => iprop(emp)

/-- The barrier cells' schedule: one round on each, of one unit duty per tile of the SparseCore (named by its number),
    each handing over a read share of its segment. -/
def bRd : Rounds.Schedule (GSem nD τ sig) ℕ 𝕄 where
  duties g r := if isBar g ∧ r = 0 then (Finset.univ : Finset (Fin τ.nSub)).image Fin.val else ∅
  amount _ _ _ := 1
  payload g _ n := bPay f7 g n
  amount_pos _ _ _ _ := Nat.one_pos

instance bRd_payload_storable (g : GSem nD τ sig) (r n : ℕ) : BI.Storable (upEmb : UEmb _ 𝕄) ((bRd f7).payload g r n) := by
  show BI.Storable upEmb (bPay f7 g n)
  unfold bPay
  rcases g with ⟨⟨d, _ | c | ⟨c, i⟩⟩, sm⟩ <;> dsimp only <;> (repeat' split) <;> infer_instance

omit [FloatOps F] in
theorem bRd_duties₀ (d : Dev nD) (c : Fin τ.nSC) (j : Fin τ.nSub) : (bRd f7).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd f7).duties (bcell d c j) 0 := by
  rw [bRd_duties₀]; exact Finset.mem_image_of_mem _ (Finset.mem_univ i)
omit [FloatOps F] in
theorem bRd_expect (d : Dev nD) (c : Fin τ.nSC) (j : Fin τ.nSub) : 0 + grid1.bound 1 = (bRd f7).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

end Table

/-- What the launch has tile `(c, i)` owe for the barrier: a unit on every tile's cell of its SparseCore, at the call's
    index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

section Table
variable (f7 : S1048576.Idx → Elt F .f32)

/-! ## The tile's own cells for the barrier: what the launch deals its proof -/

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd f7) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What crosses the barrier -/

variable (d : Dev nD) (L : grid1.Coords)

omit [FloatOps F] in
/-- Tile `L`'s duty in tile `j`'s round hands over the `j`-th read share of `L`'s own segment. -/
theorem payload_mine (j : Fin (grid1.bound 1)) :
    (bRd f7).payload (bcell d (cV L) (j.castLE hsub1)) 0 (jV L).val
      = (shLoc d (cV L) ↦[segSet (jL L)]{tok16 (Fin.cast bound_one j)} f7 : sProp 𝕄) := by
  show bPay f7 (bcell d (cV L) (j.castLE hsub1)) (jV L).val = _
  unfold bPay; dsimp only
  rw [dif_pos (show (jV L).val < 16 from (jV L).isLt)]
  rfl

omit [FloatOps F] in
/-- Tile `i`'s duty in tile `L`'s own round hands over `L`'s read share of segment `i`. -/
theorem payload_theirs (i : Fin τ.nSub) :
    (bRd f7).payload (bcell d (cV L) (jV L)) 0 i.val
      = (shLoc d (cV L) ↦[segSet (Fin.cast nSub_eq i)]{tok16 (jL L)} f7 : sProp 𝕄) := by
  show bPay f7 (bcell d (cV L) (jV L)) i.val = _
  unfold bPay; dsimp only
  rw [dif_pos (show i.val < 16 from i.isLt)]
  rfl

omit [FloatOps F] in
/-- Before the barrier: the full share of the tile's own segment, written, is what is left over and the sixteen read
    shares its sixteen duties hand over. -/
theorem pays_intro : (shLoc d (cV L) ↦[segSet (jL L)]{fullShare} f7 : sProp 𝕄)
    ⊢ iprop((shLoc d (cV L) ↦[segSet (jL L)]{rest16} f7)
      ∗ bigSep Finset.univ fun j : Fin (grid1.bound 1) => (bRd f7).payload (bcell d (cV L) (j.castLE hsub1)) 0 (jV L).val) := by
  rw [show (bigSep Finset.univ fun j : Fin (grid1.bound 1) => (bRd f7).payload (bcell d (cV L) (j.castLE hsub1)) 0 (jV L).val)
      = bigSep Finset.univ fun j : Fin 16 => (shLoc d (cV L) ↦[segSet (jL L)]{tok16 j} f7 : sProp 𝕄) from
      bigSep_congr fun j _ => payload_mine f7 d L j]
  exact Transfers.pointsTo_toks_split fullShare 16

omit [FloatOps F] in
/-- After it: what the tile's own round collected — its read share of each of the sixteen segments — is its read share
    of the whole shared copy. -/
theorem pays_elim : (bigSep ((bRd f7).duties (bcell d (cV L) (jV L)) 0 \ ∅) fun n => (bRd f7).payload (bcell d (cV L) (jV L)) 0 n)
    ⊢ (shLoc d (cV L) ↦{tok16 (jL L)} f7 : sProp 𝕄) := by
  rw [Finset.sdiff_empty, bRd_duties₀, bigSep_image_of_injOn (Fin.val_injective.injOn),
    show (bigSep Finset.univ fun i : Fin τ.nSub => (bRd f7).payload (bcell d (cV L) (jV L)) 0 i.val)
      = bigSep Finset.univ fun i : Fin 16 => (shLoc d (cV L) ↦[segSet i]{tok16 (jL L)} f7 : sProp 𝕄) from
      bigSep_congr fun i _ => payload_theirs f7 d L i,
    ← shPts_segs]

end Table

end Cert.Proof.KernelIdealSc

end
-- ==== Proof.ScLaunchIdeal.lean ====
/-
  What the handshakes of the SparseCore call carry, how a SparseCore's operands split among its sixteen tiles, and a
  tile's obligation.

  The TensorCore hands each of the two SparseCores what its sixteen tiles need of the HBM arrays: per tile a read
  share of the score table, of the component numbers and of the inputs, and the tile's 64 chunks of the result array.
  The sequencer passes these on tile by tile, and adds to each tile segment i of its own shared copy of the table (the
  shared memory is the sequencer's; it is cut into the sixteen segments). Back come the read shares, the chunks at
  component-score × input, and of the shared copy, per tile, what is left of its segment after the sixteen read shares
  were dealt together with its read share of the whole copy: for each segment the leftover and the sixteen read shares
  join to the full share again, and the segments to the whole copy. Each tile also consumes its barrier kit and owes
  its sixteen arrivals at the barrier, in the call's band of levels.
-/
import proofs.«215733_g63187558859118_cont_9to1_m_256_17_alg».proof.Proof.ScBarrierIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Places -/

/-- The grid coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The same from the call's own numbering of its SparseCores and tiles. -/
abbrev coords (c : Fin ((K (F := F)).nCore 0)) (i : Fin ((K (F := F)).nSub 0)) : grid1.Coords :=
  coordsV ⟨((K (F := F)).core 0 c).val, c.isLt⟩ ⟨((K (F := F)).sub 0 i).val, i.isLt⟩

abbrev coreOf (c : Fin ((K (F := F)).nCore 0)) : Fin τ.nSC := (K (F := F)).core 0 c

/-- A tile's program at its coordinates. -/
abbrev tileProg (L : grid1.Coords) :=
  cc1_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0

section Pay
variable (f7 : S1048576.Idx → Elt F .f32) (f8 : S16777216.Idx → Elt F .i32) (f9 : S16777216.Idx → Elt F .f32) (f10 : S16777216.Idx → Elt F .f32)

/-! ## What the handshakes carry -/

/-- The one call: per SparseCore the sixteen tiles' parts of the HBM arrays; per tile that part and its segment of the
    shared copy; back the same at the results. Each tile consumes its barrier kit and owes its arrivals. -/
def P : (K (F := F)).Pay (nD := nD) (Val := Elt F) (Name := ℕ) (U := UU) where
  st := fun q d c => match q with
    | 0 => bigSep Finset.univ fun i : Fin ((K (F := F)).nSub 0) => goH d f7 f8 f9 f10 (coords c i)
  dn := fun q d c => match q with
    | 0 => bigSep Finset.univ fun i : Fin ((K (F := F)).nSub 0) => tdH d f7 f8 f9 (coords c i)
  go := fun q d c i => match q with
    | 0 => iprop(goH d f7 f8 f9 f10 (coords c i) ∗ goS d (coreOf c) (Fin.cast nSub_zero i))
  td := fun q d c i => match q with
    | 0 => iprop(tdH d f7 f8 f9 (coords c i) ∗ tdS d f7 (coreOf c) (Fin.cast nSub_zero i))
  x := fun _ thr => match thr with
    | (d, .scVector c i) => bkit f7 d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

theorem P_st (d : Dev nD) (c : Fin ((K (F := F)).nCore 0)) :
    (P f7 f8 f9 f10).st 0 d c = bigSep Finset.univ fun i : Fin ((K (F := F)).nSub 0) => goH d f7 f8 f9 f10 (coords c i) := rfl
theorem P_dn (d : Dev nD) (c : Fin ((K (F := F)).nCore 0)) :
    (P f7 f8 f9 f10).dn 0 d c = bigSep Finset.univ fun i : Fin ((K (F := F)).nSub 0) => tdH d f7 f8 f9 (coords c i) := rfl
theorem P_go (d : Dev nD) (c : Fin ((K (F := F)).nCore 0)) (i : Fin ((K (F := F)).nSub 0)) :
    (P f7 f8 f9 f10).go 0 d c i = iprop(goH d f7 f8 f9 f10 (coords c i) ∗ goS d (coreOf c) (Fin.cast nSub_zero i)) := rfl
theorem P_td (d : Dev nD) (c : Fin ((K (F := F)).nCore 0)) (i : Fin ((K (F := F)).nSub 0)) :
    (P f7 f8 f9 f10).td 0 d c i = iprop(tdH d f7 f8 f9 (coords c i) ∗ tdS d f7 (coreOf c) (Fin.cast nSub_zero i)) := rfl
theorem P_x_V (d : Dev nD) (c : Fin τ.nSC) (i : Fin τ.nSub) : (P f7 f8 f9 f10).x 0 (V d c i) = bkit f7 d c i := rfl
theorem P_ox_V (d : Dev nD) (c : Fin τ.nSC) (i : Fin τ.nSub) : (P f7 f8 f9 f10).ox 0 (V d c i) = oxV d c := rfl

instance goH_storable (d : Dev nD) (L : grid1.Coords) : BI.Storable (upEmb : UEmb _ 𝕄) (goH d f7 f8 f9 f10 L) := by
  unfold goH; infer_instance
instance tdH_storable (d : Dev nD) (L : grid1.Coords) : BI.Storable (upEmb : UEmb _ 𝕄) (tdH d f7 f8 f9 L) := by
  unfold tdH; infer_instance
instance goS_storable (d : Dev nD) (c : Fin τ.nSC) (i : Fin 16) : BI.Storable (upEmb : UEmb _ 𝕄) (goS (F := F) d c i) := by
  unfold goS; infer_instance
instance tdS_storable (d : Dev nD) (c : Fin τ.nSC) (i : Fin 16) : BI.Storable (upEmb : UEmb _ 𝕄) (tdS d f7 c i) := by
  unfold tdS; infer_instance

instance P_storable : (P f7 f8 f9 f10).IsStorable where
  st q d c := match q with
    | 0 => (inferInstance : BI.Storable (upEmb : UEmb _ 𝕄) (bigSep Finset.univ fun i : Fin ((K (F := F)).nSub 0) => goH d f7 f8 f9 f10 (coords c i)))
  dn q d c := match q with
    | 0 => (inferInstance : BI.Storable (upEmb : UEmb _ 𝕄) (bigSep Finset.univ fun i : Fin ((K (F := F)).nSub 0) => tdH d f7 f8 f9 (coords c i)))
  go q d c i := match q with
    | 0 => (inferInstance : BI.Storable (upEmb : UEmb _ 𝕄) iprop(goH d f7 f8 f9 f10 (coords c i) ∗ goS d (coreOf c) (Fin.cast nSub_zero i)))
  td q d c i := match q with
    | 0 => (inferInstance : BI.Storable (upEmb : UEmb _ 𝕄) iprop(tdH d f7 f8 f9 (coords c i) ∗ tdS d f7 (coreOf c) (Fin.cast nSub_zero i)))

/-! ## A tile's obligation, from its body's proof -/

/-- What the proof of a tile's body establishes, at any coordinates. -/
def TileBody : Prop :=
  ∀ (hF : (K (F := F)).Facts) (d : Dev nD) (L : grid1.Coords) (hidx : ∀ p, (f8 p : BitVec 32).toNat < 1048576)
    (O : CellTallies nD τ sig (HIx 1)) (W : Waits sig (HIx 1)) (hO : ∀ g, O g none = 0)
    (hOlev : ∀ g ι, 0 < O g ι → 8 * (0 : Fin 1).val + 6 ≤ (K (F := F)).lev g ι),
    iprop(levAts (K (F := F)).L (K (F := F)).lev ∗ bkit f7 d (cV L) (jV L) ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (tileProg L)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

theorem defs₀_vector (c : Fin τ.nSC) (s : Fin τ.nSub) :
    defs₀ (F := F) (.scVector c s) 1 ()
      = SparseCore.onTile hcore1 hsub1 (fun c s => tileProg (F := F) (coordsV c s)) ⟨⟩ c s := rfl

set_option maxRecDepth 16384 in
/-- The obligation of the launch theorem for the vector-subcore call, from the body's proof. -/
theorem tileObl (hF : (K (F := F)).Facts) (hidx : ∀ p, (f8 p : BitVec 32).toNat < 1048576) (htile : TileBody f7 f8 f9 f10) :
    (K (F := F)).TileObl (D (F := F)) 𝒱 (P f7 f8 f9 f10) v₀ 0 := by
  intro d c i O W hO hOlev _
  have hci : ((K (F := F)).core 0 c).val < grid1.bound 0 ∧ ((K (F := F)).sub 0 i).val < grid1.bound 1 := ⟨c.isLt, i.isLt⟩
  rw [P_ox_V, P_x_V, P_go, P_td]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile hF d (coordsV ⟨_, hci.1⟩ ⟨_, hci.2⟩) hidx O W hO hOlev

end Pay

end Cert.Proof.KernelIdealSc

end
-- ==== Proof.ScSplitIdeal.lean ====
/-
  How a SparseCore's operands split among its sixteen tiles and gather again.

  Of the HBM arrays nothing needs cutting here: what the TensorCore hands a SparseCore is already the sixteen tiles'
  parts side by side. The shared copy of the table is the sequencer's own buffer: whole, at a full share, it is its
  sixteen segments at a full share, one per tile. Back, tile i returns what is left of segment i after its sixteen
  read shares were dealt, and its own read share of the whole copy, that is of every segment. Collected over the
  tiles and regrouped by segment, each segment has its leftover and all sixteen read shares again: the full share;
  and the sixteen segments are the whole copy.
-/
import proofs.«215733_g63187558859118_cont_9to1_m_256_17_alg».proof.Proof.ScLaunchIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- A family over the call's sixteen tiles is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The whole copy at a full share deals each tile its segment. -/
theorem goS_deal (d : Dev nD) (c : Fin τ.nSC) (f : Buf (Elt F) (shLoc d c)) :
    (shLoc d c ↦{fullShare} f : sProp 𝕄) ⊢ bigSep Finset.univ fun i : Fin ((K (F := F)).nSub 0) => goS (F := F) d c (Fin.cast nSub_zero i) := by
  rw [bigSep_tasks (F := F) (fun i => goS (F := F) d c i), shPts_segs d c fullShare f]
  unfold goS
  exact bigSep_mono fun i _ => BI.BIClass.exists_intro (Φ := fun g => (shLoc d c ↦[segSet i]{fullShare} g : sProp 𝕄)) f

section Table
variable (f7 : S1048576.Idx → Elt F .f32)

omit [FloatOps F] in
/-- What the sixteen tiles return of the shared copy is the whole copy at a full share. -/
theorem tdS_join (d : Dev nD) (c : Fin τ.nSC) :
    (bigSep Finset.univ fun i : Fin ((K (F := F)).nSub 0) => tdS d f7 c (Fin.cast nSub_zero i))
      ⊢ (iprop(∃ f, shLoc d c ↦{fullShare} f) : sProp 𝕄) := by
  rw [bigSep_tasks (F := F) (fun i => tdS d f7 c i)]
  unfold tdS
  rw [bigSep_sep',
    show (bigSep Finset.univ fun i : Fin 16 => (shLoc d c ↦{tok16 i} f7 : sProp 𝕄))
      = bigSep Finset.univ fun n : Fin 16 => bigSep Finset.univ fun i : Fin 16 => (shLoc d c ↦[segSet n]{tok16 i} f7 : sProp 𝕄) from
      (bigSep_congr fun i _ => shPts_segs d c (tok16 i) f7).trans (bigSep_univ_comm _),
    ← bigSep_sep']
  refine (bigSep_mono (Ψ := fun n : Fin 16 => (shLoc d c ↦[segSet n]{fullShare} f7 : sProp 𝕄)) fun n _ =>
    Transfers.pointsTo_toks_join fullShare 16).trans ?_
  rw [← shPts_segs]
  exact BI.BIClass.exists_intro (Φ := fun g => (shLoc d c ↦{fullShare} g : sProp 𝕄)) f7

variable (f8 : S16777216.Idx → Elt F .i32) (f9 : S16777216.Idx → Elt F .f32) (f10 : S16777216.Idx → Elt F .f32)

/-- THE SPLIT of the launch theorem for the vector-subcore call. -/
theorem vecSplit : (K (F := F)).VecSplit (P f7 f8 f9 f10) 0 := by
  intro d c
  rw [P_st, P_dn]
  simp only [P_go, P_td]
  rw [bigSep_sep', bigSep_sep', ownBufs_S]
  iintro ⟨Hgo, ⟨%fsh, Hsh⟩, Hrest⟩; imodintro
  isplitl [Hgo Hsh]
  · isplitl [Hgo]; · iexact Hgo
    iapply (goS_deal (F := F) d (coreOf c) fsh); iexact Hsh
  iintro ⟨Htd, HtdS⟩
  isplitl [Htd]; · iexact Htd
  isplitl [HtdS]; · iapply (tdS_join f7 d (coreOf c)); iexact HtdS
  iexact Hrest

end Table

end Cert.Proof.KernelIdealSc

end
-- ==== Proof.ScElemIdeal.lean ====
/-
  The launch element of the ghost state: what the launch hands every tile for the barrier.

  The ghost state is a product: the handshakes' rounds, the barrier cells' rounds, and a last factor (the TensorCore
  call's staging cells' rounds beside the transfers' counters) that is passed on whole. The barrier cells are the 32
  tiles' barrier semaphores; the duty tokens are tile i's token in tile j's round 0, for every pair of tiles of one
  SparseCore. Funding the cells' rounds gives each cell its round state, the fact that it has reached round 0, its
  position at the origin and the tokens; the semaphores at zero come out of the free semaphores the launch hands over;
  states and semaphores make the cells' invariants, allocated at once; the credit for the tiles' own debts regroups
  into sixteen units per tile's own cell. Then every tile gets its kit: the invariants and the "reached" facts of its
  SparseCore's sixteen cells (shared by all: they are persistent), and its own position, its own sixteen tokens and
  its own credit.
-/
import proofs.«215733_g63187558859118_cont_9to1_m_256_17_alg».proof.Proof.ScLaunchIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The handshakes' rounds library: the first factor of the ghost state. -/
abbrev EH : Emb UH (MT nD τ sig (HIx 1) (Elt F) ℕ UU ℕ) := embL

/-- The last factor of the ghost state (the TensorCore call's staging cells' rounds and the transfers' counters),
    whole. -/
def ER : Emb (UP × Counters) (MT nD τ sig (HIx 1) (Elt F) ℕ UU ℕ) :=
  ((Emb.inr : Emb (UP × Counters) (UB × (UP × Counters))).trans (Emb.inr : Emb (UB × (UP × Counters)) UU)).trans
    (uEmb (nD := nD) (sig := sig) (Ix := HIx 1) (Val := Elt F) (Name := ℕ) (U := UU) (Lvl := ℕ)).toEmb

variable [FloatOps F]

abbrev DCI : Type := Dev nD × Fin τ.nSC × Fin τ.nSub
abbrev bcell₃ (x : DCI) : GSem nD τ sig := bcell x.1 x.2.1 x.2.2

/-- The barrier cells: every tile's barrier semaphore. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element, its last factor `r` given. -/
def u₀ (r : UP × Counters) : UU := (initOf (K (F := F)).hsCells (K (F := F)).hsToks, (initOf bCells bToks, r))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The ghost state's second factor (the barrier cells' rounds beside the last factor), whole. -/
def E2 : Emb (UB × (UP × Counters)) (MT nD τ sig (HIx 1) (Elt F) ℕ UU ℕ) :=
  (Emb.inr : Emb (UB × (UP × Counters)) UU).trans (uEmb (nD := nD) (sig := sig) (Ix := HIx 1) (Val := Elt F) (Name := ℕ) (U := UU) (Lvl := ℕ)).toEmb

omit [FloatOps F] in
/-- The element is its first factor and the rest … -/
theorem ownU_split₁ (a : UH) (b : UB) (r : UP × Counters) :
    (ownU ((a, (b, r)) : UU) : sProp 𝕄) ⊢ iprop(BI.own (EH a) ∗ BI.own (E2 (b, r))) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, r))))

omit [FloatOps F] in
/-- … and the rest is the barrier cells' factor and the last. -/
theorem ownU_split₂ (b : UB) (r : UP × Counters) :
    (BI.own (E2 (b, r)) : sProp 𝕄) ⊢ iprop(BI.own (EB b) ∗ BI.own (ER r)) :=
  BI.own_op_elim ((E2 (F := F)).op_of_mem (Prod.mk_mem_op (URA.mem_op_one b) (URA.mem_one_op r)))

omit [FloatOps F] in
/-- The element is its three factors, each owned. -/
theorem ownU_split (a : UH) (b : UB) (r : UP × Counters) :
    (ownU ((a, (b, r)) : UU) : sProp 𝕄) ⊢ iprop(BI.own (EH a) ∗ BI.own (EB b) ∗ BI.own (ER r)) := by
  iintro Hu
  ihave H := (ownU_split₁ a b r) $$ Hu
  icases H with ⟨HH, HR⟩
  ihave H2 := (ownU_split₂ b r) $$ HR
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

section Pay
variable (f7 : S1048576.Idx → Elt F .f32) (f8 : S16777216.Idx → Elt F .i32) (f9 : S16777216.Idx → Elt F .f32) (f10 : S16777216.Idx → Elt F .f32)

/-- The barrier cells' invariants, allocated at once. -/
theorem invs_b : iprop((bigSep bCells fun g => (semVal g 0 : sProp 𝕄)) ∗ bigSep bCells fun g => roundState EB (bRd f7) g 0)
    ⊢ |={Set.univ}=> iprop(∃ κ : GSem nD τ sig → ℕ, bigSep bCells fun g => cellInv EB (bRd f7) (κ g) g) := by
  refine (Rounds.bodies_intro EB (bRd f7) bCells).trans ((inv_alloc_family bCells (Rounds.body EB (bRd f7)) ∅ (E := Set.univ)).trans ?_)
  iintro H
  imod H with ⟨%κ, -, Hinv⟩
  imodintro; iexists κ; iexact Hinv

/-- The credit for the kernel's own debts, regrouped: each tile the sixteen units of its own cell. -/
theorem creds_b : ((P f7 f8 f9 f10).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P f7 f8 f9 f10).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P f7 f8 f9 f10).oxFrom 0 (V d c i) = oxV d c := fun i => by
    rw [show (0 : ℕ) = (0 : Fin 1).val from rfl, (P f7 f8 f9 f10).oxFrom_step, (P f7 f8 f9 f10).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P f7 f8 f9 f10).x q (SparseCore.T d)) = iprop(emp) :=
  bigSep_univ_of_subsingleton (0 : Fin 1)
theorem Px_S (d : Dev nD) (c : Fin τ.nSC) : (bigSep Finset.univ fun q : Fin 1 => (P f7 f8 f9 f10).x q (S d c)) = iprop(emp) :=
  bigSep_univ_of_subsingleton (0 : Fin 1)
theorem Px_V (d : Dev nD) (c : Fin τ.nSC) (i : Fin τ.nSub) :
    (bigSep Finset.univ fun q : Fin 1 => (P f7 f8 f9 f10).x q (V d c i)) = bkit f7 d c i :=
  bigSep_univ_of_subsingleton (0 : Fin 1)

/-- What every tile is handed alike: every barrier cell's invariant, and that each has reached round 0. -/
abbrev sharedKit : sProp 𝕄 :=
  iprop((∃ κ : GSem nD τ sig → ℕ, bigSep Finset.univ fun x : DCI => cellInv EB (bRd f7) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(sharedKit f7 ∗ mine (F := F) dci) ⊢ (bkit f7 dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd f7) (κ (bcell₃ x)) (bcell₃ x)) fun j _ =>
        sep_elim_left.trans (bigSep_elim (Φ := fun x : DCI => (cellInv EB (bRd f7) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(sharedKit f7 ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P f7 f8 f9 f10).x q thr : sProp 𝕄) := by
  rw [SparseCore.Cfg.bigSep_threads (fun thr : Thread nD τ => bigSep Finset.univ fun q : Fin 1 => (P f7 f8 f9 f10).x q thr)]
  simp only [Px_T, Px_S, Px_V, bigSep_emp']
  iintro ⟨#Hsh, Hat, Htok, Hcred⟩
  isplitr; · iempintro
  isplitr; · iempintro
  iapply (bigSep_mono_frame (R := sharedKit f7) (Φ := mine (F := F)) fun dci _ => kit_intro f7 dci)
  isplitr; · iexact Hsh
  unfold mine
  rw [bigSep_sep', bigSep_sep']
  isplitl [Hat]; · iexact Hat
  isplitl [Htok]; · iexact Htok
  iexact Hcred

/-- THE LAUNCH ELEMENT, its last factor passed on whole: from the element, the credit for the tiles' own debts and the
    free semaphores at zero, the handshake cells' rounds, the last factor owned, and every thread's start for the
    call. -/
theorem hu₀_sc (r : UP × Counters) : iprop(ownU (u₀ (F := F) r) ∗ (P f7 f8 f9 f10).oxCred ∗ (K (F := F)).freeSems0)
    ⊢ |={Set.univ}=> iprop(BI.own (EH (initOf (K (F := F)).hsCells (K (F := F)).hsToks)) ∗ BI.own (ER r)
        ∗ (bigSep Finset.univ fun thr : Thread nD τ => bigSep Finset.univ fun q : Fin 1 => (P f7 f8 f9 f10).x q thr) : sProp 𝕄) := by
  unfold u₀
  iintro ⟨Hu, Hcred, Hfree⟩
  ihave H := (ownU_split _ _ _) $$ Hu
  icases H with ⟨HH, HB, HR⟩
  imod (Rounds.fund EB (bRd f7) bCells bToks) $$ HB with ⟨Hst, #Hr, Hat, Htok⟩
  ihave Hsems := (sems_b (F := F)) $$ Hfree
  imod (invs_b f7) $$ [Hsems Hst] with ⟨%κ, #Hinv⟩
  · isplitl [Hsems] <;> iassumption
  ihave Hcred' := (creds_b f7 f8 f9 f10) $$ Hcred
  ihave Hinv' := (Entails.of_eq (bCells_eq (F := F) fun g => cellInv EB (bRd f7) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HR]; · iexact HR
  iapply (kits_deal f7 f8 f9 f10)
  isplitr
  · isplitl; · iexists κ; iexact Hinv'
    iexact Hr'
  isplitl [Hat']; · iexact Hat'
  isplitl [Htok']; · iexact Htok'
  iexact Hcred'

end Pay

end Cert.Proof.KernelIdealSc

end
-- ==== Proof.TcSideAlg.lean ====
/-
  The TensorCore pallas_call inside the SparseCore program: where the pipeline library's ghost state sits in the
  proof's resource algebra, and the call as @main spells it.

  The pipeline's staging cells (five DMA semaphores: two for the attribute blocks, one for the eighteen words, two for
  the score blocks) are cells of the rounds library with unnamed duties; their component of the algebra is embedded
  beside the handshakes', the barrier cells' and the transfers' counters. The launch element of that component funds,
  for the one TensorCore, the cells' launch state and the duty tokens of the pipeline's 16 + 1 + 16 transfers: what
  the region's entry allocates the cells' invariants from. The region's call in @main is the pipeline's entry label
  seen through the SparseCore program's label signature.
-/
import proofs.«215733_g63187558859118_cont_9to1_m_256_17_alg».proof.Proof.SetupIdeal
import proofs.«215733_g63187558859118_cont_9to1_m_256_17_alg».proof.Proof.Gen.KernelIdeal.Launch
import Idealize.ShloMosaic.Lib.Pipeline.Regions

noncomputable section

namespace Cert.Proof.KernelIdealTc

open Cert.KernelIdeal Cert.KernelIdeal.Gen Cert.Proof.KernelIdealSetup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline library's component of the algebra, embedded: the third of the four. -/
abbrev EP : Emb UP 𝕄 := (Emb.inl : Emb UP (UP × Counters)).trans ((Emb.inr : Emb (UP × Counters) (UB × (UP × Counters))).trans embR)

instance EP_landsIn : (EP (F := F)).LandsIn (upEmb : UEmb _ 𝕄) := by unfold EP embR; infer_instance

/-- The pipeline prefetches no table: its one admissible contents. -/
abbrev adm : (p : Fin 1) → (pcfgs (F := F) p).Adm := fun p => Pipeline.Cfg.toPCfg_adm (cfgs p)

theorem pin_eq (p : Fin 1) : Pipeline.pin (pcfgs (F := F)) adm p = cfg0 := rfl

/-- The staging cells are pairwise distinct. -/
theorem cellOf_inj' : Function.Injective (Pipeline.cellOf (nD := nD) (τ := τ) (Pipeline.pin (pcfgs (F := F)) adm)) := cellOf_inj

/-- What the TensorCore of `d` holds of the pipeline's ghost state between the launch and the region: the cells' launch
    state and the transfers' duty tokens. -/
abbrev GP (d : Dev nD) : sProp 𝕄 :=
  iprop(Pipeline.cellsGhost (Pipeline.pin (pcfgs (F := F)) adm) EP 0 d ∗ Pipeline.toksInit (Pipeline.pin (pcfgs (F := F)) adm) EP 0 d)

/-- The launch element of the pipeline library's component. -/
abbrev uP : UP := initOf (Pipeline.cells (Pipeline.pin (pcfgs (F := F)) adm) cellOf_inj') (Pipeline.launchToks (Pipeline.pin (pcfgs (F := F)) adm) cellOf_inj')

/-- Owning it funds every TensorCore's share. -/
theorem fundP : (BI.own ((EP (F := F)) (uP (F := F))) : sProp 𝕄) ⊢ iprop(|==> bigSep Finset.univ fun d : Dev nD => GP (F := F) d) := by
  refine (Pipeline.fund_ghost (Pipeline.pin (pcfgs (F := F)) adm) EP cellOf_inj').trans ?_
  have e1 : ∀ X : Fin 1 → sProp 𝕄, bigSep Finset.univ X = X 0 := fun X => by
    rw [show (Finset.univ : Finset (Fin 1)) = {0} from rfl, bigSep_singleton]
  simp only [e1]
  exact Idealize.SL.BI.Entails.refl _

/-- The region's call, as @main spells it, is the pipeline's entry call seen through the SparseCore program's labels. -/
theorem lift_call : (SparseCore.liftProg (Q := 1) (Prog.lift (.customCall (Pipeline.entry (0 : Fin 1)) ()) : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

end Cert.Proof.KernelIdealTc

end
-- ==== Proof.ScRunIdeal.lean ====
/-
  The program's run.

  From any launch memory whose semaphores read zero, every weakly fair execution of the kernel's thirty-five threads
  terminates, and in every final state the result array is the SparseCore call's result — at each pixel the table's
  entry at the pixel's component number times the pixel's input — laid out as 4096 × 4096, and the five argument
  arrays are as they were. This is the launch theorem of a SparseCore program, applied: its ingredients are a tile's
  obligation (from the proof of a tile's body), the split of a SparseCore's operands among its tiles, the proof of the
  entry function on the TensorCore (taken here as a hypothesis, stated the way the launch theorem wants it), the
  launch element of the ghost state — the barrier cells' part dealt to the tiles, the TensorCore call's part funded
  for the TensorCore —, and the reading of the final assertion off the final memory: an array held whole agrees with
  the memory at every index.
-/
import proofs.«215733_g63187558859118_cont_9to1_m_256_17_alg».proof.Proof.ScSplitIdeal
import proofs.«215733_g63187558859118_cont_9to1_m_256_17_alg».proof.Proof.ScElemIdeal
import proofs.«215733_g63187558859118_cont_9to1_m_256_17_alg».proof.Proof.TcSideAlg

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.KernelIdealTc (EP GP uP fundP)

variable [FloatOps F]

/-- A TensorCore buffer of device `d`, as a location. -/
abbrev locA (d : Dev nD) (b : Ref sig .tc) : Loc nD τ sig := (SparseCore.T d).loc b

section Run
variable (m : (ℓ : Loc nD τ sig) → Buf (Elt F) ℓ) (ρ : Dev nD → PrngReg)
variable (f7 : S1048576.Idx → Elt F .f32) (f8 : S16777216.Idx → Elt F .i32) (f9 : S16777216.Idx → Elt F .f32) (f10 : S16777216.Idx → Elt F .f32)

/-- The result: the SparseCore call's result array laid out as 4096 × 4096. -/
def resV : S4096x4096.Idx → Elt F .f32 := shapeCast S4096x4096 (outV f7 f8 f9) shapeCasts_S16777216_S4096x4096

/-- What the TensorCore ends holding: the result and the five arguments, whole. -/
abbrev FIN (d : Dev nD) : sProp 𝕄 :=
  iprop((locA d main_v11 ↦{fullShare} resV f7 f8 f9)
    ∗ (locA d main_arg0 ↦{fullShare} m (locA d main_arg0))
    ∗ (locA d main_arg1 ↦{fullShare} m (locA d main_arg1))
    ∗ (locA d main_arg2 ↦{fullShare} m (locA d main_arg2))
    ∗ (locA d main_arg3 ↦{fullShare} m (locA d main_arg3))
    ∗ (locA d main_arg4 ↦{fullShare} m (locA d main_arg4)))

/-- What that says of a final state. -/
def fq (d : Dev nD) (s' : Phys nD τ sig (Elt F)) : Prop :=
  s'.mem.mem (locA d main_v11) = resV f7 f8 f9
    ∧ s'.mem.mem (locA d main_arg0) = m (locA d main_arg0)
    ∧ s'.mem.mem (locA d main_arg1) = m (locA d main_arg1)
    ∧ s'.mem.mem (locA d main_arg2) = m (locA d main_arg2)
    ∧ s'.mem.mem (locA d main_arg3) = m (locA d main_arg3)
    ∧ s'.mem.mem (locA d main_arg4) = m (locA d main_arg4)

theorem hfin (d : Dev nD) (s' : Phys nD τ sig (Elt F)) : iprop(FIN m f7 f8 f9 d ∗ SI s') ⊢ (⌜fq m f7 f8 f9 d s'⌝ : sProp 𝕄) := by
  iintro ⟨⟨H11, H0, H1, H2, H3, H4⟩, HSI⟩
  icombine HSI H11 gives %h11
  icombine HSI H0 gives %h0
  icombine HSI H1 gives %h1
  icombine HSI H2 gives %h2
  icombine HSI H3 gives %h3
  icombine HSI H4 gives %h4
  ipureintro
  exact ⟨funext fun i => h11 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-- The claim of the run, of every device. -/
def QC : PUnit × MemSt nD τ sig (Elt F) → Prop := fun r => ∀ c : Dev nD,
  r.2.mem (locA c main_v11) = resV f7 f8 f9
    ∧ r.2.mem (locA c main_arg0) = m (locA c main_arg0)
    ∧ r.2.mem (locA c main_arg1) = m (locA c main_arg1)
    ∧ r.2.mem (locA c main_arg2) = m (locA c main_arg2)
    ∧ r.2.mem (locA c main_arg3) = m (locA c main_arg3)
    ∧ r.2.mem (locA c main_arg4) = m (locA c main_arg4)

/-- The launch element: the barrier cells' part dealt to the tiles, the TensorCore call's part funded. -/
theorem hu₀ : iprop(ownU (u₀ (F := F) (uP (F := F), 1)) ∗ (P f7 f8 f9 f10).oxCred ∗ (K (F := F)).freeSems0)
    ⊢ |={Set.univ}=> iprop(BI.own (EH (initOf (K (F := F)).hsCells (K (F := F)).hsToks)) ∗ (bigSep Finset.univ fun d : Dev nD => GP (F := F) d)
        ∗ (bigSep Finset.univ fun thr : Thread nD τ => bigSep Finset.univ fun q : Fin 1 => (P f7 f8 f9 f10).x q thr) : sProp 𝕄) := by
  iintro H
  imod (hu₀_sc f7 f8 f9 f10 (uP (F := F), 1)) $$ H with ⟨HH, HR, HX⟩
  ihave HR' := (show (BI.own (ER (F := F) (uP (F := F), 1)) : sProp 𝕄) ⊢ BI.own ((EP (F := F)) (uP (F := F))) from BI.Entails.refl _) $$ HR
  imod (fundP (F := F)) $$ HR' with HG
  imodintro
  isplitl [HH]; · iexact HH
  isplitl [HG]; · iexact HG
  iexact HX

/-- THE RUN, from the proof of a tile's body and of the entry function. -/
theorem run_main [∀ e, Nonempty (Elt F e)] (hidx : ∀ p, (f8 p : BitVec 32).toNat < 1048576) (htile : TileBody f7 f8 f9 f10)
    (hmainH : ∀ (κ : GSem nD τ sig → ℕ) (d : Dev nD),
      iprop((K (F := F)).ctx EH (P f7 f8 f9 f10) κ ∗ (K (F := F)).tcSt EH d 0 ∗ (K (F := F)).tcRes m ρ d ∗ GP (F := F) d)
        ⊢ wp frame (wpE ((K (F := F)).defs (D (F := F))) 𝒱 (SparseCore.T d) none) Set.univ (main d)
            fun _ => iprop((K (F := F)).tcSt EH d 1 ∗ FIN m f7 f8 f9 d)) :
    θ_run (Cert.KernelIdeal.defs (F := F)) (Cert.KernelIdeal.threads (F := F)) ⟨m, fun _ => 0, ρ⟩ (QC m f7 f8 f9) :=
  SparseCore.Cfg.θ_run_sc (K := K (F := F)) (D := D (F := F)) (𝒱 := 𝒱) (EH := EH) (P := P f7 f8 f9 f10) facts v₀
    (fun q hq => match q with | 0 => nomatch hq)
    (fun q _ => match q with | 0 => tileObl f7 f8 f9 f10 facts hidx htile)
    (fun q _ => match q with | 0 => vecSplit f7 f8 f9 f10)
    m ρ main (fun d => GP (F := F) d) (FIN m f7 f8 f9) (u₀ (F := F) (uP (F := F), 1)) (hu₀ f7 f8 f9 f10) hmainH
    (fq m f7 f8 f9) (hfin m f7 f8 f9) (QC m f7 f8 f9) (fun _ h => h)

end Run

end Cert.Proof.KernelIdealSc

end
-- ==== Proof.Spec.lean ====
/-
  The function both programs compute, stated once, index by index, over the extended reals.

  A component (a row of fifteen raw attributes: xmin, ymin, xmax, ymax, area, angle, the two principal extents, seven
  moments) is rescaled to seventeen features: the four box coordinates as they are, the logarithm of the area, the
  SIGNED LOGARITHM log(|x| + ε) · sign x of the nine columns from the sixth on, the shape ratio √(small extent) /
  (√(big extent) + ε), and the cosine and the sine of the angle. Its SCORE is the logistic function 1 / (1 + e^(-z)) of
  the affine form z = Σₖ featureₖ · weightₖ + bias. The result at a pixel is the pixel's input value times the score of
  the component the pixel belongs to.
-/
import Idealize.ShloMosaic.PureOps.Ideal
import Idealize.ShloMosaic.Lib.ValueIdx

noncomputable section

open scoped BigOperators

namespace Cert.Spec

open Idealize.ShloMosaic Idealize.ShloMosaic.ValueIdx

/-- ε: the small positive number added under a logarithm and to a denominator (the f32 nearest 1e-10). -/
def eps : EReal := Ideal.ofBits .f32 0x2EDBE6FF#32

/-- The number one, as the f32 word both programs write. -/
def one : EReal := Ideal.ofBits .f32 0x3F800000#32

/-- The signed logarithm: log(|x| + ε) · sign x, with |x| = max x (-x). -/
def slog (x : EReal) : EReal := Ideal.log (max x (-x) + eps) * Ideal.sign x

/-- The shape ratio √s / (√b + ε) of the small and the big principal extent. -/
def lshape (b s : EReal) : EReal := Ideal.div (Ideal.sqrt s) (Ideal.sqrt b + eps)

/-- The seventeen rescaled features of a component's fifteen raw attributes. -/
def feat (a : Fin 15 → EReal) : Fin 17 → EReal :=
  ![a 0, a 1, a 2, a 3, Ideal.log (a 4),
    slog (a 6), slog (a 7), slog (a 8), slog (a 9), slog (a 10), slog (a 11), slog (a 12), slog (a 13), slog (a 14),
    lshape (a 6) (a 7), Ideal.cos (a 5), Ideal.sin (a 5)]

/-- The affine form z = Σₖ featureₖ · weightₖ + bias. -/
def logit (a : Fin 15 → EReal) (w : Fin 17 → EReal) (b : EReal) : EReal := (∑ k : Fin 17, feat a k * w k) + b

/-- The logistic function of an extended real, written with the two programs' own operations: 1 / (1 + e^(-z)). -/
def sigm (z : EReal) : EReal := Ideal.div one (one + Ideal.exp (-z))

/-- A component's score. -/
def score (a : Fin 15 → EReal) (w : Fin 17 → EReal) (b : EReal) : EReal := sigm (logit a w b)

/-- Row `n` of the attribute table. -/
def row (attr : (⟨2, ![1000000, 15]⟩ : Shape).Idx → EReal) (n : Fin 1000000) : Fin 15 → EReal := fun k => attr (ix2 n k)

/-- The weight column as a vector of seventeen. -/
def wvec (w : (⟨2, ![17, 1]⟩ : Shape).Idx → EReal) : Fin 17 → EReal := fun k => w (ix2 k (0 : Fin 1))

/-- The score of component `n`. -/
def scoreAt (attr : (⟨2, ![1000000, 15]⟩ : Shape).Idx → EReal) (w : (⟨2, ![17, 1]⟩ : Shape).Idx → EReal)
    (b : (⟨1, ![1]⟩ : Shape).Idx → EReal) (n : Fin 1000000) : EReal :=
  score (row attr n) (wvec w) (b (ix1 (0 : Fin 1)))

/-- The result: at pixel `p` the input value times the score of the pixel's component, where the component's number
    (the 32-bit word read as a natural number) names a row of the table; zero elsewhere (nowhere, under the
    precondition that every component number lies in 0 … 999999). -/
def G (x : (⟨2, ![4096, 4096]⟩ : Shape).Idx → EReal) (attr : (⟨2, ![1000000, 15]⟩ : Shape).Idx → EReal)
    (cc : (⟨2, ![4096, 4096]⟩ : Shape).Idx → BitVec 32) (w : (⟨2, ![17, 1]⟩ : Shape).Idx → EReal)
    (b : (⟨1, ![1]⟩ : Shape).Idx → EReal) : (⟨2, ![4096, 4096]⟩ : Shape).Idx → EReal :=
  fun p => if h : (cc p).toNat < 1000000 then x p * scoreAt attr w b ⟨(cc p).toNat, h⟩ else 0

/-- Where the component number is in range the result is the product. -/
theorem G_of_lt (x : (⟨2, ![4096, 4096]⟩ : Shape).Idx → EReal) (attr : (⟨2, ![1000000, 15]⟩ : Shape).Idx → EReal)
    (cc : (⟨2, ![4096, 4096]⟩ : Shape).Idx → BitVec 32) (w : (⟨2, ![17, 1]⟩ : Shape).Idx → EReal)
    (b : (⟨1, ![1]⟩ : Shape).Idx → EReal) (p : (⟨2, ![4096, 4096]⟩ : Shape).Idx) (h : (cc p).toNat < 1000000) :
    G x attr cc w b p = x p * scoreAt attr w b ⟨(cc p).toNat, h⟩ := by
  unfold G; rw [dif_pos h]

end Cert.Spec

end
-- ==== Proof.ScorePrep.lean ====
/-
  What the host prepares for the score kernel, read at an index.

  The attribute table [1000000, 15] is padded below with 48576 rows of the word of one to [1048576, 15], transposed
  to [15, 1048576], and its long axis cut into 1024 rows of 1024: plane k, row R, lane l of the result is attribute k
  of table row 1024·R + l where that row exists, and the padding word elsewhere. The weight column [17, 1] is
  flattened and the bias appended: word k of the eighteen is weight k for k below seventeen and the bias at
  seventeen. The padding word stays the named word `Cert.Spec.one`; nothing here evaluates it.
-/
import proofs.«215733_g63187558859118_cont_9to1_m_256_17_alg».proof.Proof.Gen.KernelIdeal
import proofs.«215733_g63187558859118_cont_9to1_m_256_17_alg».proof.Proof.Spec
import Idealize.ShloMosaic.Lib.ValueIdx
import Idealize.ShloMosaic.Lib.Pipeline.Value

noncomputable section

namespace Cert.KernelIdeal.ScoreValue

open Idealize.ShloMosaic Idealize.ShloMosaic.ValueIdx Cert.KernelIdeal Cert.KernelIdeal.Gen

/-- The padded table: the attribute table with 48576 rows of the word of one below it. -/
def padded (attr : S1000000x15.Idx → EReal) : S1048576x15.Idx → EReal :=
  concatenate S1048576x15 0
    [⟨S1000000x15, attr⟩,
     ⟨S48576x15, broadcastInDim S48576x15 ![] bcast_S_S48576x15 (constant (F := Ideal) S_ .f32 0x3F800000#32)⟩]
    concatenates_S1000000x15_S48576x15_S1048576x15_d0

/-- The attribute planes the kernel is given: the padded table transposed, its long axis cut into 1024 rows of 1024. -/
def attrT (attr : S1000000x15.Idx → EReal) : S15x1024x1024.Idx → EReal :=
  shapeCast S15x1024x1024 (transpose S15x1048576 [1, 0] (padded attr) transposes_S1048576x15_S15x1048576_1_0)
    shapeCasts_S15x1048576_S15x1024x1024

/-- The eighteen words the kernel is given: the weight column flattened, then the bias. -/
def wb18 (w : S17x1.Idx → EReal) (b : S1.Idx → EReal) : S18.Idx → EReal :=
  concatenate S18 0 [⟨S17, shapeCast S17 w shapeCasts_S17x1_S17⟩, ⟨S1, b⟩] concatenates_S17_S1_S18_d0

/-- Row n of the padded table: the table's row where there is one, else the padding word. -/
theorem padded_apply (attr : S1000000x15.Idx → EReal) (n : Fin 1048576) (k : Fin 15) :
    padded attr (ix2 n k) = if h : n.val < 1000000 then attr (ix2 ⟨n.val, h⟩ k) else Cert.Spec.one := by
  unfold padded
  by_cases h : n.val < 1000000
  · rw [dif_pos h]
    exact concatenate_pair_apply_left (t := S1048576x15) (s₁ := S1000000x15) (s₂ := S48576x15) (0 : Fin 2) attr _ _ (ix2 n k) rfl (ix2 (⟨n.val, h⟩ : Fin 1000000) k)
      (fun b => match b with | ⟨0, _⟩ => rfl | ⟨1, _⟩ => rfl)
  · rw [dif_neg h]
    have hn : n.val - 1000000 < 48576 := by have := n.isLt; omega
    refine (concatenate_pair_apply_right (t := S1048576x15) (s₁ := S1000000x15) (s₂ := S48576x15) (0 : Fin 2) attr _ _ (ix2 n k) rfl rfl (ix2 (⟨n.val - 1000000, hn⟩ : Fin 48576) k)
      (fun b hb => by
        have h2 : b.val < 2 := b.isLt
        have h0 : ¬ b.val = 0 := fun e => hb (Fin.ext e)
        have h1 : b.val = 1 := by omega
        obtain rfl : b = ⟨1, by decide⟩ := Fin.ext h1
        rfl) ?_).trans ?_
    · show n.val - 1000000 + 1000000 = n.val
      omega
    · rfl

/-- Plane k, row R, lane l: attribute k of table row 1024·R + l where that row exists, the padding word elsewhere. -/
theorem attrT_apply (attr : S1000000x15.Idx → EReal) (k : Fin 15) (R l : Fin 1024) :
    attrT attr (ix3 k R l)
      = if h : R.val * 1024 + l.val < 1000000 then attr (ix2 ⟨R.val * 1024 + l.val, h⟩ k) else Cert.Spec.one := by
  have hn : R.val * 1024 + l.val < 1048576 := by have := R.isLt; have := l.isLt; omega
  unfold attrT
  refine (shapeCast_apply _ _ (ix3 k R l) (ix2 k (⟨R.val * 1024 + l.val, hn⟩ : Fin 1048576)) ?_).trans ?_
  · rw [Shape.rowMajor_val_two, Shape.rowMajor_val_three]
    show k.val * 1048576 + (R.val * 1024 + l.val) = (k.val * 1024 + R.val) * 1024 + l.val
    omega
  refine (transpose_apply [1, 0] _ _ (ix2 k (⟨R.val * 1024 + l.val, hn⟩ : Fin 1048576))
    (ix2 (⟨R.val * 1024 + l.val, hn⟩ : Fin 1048576) k) (fun b => match b with | ⟨0, _⟩ => rfl | ⟨1, _⟩ => rfl)).trans ?_
  exact padded_apply attr ⟨R.val * 1024 + l.val, hn⟩ k

/-- Word k of the eighteen: weight k below seventeen, the bias at seventeen. -/
theorem wb18_apply (w : S17x1.Idx → EReal) (b : S1.Idx → EReal) (k : Fin 18) :
    wb18 w b (ix1 k) = if h : k.val < 17 then w (ix2 ⟨k.val, h⟩ (0 : Fin 1)) else b (ix1 (0 : Fin 1)) := by
  unfold wb18
  by_cases h : k.val < 17
  · rw [dif_pos h]
    refine (concatenate_pair_apply_left (t := S18) (s₁ := S17) (s₂ := S1) (0 : Fin 1) _ b _ (ix1 k) rfl (ix1 (⟨k.val, h⟩ : Fin 17))
      (fun a => match a with | ⟨0, _⟩ => rfl)).trans ?_
    refine shapeCast_apply w _ (ix1 (⟨k.val, h⟩ : Fin 17)) (ix2 (⟨k.val, h⟩ : Fin 17) (0 : Fin 1)) ?_
    rw [Shape.rowMajor_val_two, Shape.rowMajor_val_one]
    show k.val * 1 + 0 = k.val
    omega
  · rw [dif_neg h]
    refine concatenate_pair_apply_right (t := S18) (s₁ := S17) (s₂ := S1) (0 : Fin 1) _ b _ (ix1 k) rfl rfl (ix1 (0 : Fin 1))
      (fun a ha => by
        have h1 : a.val < 1 := a.isLt
        have h0 : a.val = 0 := by omega
        exact absurd (Fin.ext h0) ha) ?_
    show 0 + 17 = k.val
    have := k.isLt
    omega

end Cert.KernelIdeal.ScoreValue

end
-- ==== Proof.ScoreTable.lean ====
/-
  The score table the kernel builds, as one function of the arguments.

  Entry n of the table of 1048576 scores is the score of padded row n: of the fifteen attributes that the prepared
  planes hold at row n / 1024, lane n % 1024, under the first seventeen of the eighteen prepared words as weights and
  the last as bias. For n below one million the planes hold table row n itself (1024 · (n / 1024) + n % 1024 = n), the
  seventeen words are the weight column and the last word is the bias, so the entry is the score of component n.
-/
import proofs.«215733_g63187558859118_cont_9to1_m_256_17_alg».proof.Proof.ScorePrep

noncomputable section

namespace Cert.KernelIdeal.ScoreValue

open Idealize.ShloMosaic Idealize.ShloMosaic.ValueIdx Cert.KernelIdeal Cert.KernelIdeal.Gen

/-- The score at row R, lane l of the [1024, 1024] table: of the attributes the prepared planes hold there, under the
    prepared words. -/
def rowScore (attr : S1000000x15.Idx → EReal) (w : S17x1.Idx → EReal) (b : S1.Idx → EReal) (R l : Fin 1024) : EReal :=
  Cert.Spec.score (fun k => attrT attr (ix3 k R l)) (fun k => wb18 w b (ix1 k.castSucc)) (wb18 w b (ix1 (Fin.last 17)))

/-- The flat table: entry n is the score at row n / 1024, lane n % 1024. -/
def table (attr : S1000000x15.Idx → EReal) (w : S17x1.Idx → EReal) (b : S1.Idx → EReal) : S1048576.Idx → EReal :=
  fun n =>
    have hn : (n 0).val < 1048576 := (n 0).isLt
    rowScore attr w b ⟨(n 0).val / 1024, by omega⟩ ⟨(n 0).val % 1024, by omega⟩

/-- The flat table at entry n, by coordinates. -/
theorem table_apply (attr : S1000000x15.Idx → EReal) (w : S17x1.Idx → EReal) (b : S1.Idx → EReal) (n : Fin 1048576) :
    table attr w b (ix1 n)
      = rowScore attr w b ⟨n.val / 1024, by have := n.isLt; omega⟩ ⟨n.val % 1024, by omega⟩ := rfl

/-- Row R, lane l of the [1024, 1024] table is entry 1024 · R + l of the flat one. -/
theorem rowScore_eq_table (attr : S1000000x15.Idx → EReal) (w : S17x1.Idx → EReal) (b : S1.Idx → EReal) (R l : Fin 1024) :
    rowScore attr w b R l
      = table attr w b (ix1 (⟨R.val * 1024 + l.val, by have := R.isLt; have := l.isLt; omega⟩ : Fin 1048576)) := by
  rw [table_apply]
  have hR : (R.val * 1024 + l.val) / 1024 = R.val := by have := l.isLt; omega
  have hl : (R.val * 1024 + l.val) % 1024 = l.val := by have := l.isLt; omega
  congr 1 <;> exact Fin.ext (by simp only [hR, hl])

/-- The first seventeen prepared words are the weight column. -/
theorem wb18_weights (w : S17x1.Idx → EReal) (b : S1.Idx → EReal) :
    (fun k : Fin 17 => wb18 w b (ix1 k.castSucc)) = Cert.Spec.wvec w := by
  funext k
  rw [wb18_apply, dif_pos (show (k.castSucc).val < 17 from k.isLt)]
  rfl

/-- The last prepared word is the bias. -/
theorem wb18_bias (w : S17x1.Idx → EReal) (b : S1.Idx → EReal) :
    wb18 w b (ix1 (Fin.last 17)) = b (ix1 (0 : Fin 1)) := by
  rw [wb18_apply, dif_neg (show ¬ (Fin.last 17).val < 17 from Nat.lt_irrefl 17)]

/-- Below one million the prepared planes hold the table's own row. -/
theorem attrT_row (attr : S1000000x15.Idx → EReal) (n : Fin 1048576) (h : n.val < 1000000) :
    (fun k : Fin 15 => attrT attr (ix3 k (⟨n.val / 1024, by have := n.isLt; omega⟩ : Fin 1024) (⟨n.val % 1024, by omega⟩ : Fin 1024)))
      = Cert.Spec.row attr ⟨n.val, h⟩ := by
  funext k
  have e : n.val / 1024 * 1024 + n.val % 1024 = n.val := by omega
  rw [attrT_apply, dif_pos (show n.val / 1024 * 1024 + n.val % 1024 < 1000000 by omega)]
  show attr (ix2 ⟨n.val / 1024 * 1024 + n.val % 1024, _⟩ k) = attr (ix2 ⟨n.val, h⟩ k)
  exact congrArg (fun m : Fin 1000000 => attr (ix2 m k)) (Fin.ext e)

/-- THE TABLE BELOW ONE MILLION: entry n is the score of component n. -/
theorem table_of_lt (attr : S1000000x15.Idx → EReal) (w : S17x1.Idx → EReal) (b : S1.Idx → EReal) (n : Fin 1048576)
    (h : n.val < 1000000) : table attr w b (ix1 n) = Cert.Spec.scoreAt attr w b ⟨n.val, h⟩ := by
  rw [table_apply]
  unfold rowScore Cert.Spec.scoreAt
  rw [attrT_row attr n h, wb18_weights, wb18_bias]

end Cert.KernelIdeal.ScoreValue

end
-- ==== Proof.RefRunA.lean ====
/-
  Every pixel's component number lies in 0 … 999999.

  The precondition says that a one-bit word, computed from the five argument arrays, is one. That word is a
  conjunction: four "every entry is finite" tests of the float arrays and, last, "every component number c satisfies
  0 ≤ c and c ≤ 999999", the two comparisons reading the 32-bit words as signed integers. A conjunction of one-bit
  words is one only if each of them is one, and a reduction by "and" over a whole array is one only if every entry is
  one; so at every pixel both comparisons hold. Only this last conjunct is used: nothing below needs the floats finite.
-/
import proofs.«215733_g63187558859118_cont_9to1_m_256_17_alg».proof.Proof.Gen.Pre_input_domain
import Idealize.ShloMosaic.Lib.ReduceAll
import Idealize.ShloMosaic.Lib.ValueIdx

namespace Cert.ReferenceIdeal.RefValue

open Idealize.ShloMosaic Idealize.ShloMosaic.ValueIdx

/-- Where the precondition's word is one, every component number, read signed, is between 0 and 999999. -/
theorem cc_range [Cert.Pre_input_domain.Facts] {F : FTy → Type} [FloatOps F]
    (x : FVec F Cert.Pre_input_domain.S4096x4096 .f32) (attr : FVec F Cert.Pre_input_domain.S1000000x15 .f32)
    (cc : IVec Cert.Pre_input_domain.S4096x4096 32) (w : FVec F Cert.Pre_input_domain.S17x1 .f32)
    (b : FVec F Cert.Pre_input_domain.S1 .f32)
    (h : Cert.Pre_input_domain.fn (F := F) x attr cc w b = fun _ => 1#1)
    (p : Cert.Pre_input_domain.S4096x4096.Idx) :
    0 ≤ (cc p).toInt ∧ (cc p).toInt ≤ 999999 := by
  haveI : Subsingleton Cert.Pre_input_domain.S_.Idx := ⟨fun a b => funext fun d => d.elim0⟩
  have h0 := congrFun h ix0
  dsimp only [Cert.Pre_input_domain.fn, Cert.Pre_input_domain.fn_part1] at h0
  -- the last conjunct: the reduction by "and" of the two comparisons over all pixels
  obtain ⟨-, h24⟩ := IntOp.andi_eq_one.1 h0
  have hp := Host.reduce_andi_all _ _ _ _ _ h24 p
  obtain ⟨hge, hle⟩ := IntOp.andi_eq_one.1 hp
  have hge' : (0#32 : BitVec 32).toInt ≤ (cc p).toInt := IntOp.cmpi_sge.1 hge
  have hle' : (cc p).toInt ≤ (999999#32 : BitVec 32).toInt := IntOp.cmpi_sle.1 hle
  rw [show (0#32 : BitVec 32).toInt = 0 from by decide] at hge'
  rw [show (999999#32 : BitVec 32).toInt = 999999 from by decide] at hle'
  exact ⟨hge', hle'⟩

end Cert.ReferenceIdeal.RefValue
-- ==== Proof.RefRunB.lean ====
/-
  The reference's vector of one million component scores, as a function of the attribute table, the weight column and
  the bias, and what it is at each component.

  The reference cuts columns out of the table (the four box coordinates; the area; the nine columns from the sixth on,
  twice; the two principal extents; the angle, twice), applies to each cut the elementwise function of its feature
  (identity; logarithm; log(|x| + ε) · sign x; √small / (√big + ε); cosine; sine), and lays the six pieces side by
  side as seventeen columns. Read at row n and column k, the concatenation is the piece that holds column k at the
  column's offset inside the piece, an elementwise function is the function of the element, and a cut at column
  offset o reads the table at column o + k: this gives the seventeen features of row n. The product with the weight
  column contracts the one axis of length seventeen, so at row n it is the sum over k of feature k times weight k;
  then the bias is added (broadcast from its one entry), and 1 / (1 + e^(-z)) is spelled with two copies of the
  number one. The last step only renames the index: row n of a one-column array is entry n of the vector.
-/
import proofs.«215733_g63187558859118_cont_9to1_m_256_17_alg».proof.ReferenceIdeal
import proofs.«215733_g63187558859118_cont_9to1_m_256_17_alg».proof.Proof.Spec
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Facts₀ Idealize.ShloMosaic Idealize.ShloMosaic.ValueIdx

variable [Cert.ReferenceIdeal.Facts]

/-! ## The stages, for any float values -/

section Stages
variable {F : FTy → Type} [FloatOps F]

/-- The four box coordinates: columns 0 … 3. -/
def boxV (a : FVec F S1000000x15 .f32) : FVec F S1000000x4 .f32 :=
  extractStridedSlice S1000000x4 ![0, 0] a slices_S1000000x15_S1000000x4_0_0

/-- The logarithm of the area (column 4). -/
def logAreaV (a : FVec F S1000000x15 .f32) : FVec F S1000000x1 .f32 :=
  Host.log (extractStridedSlice S1000000x1 ![0, 4] a slices_S1000000x15_S1000000x1_0_4)

/-- The signed logarithm of columns 6 … 14. -/
def slogV (a : FVec F S1000000x15 .f32) : FVec F S1000000x9 .f32 :=
  mulf
    (Host.log (addf (Host.absf (extractStridedSlice S1000000x9 ![0, 6] a slices_S1000000x15_S1000000x9_0_6))
      (broadcastInDim S1000000x9 ![] bcast_S_S1000000x9 (constant S_ .f32 0x2EDBE6FF#32))))
    (Host.sign (extractStridedSlice S1000000x9 ![0, 6] a slices_S1000000x15_S1000000x9_0_6))

/-- The shape ratio: √(column 7) / (√(column 6) + ε). -/
def lshapeV (a : FVec F S1000000x15 .f32) : FVec F S1000000x1 .f32 :=
  Host.divf (Host.sqrt (extractStridedSlice S1000000x1 ![0, 7] a slices_S1000000x15_S1000000x1_0_7))
    (addf (Host.sqrt (extractStridedSlice S1000000x1 ![0, 6] a slices_S1000000x15_S1000000x1_0_6))
      (broadcastInDim S1000000x1 ![] bcast_S_S1000000x1 (constant S_ .f32 0x2EDBE6FF#32)))

/-- The cosine of the angle (column 5). -/
def cosV (a : FVec F S1000000x15 .f32) : FVec F S1000000x1 .f32 :=
  Host.cos (extractStridedSlice S1000000x1 ![0, 5] a slices_S1000000x15_S1000000x1_0_5)

/-- The sine of the angle (column 5). -/
def sinV (a : FVec F S1000000x15 .f32) : FVec F S1000000x1 .f32 :=
  Host.sin (extractStridedSlice S1000000x1 ![0, 5] a slices_S1000000x15_S1000000x1_0_5)

/-- The six pieces, in the order the features are laid out: 4 + 1 + 9 + 1 + 1 + 1 columns. -/
def pieces (a : FVec F S1000000x15 .f32) : List ((s : Shape) × (s.Idx → F .f32)) :=
  [⟨S1000000x4, boxV a⟩, ⟨S1000000x1, logAreaV a⟩, ⟨S1000000x9, slogV a⟩, ⟨S1000000x1, lshapeV a⟩,
    ⟨S1000000x1, cosV a⟩, ⟨S1000000x1, sinV a⟩]

/-- The seventeen feature columns, side by side. -/
def featV (a : FVec F S1000000x15 .f32) : FVec F S1000000x17 .f32 :=
  concatenate S1000000x17 1 (pieces a) concatenates_S1000000x4_S1000000x1_S1000000x9_S1000000x1_S1000000x1_S1000000x1_S1000000x17_d1

/-- The affine form: features times the weight column, plus the bias broadcast down the rows. -/
def logitV (a : FVec F S1000000x15 .f32) (w : FVec F S17x1 .f32) (b : FVec F S1 .f32) : FVec F S1000000x1 .f32 :=
  addf (Host.dotGeneral dot_S1000000x17_S17x1_S1000000x1_1_0_0_1_n_n none (featV a) w)
    (broadcastInDim S1000000x1 ![0, 1] bcast_S1x1_S1000000x1_0_1 (broadcastInDim S1x1 ![1] bcast_S1_S1x1_1 b))

/-- The scores as a column: 1 / (1 + e^(-z)). -/
def sigmV (a : FVec F S1000000x15 .f32) (w : FVec F S17x1 .f32) (b : FVec F S1 .f32) : FVec F S1000000x1 .f32 :=
  Host.divf (broadcastInDim S1000000x1 ![] bcast_S_S1000000x1 (constant S_ .f32 0x3F800000#32))
    (addf (broadcastInDim S1000000x1 ![] bcast_S_S1000000x1 (constant S_ .f32 0x3F800000#32))
      (Host.exp (Host.negf (logitV a w b))))

/-- The scores as a vector of one million. -/
def scoreV (a : FVec F S1000000x15 .f32) (w : FVec F S17x1 .f32) (b : FVec F S1 .f32) : FVec F S1000000 .f32 :=
  shapeCast S1000000 (sigmV a w b) shapeCasts_S1000000x1_S1000000

end Stages

/-! ## Reading them at an index, at the extended reals -/

/-- A cut of `c` columns at column offset `off`, read at row `n` and column `k`: the table at column `off + k`. -/
theorem slice_col {α : Type} (c off : Nat) (h : S1000000x15.Slices ![0, off] (⟨2, ![1000000, c]⟩ : Shape))
    (a : S1000000x15.Idx → α) (n : Fin 1000000) (k : Fin c) (hlt : off + k.val < 15) :
    extractStridedSlice (⟨2, ![1000000, c]⟩ : Shape) ![0, off] a h (ix2 n k) = a (ix2 n ⟨off + k.val, hlt⟩) :=
  extractStridedSlice_apply _ a h _ _ fun ax => by
    match ax with
    | ⟨0, _⟩ => exact (Nat.zero_add _).symm
    | ⟨1, _⟩ => rfl

/-- The concatenation along the columns, read at row `n` and column `k`: piece number `piece`, of `c` columns,
    whose first column is column `pre` of the whole, read at its own column `k'` with `pre + k' = k`. -/
theorem concat_col {α : Type} (xs : List ((s : Shape) × (s.Idx → α)))
    (h : Shape.Concatenates (xs.map (·.1)) S1000000x17 1) (n : Fin 1000000) (k : Fin 17)
    (piece : Nat) (hk : piece < xs.length) (c : Nat) (x₁ : (⟨2, ![1000000, c]⟩ : Shape).Idx → α)
    (hxk : xs[piece] = ⟨(⟨2, ![1000000, c]⟩ : Shape), x₁⟩) (pre : Nat)
    (hpre : (((xs.take piece).map (·.1)).map fun s : Shape =>
      if h : s.rank = S1000000x17.rank then s.size ((1 : Fin S1000000x17.rank).cast h.symm) else 0).sum = pre)
    (k' : Fin c) (ha : pre + k'.val = k.val) :
    concatenate S1000000x17 1 xs h (ix2 n k) = x₁ (ix2 n k') :=
  concatenate_apply_piece 1 xs h (ix2 n k) piece hk _ x₁ hxk rfl pre hpre (ix2 n k')
    (fun b hb => by
      match b with
      | ⟨0, _⟩ => rfl
      | ⟨1, _⟩ => exact absurd rfl hb)
    ha

/-! ## The features of row `n` -/

section AtIdeal
variable (a : FVec Ideal S1000000x15 .f32) (n : Fin 1000000)

/-- The logarithm of the area at row `n`. -/
theorem logAreaV_apply : logAreaV a (ix2 n (0 : Fin 1)) = Ideal.log (a (ix2 n ⟨4 + 0, by decide⟩)) := by
  have hs := slice_col 1 4 slices_S1000000x15_S1000000x1_0_4 a n (0 : Fin 1) (by decide)
  show Ideal.log (extractStridedSlice S1000000x1 ![0, 4] a slices_S1000000x15_S1000000x1_0_4 (ix2 n (0 : Fin 1))) = _
  rw [hs]; rfl

/-- The signed logarithm of column `6 + k` at row `n`. -/
theorem slogV_apply (k : Fin 9) (hlt : 6 + k.val < 15) :
    slogV a (ix2 n k) = Spec.slog (a (ix2 n ⟨6 + k.val, hlt⟩)) := by
  have hs := slice_col 9 6 slices_S1000000x15_S1000000x9_0_6 a n k hlt
  show Spec.slog (extractStridedSlice S1000000x9 ![0, 6] a slices_S1000000x15_S1000000x9_0_6 (ix2 n k)) = _
  rw [hs]

/-- The shape ratio at row `n`. -/
theorem lshapeV_apply :
    lshapeV a (ix2 n (0 : Fin 1)) = Spec.lshape (a (ix2 n ⟨6 + 0, by decide⟩)) (a (ix2 n ⟨7 + 0, by decide⟩)) := by
  have h7 := slice_col 1 7 slices_S1000000x15_S1000000x1_0_7 a n (0 : Fin 1) (by decide)
  have h6 := slice_col 1 6 slices_S1000000x15_S1000000x1_0_6 a n (0 : Fin 1) (by decide)
  show Spec.lshape (extractStridedSlice S1000000x1 ![0, 6] a slices_S1000000x15_S1000000x1_0_6 (ix2 n (0 : Fin 1)))
    (extractStridedSlice S1000000x1 ![0, 7] a slices_S1000000x15_S1000000x1_0_7 (ix2 n (0 : Fin 1))) = _
  rw [h7, h6]; rfl

/-- The cosine of the angle at row `n`. -/
theorem cosV_apply : cosV a (ix2 n (0 : Fin 1)) = Ideal.cos (a (ix2 n ⟨5 + 0, by decide⟩)) := by
  have hs := slice_col 1 5 slices_S1000000x15_S1000000x1_0_5 a n (0 : Fin 1) (by decide)
  show Ideal.cos (extractStridedSlice S1000000x1 ![0, 5] a slices_S1000000x15_S1000000x1_0_5 (ix2 n (0 : Fin 1))) = _
  rw [hs]; rfl

/-- The sine of the angle at row `n`. -/
theorem sinV_apply : sinV a (ix2 n (0 : Fin 1)) = Ideal.sin (a (ix2 n ⟨5 + 0, by decide⟩)) := by
  have hs := slice_col 1 5 slices_S1000000x15_S1000000x1_0_5 a n (0 : Fin 1) (by decide)
  show Ideal.sin (extractStridedSlice S1000000x1 ![0, 5] a slices_S1000000x15_S1000000x1_0_5 (ix2 n (0 : Fin 1))) = _
  rw [hs]; rfl

/-- Columns 0 … 3 of the features: the box coordinates. -/
theorem feat_box (k' : Fin 4) (k : Fin 17) (hk : 0 + k'.val = k.val) (hlt : 0 + k'.val < 15) :
    featV a (ix2 n k) = a (ix2 n ⟨0 + k'.val, hlt⟩) :=
  (concat_col (pieces a) concatenates_S1000000x4_S1000000x1_S1000000x9_S1000000x1_S1000000x1_S1000000x1_S1000000x17_d1 n k 0 (by decide : (0 : Nat) < 6) 4 (boxV a) rfl 0 rfl k' hk).trans
    (slice_col 4 0 slices_S1000000x15_S1000000x4_0_0 a n k' hlt)

/-- Column 4: the logarithm of the area. -/
theorem feat_logArea (k : Fin 17) (hk : 4 + (0 : Fin 1).val = k.val) :
    featV a (ix2 n k) = Ideal.log (a (ix2 n ⟨4 + 0, by decide⟩)) :=
  (concat_col (pieces a) concatenates_S1000000x4_S1000000x1_S1000000x9_S1000000x1_S1000000x1_S1000000x1_S1000000x17_d1 n k 1 (by decide : (1 : Nat) < 6) 1 (logAreaV a) rfl 4 rfl (0 : Fin 1) hk).trans (logAreaV_apply a n)

/-- Columns 5 … 13: the signed logarithms of the table's columns 6 … 14. -/
theorem feat_slog (k' : Fin 9) (k : Fin 17) (hk : 5 + k'.val = k.val) (hlt : 6 + k'.val < 15) :
    featV a (ix2 n k) = Spec.slog (a (ix2 n ⟨6 + k'.val, hlt⟩)) :=
  (concat_col (pieces a) concatenates_S1000000x4_S1000000x1_S1000000x9_S1000000x1_S1000000x1_S1000000x1_S1000000x17_d1 n k 2 (by decide : (2 : Nat) < 6) 9 (slogV a) rfl 5 rfl k' hk).trans (slogV_apply a n k' hlt)

/-- Column 14: the shape ratio. -/
theorem feat_lshape (k : Fin 17) (hk : 14 + (0 : Fin 1).val = k.val) :
    featV a (ix2 n k) = Spec.lshape (a (ix2 n ⟨6 + 0, by decide⟩)) (a (ix2 n ⟨7 + 0, by decide⟩)) :=
  (concat_col (pieces a) concatenates_S1000000x4_S1000000x1_S1000000x9_S1000000x1_S1000000x1_S1000000x1_S1000000x17_d1 n k 3 (by decide : (3 : Nat) < 6) 1 (lshapeV a) rfl 14 rfl (0 : Fin 1) hk).trans (lshapeV_apply a n)

/-- Column 15: the cosine of the angle. -/
theorem feat_cos (k : Fin 17) (hk : 15 + (0 : Fin 1).val = k.val) :
    featV a (ix2 n k) = Ideal.cos (a (ix2 n ⟨5 + 0, by decide⟩)) :=
  (concat_col (pieces a) concatenates_S1000000x4_S1000000x1_S1000000x9_S1000000x1_S1000000x1_S1000000x1_S1000000x17_d1 n k 4 (by decide : (4 : Nat) < 6) 1 (cosV a) rfl 15 rfl (0 : Fin 1) hk).trans (cosV_apply a n)

/-- Column 16: the sine of the angle. -/
theorem feat_sin (k : Fin 17) (hk : 16 + (0 : Fin 1).val = k.val) :
    featV a (ix2 n k) = Ideal.sin (a (ix2 n ⟨5 + 0, by decide⟩)) :=
  (concat_col (pieces a) concatenates_S1000000x4_S1000000x1_S1000000x9_S1000000x1_S1000000x1_S1000000x1_S1000000x17_d1 n k 5 (by decide : (5 : Nat) < 6) 1 (sinV a) rfl 16 rfl (0 : Fin 1) hk).trans (sinV_apply a n)

/-- Row `n` of the feature columns is the specification's seventeen features of row `n` of the table. -/
theorem featV_apply (k : Fin 17) : featV a (ix2 n k) = Spec.feat (Spec.row a n) k := by
  match k with
  | ⟨0, _⟩ => exact (feat_box a n 0 _ rfl (by decide)).trans rfl
  | ⟨1, _⟩ => exact (feat_box a n 1 _ rfl (by decide)).trans rfl
  | ⟨2, _⟩ => exact (feat_box a n 2 _ rfl (by decide)).trans rfl
  | ⟨3, _⟩ => exact (feat_box a n 3 _ rfl (by decide)).trans rfl
  | ⟨4, _⟩ => exact (feat_logArea a n _ rfl).trans rfl
  | ⟨5, _⟩ => exact (feat_slog a n 0 _ rfl (by decide)).trans rfl
  | ⟨6, _⟩ => exact (feat_slog a n 1 _ rfl (by decide)).trans rfl
  | ⟨7, _⟩ => exact (feat_slog a n 2 _ rfl (by decide)).trans rfl
  | ⟨8, _⟩ => exact (feat_slog a n 3 _ rfl (by decide)).trans rfl
  | ⟨9, _⟩ => exact (feat_slog a n 4 _ rfl (by decide)).trans rfl
  | ⟨10, _⟩ => exact (feat_slog a n 5 _ rfl (by decide)).trans rfl
  | ⟨11, _⟩ => exact (feat_slog a n 6 _ rfl (by decide)).trans rfl
  | ⟨12, _⟩ => exact (feat_slog a n 7 _ rfl (by decide)).trans rfl
  | ⟨13, _⟩ => exact (feat_slog a n 8 _ rfl (by decide)).trans rfl
  | ⟨14, _⟩ => exact (feat_lshape a n _ rfl).trans rfl
  | ⟨15, _⟩ => exact (feat_cos a n _ rfl).trans rfl
  | ⟨16, _⟩ => exact (feat_sin a n _ rfl).trans rfl
  | ⟨k + 17, h⟩ => exact absurd h (by omega)

end AtIdeal

/-! ## The contraction, the bias, the logistic function, the reshape -/

/-- The product with the weight column at row `n`: the one contracted axis has length seventeen, so the sum runs over
    `k : Fin 17`, of row `n`, column `k` of the left factor times row `k` of the weight column. -/
theorem dot_apply (f : FVec Ideal S1000000x17 .f32) (w : FVec Ideal S17x1 .f32) (n : Fin 1000000) :
    Host.dotGeneral dot_S1000000x17_S17x1_S1000000x1_1_0_0_1_n_n none f w (ix2 n (0 : Fin 1))
      = ∑ k : Fin 17, f (ix2 n k) * w (ix2 k (0 : Fin 1)) := by
  show FloatOps.dotGeneral dot_S1000000x17_S17x1_S1000000x1_1_0_0_1_n_n none .single f w (ix2 n (0 : Fin 1)) = _
  rw [Ideal.dotGeneral_apply, ← Equiv.sum_comp (contrEquiv1 dot_S1000000x17_S17x1_S1000000x1_1_0_0_1_n_n 17 rfl rfl).symm]
  refine Finset.sum_congr rfl fun k _ => ?_
  have hl : (dot_S1000000x17_S17x1_S1000000x1_1_0_0_1_n_n).lhsIdx (ix2 n (0 : Fin 1)) ((contrEquiv1 dot_S1000000x17_S17x1_S1000000x1_1_0_0_1_n_n 17 rfl rfl).symm k) = ix2 n k := by
    funext ax; refine Fin.ext ?_
    match ax with
    | ⟨0, _⟩ => rfl
    | ⟨1, _⟩ =>
      exact ((dot_S1000000x17_S17x1_S1000000x1_1_0_0_1_n_n).lhsIdx_val_of_single (cl := (1 : Fin 2)) rfl _ _).trans
        (contrEquiv1_symm_val dot_S1000000x17_S17x1_S1000000x1_1_0_0_1_n_n 17 rfl rfl k)
  have hr : (dot_S1000000x17_S17x1_S1000000x1_1_0_0_1_n_n).rhsIdx (ix2 n (0 : Fin 1)) ((contrEquiv1 dot_S1000000x17_S17x1_S1000000x1_1_0_0_1_n_n 17 rfl rfl).symm k) = ix2 k (0 : Fin 1) := by
    funext ax; refine Fin.ext ?_
    match ax with
    | ⟨0, _⟩ =>
      exact ((dot_S1000000x17_S17x1_S1000000x1_1_0_0_1_n_n).rhsIdx_val_of_single (cr := (0 : Fin 2)) rfl _ _).trans
        (contrEquiv1_symm_val dot_S1000000x17_S17x1_S1000000x1_1_0_0_1_n_n 17 rfl rfl k)
    | ⟨1, _⟩ => rfl
  rw [hl, hr]

/-- The bias, broadcast first to one row and one column and then down the rows, reads its one entry everywhere. -/
theorem bias_apply {α : Type} (b : S1.Idx → α) (n : Fin 1000000) :
    broadcastInDim S1000000x1 ![0, 1] bcast_S1x1_S1000000x1_0_1 (broadcastInDim S1x1 ![1] bcast_S1_S1x1_1 b)
      (ix2 n (0 : Fin 1)) = b (ix1 (0 : Fin 1)) :=
  (broadcastInDim_apply ![0, 1] bcast_S1x1_S1000000x1_0_1 _ (ix2 n (0 : Fin 1)) (ix2 (0 : Fin 1) (0 : Fin 1)) fun ax => by
    match ax with
    | ⟨0, _⟩ => rfl
    | ⟨1, _⟩ => rfl).trans
  (broadcastInDim_apply ![1] bcast_S1_S1x1_1 b (ix2 (0 : Fin 1) (0 : Fin 1)) (ix1 (0 : Fin 1)) fun ax => by
    match ax with
    | ⟨0, _⟩ => rfl)

section Score
variable (a : FVec Ideal S1000000x15 .f32) (w : FVec Ideal S17x1 .f32) (b : FVec Ideal S1 .f32) (n : Fin 1000000)

/-- The affine form at row `n` is the specification's. -/
theorem logitV_apply :
    logitV a w b (ix2 n (0 : Fin 1)) = Spec.logit (Spec.row a n) (Spec.wvec w) (b (ix1 (0 : Fin 1))) := by
  show Host.dotGeneral dot_S1000000x17_S17x1_S1000000x1_1_0_0_1_n_n none (featV a) w (ix2 n (0 : Fin 1))
      + broadcastInDim S1000000x1 ![0, 1] bcast_S1x1_S1000000x1_0_1 (broadcastInDim S1x1 ![1] bcast_S1_S1x1_1 b)
          (ix2 n (0 : Fin 1)) = _
  rw [dot_apply, bias_apply]
  unfold Spec.logit
  refine congrArg (· + b (ix1 (0 : Fin 1))) (Finset.sum_congr rfl fun k _ => ?_)
  rw [featV_apply]; rfl

/-- The score column at row `n` is the logistic function of the affine form there. -/
theorem sigmV_apply : sigmV a w b (ix2 n (0 : Fin 1)) = Spec.sigm (logitV a w b (ix2 n (0 : Fin 1))) := rfl

/-- THE SCORE VECTOR AT `n`: the specification's score of component `n`. -/
theorem scoreV_apply : scoreV a w b (ix1 n) = Spec.scoreAt a w b n := by
  unfold scoreV
  rw [shapeCast_apply (sigmV a w b) shapeCasts_S1000000x1_S1000000 (ix1 n) (ix2 n (0 : Fin 1)) (by
    rw [Shape.rowMajor_val_two, Shape.rowMajor_val_one]
    show n.val * 1 + 0 = n.val
    omega)]
  rw [sigmV_apply, logitV_apply]
  rfl

end Score

end Cert.ReferenceIdeal.RefValue

end
-- ==== Proof.RefRunC.lean ====
/-
  The reference's `take`: the score vector read at each pixel's component number.

  jnp.take is lowered to a function of its own. It first wraps a negative index (an index below zero has the vector's
  length added); it then gathers — the gather reads the index as a signed integer and clamps it into 0 … 999999 — and
  last it masks: where the wrapped index is outside 0 … 999999 the result is a not-a-number constant instead of the
  gathered entry. When every component number c satisfies 0 ≤ c ≤ 999999 (read signed) none of this bites: the
  wrap's comparison fails, so the index is kept; the clamp is the identity on it; the signed value of a nonnegative
  word is its unsigned value; and the mask — a reduction by "and", over a last axis of length one, of the two range
  tests — is one, because a fold by "and" that starts at one and meets only ones ends at one. So the result at a
  pixel is the vector's entry at the pixel's component number.
-/
import proofs.«215733_g63187558859118_cont_9to1_m_256_17_alg».proof.ReferenceIdeal
import Idealize.ShloMosaic.Lib.Pipeline.Value
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Facts₀ Idealize.ShloMosaic Idealize.ShloMosaic.ValueIdx

variable [Cert.ReferenceIdeal.Facts]

/-! ## The stages -/

/-- The index with a negative one wrapped: where `c < 0`, `c + 1000000`; else `c`. -/
def wrapV (cc : IVec S4096x4096 32) : IVec S4096x4096 32 :=
  select (cmpi .slt cc (broadcastInDim S4096x4096 ![] bcast_S_S4096x4096 (constantI S_ 32 0#32)))
    (addi cc (broadcastInDim S4096x4096 ![] bcast_S_S4096x4096 (constantI S_ 32 1000000#32))) cc

/-- The wrapped indices with a trailing axis of length one: the gather's start indices. -/
def wrap3V (cc : IVec S4096x4096 32) : IVec S4096x4096x1 32 :=
  broadcastInDim S4096x4096x1 ![0, 1] bcast_S4096x4096_S4096x4096x1_0_1 (wrapV cc)

/-- The mask: at each pixel, whether the wrapped index lies in 0 … 999999. -/
def inRangeV (cc : IVec S4096x4096 32) : IVec S4096x4096 1 :=
  Host.reduce IntOp.andi
    (andi
      (cmpi .sge (wrap3V cc) (broadcastInDim S4096x4096x1 ![] bcast_S_S4096x4096x1 (constantI S_ 32 0#32)))
      (cmpi .sle (wrap3V cc)
        (broadcastInDim S4096x4096x1 ![0, 1, 2] bcast_S1x1x1_S4096x4096x1_0_1_2
          (broadcastInDim S1x1x1 ![2] bcast_S1_S1x1x1_2 (constantI S1 32 999999#32)))))
    (constantI S_ 1 1#1) reducesTo_S4096x4096x1_S4096x4096_d2 h_S_

/-- The whole function: the gathered entries where the mask is one, the not-a-number constant elsewhere. -/
def takeV {F : FTy → Type} [FloatOps F] (s : FVec F S1000000 .f32) (cc : IVec S4096x4096 32) : FVec F S4096x4096 .f32 :=
  select (inRangeV cc) (Host.gather gather_S1000000_S4096x4096x1_S4096x4096_n_0_n_n_0_2_1 s (wrap3V cc))
    (broadcastInDim S4096x4096 ![] bcast_S_S4096x4096 (constant S_ .f32 0x7FC00000#32))

/-! ## Words -/

/-- A fold by "and" from one over one-bit words that are all one is one. -/
theorem foldl_andi_one {ι : Type} (f : ι → BitVec 1) :
    ∀ l : List ι, (∀ i ∈ l, f i = 1#1) → l.foldl (fun r i => IntOp.andi r (f i)) 1#1 = 1#1
  | [], _ => rfl
  | i :: l, h => by
    rw [List.foldl_cons, h i List.mem_cons_self, show IntOp.andi 1#1 1#1 = 1#1 from by decide]
    exact foldl_andi_one f l fun j hj => h j (List.mem_cons_of_mem _ hj)

/-- A 32-bit word whose signed value lies in 0 … 999999: clamping that value into 0 … 999999 gives the word's
    unsigned value, which is below one million. -/
theorem toNat_of_range (x : BitVec 32) (h0 : 0 ≤ x.toInt) (h1 : x.toInt ≤ 999999) :
    min x.toInt.toNat (1000000 - 1) = x.toNat ∧ x.toNat < 1000000 := by
  have hx := x.isLt
  have hc := BitVec.toInt_eq_toNat_cond x
  split at hc <;> omega

/-! ## At a pixel -/

-- the reduction and the gather are folds and searches over millions of elements: no step below looks inside them
attribute [local irreducible] Host.reduce Host.gather

section AtPixel
variable (cc : IVec S4096x4096 32)

/-- A nonnegative index is not wrapped. -/
theorem wrapV_apply (p : S4096x4096.Idx) (h0 : 0 ≤ (cc p).toInt) : wrapV cc p = cc p := by
  have hc : IntOp.cmpi .slt (cc p) 0#32 = 0#1 := eq_zero_of_ne_one fun h => by
    have hlt := IntOp.cmpi_slt.1 h
    rw [show (0#32 : BitVec 32).toInt = 0 from by decide] at hlt
    omega
  show Scalar.select (IntOp.cmpi .slt (cc p) 0#32) (IntOp.addi (cc p) 1000000#32) (cc p) = cc p
  rw [hc, select_zero]

variable (hall : ∀ p : S4096x4096.Idx, 0 ≤ (cc p).toInt ∧ (cc p).toInt ≤ 999999)
include hall

/-- Every start index is some pixel's component number, hence in range. -/
theorem wrap3V_range (i : S4096x4096x1.Idx) : 0 ≤ (wrap3V cc i).toInt ∧ (wrap3V cc i).toInt ≤ 999999 := by
  obtain ⟨q, hq⟩ : ∃ q, wrap3V cc i = cc q := ⟨_, wrapV_apply cc _ (hall _).1⟩
  rw [hq]; exact hall q

/-- The start index of pixel `p` is `p`'s component number. -/
theorem wrap3V_take (p : S4096x4096.Idx) : wrap3V cc (takeIdx p) = cc p := by
  have e : wrap3V cc (takeIdx p) = wrapV cc p := by
    unfold wrap3V broadcastInDim
    refine congrArg (wrapV cc) (funext fun ax => Fin.ext ?_)
    match ax with
    | ⟨0, _⟩ => rfl
    | ⟨1, _⟩ => rfl
  rw [e]; exact wrapV_apply cc p (hall p).1

/-- The mask is one at every pixel. -/
theorem inRangeV_eq_one (p : S4096x4096.Idx) : inRangeV cc p = 1#1 := by
  unfold inRangeV
  rw [Host.reduce_eq_foldl]
  refine foldl_andi_one _ _ fun i _ => ?_
  obtain ⟨h0, h1⟩ := wrap3V_range cc hall i
  show IntOp.andi (IntOp.cmpi .sge (wrap3V cc i) 0#32) (IntOp.cmpi .sle (wrap3V cc i) 999999#32) = 1#1
  refine IntOp.andi_eq_one.2 ⟨IntOp.cmpi_sge.2 ?_, IntOp.cmpi_sle.2 ?_⟩
  · rw [show (0#32 : BitVec 32).toInt = 0 from by decide]; exact h0
  · rw [show (999999#32 : BitVec 32).toInt = 999999 from by decide]; exact h1

/-- THE TAKE AT A PIXEL: the vector's entry at the pixel's component number. -/
theorem takeV_apply {F : FTy → Type} [FloatOps F] (s : FVec F S1000000 .f32) (p : S4096x4096.Idx)
    (hlt : (cc p).toNat < 1000000) : takeV s cc p = s (ix1 ⟨(cc p).toNat, hlt⟩) := by
  show Scalar.select (inRangeV cc p) (Host.gather gather_S1000000_S4096x4096x1_S4096x4096_n_0_n_n_0_2_1 s (wrap3V cc) p) _ = _
  rw [inRangeV_eq_one cc hall p, select_one]
  refine (gather_take_apply (N := 1000000) (R := 4096) (C := 4096) (by decide) gather_S1000000_S4096x4096x1_S4096x4096_n_0_n_n_0_2_1_wf s (wrap3V cc) p).trans ?_
  refine congrArg s (congrArg ix1 (Fin.ext ?_))
  show min (wrap3V cc (takeIdx p)).toInt.toNat (1000000 - 1) = (cc p).toNat
  rw [wrap3V_take cc hall p]
  exact (toNat_of_range (cc p) (hall p).1 (hall p).2).1

end AtPixel

end Cert.ReferenceIdeal.RefValue

end
-- ==== Proof.RefRunD.lean ====
/-
  The reference as a straight line of operations.

  Its entry function is thirty-eight operations that build the score vector, a call of the function jnp.take is
  lowered to (twenty-one operations of its own around a call of a one-operation select function), and the final
  product. A call means its callee's body run on the operands, each value of the body in a buffer of its own: with the
  two bodies substituted at their call sites the program is one line of sixty-one operations, written here as three
  consecutive stretches — the scores, the take, the product. A straight line of operations over buffers none of which
  is scoped runs to its end from any memory, and leaves every buffer at the fold of the operations' results over the
  contents at the start.
-/
import proofs.«215733_g63187558859118_cont_9to1_m_256_17_alg».proof.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable [Cert.ReferenceIdeal.Facts] {F : FTy → Type} [FloatOps F]

/-- The take's first operand: the score vector. -/
abbrev take_arg0 : StableHlo.TRef sig ⟨S1000000, .f32⟩ := .of main_v33
/-- The take's second operand: the component numbers. -/
abbrev take_arg1 : StableHlo.TRef sig ⟨S4096x4096, .i32⟩ := .of main_arg2

/-- The thirty-eight operations that build the score vector. -/
abbrev opsA : List (HloOp τ sig (Elt F)) :=
  [ StableHlo.unary main_arg1 main_v0 ((extractStridedSlice S1000000x1 ![0, 7] · slices_S1000000x15_S1000000x1_0_7) : (⟨S1000000x15, .f32⟩ : BufTy).Contents (Elt F) → (⟨S1000000x1, .f32⟩ : BufTy).Contents (Elt F)),
    StableHlo.unary main_v0 main_v1 (Host.sqrt : (⟨S1000000x1, .f32⟩ : BufTy).Contents (Elt F) → (⟨S1000000x1, .f32⟩ : BufTy).Contents (Elt F)),
    StableHlo.unary main_arg1 main_v2 ((extractStridedSlice S1000000x1 ![0, 6] · slices_S1000000x15_S1000000x1_0_6) : (⟨S1000000x15, .f32⟩ : BufTy).Contents (Elt F) → (⟨S1000000x1, .f32⟩ : BufTy).Contents (Elt F)),
    StableHlo.unary main_v2 main_v3 (Host.sqrt : (⟨S1000000x1, .f32⟩ : BufTy).Contents (Elt F) → (⟨S1000000x1, .f32⟩ : BufTy).Contents (Elt F)),
    StableHlo.nullary main_cst (constant S_ .f32 0x2EDBE6FF#32),
    StableHlo.unary main_cst main_v4 (broadcastInDim S1000000x1 ![] bcast_S_S1000000x1 : (⟨S_, .f32⟩ : BufTy).Contents (Elt F) → (⟨S1000000x1, .f32⟩ : BufTy).Contents (Elt F)),
    StableHlo.binary main_v3 main_v4 main_v5 (addf : (⟨S1000000x1, .f32⟩ : BufTy).Contents (Elt F) → (⟨S1000000x1, .f32⟩ : BufTy).Contents (Elt F) → (⟨S1000000x1, .f32⟩ : BufTy).Contents (Elt F)),
    StableHlo.binary main_v1 main_v5 main_v6 (Host.divf : (⟨S1000000x1, .f32⟩ : BufTy).Contents (Elt F) → (⟨S1000000x1, .f32⟩ : BufTy).Contents (Elt F) → (⟨S1000000x1, .f32⟩ : BufTy).Contents (Elt F)),
    StableHlo.unary main_arg1 main_v7 ((extractStridedSlice S1000000x1 ![0, 5] · slices_S1000000x15_S1000000x1_0_5) : (⟨S1000000x15, .f32⟩ : BufTy).Contents (Elt F) → (⟨S1000000x1, .f32⟩ : BufTy).Contents (Elt F)),
    StableHlo.unary main_v7 main_v8 (Host.cos : (⟨S1000000x1, .f32⟩ : BufTy).Contents (Elt F) → (⟨S1000000x1, .f32⟩ : BufTy).Contents (Elt F)),
    StableHlo.unary main_arg1 main_v9 ((extractStridedSlice S1000000x1 ![0, 5] · slices_S1000000x15_S1000000x1_0_5) : (⟨S1000000x15, .f32⟩ : BufTy).Contents (Elt F) → (⟨S1000000x1, .f32⟩ : BufTy).Contents (Elt F)),
    StableHlo.unary main_v9 main_v10 (Host.sin : (⟨S1000000x1, .f32⟩ : BufTy).Contents (Elt F) → (⟨S1000000x1, .f32⟩ : BufTy).Contents (Elt F)),
    StableHlo.unary main_arg1 main_v11 ((extractStridedSlice S1000000x1 ![0, 4] · slices_S1000000x15_S1000000x1_0_4) : (⟨S1000000x15, .f32⟩ : BufTy).Contents (Elt F) → (⟨S1000000x1, .f32⟩ : BufTy).Contents (Elt F)),
    StableHlo.unary main_v11 main_v12 (Host.log : (⟨S1000000x1, .f32⟩ : BufTy).Contents (Elt F) → (⟨S1000000x1, .f32⟩ : BufTy).Contents (Elt F)),
    StableHlo.unary main_arg1 main_v13 ((extractStridedSlice S1000000x9 ![0, 6] · slices_S1000000x15_S1000000x9_0_6) : (⟨S1000000x15, .f32⟩ : BufTy).Contents (Elt F) → (⟨S1000000x9, .f32⟩ : BufTy).Contents (Elt F)),
    StableHlo.unary main_v13 main_v14 (Host.absf : (⟨S1000000x9, .f32⟩ : BufTy).Contents (Elt F) → (⟨S1000000x9, .f32⟩ : BufTy).Contents (Elt F)),
    StableHlo.nullary main_cst_0 (constant S_ .f32 0x2EDBE6FF#32),
    StableHlo.unary main_cst_0 main_v15 (broadcastInDim S1000000x9 ![] bcast_S_S1000000x9 : (⟨S_, .f32⟩ : BufTy).Contents (Elt F) → (⟨S1000000x9, .f32⟩ : BufTy).Contents (Elt F)),
    StableHlo.binary main_v14 main_v15 main_v16 (addf : (⟨S1000000x9, .f32⟩ : BufTy).Contents (Elt F) → (⟨S1000000x9, .f32⟩ : BufTy).Contents (Elt F) → (⟨S1000000x9, .f32⟩ : BufTy).Contents (Elt F)),
    StableHlo.unary main_v16 main_v17 (Host.log : (⟨S1000000x9, .f32⟩ : BufTy).Contents (Elt F) → (⟨S1000000x9, .f32⟩ : BufTy).Contents (Elt F)),
    StableHlo.unary main_arg1 main_v18 ((extractStridedSlice S1000000x9 ![0, 6] · slices_S1000000x15_S1000000x9_0_6) : (⟨S1000000x15, .f32⟩ : BufTy).Contents (Elt F) → (⟨S1000000x9, .f32⟩ : BufTy).Contents (Elt F)),
    StableHlo.unary main_v18 main_v19 (Host.sign : (⟨S1000000x9, .f32⟩ : BufTy).Contents (Elt F) → (⟨S1000000x9, .f32⟩ : BufTy).Contents (Elt F)),
    StableHlo.binary main_v17 main_v19 main_v20 (mulf : (⟨S1000000x9, .f32⟩ : BufTy).Contents (Elt F) → (⟨S1000000x9, .f32⟩ : BufTy).Contents (Elt F) → (⟨S1000000x9, .f32⟩ : BufTy).Contents (Elt F)),
    StableHlo.unary main_arg1 main_v21 ((extractStridedSlice S1000000x4 ![0, 0] · slices_S1000000x15_S1000000x4_0_0) : (⟨S1000000x15, .f32⟩ : BufTy).Contents (Elt F) → (⟨S1000000x4, .f32⟩ : BufTy).Contents (Elt F)),
    StableHlo.nary ![main_v21, main_v12, main_v20, main_v6, main_v8, main_v10] main_v22 (fun u => concatenate S1000000x17 1 [⟨S1000000x4, u 0⟩, ⟨S1000000x1, u 1⟩, ⟨S1000000x9, u 2⟩, ⟨S1000000x1, u 3⟩, ⟨S1000000x1, u 4⟩, ⟨S1000000x1, u 5⟩] concatenates_S1000000x4_S1000000x1_S1000000x9_S1000000x1_S1000000x1_S1000000x1_S1000000x17_d1),
    StableHlo.binary main_v22 main_arg3 main_v23 ((fun l r => Host.dotGeneral dot_S1000000x17_S17x1_S1000000x1_1_0_0_1_n_n none l r) : (⟨S1000000x17, .f32⟩ : BufTy).Contents (Elt F) → (⟨S17x1, .f32⟩ : BufTy).Contents (Elt F) → (⟨S1000000x1, .f32⟩ : BufTy).Contents (Elt F)),
    StableHlo.unary main_arg4 main_v24 (broadcastInDim S1x1 ![1] bcast_S1_S1x1_1 : (⟨S1, .f32⟩ : BufTy).Contents (Elt F) → (⟨S1x1, .f32⟩ : BufTy).Contents (Elt F)),
    StableHlo.unary main_v24 main_v25 (broadcastInDim S1000000x1 ![0, 1] bcast_S1x1_S1000000x1_0_1 : (⟨S1x1, .f32⟩ : BufTy).Contents (Elt F) → (⟨S1000000x1, .f32⟩ : BufTy).Contents (Elt F)),
    StableHlo.binary main_v23 main_v25 main_v26 (addf : (⟨S1000000x1, .f32⟩ : BufTy).Contents (Elt F) → (⟨S1000000x1, .f32⟩ : BufTy).Contents (Elt F) → (⟨S1000000x1, .f32⟩ : BufTy).Contents (Elt F)),
    StableHlo.unary main_v26 main_v27 (Host.negf : (⟨S1000000x1, .f32⟩ : BufTy).Contents (Elt F) → (⟨S1000000x1, .f32⟩ : BufTy).Contents (Elt F)),
    StableHlo.unary main_v27 main_v28 (Host.exp : (⟨S1000000x1, .f32⟩ : BufTy).Contents (Elt F) → (⟨S1000000x1, .f32⟩ : BufTy).Contents (Elt F)),
    StableHlo.nullary main_cst_1 (constant S_ .f32 0x3F800000#32),
    StableHlo.unary main_cst_1 main_v29 (broadcastInDim S1000000x1 ![] bcast_S_S1000000x1 : (⟨S_, .f32⟩ : BufTy).Contents (Elt F) → (⟨S1000000x1, .f32⟩ : BufTy).Contents (Elt F)),
    StableHlo.binary main_v29 main_v28 main_v30 (addf : (⟨S1000000x1, .f32⟩ : BufTy).Contents (Elt F) → (⟨S1000000x1, .f32⟩ : BufTy).Contents (Elt F) → (⟨S1000000x1, .f32⟩ : BufTy).Contents (Elt F)),
    StableHlo.nullary main_cst_2 (constant S_ .f32 0x3F800000#32),
    StableHlo.unary main_cst_2 main_v31 (broadcastInDim S1000000x1 ![] bcast_S_S1000000x1 : (⟨S_, .f32⟩ : BufTy).Contents (Elt F) → (⟨S1000000x1, .f32⟩ : BufTy).Contents (Elt F)),
    StableHlo.binary main_v31 main_v30 main_v32 (Host.divf : (⟨S1000000x1, .f32⟩ : BufTy).Contents (Elt F) → (⟨S1000000x1, .f32⟩ : BufTy).Contents (Elt F) → (⟨S1000000x1, .f32⟩ : BufTy).Contents (Elt F)),
    StableHlo.reshape main_v32 main_v33 rfl shapeCasts_S1000000x1_S1000000 ]

/-- The take: its own twenty-one operations and, seventh, the select of the function it calls. -/
abbrev opsB : List (HloOp τ sig (Elt F)) :=
  [ StableHlo.TRef.nullary main_call0.c (constantI S_ 32 0#32),
    StableHlo.TRef.unary main_call0.c main_call0.v0 (broadcastInDim S4096x4096 ![] bcast_S_S4096x4096),
    StableHlo.TRef.binary take_arg1 main_call0.v0 main_call0.v1 (cmpi .slt),
    StableHlo.TRef.nullary main_call0.c_0 (constantI S_ 32 1000000#32),
    StableHlo.TRef.unary main_call0.c_0 main_call0.v2 (broadcastInDim S4096x4096 ![] bcast_S_S4096x4096),
    StableHlo.TRef.binary take_arg1 main_call0.v2 main_call0.v3 addi,
    StableHlo.TRef.ternary main_call0.v1 main_call0.v3 take_arg1 main_call0.call0.v0 select,
    StableHlo.TRef.unary main_call0.call0.v0 main_call0.v5 (broadcastInDim S4096x4096x1 ![0, 1] bcast_S4096x4096_S4096x4096x1_0_1),
    StableHlo.TRef.nullary main_call0.c_1 (constantI S1 32 999999#32),
    StableHlo.TRef.nullary main_call0.c_2 (constantI S_ 32 0#32),
    StableHlo.TRef.unary main_call0.c_2 main_call0.v6 (broadcastInDim S4096x4096x1 ![] bcast_S_S4096x4096x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x4096x1 ![0, 1, 2] bcast_S1x1x1_S4096x4096x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x4096x1_S4096x4096_d2 h_S_),
    StableHlo.TRef.binary take_arg0 main_call0.v5 main_call0.v13 (fun x i => Host.gather gather_S1000000_S4096x4096x1_S4096x4096_n_0_n_n_0_2_1 x i),
    StableHlo.TRef.nullary main_call0.cst (constant S_ .f32 0x7FC00000#32),
    StableHlo.TRef.unary main_call0.cst main_call0.v14 (broadcastInDim S4096x4096 ![] bcast_S_S4096x4096),
    StableHlo.TRef.ternary main_call0.v12 main_call0.v13 main_call0.v14 main_call0.v15 select ]

/-- The product of the input with the taken scores. -/
abbrev opC : HloOp τ sig (Elt F) :=
  StableHlo.binary main_arg0 main_v34 main_v35 (mulf : (⟨S4096x4096, .f32⟩ : BufTy).Contents (Elt F) → (⟨S4096x4096, .f32⟩ : BufTy).Contents (Elt F) → (⟨S4096x4096, .f32⟩ : BufTy).Contents (Elt F))

/-- The whole line. -/
abbrev ops : List (HloOp τ sig (Elt F)) := opsA ++ (opsB ++ [opC])

-- sixty-one binds re-associated, one rewrite under the chain per statement
set_option maxRecDepth 4096 in
/-- The entry function is that line: the two callees' bodies unfolded at their calls, sequencing re-associated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., unary_bufs_sub .., unary_bufs_sub .., unary_bufs_sub .., nullary_bufs_sub .., unary_bufs_sub ..,
    binary_bufs_sub .., binary_bufs_sub .., unary_bufs_sub .., unary_bufs_sub .., unary_bufs_sub .., unary_bufs_sub ..,
    unary_bufs_sub .., unary_bufs_sub .., unary_bufs_sub .., unary_bufs_sub .., nullary_bufs_sub .., unary_bufs_sub ..,
    binary_bufs_sub .., unary_bufs_sub .., unary_bufs_sub .., unary_bufs_sub .., binary_bufs_sub .., unary_bufs_sub ..,
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., reshape_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- Every operation of the line names TensorCore buffers only. -/
theorem ops_sub : (ops : List (HloOp τ sig (Elt F))).Forall fun op => op.bufs ⊆ tcRefs τ sig :=
  List.forall_iff_forall_mem.2 fun op h => by
    rcases List.mem_append.1 h with h | h
    · exact List.forall_iff_forall_mem.1 opsA_sub op h
    · rcases List.mem_append.1 h with h | h
      · exact List.forall_iff_forall_mem.1 opsB_sub op h
      · cases List.mem_singleton.1 h
        exact binary_bufs_sub ..

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := fun op h => by
  rcases List.mem_append.1 h with h | h
  · exact opsA_fresh op h
  · rcases List.mem_append.1 h with h | h
    · exact opsB_fresh op h
    · cases List.mem_singleton.1 h
      rfl

/-- The fold of two stretches is the fold of the second over the fold of the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- From any memory with zero counters every weakly fair execution of the entry function terminates, and every
    final state has each buffer at the fold of the three stretches over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after [opC] (after opsB (after opsA (launchContents m c))) (Proc.devRef .tc b) :=
  (θ_run defs _ _).mono (fun _ h c b => (h c b).trans (by rw [after_append, after_append]))
    (run_seq scopedRefs_eq scopedSems_eq defs main (fun _ => ops) main_eq (fun _ => ops_sub) m ρ (fun _ => ops_fresh))

end Cert.ReferenceIdeal.RefValue

end
-- ==== Proof.RefRunE.lean ====
/-
  The first stretch's fold: after the thirty-eight operations that build the scores, the score buffer holds the score
  vector as the pure function of the attribute table, the weight column and the bias, and no argument buffer has
  been written. The stretch is cut at the concatenation. Before it, each of the six pieces is left in its buffer as
  its own function of the table. From it on, the concatenation comes first, so its six operands are read from the
  incoming contents; its result is stated with each operand's contents at the operand's own buffer.
-/
import proofs.«215733_g63187558859118_cont_9to1_m_256_17_alg».proof.Proof.RefRunB
import proofs.«215733_g63187558859118_cont_9to1_m_256_17_alg».proof.Proof.RefRunC
import proofs.«215733_g63187558859118_cont_9to1_m_256_17_alg».proof.Proof.RefRunD

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo Idealize.ShloMosaic.ValueIdx

/-! ## An operation of six operands -/

section Six
variable {τ : Topo} {sig : RefSig} {Val : EltTy → Type} {x0 x1 x2 x3 x4 x5 y : Ref sig .tc}

/-- The result of an operation over a literal family of six buffers, each operand's contents at its own buffer
    (so that the operands' own results can be read in turn). -/
theorem nary6_result
    (f : ((k : Fin 6) → ((![x0, x1, x2, x3, x4, x5] : Fin 6 → Ref sig .tc) k).ty.Contents Val) → y.ty.Contents Val)
    (hxs hy) (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

theorem nary6_result'
    (f : ((k : Fin 6) → ((![x0, x1, x2, x3, x4, x5] : Fin 6 → Ref sig .tc) k).ty.Contents Val) → y.ty.Contents Val)
    (hxs hy) (V : Valuation τ sig Val) :
    (nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) :=
  nary6_result f hxs hy V

end Six

variable [Cert.ReferenceIdeal.Facts] {F : FTy → Type} [FloatOps F]

/-- The operations before the concatenation: the six pieces. -/
abbrev opsA1 : List (HloOp τ sig (Elt F)) :=
  [ StableHlo.unary main_arg1 main_v0 ((extractStridedSlice S1000000x1 ![0, 7] · slices_S1000000x15_S1000000x1_0_7) : (⟨S1000000x15, .f32⟩ : BufTy).Contents (Elt F) → (⟨S1000000x1, .f32⟩ : BufTy).Contents (Elt F)),
    StableHlo.unary main_v0 main_v1 (Host.sqrt : (⟨S1000000x1, .f32⟩ : BufTy).Contents (Elt F) → (⟨S1000000x1, .f32⟩ : BufTy).Contents (Elt F)),
    StableHlo.unary main_arg1 main_v2 ((extractStridedSlice S1000000x1 ![0, 6] · slices_S1000000x15_S1000000x1_0_6) : (⟨S1000000x15, .f32⟩ : BufTy).Contents (Elt F) → (⟨S1000000x1, .f32⟩ : BufTy).Contents (Elt F)),
    StableHlo.unary main_v2 main_v3 (Host.sqrt : (⟨S1000000x1, .f32⟩ : BufTy).Contents (Elt F) → (⟨S1000000x1, .f32⟩ : BufTy).Contents (Elt F)),
    StableHlo.nullary main_cst (constant S_ .f32 0x2EDBE6FF#32),
    StableHlo.unary main_cst main_v4 (broadcastInDim S1000000x1 ![] bcast_S_S1000000x1 : (⟨S_, .f32⟩ : BufTy).Contents (Elt F) → (⟨S1000000x1, .f32⟩ : BufTy).Contents (Elt F)),
    StableHlo.binary main_v3 main_v4 main_v5 (addf : (⟨S1000000x1, .f32⟩ : BufTy).Contents (Elt F) → (⟨S1000000x1, .f32⟩ : BufTy).Contents (Elt F) → (⟨S1000000x1, .f32⟩ : BufTy).Contents (Elt F)),
    StableHlo.binary main_v1 main_v5 main_v6 (Host.divf : (⟨S1000000x1, .f32⟩ : BufTy).Contents (Elt F) → (⟨S1000000x1, .f32⟩ : BufTy).Contents (Elt F) → (⟨S1000000x1, .f32⟩ : BufTy).Contents (Elt F)),
    StableHlo.unary main_arg1 main_v7 ((extractStridedSlice S1000000x1 ![0, 5] · slices_S1000000x15_S1000000x1_0_5) : (⟨S1000000x15, .f32⟩ : BufTy).Contents (Elt F) → (⟨S1000000x1, .f32⟩ : BufTy).Contents (Elt F)),
    StableHlo.unary main_v7 main_v8 (Host.cos : (⟨S1000000x1, .f32⟩ : BufTy).Contents (Elt F) → (⟨S1000000x1, .f32⟩ : BufTy).Contents (Elt F)),
    StableHlo.unary main_arg1 main_v9 ((extractStridedSlice S1000000x1 ![0, 5] · slices_S1000000x15_S1000000x1_0_5) : (⟨S1000000x15, .f32⟩ : BufTy).Contents (Elt F) → (⟨S1000000x1, .f32⟩ : BufTy).Contents (Elt F)),
    StableHlo.unary main_v9 main_v10 (Host.sin : (⟨S1000000x1, .f32⟩ : BufTy).Contents (Elt F) → (⟨S1000000x1, .f32⟩ : BufTy).Contents (Elt F)),
    StableHlo.unary main_arg1 main_v11 ((extractStridedSlice S1000000x1 ![0, 4] · slices_S1000000x15_S1000000x1_0_4) : (⟨S1000000x15, .f32⟩ : BufTy).Contents (Elt F) → (⟨S1000000x1, .f32⟩ : BufTy).Contents (Elt F)),
    StableHlo.unary main_v11 main_v12 (Host.log : (⟨S1000000x1, .f32⟩ : BufTy).Contents (Elt F) → (⟨S1000000x1, .f32⟩ : BufTy).Contents (Elt F)),
    StableHlo.unary main_arg1 main_v13 ((extractStridedSlice S1000000x9 ![0, 6] · slices_S1000000x15_S1000000x9_0_6) : (⟨S1000000x15, .f32⟩ : BufTy).Contents (Elt F) → (⟨S1000000x9, .f32⟩ : BufTy).Contents (Elt F)),
    StableHlo.unary main_v13 main_v14 (Host.absf : (⟨S1000000x9, .f32⟩ : BufTy).Contents (Elt F) → (⟨S1000000x9, .f32⟩ : BufTy).Contents (Elt F)),
    StableHlo.nullary main_cst_0 (constant S_ .f32 0x2EDBE6FF#32),
    StableHlo.unary main_cst_0 main_v15 (broadcastInDim S1000000x9 ![] bcast_S_S1000000x9 : (⟨S_, .f32⟩ : BufTy).Contents (Elt F) → (⟨S1000000x9, .f32⟩ : BufTy).Contents (Elt F)),
    StableHlo.binary main_v14 main_v15 main_v16 (addf : (⟨S1000000x9, .f32⟩ : BufTy).Contents (Elt F) → (⟨S1000000x9, .f32⟩ : BufTy).Contents (Elt F) → (⟨S1000000x9, .f32⟩ : BufTy).Contents (Elt F)),
    StableHlo.unary main_v16 main_v17 (Host.log : (⟨S1000000x9, .f32⟩ : BufTy).Contents (Elt F) → (⟨S1000000x9, .f32⟩ : BufTy).Contents (Elt F)),
    StableHlo.unary main_arg1 main_v18 ((extractStridedSlice S1000000x9 ![0, 6] · slices_S1000000x15_S1000000x9_0_6) : (⟨S1000000x15, .f32⟩ : BufTy).Contents (Elt F) → (⟨S1000000x9, .f32⟩ : BufTy).Contents (Elt F)),
    StableHlo.unary main_v18 main_v19 (Host.sign : (⟨S1000000x9, .f32⟩ : BufTy).Contents (Elt F) → (⟨S1000000x9, .f32⟩ : BufTy).Contents (Elt F)),
    StableHlo.binary main_v17 main_v19 main_v20 (mulf : (⟨S1000000x9, .f32⟩ : BufTy).Contents (Elt F) → (⟨S1000000x9, .f32⟩ : BufTy).Contents (Elt F) → (⟨S1000000x9, .f32⟩ : BufTy).Contents (Elt F)),
    StableHlo.unary main_arg1 main_v21 ((extractStridedSlice S1000000x4 ![0, 0] · slices_S1000000x15_S1000000x4_0_0) : (⟨S1000000x15, .f32⟩ : BufTy).Contents (Elt F) → (⟨S1000000x4, .f32⟩ : BufTy).Contents (Elt F)) ]

/-- The concatenation and what follows it: the product with the weights, the bias, the logistic function, the
    reshape. -/
abbrev opsA2 : List (HloOp τ sig (Elt F)) :=
  [ StableHlo.nary ![main_v21, main_v12, main_v20, main_v6, main_v8, main_v10] main_v22 (fun u => concatenate S1000000x17 1 [⟨S1000000x4, u 0⟩, ⟨S1000000x1, u 1⟩, ⟨S1000000x9, u 2⟩, ⟨S1000000x1, u 3⟩, ⟨S1000000x1, u 4⟩, ⟨S1000000x1, u 5⟩] concatenates_S1000000x4_S1000000x1_S1000000x9_S1000000x1_S1000000x1_S1000000x1_S1000000x17_d1),
    StableHlo.binary main_v22 main_arg3 main_v23 ((fun l r => Host.dotGeneral dot_S1000000x17_S17x1_S1000000x1_1_0_0_1_n_n none l r) : (⟨S1000000x17, .f32⟩ : BufTy).Contents (Elt F) → (⟨S17x1, .f32⟩ : BufTy).Contents (Elt F) → (⟨S1000000x1, .f32⟩ : BufTy).Contents (Elt F)),
    StableHlo.unary main_arg4 main_v24 (broadcastInDim S1x1 ![1] bcast_S1_S1x1_1 : (⟨S1, .f32⟩ : BufTy).Contents (Elt F) → (⟨S1x1, .f32⟩ : BufTy).Contents (Elt F)),
    StableHlo.unary main_v24 main_v25 (broadcastInDim S1000000x1 ![0, 1] bcast_S1x1_S1000000x1_0_1 : (⟨S1x1, .f32⟩ : BufTy).Contents (Elt F) → (⟨S1000000x1, .f32⟩ : BufTy).Contents (Elt F)),
    StableHlo.binary main_v23 main_v25 main_v26 (addf : (⟨S1000000x1, .f32⟩ : BufTy).Contents (Elt F) → (⟨S1000000x1, .f32⟩ : BufTy).Contents (Elt F) → (⟨S1000000x1, .f32⟩ : BufTy).Contents (Elt F)),
    StableHlo.unary main_v26 main_v27 (Host.negf : (⟨S1000000x1, .f32⟩ : BufTy).Contents (Elt F) → (⟨S1000000x1, .f32⟩ : BufTy).Contents (Elt F)),
    StableHlo.unary main_v27 main_v28 (Host.exp : (⟨S1000000x1, .f32⟩ : BufTy).Contents (Elt F) → (⟨S1000000x1, .f32⟩ : BufTy).Contents (Elt F)),
    StableHlo.nullary main_cst_1 (constant S_ .f32 0x3F800000#32),
    StableHlo.unary main_cst_1 main_v29 (broadcastInDim S1000000x1 ![] bcast_S_S1000000x1 : (⟨S_, .f32⟩ : BufTy).Contents (Elt F) → (⟨S1000000x1, .f32⟩ : BufTy).Contents (Elt F)),
    StableHlo.binary main_v29 main_v28 main_v30 (addf : (⟨S1000000x1, .f32⟩ : BufTy).Contents (Elt F) → (⟨S1000000x1, .f32⟩ : BufTy).Contents (Elt F) → (⟨S1000000x1, .f32⟩ : BufTy).Contents (Elt F)),
    StableHlo.nullary main_cst_2 (constant S_ .f32 0x3F800000#32),
    StableHlo.unary main_cst_2 main_v31 (broadcastInDim S1000000x1 ![] bcast_S_S1000000x1 : (⟨S_, .f32⟩ : BufTy).Contents (Elt F) → (⟨S1000000x1, .f32⟩ : BufTy).Contents (Elt F)),
    StableHlo.binary main_v31 main_v30 main_v32 (Host.divf : (⟨S1000000x1, .f32⟩ : BufTy).Contents (Elt F) → (⟨S1000000x1, .f32⟩ : BufTy).Contents (Elt F) → (⟨S1000000x1, .f32⟩ : BufTy).Contents (Elt F)),
    StableHlo.reshape main_v32 main_v33 rfl shapeCasts_S1000000x1_S1000000 ]

theorem opsA_split : (opsA : List (HloOp τ sig (Elt F))) = opsA1 ++ opsA2 := rfl

/-! ## Before the concatenation -/

/-- The box coordinates' buffer. -/
theorem afterA1_v21 (V : Valuation τ sig (Elt F)) :
    after opsA1 V (Proc.devRef .tc main_v21) = boxV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

/-- The logarithm of the area's buffer. -/
theorem afterA1_v12 (V : Valuation τ sig (Elt F)) :
    after opsA1 V (Proc.devRef .tc main_v12) = logAreaV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

/-- The signed logarithms' buffer. -/
theorem afterA1_v20 (V : Valuation τ sig (Elt F)) :
    after opsA1 V (Proc.devRef .tc main_v20) = slogV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

/-- The shape ratio's buffer. -/
theorem afterA1_v6 (V : Valuation τ sig (Elt F)) :
    after opsA1 V (Proc.devRef .tc main_v6) = lshapeV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

/-- The cosine's buffer. -/
theorem afterA1_v8 (V : Valuation τ sig (Elt F)) :
    after opsA1 V (Proc.devRef .tc main_v8) = cosV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

/-- The sine's buffer. -/
theorem afterA1_v10 (V : Valuation τ sig (Elt F)) :
    after opsA1 V (Proc.devRef .tc main_v10) = sinV (V (Proc.devRef .tc main_arg1)) := by
  simp (disch := decide) only [after_cons, after_nil, nullary_result', unary_result', binary_result', ternary_result', reshape_result',
    nullary_result_ne', unary_result_ne', binary_result_ne', ternary_result_ne', reshape_result_ne', nary_result_ne']
  rfl

theorem afterA1_arg3 (V : Valuation τ sig (Elt F)) :
    after opsA1 V (Proc.devRef .tc main_arg3) = V (Proc.devRef .tc main_arg3) := by
  simp (disch := decide) only [after_cons, after_nil, nullary_result', unary_result', binary_result', ternary_result', reshape_result',
    nullary_result_ne', unary_result_ne', binary_result_ne', ternary_result_ne', reshape_result_ne', nary_result_ne']

theorem afterA1_arg4 (V : Valuation τ sig (Elt F)) :
    after opsA1 V (Proc.devRef .tc main_arg4) = V (Proc.devRef .tc main_arg4) := by
  simp (disch := decide) only [after_cons, after_nil, nullary_result', unary_result', binary_result', ternary_result', reshape_result',
    nullary_result_ne', unary_result_ne', binary_result_ne', ternary_result_ne', reshape_result_ne', nary_result_ne']

/-! ## From the concatenation on -/

/-- The scores from the seventeen feature columns, the weight column and the bias. -/
def scoreOf (f : FVec F S1000000x17 .f32) (w : FVec F S17x1 .f32) (b : FVec F S1 .f32) : FVec F S1000000 .f32 :=
  shapeCast S1000000
    (Host.divf (broadcastInDim S1000000x1 ![] bcast_S_S1000000x1 (constant S_ .f32 0x3F800000#32))
      (addf (broadcastInDim S1000000x1 ![] bcast_S_S1000000x1 (constant S_ .f32 0x3F800000#32))
        (Host.exp (Host.negf
          (addf (Host.dotGeneral dot_S1000000x17_S17x1_S1000000x1_1_0_0_1_n_n none f w)
            (broadcastInDim S1000000x1 ![0, 1] bcast_S1x1_S1000000x1_0_1
              (broadcastInDim S1x1 ![1] bcast_S1_S1x1_1 b)))))))
    shapeCasts_S1000000x1_S1000000

/-- The score vector is the scores of the feature columns. -/
theorem scoreV_eq (a : FVec F S1000000x15 .f32) (w : FVec F S17x1 .f32) (b : FVec F S1 .f32) :
    scoreV a w b = scoreOf (featV a) w b := rfl

/-- After the second part the score buffer holds the scores of the six incoming pieces laid side by side. -/
theorem afterA2_v33 (V : Valuation τ sig (Elt F)) :
    after opsA2 V (Proc.devRef .tc main_v33)
      = scoreOf
          (concatenate S1000000x17 1
            [⟨S1000000x4, (V (Proc.devRef .tc main_v21) : FVec F S1000000x4 .f32)⟩,
              ⟨S1000000x1, (V (Proc.devRef .tc main_v12) : FVec F S1000000x1 .f32)⟩,
              ⟨S1000000x9, (V (Proc.devRef .tc main_v20) : FVec F S1000000x9 .f32)⟩,
              ⟨S1000000x1, (V (Proc.devRef .tc main_v6) : FVec F S1000000x1 .f32)⟩,
              ⟨S1000000x1, (V (Proc.devRef .tc main_v8) : FVec F S1000000x1 .f32)⟩,
              ⟨S1000000x1, (V (Proc.devRef .tc main_v10) : FVec F S1000000x1 .f32)⟩]
            concatenates_S1000000x4_S1000000x1_S1000000x9_S1000000x1_S1000000x1_S1000000x1_S1000000x17_d1)
          (V (Proc.devRef .tc main_arg3)) (V (Proc.devRef .tc main_arg4)) := by
  simp (disch := decide) only [after_cons, after_nil, nullary_result', unary_result', binary_result', ternary_result', reshape_result',
    nary6_result', nullary_result_ne', unary_result_ne', binary_result_ne', ternary_result_ne', reshape_result_ne', nary_result_ne']
  rfl

/-! ## The whole stretch -/

/-- After the first stretch the score buffer holds the score vector of the table, the weights and the bias. -/
theorem afterA_v33 (V : Valuation τ sig (Elt F)) :
    after opsA V (Proc.devRef .tc main_v33)
      = scoreV (V (Proc.devRef .tc main_arg1)) (V (Proc.devRef .tc main_arg3)) (V (Proc.devRef .tc main_arg4)) := by
  rw [opsA_split, after_append, afterA2_v33, afterA1_v21, afterA1_v12, afterA1_v20, afterA1_v6, afterA1_v8, afterA1_v10,
    afterA1_arg3, afterA1_arg4, scoreV_eq]
  rfl

theorem afterA_arg0 (V : Valuation τ sig (Elt F)) :
    after opsA V (Proc.devRef .tc main_arg0) = V (Proc.devRef .tc main_arg0) := by
  simp (disch := decide) only [after_cons, after_nil, nullary_result', unary_result', binary_result', ternary_result', reshape_result',
    nullary_result_ne', unary_result_ne', binary_result_ne', ternary_result_ne', reshape_result_ne', nary_result_ne']

theorem afterA_arg1 (V : Valuation τ sig (Elt F)) :
    after opsA V (Proc.devRef .tc main_arg1) = V (Proc.devRef .tc main_arg1) := by
  simp (disch := decide) only [after_cons, after_nil, nullary_result', unary_result', binary_result', ternary_result', reshape_result',
    nullary_result_ne', unary_result_ne', binary_result_ne', ternary_result_ne', reshape_result_ne', nary_result_ne']

theorem afterA_arg2 (V : Valuation τ sig (Elt F)) :
    after opsA V (Proc.devRef .tc main_arg2) = V (Proc.devRef .tc main_arg2) := by
  simp (disch := decide) only [after_cons, after_nil, nullary_result', unary_result', binary_result', ternary_result', reshape_result',
    nullary_result_ne', unary_result_ne', binary_result_ne', ternary_result_ne', reshape_result_ne', nary_result_ne']

theorem afterA_arg3 (V : Valuation τ sig (Elt F)) :
    after opsA V (Proc.devRef .tc main_arg3) = V (Proc.devRef .tc main_arg3) := by
  simp (disch := decide) only [after_cons, after_nil, nullary_result', unary_result', binary_result', ternary_result', reshape_result',
    nullary_result_ne', unary_result_ne', binary_result_ne', ternary_result_ne', reshape_result_ne', nary_result_ne']

theorem afterA_arg4 (V : Valuation τ sig (Elt F)) :
    after opsA V (Proc.devRef .tc main_arg4) = V (Proc.devRef .tc main_arg4) := by
  simp (disch := decide) only [after_cons, after_nil, nullary_result', unary_result', binary_result', ternary_result', reshape_result',
    nullary_result_ne', unary_result_ne', binary_result_ne', ternary_result_ne', reshape_result_ne', nary_result_ne']

end Cert.ReferenceIdeal.RefValue

end
-- ==== Proof.RefRunF.lean ====
/-
  The second and third stretches' folds: after the take its result buffer holds the take of the score buffer at the
  component numbers, after the product the result buffer holds the input times the taken scores, and neither writes
  an argument buffer.
-/
import proofs.«215733_g63187558859118_cont_9to1_m_256_17_alg».proof.Proof.RefRunB
import proofs.«215733_g63187558859118_cont_9to1_m_256_17_alg».proof.Proof.RefRunC
import proofs.«215733_g63187558859118_cont_9to1_m_256_17_alg».proof.Proof.RefRunD

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo Idealize.ShloMosaic.ValueIdx

variable [Cert.ReferenceIdeal.Facts] {F : FTy → Type} [FloatOps F]

-- the reduction and the gather are folds and searches over millions of elements: no step below looks inside them
attribute [local irreducible] Host.reduce Host.gather

/-- A value moved to a buffer's own type and back is the value. -/
theorem ofBuf_toBuf {sig : RefSig} {T : BufTy} {Val : EltTy → Type} (x : TRef sig T) (v : T.Contents Val) :
    x.ofBuf (x.toBuf v) = v := by
  unfold TRef.ofBuf TRef.toBuf
  rw [cast_cast, cast_eq]

/-- At the take's own buffers the move between a value's type and its buffer's is the identity: the score vector
    read … -/
theorem ofBuf_take_arg0 (v : (Proc.devRef (τ := τ) .tc main_v33).ty.Contents (Elt F)) : take_arg0.ofBuf v = v := rfl
/-- … the component numbers read … -/
theorem ofBuf_take_arg1 (v : (Proc.devRef (τ := τ) .tc main_arg2).ty.Contents (Elt F)) : take_arg1.ofBuf v = v := rfl
/-- … and the result written. -/
theorem toBuf_take_result (v : (⟨S4096x4096, .f32⟩ : BufTy).Contents (Elt F)) : main_call0.v15.toBuf v = v := rfl

/-- After the take its result buffer holds the take of the score buffer at the component numbers. -/
theorem afterB_v34 (V : Valuation τ sig (Elt F)) :
    after opsB V (Proc.devRef .tc main_v34) = takeV (V (Proc.devRef .tc main_v33)) (V (Proc.devRef .tc main_arg2)) := by
  simp (disch := decide) only [after_cons, after_nil, nullary_result', unary_result', binary_result', ternary_result', reshape_result',
    nullary_result_ne', unary_result_ne', binary_result_ne', ternary_result_ne', reshape_result_ne', nary_result_ne']
  simp only [ofBuf_toBuf, ofBuf_take_arg0, ofBuf_take_arg1]
  unfold takeV inRangeV wrap3V wrapV
  exact toBuf_take_result _

theorem afterB_arg0 (V : Valuation τ sig (Elt F)) :
    after opsB V (Proc.devRef .tc main_arg0) = V (Proc.devRef .tc main_arg0) := by
  simp (disch := decide) only [after_cons, after_nil, nullary_result', unary_result', binary_result', ternary_result', reshape_result',
    nullary_result_ne', unary_result_ne', binary_result_ne', ternary_result_ne', reshape_result_ne', nary_result_ne']

theorem afterB_arg1 (V : Valuation τ sig (Elt F)) :
    after opsB V (Proc.devRef .tc main_arg1) = V (Proc.devRef .tc main_arg1) := by
  simp (disch := decide) only [after_cons, after_nil, nullary_result', unary_result', binary_result', ternary_result', reshape_result',
    nullary_result_ne', unary_result_ne', binary_result_ne', ternary_result_ne', reshape_result_ne', nary_result_ne']

theorem afterB_arg2 (V : Valuation τ sig (Elt F)) :
    after opsB V (Proc.devRef .tc main_arg2) = V (Proc.devRef .tc main_arg2) := by
  simp (disch := decide) only [after_cons, after_nil, nullary_result', unary_result', binary_result', ternary_result', reshape_result',
    nullary_result_ne', unary_result_ne', binary_result_ne', ternary_result_ne', reshape_result_ne', nary_result_ne']

theorem afterB_arg3 (V : Valuation τ sig (Elt F)) :
    after opsB V (Proc.devRef .tc main_arg3) = V (Proc.devRef .tc main_arg3) := by
  simp (disch := decide) only [after_cons, after_nil, nullary_result', unary_result', binary_result', ternary_result', reshape_result',
    nullary_result_ne', unary_result_ne', binary_result_ne', ternary_result_ne', reshape_result_ne', nary_result_ne']

theorem afterB_arg4 (V : Valuation τ sig (Elt F)) :
    after opsB V (Proc.devRef .tc main_arg4) = V (Proc.devRef .tc main_arg4) := by
  simp (disch := decide) only [after_cons, after_nil, nullary_result', unary_result', binary_result', ternary_result', reshape_result',
    nullary_result_ne', unary_result_ne', binary_result_ne', ternary_result_ne', reshape_result_ne', nary_result_ne']

/-- After the product the result buffer holds the input times the taken scores. -/
theorem afterC_v35 (V : Valuation τ sig (Elt F)) :
    after [opC] V (Proc.devRef .tc main_v35) = mulf (V (Proc.devRef .tc main_arg0)) (V (Proc.devRef .tc main_v34)) := by
  simp (disch := decide) only [after_cons, after_nil, nullary_result', unary_result', binary_result', ternary_result', reshape_result',
    nullary_result_ne', unary_result_ne', binary_result_ne', ternary_result_ne', reshape_result_ne', nary_result_ne']

theorem afterC_arg0 (V : Valuation τ sig (Elt F)) :
    after [opC] V (Proc.devRef .tc main_arg0) = V (Proc.devRef .tc main_arg0) := by
  simp (disch := decide) only [after_cons, after_nil, nullary_result', unary_result', binary_result', ternary_result', reshape_result',
    nullary_result_ne', unary_result_ne', binary_result_ne', ternary_result_ne', reshape_result_ne', nary_result_ne']

theorem afterC_arg1 (V : Valuation τ sig (Elt F)) :
    after [opC] V (Proc.devRef .tc main_arg1) = V (Proc.devRef .tc main_arg1) := by
  simp (disch := decide) only [after_cons, after_nil, nullary_result', unary_result', binary_result', ternary_result', reshape_result',
    nullary_result_ne', unary_result_ne', binary_result_ne', ternary_result_ne', reshape_result_ne', nary_result_ne']

theorem afterC_arg2 (V : Valuation τ sig (Elt F)) :
    after [opC] V (Proc.devRef .tc main_arg2) = V (Proc.devRef .tc main_arg2) := by
  simp (disch := decide) only [after_cons, after_nil, nullary_result', unary_result', binary_result', ternary_result', reshape_result',
    nullary_result_ne', unary_result_ne', binary_result_ne', ternary_result_ne', reshape_result_ne', nary_result_ne']

theorem afterC_arg3 (V : Valuation τ sig (Elt F)) :
    after [opC] V (Proc.devRef .tc main_arg3) = V (Proc.devRef .tc main_arg3) := by
  simp (disch := decide) only [after_cons, after_nil, nullary_result', unary_result', binary_result', ternary_result', reshape_result',
    nullary_result_ne', unary_result_ne', binary_result_ne', ternary_result_ne', reshape_result_ne', nary_result_ne']

theorem afterC_arg4 (V : Valuation τ sig (Elt F)) :
    after [opC] V (Proc.devRef .tc main_arg4) = V (Proc.devRef .tc main_arg4) := by
  simp (disch := decide) only [after_cons, after_nil, nullary_result', unary_result', binary_result', ternary_result', reshape_result',
    nullary_result_ne', unary_result_ne', binary_result_ne', ternary_result_ne', reshape_result_ne', nary_result_ne']

end Cert.ReferenceIdeal.RefValue

end
-- ==== Proof.RefRun.lean ====
/-
  The reference's run and its value.

  Run from any memory, the reference ends with its result buffer at the product of the input array with the taken
  scores, and its five argument buffers as they were: each of the three stretches of its line of operations (the
  scores, the take, the product) leaves its result at the pure function of the buffers it reads that the earlier
  modules name, and writes no argument buffer. Under the precondition every component number is in 0 … 999999, so at
  a pixel the take reads the score vector at that number, the score vector there is the specification's score of that
  component, and the product is the specification's result at the pixel.
-/
import proofs.«215733_g63187558859118_cont_9to1_m_256_17_alg».proof.Defs
import proofs.«215733_g63187558859118_cont_9to1_m_256_17_alg».proof.Proof.RefRunA
import proofs.«215733_g63187558859118_cont_9to1_m_256_17_alg».proof.Proof.RefRunB
import proofs.«215733_g63187558859118_cont_9to1_m_256_17_alg».proof.Proof.RefRunC
import proofs.«215733_g63187558859118_cont_9to1_m_256_17_alg».proof.Proof.RefRunD
import proofs.«215733_g63187558859118_cont_9to1_m_256_17_alg».proof.Proof.RefRunE
import proofs.«215733_g63187558859118_cont_9to1_m_256_17_alg».proof.Proof.RefRunF

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo Idealize.ShloMosaic.ValueIdx

/-! ## The value -/

-- the reduction and the gather are folds and searches over millions of elements: no step below looks inside them
attribute [local irreducible] Host.reduce Host.gather in
/-- The fold of the whole line at the result buffer is the specification's result, where the precondition's word
    is one. -/
theorem value [Cert.ReferenceIdeal.Facts] [Cert.Pre_input_domain.Facts] (V : Valuation τ sig (Elt Ideal))
    (hpre : Cert.Pre_input_domain.fn (F := Ideal) (V (Proc.devRef .tc main_arg0)) (V (Proc.devRef .tc main_arg1)) (V (Proc.devRef .tc main_arg2))
      (V (Proc.devRef .tc main_arg3)) (V (Proc.devRef .tc main_arg4)) = fun _ => 1#1) :
    after [opC] (after opsB (after opsA V)) (Proc.devRef .tc main_v35)
      = Cert.Spec.G (V (Proc.devRef .tc main_arg0)) (V (Proc.devRef .tc main_arg1)) (V (Proc.devRef .tc main_arg2)) (V (Proc.devRef .tc main_arg3))
          (V (Proc.devRef .tc main_arg4)) := by
  have hall := cc_range _ _ _ _ _ hpre
  rw [afterC_v35, afterB_arg0, afterB_v34, afterA_arg0, afterA_arg2, afterA_v33]
  funext p
  have hlt := (toNat_of_range (V (Proc.devRef .tc main_arg2) p) (hall p).1 (hall p).2).2
  rw [Cert.Spec.G_of_lt _ _ _ _ _ p hlt, mulf_apply, takeV_apply (V (Proc.devRef .tc main_arg2)) hall _ p hlt, scoreV_apply]

/-- THE REFERENCE'S RUN: under the precondition every weakly fair execution of the reference terminates with its
    result the specification's function of the five arguments, and the arguments unchanged. -/
theorem run [hReferenceIdeal : Cert.ReferenceIdeal.Facts] [hPre_input_domain : Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v35)
          = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c =>
      ⟨(h c main_v35).trans (value (launchContents m c) (hpre c)),
        (h c main_arg0).trans (by rw [afterC_arg0, afterB_arg0, afterA_arg0]),
        (h c main_arg1).trans (by rw [afterC_arg1, afterB_arg1, afterA_arg1]),
        (h c main_arg2).trans (by rw [afterC_arg2, afterB_arg2, afterA_arg2]),
        (h c main_arg3).trans (by rw [afterC_arg3, afterB_arg3, afterA_arg3]),
        (h c main_arg4).trans (by rw [afterC_arg4, afterB_arg4, afterA_arg4])⟩)
    (run_main m g)

end Cert.ReferenceIdeal.RefValue

end
-- ==== Proof.ClaimsIdeal.lean ====
/-
  The kernel's result is the specification's function, and the claims that follow from the two runs.

  The kernel's result array is the SparseCore call's result laid out as 4096 × 4096, and that call saw the component
  numbers and the inputs laid out flat: a layout change there and back is the identity, so at pixel p the result is
  (table entry at the pixel's component number, reduced into the table's range) × (the pixel's input). Where every
  component number lies in 0 … 999999 the reduction does nothing, the table's entry there is the score of that
  component, and the product, its factors exchanged, is the specification's value at p. The score table itself is
  the 1024 × 1024 array of row scores laid out flat: entry n is the row score at row n / 1024, lane n % 1024.
  With both programs' runs stated at the specification's function, the two frames are the runs with the value dropped,
  and the algebraic claim pairs the two runs at memories that agree on the arguments: the reference's precondition
  holds of its memory because it is the same function of the same argument arrays.
-/
import proofs.«215733_g63187558859118_cont_9to1_m_256_17_alg».proof.Proof.ScRunIdeal
import proofs.«215733_g63187558859118_cont_9to1_m_256_17_alg».proof.Proof.ScoreTable
import proofs.«215733_g63187558859118_cont_9to1_m_256_17_alg».proof.Proof.RefRun

noncomputable section

namespace Cert.Proof.Claims

open Idealize.ShloMosaic Idealize.ShloMosaic.ValueIdx Idealize.SL.Sem
open Cert.KernelIdeal Cert.KernelIdeal.Gen
open Cert.KernelIdeal.ScoreValue (table rowScore table_apply table_of_lt)
open Cert.Proof.KernelIdealSc (resV outV)

/-! ## The result array, pixel by pixel -/

/-- Flat and back: the kernel's result at pixel `p`, for any float values. -/
theorem resV_eq {F : FTy → Type} [FloatOps F] (f7 : S1048576.Idx → Elt F .f32) (cc : S4096x4096.Idx → Elt F .i32)
    (x : S4096x4096.Idx → Elt F .f32) :
    resV f7 (shapeCast S16777216 cc shapeCasts_S4096x4096_S16777216) (shapeCast S16777216 x shapeCasts_S4096x4096_S16777216)
      = fun p => FloatOps.mulf (f7 (ix1 ⟨(cc p : BitVec 32).toNat % 1048576, Nat.mod_lt _ (by decide)⟩)) (x p) := by
  unfold resV
  exact shapeCast_shapeCast
    (fun p : S4096x4096.Idx => FloatOps.mulf (f7 (ix1 ⟨(cc p : BitVec 32).toNat % 1048576, Nat.mod_lt _ (by decide)⟩)) (x p))
    shapeCasts_S4096x4096_S16777216 shapeCasts_S16777216_S4096x4096

/-- A 32-bit word whose signed value lies in 0 … 999999 has an unsigned value below one million. -/
theorem toNat_lt_of_range (x : BitVec 32) (h0 : 0 ≤ x.toInt) (h1 : x.toInt ≤ 999999) : x.toNat < 1000000 := by
  have hx := x.isLt
  have hc := BitVec.toInt_eq_toNat_cond x
  split at hc <;> omega

/-- The component numbers laid out flat index the table: each is below its 1048576 entries. -/
theorem hidx_of_range (cc : S4096x4096.Idx → BitVec 32) (hall : ∀ p, 0 ≤ (cc p).toInt ∧ (cc p).toInt ≤ 999999)
    (q : S16777216.Idx) : ((shapeCast S16777216 cc shapeCasts_S4096x4096_S16777216) q : BitVec 32).toNat < 1048576 := by
  have h := toNat_lt_of_range (cc (Shape.reshapeEquiv shapeCasts_S4096x4096_S16777216 q)) (hall _).1 (hall _).2
  show (cc (Shape.reshapeEquiv shapeCasts_S4096x4096_S16777216 q)).toNat < 1048576
  omega

/-! ## At the extended reals -/

section AtIdeal
variable (attr : S1000000x15.Idx → EReal) (w : S17x1.Idx → EReal) (b : S1.Idx → EReal)

/-- The 1024 × 1024 array of row scores, laid out flat, is the score table. -/
theorem table_flat (T : S1024x1024.Idx → EReal) (hT : ∀ R l : Fin 1024, T (ix2 R l) = rowScore attr w b R l) :
    shapeCast S1048576 T shapeCasts_S1024x1024_S1048576 = table attr w b := by
  funext n
  obtain ⟨k, rfl⟩ : ∃ k : Fin 1048576, n = ix1 k := ⟨n 0, eq_ix1 n⟩
  have hk := k.isLt
  rw [shapeCast_apply T shapeCasts_S1024x1024_S1048576 (ix1 k)
    (ix2 (⟨k.val / 1024, by omega⟩ : Fin 1024) (⟨k.val % 1024, Nat.mod_lt _ (by decide)⟩ : Fin 1024)) (by
      rw [Shape.rowMajor_val_two, Shape.rowMajor_val_one]
      show k.val / 1024 * 1024 + k.val % 1024 = k.val
      omega), hT, table_apply]

/-- Where every component number is in range, (table entry) × input at every pixel is the specification's result. -/
theorem bridge (x : S4096x4096.Idx → EReal) (cc : S4096x4096.Idx → BitVec 32)
    (hall : ∀ p, 0 ≤ (cc p).toInt ∧ (cc p).toInt ≤ 999999) :
    (fun p => FloatOps.mulf (F := Ideal) (φ := .f32) (table attr w b (ix1 ⟨(cc p).toNat % 1048576, Nat.mod_lt _ (by decide)⟩)) (x p))
      = Cert.Spec.G x attr cc w b := by
  funext p
  have hlt := toNat_lt_of_range (cc p) (hall p).1 (hall p).2
  have hlt' : (cc p).toNat < 1048576 := by omega
  have e : (⟨(cc p).toNat % 1048576, Nat.mod_lt _ (by decide)⟩ : Fin 1048576) = ⟨(cc p).toNat, hlt'⟩ := Fin.ext (Nat.mod_eq_of_lt hlt')
  rw [Cert.Spec.G_of_lt _ _ _ _ _ p hlt, e, table_of_lt attr w b ⟨(cc p).toNat, hlt'⟩ hlt]
  show Cert.Spec.scoreAt attr w b ⟨(cc p).toNat, hlt⟩ * x p = _
  exact mul_comm _ _

/-- THE KERNEL'S VALUE: its result array, from the row scores, the component numbers and the inputs, is the
    specification's function of the five arguments. -/
theorem kernel_value (x : S4096x4096.Idx → EReal) (cc : S4096x4096.Idx → BitVec 32)
    (hall : ∀ p, 0 ≤ (cc p).toInt ∧ (cc p).toInt ≤ 999999)
    (T : S1024x1024.Idx → EReal) (hT : ∀ R l : Fin 1024, T (ix2 R l) = rowScore attr w b R l) :
    resV (F := Ideal) (shapeCast S1048576 T shapeCasts_S1024x1024_S1048576)
        (shapeCast S16777216 cc shapeCasts_S4096x4096_S16777216) (shapeCast S16777216 x shapeCasts_S4096x4096_S16777216)
      = Cert.Spec.G x attr cc w b := by
  rw [resV_eq, table_flat attr w b T hT]
  exact bridge attr w b x cc hall

end AtIdeal

/-! ## The claims, from the kernel's run at the specification's function -/

section Claims
variable [hKernelIdeal : Cert.KernelIdeal.Facts] [hReferenceIdeal : Cert.ReferenceIdeal.Facts] [hPre_input_domain : Cert.Pre_input_domain.Facts]

/-- The kernel's run, stated at the specification's function of the arguments: what the two claims about it need. -/
def KernelRun : Prop :=
  ∀ (m : (ℓ : Loc Cert.KernelIdeal.nD Cert.KernelIdeal.τ Cert.KernelIdeal.sig) → Buf (Elt Ideal) ℓ) (g : Dev Cert.KernelIdeal.nD → PrngReg),
    Cert.Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v11) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The one device. -/
abbrev d₀ : Dev Cert.KernelIdeal.nD := ⟨0, Nat.one_pos⟩

/-- FROM THE LAUNCH THEOREM'S RUN TO THE RUN THE CLAIMS NEED: where the kernel's run ends with its result the SparseCore
    call's result over the flat score table `T m` (any 1024 × 1024 array that is the row scores of the arguments), the
    flat component numbers and the flat inputs, it ends at the specification's function of the arguments. -/
theorem kernelRun_of
    (T : ((ℓ : Loc Cert.KernelIdeal.nD Cert.KernelIdeal.τ Cert.KernelIdeal.sig) → Buf (Elt Ideal) ℓ) → S1024x1024.Idx → EReal)
    (hT : ∀ m (R l : Fin 1024), T m (ix2 R l) = rowScore (m (Cert.Proof.KernelIdealSc.locA d₀ Cert.KernelIdeal.main_arg1))
      (m (Cert.Proof.KernelIdealSc.locA d₀ Cert.KernelIdeal.main_arg3)) (m (Cert.Proof.KernelIdealSc.locA d₀ Cert.KernelIdeal.main_arg4)) R l)
    (hrun : ∀ (m : (ℓ : Loc Cert.KernelIdeal.nD Cert.KernelIdeal.τ Cert.KernelIdeal.sig) → Buf (Elt Ideal) ℓ) (g : Dev Cert.KernelIdeal.nD → PrngReg),
      Cert.Pre_KernelIdeal m →
      θ_run (Cert.KernelIdeal.defs (F := Ideal)) (Cert.KernelIdeal.threads (F := Ideal)) ⟨m, fun _ => 0, g⟩
        (Cert.Proof.KernelIdealSc.QC (F := Ideal) m (shapeCast S1048576 (T m) shapeCasts_S1024x1024_S1048576)
          (shapeCast S16777216 (m (Cert.Proof.KernelIdealSc.locA d₀ Cert.KernelIdeal.main_arg2)) shapeCasts_S4096x4096_S16777216)
          (shapeCast S16777216 (m (Cert.Proof.KernelIdealSc.locA d₀ Cert.KernelIdeal.main_arg0)) shapeCasts_S4096x4096_S16777216))) :
    KernelRun := fun m g hpre =>
  (θ_run (Cert.KernelIdeal.defs (F := Ideal)) _ _).mono (fun r h c => by
    obtain rfl : c = d₀ := Subsingleton.elim _ _
    have hall := fun p => Cert.ReferenceIdeal.RefValue.cc_range _ _ _ _ _ (hpre d₀) p
    refine ⟨?_, (h d₀).2⟩
    refine ((h d₀).1).trans ?_
    exact kernel_value _ _ _ _ _ hall (T m) (hT m)) (hrun m g hpre)

/-- The kernel's frame: its run with the value dropped. -/
theorem frame_KernelIdeal_of (hrun : KernelRun) : Cert.frame_KernelIdeal := fun m g hpre =>
  (θ_run (Cert.KernelIdeal.defs (F := Ideal)) _ _).mono (fun _ h c => (h c).2) (hrun m g hpre)

/-- The reference's frame: its run with the value dropped. -/
theorem frame_ReferenceIdeal : Cert.frame_ReferenceIdeal := fun m g hpre =>
  (θ_run (Cert.ReferenceIdeal.defs (F := Ideal)) _ _).mono (fun _ h c => (h c).2) (Cert.ReferenceIdeal.RefValue.run m g hpre)

/-- The algebraic claim: both runs end at the specification's function of arguments on which the memories agree. -/
theorem algebraic_of (hrun : KernelRun) : Cert.algebraic_KernelIdeal_ReferenceIdeal := fun m g m' g' hpre hagree => by
  have hpre' : Cert.Pre_ReferenceIdeal m' := fun c => by
    have h := hpre c
    rw [← (hagree c).1, ← (hagree c).2.1, ← (hagree c).2.2.1, ← (hagree c).2.2.2.1, ← (hagree c).2.2.2.2] at h
    exact h
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), hrun m g hpre, ?_⟩
  refine (θ_run (Cert.ReferenceIdeal.defs (F := Ideal)) _ _).mono (fun _ h c => ⟨?_, (h c).2⟩) (Cert.ReferenceIdeal.RefValue.run m' g' hpre')
  rw [(h c).1, (hagree c).1, (hagree c).2.1, (hagree c).2.2.1, (hagree c).2.2.2.1, (hagree c).2.2.2.2]

end Claims

end Cert.Proof.Claims

end
-- ==== Proof.KernelRunIdeal.lean ====
/-
  The kernel's run at the extended reals, at the specification's function.

  The launch memory fixes what the SparseCore call sees: the score table — the TensorCore call's result, entry n the
  row score of the attribute table, the weight column and the bias at row n / 1024, lane n % 1024 —, the component
  numbers and the inputs laid out flat, and the result array as the memory holds it. The precondition puts every
  component number in 0 … 999999, so each indexes the flat table. With a tile's body and the entry function proved for
  these contents, the launch theorem gives the run; and the run's result, the call's result array laid out as
  4096 × 4096, is the specification's function of the five arguments: a layout change there and back is the identity,
  the table's entry at a component number below one million is that component's score, and the product's factors
  exchange.
-/
import proofs.«215733_g63187558859118_cont_9to1_m_256_17_alg».proof.Proof.ClaimsIdeal

noncomputable section

namespace Cert.Proof.Claims

open Cert.KernelIdeal Cert.KernelIdeal.Gen Cert.Proof.KernelIdealSetup

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.ScoreValue (table rowScore)
open Cert.Proof.KernelIdealSc (locA resV outV QC FIN P TileBody EH run_main)
open Cert.Proof.KernelIdealTc (GP)

local notation "𝕄" => MT nD τ sig (HIx 1) (Elt Ideal) ℕ UU ℕ

/-- THE KERNEL'S RUN at the specification's function — from the proof of a tile's body and of the entry function, for
    contents `f7 … f10` of the launch memory of which three equations hold: the table is the score table of the three
    arguments, the component numbers and the inputs are the two arguments laid out flat. -/
theorem kernelRun [hPre_input_domain : Cert.Pre_input_domain.Facts] [∀ e, Nonempty (Elt Ideal e)]
    (f7 : ((ℓ : Loc nD τ sig) → Buf (Elt Ideal) ℓ) → S1048576.Idx → Elt Ideal .f32) (f8 : ((ℓ : Loc nD τ sig) → Buf (Elt Ideal) ℓ) → S16777216.Idx → Elt Ideal .i32)
    (f9 f10 : ((ℓ : Loc nD τ sig) → Buf (Elt Ideal) ℓ) → S16777216.Idx → Elt Ideal .f32)
    (h7 : ∀ m, f7 m = table (m (locA d₀ main_arg1)) (m (locA d₀ main_arg3)) (m (locA d₀ main_arg4)))
    (h8 : ∀ m, f8 m = shapeCast S16777216 (m (locA d₀ main_arg2)) shapeCasts_S4096x4096_S16777216)
    (h9 : ∀ m, f9 m = shapeCast S16777216 (m (locA d₀ main_arg0)) shapeCasts_S4096x4096_S16777216)
    (htile : ∀ (g7 : S1048576.Idx → Elt Ideal .f32) (g8 : S16777216.Idx → Elt Ideal .i32) (g9 g10 : S16777216.Idx → Elt Ideal .f32),
      TileBody (F := Ideal) g7 g8 g9 g10)
    (hmainH : ∀ (m : ((ℓ : Loc nD τ sig) → Buf (Elt Ideal) ℓ)) (ρ : Dev nD → PrngReg) (κ : GSem nD τ sig → ℕ) (d : Dev nD),
      iprop((K (F := Ideal)).ctx EH (P (f7 m) (f8 m) (f9 m) (f10 m)) κ ∗ (K (F := Ideal)).tcSt EH d 0 ∗ (K (F := Ideal)).tcRes m ρ d ∗ GP (F := Ideal) d)
        ⊢ wp frame (wpE ((K (F := Ideal)).defs (D (F := Ideal))) 𝒱 (SparseCore.T d) none) Set.univ (main d)
            fun _ => (iprop((K (F := Ideal)).tcSt EH d 1 ∗ FIN m (f7 m) (f8 m) (f9 m) d) : sProp 𝕄)) :
    KernelRun := fun m g hpre => by
  have hall : ∀ p, 0 ≤ ((m (locA d₀ main_arg2)) p : BitVec 32).toInt ∧ ((m (locA d₀ main_arg2)) p : BitVec 32).toInt ≤ 999999 :=
    fun p => Cert.ReferenceIdeal.RefValue.cc_range _ _ _ _ _ (hpre d₀) p
  have hidx : ∀ q, (f8 m q : BitVec 32).toNat < 1048576 := by rw [h8]; exact hidx_of_range _ hall
  refine (θ_run (Cert.KernelIdeal.defs (F := Ideal)) _ _).mono (fun r h c => ?_)
    (run_main m g (f7 m) (f8 m) (f9 m) (f10 m) hidx (htile (f7 m) (f8 m) (f9 m) (f10 m)) (hmainH m g))
  obtain rfl : c = d₀ := Subsingleton.elim _ _
  refine ⟨((h d₀).1).trans ?_, (h d₀).2⟩
  rw [h7, h8, h9, resV_eq]
  exact bridge _ _ _ _ _ hall

end Cert.Proof.Claims

end
-- ==== Proof.TcSideBody.lean ====
/-
  The score kernel's body, run once at symbolic operands.

  Handed its three staging buffers whole — the block of fifteen attribute planes and the eighteen words at any
  contents, the score block at anything — the body makes its eighteen plane loads and eighteen word loads, computes,
  and stores one [64, 1024] vector over the whole score buffer; it names no semaphore, scratch or transfer of its
  own. The run returns the two inputs as they were and the score buffer at contents that are a function of the two
  inputs' contents alone: the witness of the subtype below, which the run finds (every load is covered by what is
  held, the one store covers its buffer).
-/
import proofs.«215733_g63187558859118_cont_9to1_m_256_17_alg».proof.Proof.SetupIdeal
import proofs.«215733_g63187558859118_cont_9to1_m_256_17_alg».proof.Proof.Gen.KernelIdeal.Skeleton
import Idealize.ShloMosaic.Lib.Tactic

noncomputable section

namespace Cert.Proof.KernelIdealTc

open Cert.KernelIdeal Cert.KernelIdeal.Gen Cert.Proof.KernelIdealSetup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on the TensorCore of `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- What the body leaves in the score buffer, over the inputs' contents, WITH the proof that from the three buffers held
    whole the body runs to its return handing back the inputs as they were and the score buffer at that witness. -/
noncomputable def kernelRun (c : Dev nD) (i : grid0.Coords)
    (M1 : Memref sig .tc .vmem S15x64x1024 .f32) (h1 : M1.IsWhole) (M2 : Memref sig .tc .smem S18 .f32) (h2 : M2.IsWhole)
    (M3 : Memref sig .tc .vmem S64x1024 .f32) (h3 : M3.IsWhole) (f1 : Bf (F := F) c M1) (f2 : Bf (F := F) c M2) :
    { W : Bf (F := F) c M3 // ∀ (f3 : Bf (F := F) c M3) (E : Set ℕ) (Q : PUnit → sProp 𝕄),
        iprop(pt c M1 f1 ∗ pt c M2 f2 ∗ pt c M3 f3 ∗ (iprop(pt c M1 f1 ∗ pt c M2 f2 ∗ pt c M3 W) -∗ Q ⟨⟩))
          ⊢ wp frame (wpE (defs₀ (F := F)) Variants.none c none) E (cc0__scores_body i M1 h1 M2 h2 M3 h3) Q } := by
  refine ⟨?_, fun f3 E Q => ?run⟩
  case run =>
    iintro ⟨H1, H2, H3, Hk⟩
    sl_exec_parts!
    sl_step
    iapply Hk
    isplitl [H1]; · iexact H1
    isplitl [H2]; · iexact H2
    iexact H3

end Cert.Proof.KernelIdealTc

end
-- ==== Proof.TcSideData.lean ====
/-
  The pipeline's proof data for the score kernel, and its body obligation.

  The pipeline runs the body at sixteen points. At point t the first window's current staging buffer holds block t of
  the attribute planes (planes × rows 64t … 64t + 63 × lanes: fetched at every point), the second the eighteen words
  (fetched at the first point only and left in place, so the same at every point), and the third, the score block,
  anything. The body leaves the two inputs as they were and the score block at what its run finds from them; the
  invariant between points is the core's scoped buffers that are no staging buffer (there is none), and what the
  TensorCore owes — its start signals to the two SparseCores, all for the later SparseCore call — passes through
  every point untouched, its recorded waits all at level zero.
-/
import proofs.«215733_g63187558859118_cont_9to1_m_256_17_alg».proof.Proof.TcSideAlg
import proofs.«215733_g63187558859118_cont_9to1_m_256_17_alg».proof.Proof.TcSideBody
import proofs.«215733_g63187558859118_cont_9to1_m_256_17_alg».proof.Proof.Gen.KernelIdeal.Points
import Idealize.ShloMosaic.Lib.Pipeline.FrameBody

noncomputable section

namespace Cert.Proof.KernelIdealTc

open Cert.KernelIdeal Cert.KernelIdeal.Gen Cert.Proof.KernelIdealSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the three windowed arrays' contents when the region is entered, per device
variable (A : (c : Dev nD) → (w : Fin cfg0.W) → Buf (Elt F) ((cfg0.win w).arr.view.loc (c : Thread nD τ)))

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (A c w)

/-- The current staging memrefs at a point are whole buffers. -/
theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)

/-- What the body leaves in the score block at point `t`: what its run finds from the two input blocks there. -/
def out2 (c : Dev nD) (t : Fin cfg0.N) : S64x1024.Idx → Elt F .f32 :=
  (st0_2 t).view.read (Elt F)
    (kernelRun c (grid0.coords t) (st0_0 t) (hst0 t) (st0_1 t) (hst1 t) (st0_2 t) (hst2 t)
      ((hst0 t).unread (iblk A c 0 t)) ((hst1 t).unread (iblk A c 1 t))).1

/-! ## The proof data -/

/-- The pairs a wait of the TensorCore may have recorded: those at level zero. -/
def rec0 (c : Dev nD) : Set (SemLoc sig × HIx 1) := {p | (K (F := F)).lev ((T c), p.1) p.2 ≤ 0}

/-- The proof data of the one pipeline on the TensorCore of `c`. -/
def dats (_ : Fin 1) (c : Dev nD) : Dat τ (Elt F) (HIx 1) ℕ UU ℕ cfg0 c where
  A w := A c w
  after w t := match w with
    | ⟨0, _⟩ => iblk A c 0 t
    | ⟨1, _⟩ => iblk A c 1 t
    | ⟨2, _⟩ => out2 A c t
  Φ _ := Pipeline.scopedRest (Ix := HIx 1) (Name := ℕ) (U := UU) (Lvl := ℕ) (Val := Elt F) spec0 c
  q _ := fullShare
  owed _ := (K (F := F)).Otc c 0
  recorded _ := rec0 (F := F) c

theorem A_eq (c : Dev nD) (w : Fin cfg0.W) : (dats A 0 c).A w = A c w := by dsimp only [dats]
theorem after0_0 (c : Dev nD) (t : Fin cfg0.N) : (dats A 0 c).after 0 t = iblk A c 0 t := by dsimp only [dats]
theorem after0_1 (c : Dev nD) (t : Fin cfg0.N) : (dats A 0 c).after 1 t = iblk A c 1 t := by dsimp only [dats]
theorem after0_2 (c : Dev nD) (t : Fin cfg0.N) : (dats A 0 c).after 2 t = out2 A c t := by dsimp only [dats]

/-- The first input's current staging buffer holds its block at every point: it is fetched at every point. -/
theorem before0_0 (c : Dev nD) (t : Fin cfg0.N) (x) : (dats A 0 c).before 0 t x = iblk A c 0 t :=
  ((dats A 0 c).before_in_eq_fetched 0 rfl (fun _ => rfl) (fun _ _ _ => rfl)
    (fun t => by rw [after0_0]; unfold Dat.blockOf iblk; rw [A_eq]; try rfl) t x).trans
    (by unfold Dat.fetched Dat.blockOf iblk; rw [A_eq]; try rfl)

/-- The second input's holds the eighteen words at every point: fetched at the first, its block index never moves. -/
theorem before0_1 (c : Dev nD) (t : Fin cfg0.N) (x) : (dats A 0 c).before 1 t x = iblk A c 1 t :=
  ((dats A 0 c).before_in_eq_fetched 1 rfl (fun _ => rfl) (fun _ _ _ => rfl)
    (fun t => by rw [after0_1]; unfold Dat.blockOf iblk; rw [A_eq]; try rfl) t x).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats A 0 c).Φ t.castSucc ∗ (dats A 0 c).owesAt none t.castSucc
    ∗ (∃ x, owns (c : Thread nD τ) (st0_0 t) fullShare ((dats A 0 c).before 0 t x))
    ∗ (∃ x, owns (c : Thread nD τ) (st0_1 t) fullShare ((dats A 0 c).before 1 t x))
    ∗ (∃ x, owns (c : Thread nD τ) (st0_2 t) fullShare ((dats A 0 c).before 2 t x)))

/-- and what it returns. -/
def bodyPost (c : Dev nD) (t : Fin cfg0.N) : sProp 𝕄 :=
  iprop((dats A 0 c).Φ t.succ ∗ (dats A 0 c).owesAt none t.succ
    ∗ owns (c : Thread nD τ) (st0_0 t) fullShare ((dats A 0 c).after 0 t)
    ∗ owns (c : Thread nD τ) (st0_1 t) fullShare ((dats A 0 c).after 1 t)
    ∗ owns (c : Thread nD τ) (st0_2 t) fullShare ((dats A 0 c).after 2 t))

/-- The body at any point: the inputs' buffers hold their blocks, so the run applies; the invariant and what the core
    owes pass through unread. -/
theorem sound_body (c : Dev nD) (t : Fin cfg0.N) :
    bodyPre A c t ⊢ wp frame (wpE (defs₀ (F := F)) Variants.none c none) Set.univ (bodyAt0 t) (fun _ => bodyPost A c t) := by
  unfold bodyPre bodyPost bodyAt0
  simp only [before0_0, before0_1]
  rw [show (dats A 0 c).Φ t.succ = (dats A 0 c).Φ t.castSucc from rfl,
    show (dats A 0 c).owesAt none t.succ = (dats A 0 c).owesAt none t.castSucc from rfl,
    after0_0, after0_1, after0_2]
  unfold owns
  iintro ⟨HΦ, Ho, ⟨%x0, %f0, %hf0, H0⟩, ⟨%x1, %f1, %hf1, H1⟩, ⟨%x2, %f2, -, H2⟩⟩
  obtain rfl := (hst0 t).eq_unread hf0
  obtain rfl := (hst1 t).eq_unread hf1
  iapply ((kernelRun c (grid0.coords t) (st0_0 t) (hst0 t) (st0_1 t) (hst1 t) (st0_2 t) (hst2 t)
      ((hst0 t).unread (iblk A c 0 t)) ((hst1 t).unread (iblk A c 1 t))).2 f2 Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (hst0 t).read_unread _
    iexact H0
  isplitl [H1]
  · iexists _; isplitr; · ipureintro; exact (hst1 t).read_unread _
    iexact H1
  iexists _; isplitr; · ipureintro; rfl
  iexact H2

/-- The library's body obligation, at every point. -/
theorem body_obligation (c : Dev nD) : BodyObligation (dats (F := F) A 0 c) (defs₀ (F := F)) Variants.none (none : HIx 1) Set.univ := fun t => by
  rw [bigSep_W0, bigSep_W0]
  exact sound_body A c t

end Cert.Proof.KernelIdealTc

end
-- ==== Proof.TcSideRegion.lean ====
/-
  The TensorCore pallas_call as one step of @main on the TensorCore.

  From the region boundary, the three windowed arrays held whole (the attribute planes and the eighteen words at any
  contents, the score table at anything), what the TensorCore owes the later SparseCore call with its recorded waits
  at level zero, the level facts and the pipeline's ghost state, the call runs to its return: the boundary again, the
  arrays at what the pipeline library computes from the proof data (the two inputs as they were; the score table
  written block by block), and the same owing. The pipeline's own waits, on its staging semaphores at the index of
  no call, sit at level zero, below every start signal the TensorCore owes, so they may be made while it owes them.
-/
import proofs.«215733_g63187558859118_cont_9to1_m_256_17_alg».proof.Proof.TcSideData

noncomputable section

namespace Cert.Proof.KernelIdealTc

open Cert.KernelIdeal Cert.KernelIdeal.Gen Cert.Proof.KernelIdealSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (A : (c : Dev nD) → (w : Fin cfg0.W) → Buf (Elt F) ((cfg0.win w).arr.view.loc (c : Thread nD τ)))
  (lv : GSem nD τ sig → HIx 1 → ℕ) (hlv : (K (F := F)).Refines lv)

/-- Everything the TensorCore owes before the SparseCore call is owed at that call's index: nothing at the index of no call. -/
theorem Otc_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- What the TensorCore owes before the SparseCore call, its recorded waits bounded: the first conjunct of its handshake
    state before call 0. -/
abbrev tcOwes (d : Dev nD) : sProp 𝕄 :=
  iprop(∃ W, ⌜(K (F := F)).WBelow (T d) W (8 * 0)⌝ ∗ owes (T d) ((K (F := F)).Otc d 0) W)

set_option backward.isDefEq.respectTransparency.types false in
/-- THE REGION: the windows' decided layout, no semaphore of the kernel's own, the body obligation, the wait evidence; entered
    from the three arrays and the owing, left with the arrays at their final contents and the owing. -/
def reg0 : Pipeline.RegionSeg (pcfgs (F := F)) adm (dats A) (none : HIx 1) defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation A c).loose
  hwaits c := Pipeline.cellsWaits_intro (Pipeline.pin (pcfgs (F := F)) adm) (dats A) (none : HIx 1) 0 c fun w s t =>
    (K (F := F)).mayWait_none _ (Otc_none c) lv hlv
  pre c := iprop((dats A 0 c).arrays (A c) ∗ tcOwes c)
  post c := iprop((dats A 0 c).arrays ((dats A 0 c).arrAt · cfg0.N) ∗ tcOwes c)
  X _ := iprop(emp)
  Y _ := iprop(emp)
  Z _ := iprop(emp)
  hentry c := by
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats A 0 c).Φ 0 = Pipeline.scopedRest (Ix := HIx 1) (Name := ℕ) (U := UU) (Lvl := ℕ) (Val := Elt F) spec0 c from rfl]
    iintro ⟨-, -, H⟩; iexact H
  hout c := by
    rw [show (dats A 0 c).Φ (Fin.last cfg0.N) = Pipeline.scopedRest (Ix := HIx 1) (Name := ℕ) (U := UU) (Lvl := ℕ) (Val := Elt F) spec0 c from rfl,
      Pipeline.ownSems0_none]
    iintro H
    isplitr; · iempintro
    isplitr; · iempintro
    iexact H
  hexit c := by
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact Nat.le_refl 0
    iexact HO

include hlv in
set_option backward.isDefEq.respectTransparency.types false in
/-- THE CALL, as @main makes it: from the boundary, the region's entry state, the level facts and the pipeline's ghost
    state, to the continuation from the boundary and the region's exit state. -/
theorem region_wp [∀ e, Nonempty (Elt F e)] (d : Dev nD) (Φ : PUnit → sProp 𝕄) :
    iprop(boundary (T d) ∗ (dats A 0 d).arrays (A d) ∗ tcOwes d ∗ levAts (K (F := F)).L lv ∗ GP d
        ∗ (iprop(boundary (T d) ∗ (dats A 0 d).arrays ((dats A 0 d).arrAt · cfg0.N) ∗ tcOwes d) -∗ Φ ⟨⟩))
      ⊢ wp frame (wpE ((K (F := F)).defs (D (F := F))) 𝒱 (T d) none) Set.univ
          (Prog.lift (.customCall (SparseCore.inner (Pipeline.entry 0)) ())) Φ := by
  have hk : iprop(boundary (T d) ∗ (dats A 0 d).arrays (A d) ∗ tcOwes d ∗ levAts (K (F := F)).L lv ∗ GP d
        ∗ (iprop(boundary (T d) ∗ (dats A 0 d).arrays ((dats A 0 d).arrAt · cfg0.N) ∗ tcOwes d) -∗ Φ ⟨⟩))
      ⊢ iprop((iprop(boundary (d.tc : Thread nD τ) ∗ iprop((dats A 0 d).arrays ((dats A 0 d).arrAt · cfg0.N) ∗ tcOwes d))
            -∗ wp frame (wpE (D (F := F)) 𝒱 (d.tc : Thread nD τ) none) Set.univ (.ret ⟨⟩) Φ)
          ∗ boundary (d.tc : Thread nD τ) ∗ iprop((dats A 0 d).arrays (A d) ∗ tcOwes d) ∗ levAts (K (F := F)).L lv
          ∗ Pipeline.cellsGhost (Pipeline.pin (pcfgs (F := F)) adm) EP 0 d ∗ Pipeline.toksInit (Pipeline.pin (pcfgs (F := F)) adm) EP 0 d) := by
    iintro ⟨Hb, Ha, HO, Hl, ⟨Hg, Ht⟩, Hk⟩
    isplitl [Hk]
    · iintro ⟨Hb, Ha, HO⟩
      rw [wp_ret]
      imodintro
      iapply Hk
      isplitl [Hb]; · iexact Hb
      isplitl [Ha]; · iexact Ha
      iexact HO
    isplitl [Hb]; · iexact Hb
    isplitl [Ha HO]
    · isplitl [Ha]; · iexact Ha
      iexact HO
    isplitl [Hl]; · iexact Hl
    isplitl [Hg]; · iexact Hg
    iexact Ht
  refine hk.trans ?_
  refine Idealize.SL.BI.Entails.trans (Pipeline.RegionSeg.wp (pcfgs (F := F)) adm (dats A) (none : HIx 1) cellOf_inj' EP defs₀ 𝒱₀
    (K (F := F)).L lv (reg0 A lv hlv) d none (fun u hu => nomatch hu) .ret Φ) ?_
  rw [← lift_call]
  exact (K (F := F)).wp_liftProg (D (F := F)) 𝒱 (T d) Set.univ none (Prog.lift (.customCall (Pipeline.entry (0 : Fin 1)) ())) Φ

end Cert.Proof.KernelIdealTc

end
-- ==== Proof.TcSideHost.lean ====
/-
  @main on the TensorCore as a chain of five items, and what its three stretches of host operations compute.

  @main is seven host operations (the word of one, its broadcast to 48576 rows, the attribute table padded with them,
  the transpose, its long axis cut into 1024 rows of 1024; the weight column flattened, the bias appended), the
  TensorCore pallas_call, three reshapes (the score table flattened to 1048576 entries; the component numbers and the
  pixel values flattened to 16777216), the SparseCore call, and one reshape (the result back to [4096, 4096]). Each
  stretch writes only its own result buffers: read at a result buffer, the stretch's valuation is the operations' own
  term of the buffers it reads.
-/
import proofs.«215733_g63187558859118_cont_9to1_m_256_17_alg».proof.Proof.SetupIdeal
import Idealize.ShloMosaic.Lib.Pipeline.Regions
import Idealize.ShloMosaic.Lib.Pipeline.Frame
import Idealize.ShloMosaic.Lib.StableHlo.Run

noncomputable section

namespace Cert.Proof.KernelIdealTc

open Cert.KernelIdeal Cert.KernelIdeal.Gen Cert.Proof.KernelIdealSetup

open Idealize.ShloMosaic Idealize.ShloMosaic.TcCoe
open Idealize.SL Idealize.SL.Sem

variable {F : FTy → Type} [FloatOps F]

/-- The seven host operations before the TensorCore call. -/
abbrev opsPre : List (HloOp τ sig (Elt F)) :=
  [ StableHlo.nullary main_cst (constant S_ .f32 0x3F800000#32),
    StableHlo.unary main_cst main_v0 (broadcastInDim S48576x15 ![] bcast_S_S48576x15 : (⟨S_, .f32⟩ : BufTy).Contents (Elt F) → (⟨S48576x15, .f32⟩ : BufTy).Contents (Elt F)),
    StableHlo.binary main_arg1 main_v0 main_v1 ((fun a b => concatenate S1048576x15 0 [⟨S1000000x15, a⟩, ⟨S48576x15, b⟩] concatenates_S1000000x15_S48576x15_S1048576x15_d0) : (⟨S1000000x15, .f32⟩ : BufTy).Contents (Elt F) → (⟨S48576x15, .f32⟩ : BufTy).Contents (Elt F) → (⟨S1048576x15, .f32⟩ : BufTy).Contents (Elt F)),
    StableHlo.unary main_v1 main_v2 ((transpose S15x1048576 [1, 0] · transposes_S1048576x15_S15x1048576_1_0) : (⟨S1048576x15, .f32⟩ : BufTy).Contents (Elt F) → (⟨S15x1048576, .f32⟩ : BufTy).Contents (Elt F)),
    StableHlo.reshape main_v2 main_v3 rfl shapeCasts_S15x1048576_S15x1024x1024,
    StableHlo.reshape main_arg3 main_v4 rfl shapeCasts_S17x1_S17,
    StableHlo.binary main_v4 main_arg4 main_v5 ((fun a b => concatenate S18 0 [⟨S17, a⟩, ⟨S1, b⟩] concatenates_S17_S1_S18_d0) : (⟨S17, .f32⟩ : BufTy).Contents (Elt F) → (⟨S1, .f32⟩ : BufTy).Contents (Elt F) → (⟨S18, .f32⟩ : BufTy).Contents (Elt F)) ]

/-- The three reshapes between the two calls. -/
abbrev opsMid : List (HloOp τ sig (Elt F)) :=
  [ StableHlo.reshape main_v6 main_v7 rfl shapeCasts_S1024x1024_S1048576,
    StableHlo.reshape main_arg2 main_v8 rfl shapeCasts_S4096x4096_S16777216,
    StableHlo.reshape main_arg0 main_v9 rfl shapeCasts_S4096x4096_S16777216 ]

/-- The reshape after the SparseCore call. -/
abbrev opsTail : List (HloOp τ sig (Elt F)) :=
  [ StableHlo.reshape main_v10 main_v11 rfl shapeCasts_S16777216_S4096x4096 ]

/-- @main is the chain of its five items. -/
theorem main_chain (d : Dev nD) : main (F := F) d = Pipeline.chain
    [ StableHlo.seq opsPre,
      Prog.lift (.customCall (SparseCore.inner (Pipeline.entry 0)) ()),
      StableHlo.seq opsMid,
      (sc (F := F)).run d 0,
      StableHlo.seq opsTail ] := by
  chain_rfl

/-- Every host operation touches only the TensorCore's unscoped buffers. -/
theorem opsPre_sub : ∀ op ∈ (opsPre : List (HloOp τ sig (Elt F))), op.bufs ⊆ Pipeline.ucRefs τ sig := fun op h =>
  Pipeline.sub_ucRefs op ((List.forall_iff_forall_mem.mp
    (show (opsPre : List (HloOp τ sig (Elt F))).Forall fun op => op.bufs ⊆ StableHlo.tcRefs τ sig from
      ⟨StableHlo.nullary_bufs_sub .., StableHlo.unary_bufs_sub .., StableHlo.binary_bufs_sub .., StableHlo.unary_bufs_sub ..,
        StableHlo.reshape_bufs_sub .., StableHlo.reshape_bufs_sub .., StableHlo.binary_bufs_sub ..⟩)) op h)
theorem opsMid_sub : ∀ op ∈ (opsMid : List (HloOp τ sig (Elt F))), op.bufs ⊆ Pipeline.ucRefs τ sig := fun op h =>
  Pipeline.sub_ucRefs op ((List.forall_iff_forall_mem.mp
    (show (opsMid : List (HloOp τ sig (Elt F))).Forall fun op => op.bufs ⊆ StableHlo.tcRefs τ sig from
      ⟨StableHlo.reshape_bufs_sub .., StableHlo.reshape_bufs_sub .., StableHlo.reshape_bufs_sub ..⟩)) op h)
theorem opsTail_sub : ∀ op ∈ (opsTail : List (HloOp τ sig (Elt F))), op.bufs ⊆ Pipeline.ucRefs τ sig := fun op h =>
  Pipeline.sub_ucRefs op ((List.forall_iff_forall_mem.mp
    (show (opsTail : List (HloOp τ sig (Elt F))).Forall fun op => op.bufs ⊆ StableHlo.tcRefs τ sig from
      StableHlo.reshape_bufs_sub ..)) op h)

/-- No host operation leaves a buffer at contents not chosen. -/
theorem opsPre_fresh : ∀ op ∈ (opsPre : List (HloOp τ sig (Elt F))), op.fresh = ∅ := by
  intro _ h; (repeat (cases h with | head => rfl | tail _ h => ?_)); exact nomatch h
theorem opsMid_fresh : ∀ op ∈ (opsMid : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

/-! ## What each stretch leaves in the buffers it writes -/

variable (W : Valuation τ sig (Elt F))

/-- The attribute planes the TensorCore call is given. -/
theorem pre_v3 : (StableHlo.after opsPre W (Proc.devRef .tc main_v3) : S15x1024x1024.Idx → Elt F .f32)
    = shapeCast S15x1024x1024 (transpose S15x1048576 [1, 0]
        (concatenate S1048576x15 0 [⟨S1000000x15, (W (Proc.devRef .tc main_arg1) : S1000000x15.Idx → Elt F .f32)⟩,
          ⟨S48576x15, broadcastInDim S48576x15 ![] bcast_S_S48576x15 (constant (F := F) S_ .f32 0x3F800000#32)⟩] concatenates_S1000000x15_S48576x15_S1048576x15_d0)
        transposes_S1048576x15_S15x1048576_1_0) shapeCasts_S15x1048576_S15x1024x1024 := by
  after_results; rfl

/-- The eighteen words it is given. -/
theorem pre_v5 : (StableHlo.after opsPre W (Proc.devRef .tc main_v5) : S18.Idx → Elt F .f32)
    = concatenate S18 0 [⟨S17, shapeCast S17 (W (Proc.devRef .tc main_arg3) : S17x1.Idx → Elt F .f32) shapeCasts_S17x1_S17⟩,
        ⟨S1, (W (Proc.devRef .tc main_arg4) : S1.Idx → Elt F .f32)⟩] concatenates_S17_S1_S18_d0 := by
  after_results; rfl

/-- The first stretch writes none of the arguments, nor the score table. -/
theorem pre_keep (b : Ref sig .tc) (hb : b ≠ main_cst ∧ b ≠ main_v0 ∧ b ≠ main_v1 ∧ b ≠ main_v2 ∧ b ≠ main_v3 ∧ b ≠ main_v4 ∧ b ≠ main_v5) :
    StableHlo.after opsPre W (Proc.devRef .tc b) = W (Proc.devRef .tc b) := by
  obtain ⟨h0, h1, h2, h3, h4, h5, h6⟩ := hb
  refine StableHlo.after_of_forall_not_mem (b := Proc.devRef .tc b) opsPre W fun op hop => ?_
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The flat score table, component numbers and pixel values the SparseCore call is given. -/
theorem mid_v7 : (StableHlo.after opsMid W (Proc.devRef .tc main_v7) : S1048576.Idx → Elt F .f32)
    = shapeCast S1048576 (W (Proc.devRef .tc main_v6) : S1024x1024.Idx → Elt F .f32) shapeCasts_S1024x1024_S1048576 := by
  after_results; rfl
theorem mid_v8 : (StableHlo.after opsMid W (Proc.devRef .tc main_v8) : S16777216.Idx → BitVec 32)
    = shapeCast S16777216 (W (Proc.devRef .tc main_arg2) : S4096x4096.Idx → BitVec 32) shapeCasts_S4096x4096_S16777216 := by
  after_results; rfl
theorem mid_v9 : (StableHlo.after opsMid W (Proc.devRef .tc main_v9) : S16777216.Idx → Elt F .f32)
    = shapeCast S16777216 (W (Proc.devRef .tc main_arg0) : S4096x4096.Idx → Elt F .f32) shapeCasts_S4096x4096_S16777216 := by
  after_results; rfl
theorem mid_keep (b : Ref sig .tc) (hb : b ≠ main_v7 ∧ b ≠ main_v8 ∧ b ≠ main_v9) :
    StableHlo.after opsMid W (Proc.devRef .tc b) = W (Proc.devRef .tc b) := by
  obtain ⟨h0, h1, h2⟩ := hb
  refine StableHlo.after_of_forall_not_mem (b := Proc.devRef .tc b) opsMid W fun op hop => ?_
  simp only [List.mem_cons, List.mem_nil_iff, or_false] at hop
  rcases hop with rfl | rfl | rfl <;>
    simp only [StableHlo.reshape_writes, Finset.mem_singleton] <;>
    exact StableHlo.devRef_ne_of_ne ‹_›

/-- The result, back at [4096, 4096]. -/
theorem tail_v11 : (StableHlo.after opsTail W (Proc.devRef .tc main_v11) : S4096x4096.Idx → Elt F .f32)
    = shapeCast S4096x4096 (W (Proc.devRef .tc main_v10) : S16777216.Idx → Elt F .f32) shapeCasts_S16777216_S4096x4096 := by
  after_results; rfl
theorem tail_keep (b : Ref sig .tc) (hb : b ≠ main_v11) :
    StableHlo.after opsTail W (Proc.devRef .tc b) = W (Proc.devRef .tc b) := by
  refine StableHlo.after_of_forall_not_mem (b := Proc.devRef .tc b) opsTail W fun op hop => ?_
  simp only [List.mem_cons, List.mem_nil_iff, or_false] at hop
  rcases hop with rfl
  simp only [StableHlo.reshape_writes, Finset.mem_singleton]
  exact StableHlo.devRef_ne_of_ne hb

end Cert.Proof.KernelIdealTc

end
-- ==== Proof.TcSideMain.lean ====
/-
  @main on the TensorCore, start to end.

  From what the launch deals the TensorCore — the region boundary, @main's eighteen unscoped buffers at the launch
  contents, its handshake state before the one SparseCore call, the pipeline's ghost state — the seven host
  operations run over the unscoped buffers; the three windowed arrays are taken out of them for the TensorCore call and
  put back, the score table at what the pipeline computed; three reshapes run; the SparseCore call takes what its
  payload record asks and gives back what it promises (two entailments the certificate of the SparseCore kernel
  supplies); one reshape runs. What is left is the handshake state after the call and the unscoped buffers at the
  valuation those steps compose.
-/
import proofs.«215733_g63187558859118_cont_9to1_m_256_17_alg».proof.Proof.TcSideRegion
import proofs.«215733_g63187558859118_cont_9to1_m_256_17_alg».proof.Proof.TcSideHost

noncomputable section

namespace Cert.Proof.KernelIdealTc

open Cert.KernelIdeal Cert.KernelIdeal.Gen Cert.Proof.KernelIdealSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

variable (m : (ℓ : Loc nD τ sig) → Buf (Elt F) ℓ)

/-! ## The valuations @main passes through -/

/-- The launch contents of device `d`'s buffers; -/
abbrev V0 (d : Dev nD) : Valuation τ sig (Elt F) := fun b => m (d, b)
/-- after the seven host operations; -/
abbrev V1 (d : Dev nD) : Valuation τ sig (Elt F) := StableHlo.after opsPre (V0 m d)
/-- the three windowed arrays as the TensorCore call finds them; -/
abbrev Ain (c : Dev nD) (w : Fin cfg0.W) : Buf (Elt F) ((cfg0.win w).arr.view.loc (c : Thread nD τ)) :=
  V1 m c (Proc.devRef .tc (Pipeline.arrRef spec0 w))
/-- after the TensorCore call: the score table at what the pipeline computed; -/
abbrev V2 (d : Dev nD) : Valuation τ sig (Elt F) :=
  Function.update (V1 m d) (Proc.devRef .tc main_v6) ((dats (Ain m) 0 d).arrAt 2 cfg0.N)
/-- after the three reshapes. -/
abbrev V3 (d : Dev nD) : Valuation τ sig (Elt F) := StableHlo.after opsMid (V2 m d)

/-! ## The windowed arrays out of the unscoped buffers and back -/

theorem hshare (A : (c : Dev nD) → (w : Fin cfg0.W) → Buf (Elt F) ((cfg0.win w).arr.view.loc (c : Thread nD τ))) (d : Dev nD)
    (w : Fin cfg0.W) : (dats A 0 d).share w = fullShare := (dats A 0 d).share_full (fun _ => rfl) w

/-- ENTRY: the unscoped buffers after the host prefix are the three arrays and the rest. -/
theorem entry_split (d : Dev nD) :
    (held (T d) (Pipeline.ucRefs τ sig) (V1 m d) : sProp 𝕄)
      ⊢ iprop((dats (Ain m) 0 d).arrays (Ain m d)
          ∗ Pipeline.unscopedRest (Ix := HIx 1) (Name := ℕ) (U := UU) (Lvl := ℕ) spec0 d (fun b => V1 m d b)) := by
  rw [← Pipeline.unscopedBufs_held d (V1 m d),
    Pipeline.unscopedBufs_split cfgs 0 launch0.win.arr_unscoped launch0.win.arr_inj d (fun b => V1 m d b),
    Pipeline.arrays_eq cfgs (dats (Ain m)) 0 d launch0.arr_whole (hshare (Ain m) d) (Ain m d)]

/-- The score table is no other unscoped buffer. -/
theorem V2_of_ne (d : Dev nD) (b : Ref sig .tc) (hb : b ≠ main_v6) : V2 m d (Proc.devRef .tc b) = V1 m d (Proc.devRef .tc b) :=
  Function.update_of_ne (StableHlo.devRef_ne_of_ne hb) _ _
theorem V2_v6 (d : Dev nD) : V2 m d (Proc.devRef .tc main_v6) = (dats (Ain m) 0 d).arrAt 2 cfg0.N :=
  Function.update_self _ _ _

/-- EXIT: the three arrays as the TensorCore call leaves them, and the rest, are the unscoped buffers at the valuation
    that differs at the score table only. -/
theorem exit_join (d : Dev nD) :
    iprop((dats (Ain m) 0 d).arrays ((dats (Ain m) 0 d).arrAt · cfg0.N)
        ∗ Pipeline.unscopedRest (Ix := HIx 1) (Name := ℕ) (U := UU) (Lvl := ℕ) spec0 d (fun b => V1 m d b))
      ⊢ (held (T d) (Pipeline.ucRefs τ sig) (V2 m d) : sProp 𝕄) := by
  rw [← Pipeline.unscopedBufs_held d (V2 m d),
    Pipeline.unscopedBufs_split cfgs 0 launch0.win.arr_unscoped launch0.win.arr_inj d (fun b => V2 m d b),
    Pipeline.arrays_eq cfgs (dats (Ain m)) 0 d launch0.arr_whole (hshare (Ain m) d) _]
  refine sep_mono (Entails.of_eq (bigSep_congr fun w _ => ?_)) (Entails.of_eq ?_)
  · have hw : (dats (Ain m) 0 d).arrAt w cfg0.N = V2 m d (Proc.devRef .tc (Pipeline.arrRef spec0 w)) := by
      match w with
      | ⟨0, _⟩ => exact (((dats (Ain m) 0 d).arrAt_in 0 rfl _).trans (A_eq (Ain m) d 0)).trans (V2_of_ne m d main_v3 (by decide)).symm
      | ⟨1, _⟩ => exact (((dats (Ain m) 0 d).arrAt_in 1 rfl _).trans (A_eq (Ain m) d 1)).trans (V2_of_ne m d main_v5 (by decide)).symm
      | ⟨2, _⟩ => exact (V2_v6 m d).symm
    rw [hw]
  · unfold Pipeline.unscopedRest
    refine bigSep_congr fun b hb => ?_
    have hne : b ≠ main_v6 := fun e => (Finset.mem_sdiff.mp hb).2 (Finset.mem_image.mpr ⟨2, Finset.mem_univ _, e.symm⟩)
    dsimp only
    rw [V2_of_ne m d b hne]

/-! ## The TensorCore's handshake state before the call, opened -/

/-- The handshakes' component of the algebra, embedded: the first of the four. -/
abbrev EH : Emb UH 𝕄 := embL

variable (P : (K (F := F)).Pay (nD := nD) (Val := Elt F) (Name := ℕ) (U := UU))
  (g : Dev nD → PrngReg) (lv : GSem nD τ sig → HIx 1 → ℕ) (hlv : (K (F := F)).Refines lv)

/-- The handshake state before call 0 gives up its owing and takes it back. -/
theorem tcSt_split (d : Dev nD) :
    (K (F := F)).tcSt (EH (F := F)) d 0 ⊢ iprop(tcOwes d ∗ (tcOwes d -∗ (K (F := F)).tcSt (EH (F := F)) d 0)) := by
  unfold SparseCore.Cfg.tcSt
  iintro ⟨HO, Hr⟩
  isplitl [HO]; · iexact HO
  iintro HO
  isplitl [HO]; · iexact HO
  iexact Hr

/-- What the launch deals the TensorCore, its unscoped buffers as a held set at the launch valuation. -/
theorem tcRes_held (d : Dev nD) :
    ((K (F := F)).tcRes m g d : sProp 𝕄)
      = iprop(boundary (T d) ∗ held (T d) (Pipeline.ucRefs τ sig) (V0 m d) ∗ (K (F := F)).tcSems0 d ∗ prngReg d (g d)) := by
  unfold SparseCore.Cfg.tcRes
  rw [← Pipeline.unscopedBufs_held d (V0 m d)]

/-! ## @main -/

include hlv in
set_option backward.isDefEq.respectTransparency.types false in
/-- @MAIN ON THE TENSORCORE of `d`, for any payload record of the SparseCore call: given what the TensorCore holds
    before that call yields the call's operands and something kept (`hst`), and the call's results with what was kept
    yield the unscoped buffers at a valuation `V4 d` (`hdn`), @main runs from what the launch deals to the handshake
    state after the call and the unscoped buffers at `V4 d` after the last reshape. -/
theorem hmain [∀ e, Nonempty (Elt F e)] (V4 : Dev nD → Valuation τ sig (Elt F)) (Kept : Dev nD → sProp 𝕄)
    (κ : GSem nD τ sig → ℕ) (d : Dev nD)
    (hst : (held (T d) (Pipeline.ucRefs τ sig) (V3 m d) : sProp 𝕄)
      ⊢ iprop((bigSep Finset.univ fun c : Fin ((K (F := F)).nCore 0) => P.st 0 d c) ∗ Kept d))
    (hdn : iprop((bigSep Finset.univ fun c : Fin ((K (F := F)).nCore 0) => P.dn 0 d c) ∗ Kept d)
      ⊢ (held (T d) (Pipeline.ucRefs τ sig) (V4 d) : sProp 𝕄)) :
    iprop((K (F := F)).ctx (EH (F := F)) P κ lv ∗ (K (F := F)).tcSt (EH (F := F)) d 0 ∗ (K (F := F)).tcRes m g d ∗ GP d)
      ⊢ wp frame (wpE ((K (F := F)).defs (D (F := F))) 𝒱 (T d) none) Set.univ (main d)
          fun _ => iprop((K (F := F)).tcSt (EH (F := F)) d 1 ∗ held (T d) (Pipeline.ucRefs τ sig) (StableHlo.after opsTail (V4 d))) := by
  rw [main_chain]
  simp only [Pipeline.chain_cons, Pipeline.chain_nil]
  rw [tcRes_held]
  iintro ⟨#Hctx, Hst, ⟨Hb, Hheld, -, -⟩, HG⟩
  ihave H := (tcSt_split d) $$ Hst
  icases H with ⟨HO, Hrest⟩
  -- the seven host operations
  iapply (StableHlo.wp_seq 𝒱 none Set.univ d (Pipeline.ucRefs τ sig) _ opsPre opsPre_sub opsPre_fresh (V0 m d)) $$ [Hb Hheld]
  · isplitl [Hb] <;> iassumption
  iintro ⟨Hb, Hheld⟩
  -- the TensorCore call
  rw [wp_bind]
  ihave H := (entry_split m d) $$ Hheld
  icases H with ⟨Ha, Hur⟩
  ihave Hlev := (SparseCore.Cfg.ctx_levAts (K := K (F := F)) (EH := EH (F := F)) (P := P) κ (lv := lv)) $$ Hctx
  iapply (region_wp (Ain m) lv hlv d _) $$ [Hb Ha HO HG Hur Hrest Hlev]
  isplitl [Hb]; · iexact Hb
  isplitl [Ha]; · iexact Ha
  isplitl [HO]; · iexact HO
  isplitl [Hlev]; · iexact Hlev
  isplitl [HG]; · iexact HG
  iintro ⟨Hb, Ha, HO⟩
  ihave Hheld := (exit_join m d) $$ [Ha Hur]
  · isplitl [Ha] <;> iassumption
  -- the three reshapes
  iapply (StableHlo.wp_seq 𝒱 none Set.univ d (Pipeline.ucRefs τ sig) _ opsMid opsMid_sub opsMid_fresh (V2 m d)) $$ [Hb Hheld]
  · isplitl [Hb] <;> iassumption
  iintro ⟨Hb, Hheld⟩
  -- the SparseCore call
  rw [wp_bind]
  ihave H := hst $$ Hheld
  icases H with ⟨Hst', Hkept⟩
  iapply ((K (F := F)).wp_run (D (F := F)) 𝒱 (EH := EH (F := F)) (P := P) κ d 0 lv hlv) $$ [HO Hrest Hst' Hb Hkept]
  isplitr; · iexact Hctx
  isplitl [HO Hrest]
  · iapply Hrest; iexact HO
  isplitl [Hst']; · iexact Hst'
  iintro ⟨Hst1, Hdn⟩
  ihave Hheld := hdn $$ [Hdn Hkept]
  · isplitl [Hdn] <;> iassumption
  -- the last reshape
  iapply (StableHlo.wp_seq 𝒱 none Set.univ d (Pipeline.ucRefs τ sig) _ opsTail opsTail_sub opsTail_fresh (V4 d)) $$ [Hb Hheld]
  · isplitl [Hb] <;> iassumption
  iintro ⟨Hb, Hheld⟩
  rw [wp_pure]
  imodintro
  isplitl [Hst1]; · iexact Hst1
  iexact Hheld

end Cert.Proof.KernelIdealTc

end
-- ==== Proof.ScoreBody.lean ====
/-
  The value the score kernel's body stores, read at one element.

  The body loads the fifteen attribute planes of its block (each a [1, 64, 1024] rectangle; three planes are loaded
  more than once) and the eighteen words of the weight vector, and stores one [64, 1024] vector. `stored` is that
  vector as a function of the loaded values, the pure terms nested as the body nests them. Every operation in it is
  pointwise, so at the element (r, l) it is a function of the planes' elements at (0, r, l) and of the eighteen words:
  the running sum w₀·a₀ + w₁·a₁ + w₂·a₂ + w₃·a₃ + w₄·log a₄ + w₅·slog a₆ + … + w₁₃·slog a₁₄ + w₁₄·(√a₇ / (√a₆ + ε))
  + w₁₅·cos a₅ + w₁₆·sin a₅, the bias w₁₇ added last, and 1 / (1 + e^(0 − z)) of it. The kernel's sign — the element
  itself where its absolute value is not above zero, else ±1 by "element below zero" — is the sign function at every
  extended real; 0 − z is −z; the sum, regrouped and with every product commuted, is Σₖ featureₖ · wₖ + b. Only the
  commutative-monoid laws of + and · on the extended reals are used, so no finiteness is needed.
-/
import proofs.«215733_g63187558859118_cont_9to1_m_256_17_alg».proof.Proof.Gen.KernelIdeal.Skeleton
import proofs.«215733_g63187558859118_cont_9to1_m_256_17_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.ScoreValue

open Idealize.ShloMosaic Idealize.ShloMosaic.ValueIdx Cert.KernelIdeal Cert.KernelIdeal.Gen

/-- The word of ε as the body writes it (the f32 nearest 1e-10). -/
abbrev epsW : Ideal .f32 := Scalar.ofBits .f32 0x2EDBE6FF#32

/-- The stored vector as a function of the body's loads, in the order the body makes them: the weight word and the
    attribute plane alternately, as the body reads them. The nesting is the body's own. -/
def stored (v0 : Elt Ideal .f32) (v1 : Vec Ideal S1x64x1024 .f32) (v5 : Elt Ideal .f32) (v6 : Vec Ideal S1x64x1024 .f32)
    (v11 : Elt Ideal .f32) (v12 : Vec Ideal S1x64x1024 .f32) (v17 : Elt Ideal .f32) (v18 : Vec Ideal S1x64x1024 .f32)
    (v23 : Elt Ideal .f32) (v24 : Vec Ideal S1x64x1024 .f32) (v30 : Vec Ideal S1x64x1024 .f32) (v32 : Elt Ideal .f32)
    (v51 : Vec Ideal S1x64x1024 .f32) (v53 : Elt Ideal .f32) (v72 : Vec Ideal S1x64x1024 .f32) (v74 : Elt Ideal .f32)
    (v93 : Vec Ideal S1x64x1024 .f32) (v95 : Elt Ideal .f32) (v114 : Vec Ideal S1x64x1024 .f32) (v116 : Elt Ideal .f32)
    (v135 : Vec Ideal S1x64x1024 .f32) (v137 : Elt Ideal .f32) (v156 : Vec Ideal S1x64x1024 .f32) (v158 : Elt Ideal .f32)
    (v177 : Vec Ideal S1x64x1024 .f32) (v179 : Elt Ideal .f32) (v198 : Vec Ideal S1x64x1024 .f32) (v200 : Elt Ideal .f32)
    (v219 : Elt Ideal .f32) (v220 : Vec Ideal S1x64x1024 .f32) (v223 : Vec Ideal S1x64x1024 .f32)
    (v232 : Elt Ideal .f32) (v233 : Vec Ideal S1x64x1024 .f32) (v239 : Elt Ideal .f32) (v240 : Vec Ideal S1x64x1024 .f32)
    (v246 : Elt Ideal .f32) : FVec Ideal S64x1024 .f32 :=
  k0_pay1
    (k0_pay13
      (k0_pay11
        (k0_pay9
          (k0_pay5 (k0_pay2 v0 v1 v5 v6 v11 v12 v17 v18 v23 v24) (k0_pay3 v30) v32 (k0_pay4 v30) epsW v51 v53)
          (k0_pay6 v72) v74 (k0_pay7 v72) (k0_pay8 v72) v93 v95)
        (k0_pay10 v114 v116) v135 v137 v156 v158)
      (k0_pay12 v177) v179 v198 v200)
    v219 (k0_pay14 v220) (k0_pay15 v223) epsW v232 v233 v239 v240 v246

/-! ## The pieces at an element -/

/-- The cast of a [1, 64, 1024] plane to [64, 1024] reads (0, r, l) at (r, l). -/
theorem cast_at (v : Vec Ideal S1x64x1024 .f32) (r : Fin 64) (l : Fin 1024) :
    shapeCast S64x1024 v shapeCasts_S1x64x1024_S64x1024 (ix2 r l) = v (ix3 (0 : Fin 1) r l) := by
  refine shapeCast_apply v _ (ix2 r l) (ix3 (0 : Fin 1) r l) ?_
  rw [Shape.rowMajor_val_three, Shape.rowMajor_val_two]
  show (0 * 64 + r.val) * 1024 + l.val = r.val * 1024 + l.val
  omega

/-- The kernel's sign of an element — the element itself where its absolute value is not above zero, else minus one
    or one by "below zero" — is the sign function, and with the logarithm of |x| + ε in front it is the signed
    logarithm. -/
theorem slog_at (x : Ideal .f32) :
    Ideal.log (max x (-x) + epsW)
        * Scalar.select (FloatOps.cmpf .ogt (FloatOps.absf x) (Scalar.ofBits .f32 0x00000000#32))
            (Scalar.select (FloatOps.cmpf .olt x (Scalar.ofBits .f32 0x00000000#32)) (Scalar.ofBits .f32 0xBF800000#32)
              (Scalar.ofBits .f32 0x3F800000#32)) x
      = Cert.Spec.slog x := by
  rw [Ideal.jnp_sign_eq_sign_f32]; rfl

/-- The first five terms of the running sum: the four box coordinates and the logarithm of the area, each times its
    weight. -/
theorem pay2_at (v0 : Elt Ideal .f32) (v1 : Vec Ideal S1x64x1024 .f32) (v5 : Elt Ideal .f32) (v6 : Vec Ideal S1x64x1024 .f32)
    (v11 : Elt Ideal .f32) (v12 : Vec Ideal S1x64x1024 .f32) (v17 : Elt Ideal .f32) (v18 : Vec Ideal S1x64x1024 .f32)
    (v23 : Elt Ideal .f32) (v24 : Vec Ideal S1x64x1024 .f32) (r : Fin 64) (l : Fin 1024) :
    k0_pay2 v0 v1 v5 v6 v11 v12 v17 v18 v23 v24 (ix2 r l)
      = v0 * v1 (ix3 (0 : Fin 1) r l) + v5 * v6 (ix3 (0 : Fin 1) r l) + v11 * v12 (ix3 (0 : Fin 1) r l)
          + v17 * v18 (ix3 (0 : Fin 1) r l) + v23 * Ideal.log (v24 (ix3 (0 : Fin 1) r l)) := by
  show v0 * shapeCast S64x1024 v1 shapeCasts_S1x64x1024_S64x1024 (ix2 r l)
      + v5 * shapeCast S64x1024 v6 shapeCasts_S1x64x1024_S64x1024 (ix2 r l)
      + v11 * shapeCast S64x1024 v12 shapeCasts_S1x64x1024_S64x1024 (ix2 r l)
      + v17 * shapeCast S64x1024 v18 shapeCasts_S1x64x1024_S64x1024 (ix2 r l)
      + v23 * Ideal.log (shapeCast S64x1024 v24 shapeCasts_S1x64x1024_S64x1024 (ix2 r l)) = _
  rw [cast_at, cast_at, cast_at, cast_at, cast_at]

/-- A plane cast to [64, 1024], at an element. -/
theorem pay3_at (v30 : Vec Ideal S1x64x1024 .f32) (r : Fin 64) (l : Fin 1024) :
    k0_pay3 v30 (ix2 r l) = v30 (ix3 (0 : Fin 1) r l) := cast_at v30 r l

/-- Its absolute value, at an element. -/
theorem pay4_at (v30 : Vec Ideal S1x64x1024 .f32) (r : Fin 64) (l : Fin 1024) :
    k0_pay4 v30 (ix2 r l) = max (v30 (ix3 (0 : Fin 1) r l)) (-(v30 (ix3 (0 : Fin 1) r l))) := by
  show max (k0_pay3 v30 (ix2 r l)) (-(k0_pay3 v30 (ix2 r l))) = _
  rw [pay3_at]

/-- The kernel's sign of one element: the element itself where its absolute value is not above zero, else minus one
    or one by "below zero". -/
abbrev ksign (a : Ideal .f32) : Ideal .f32 :=
  Scalar.select (FloatOps.cmpf .ogt (FloatOps.absf a) (Scalar.ofBits .f32 0x00000000#32))
    (Scalar.select (FloatOps.cmpf .olt a (Scalar.ofBits .f32 0x00000000#32)) (Scalar.ofBits .f32 0xBF800000#32)
      (Scalar.ofBits .f32 0x3F800000#32)) a

/-- It is the sign function at every extended real. -/
theorem ksign_eq (a : Ideal .f32) : ksign a = Ideal.sign a := Ideal.jnp_sign_eq_sign_f32 a

/-- The signed logarithm, spelt with the body's word of ε. -/
theorem slog_eq (y : Ideal .f32) : Ideal.log (max y (-y) + epsW) * Ideal.sign y = Cert.Spec.slog y := rfl

/-- Two more terms: the signed logarithms of the sixth and of the seventh plane, each times its weight. The sixth
    plane arrives cast, with its absolute value, from the part before. -/
theorem pay5_at (v29 v31 : FVec Ideal S64x1024 .f32) (v32 : Elt Ideal .f32) (v33 : FVec Ideal S64x1024 .f32) (cst : Ideal .f32)
    (v51 : Vec Ideal S1x64x1024 .f32) (v53 : Elt Ideal .f32) (r : Fin 64) (l : Fin 1024) :
    k0_pay5 v29 v31 v32 v33 cst v51 v53 (ix2 r l)
      = v29 (ix2 r l) + v32 * (Ideal.log (v33 (ix2 r l) + cst) * Ideal.sign (v31 (ix2 r l)))
          + v53 * Cert.Spec.slog (v51 (ix3 (0 : Fin 1) r l)) := by
  show v29 (ix2 r l) + v32 * (Ideal.log (v33 (ix2 r l) + cst) * ksign (v31 (ix2 r l)))
      + v53 * (Ideal.log (max (shapeCast S64x1024 v51 shapeCasts_S1x64x1024_S64x1024 (ix2 r l))
                  (-(shapeCast S64x1024 v51 shapeCasts_S1x64x1024_S64x1024 (ix2 r l))) + epsW)
                * ksign (shapeCast S64x1024 v51 shapeCasts_S1x64x1024_S64x1024 (ix2 r l))) = _
  rw [cast_at, ksign_eq, ksign_eq, slog_eq]

theorem pay6_at (v72 : Vec Ideal S1x64x1024 .f32) (r : Fin 64) (l : Fin 1024) :
    k0_pay6 v72 (ix2 r l) = v72 (ix3 (0 : Fin 1) r l) := cast_at v72 r l

/-- The logarithm of |x| + ε of the eighth plane, at an element. -/
theorem pay7_at (v72 : Vec Ideal S1x64x1024 .f32) (r : Fin 64) (l : Fin 1024) :
    k0_pay7 v72 (ix2 r l) = Ideal.log (max (v72 (ix3 (0 : Fin 1) r l)) (-(v72 (ix3 (0 : Fin 1) r l))) + epsW) := by
  show Ideal.log (max (k0_pay6 v72 (ix2 r l)) (-(k0_pay6 v72 (ix2 r l))) + epsW) = _
  rw [pay6_at]

/-- Minus one or one by "the eighth plane's element is below zero". -/
theorem pay8_at (v72 : Vec Ideal S1x64x1024 .f32) (r : Fin 64) (l : Fin 1024) :
    k0_pay8 v72 (ix2 r l)
      = Scalar.select (FloatOps.cmpf (F := Ideal) (φ := .f32) .olt (v72 (ix3 (0 : Fin 1) r l)) (Scalar.ofBits .f32 0x00000000#32))
          (Scalar.ofBits .f32 0xBF800000#32) (Scalar.ofBits .f32 0x3F800000#32) := by
  show Scalar.select (FloatOps.cmpf .olt (k0_pay6 v72 (ix2 r l)) (Scalar.ofBits .f32 0x00000000#32))
          (Scalar.ofBits .f32 0xBF800000#32) (Scalar.ofBits .f32 0x3F800000#32) = _
  rw [pay6_at]

/-- Two more terms: the eighth plane's, from the pieces of the part before, and the ninth plane's. -/
theorem pay9_at (v71 v73 : FVec Ideal S64x1024 .f32) (v74 : Elt Ideal .f32) (v78 v84 : FVec Ideal S64x1024 .f32)
    (v93 : Vec Ideal S1x64x1024 .f32) (v95 : Elt Ideal .f32) (r : Fin 64) (l : Fin 1024) :
    k0_pay9 v71 v73 v74 v78 v84 v93 v95 (ix2 r l)
      = v71 (ix2 r l)
          + v74 * (v78 (ix2 r l)
              * Scalar.select (FloatOps.cmpf .ogt (FloatOps.absf (v73 (ix2 r l))) (Scalar.ofBits .f32 0x00000000#32))
                  (v84 (ix2 r l)) (v73 (ix2 r l)))
          + v95 * Cert.Spec.slog (v93 (ix3 (0 : Fin 1) r l)) := by
  show v71 (ix2 r l)
      + v74 * (v78 (ix2 r l)
          * Scalar.select (FloatOps.cmpf .ogt (FloatOps.absf (v73 (ix2 r l))) (Scalar.ofBits .f32 0x00000000#32))
              (v84 (ix2 r l)) (v73 (ix2 r l)))
      + v95 * (Ideal.log (max (shapeCast S64x1024 v93 shapeCasts_S1x64x1024_S64x1024 (ix2 r l))
                  (-(shapeCast S64x1024 v93 shapeCasts_S1x64x1024_S64x1024 (ix2 r l))) + epsW)
                * ksign (shapeCast S64x1024 v93 shapeCasts_S1x64x1024_S64x1024 (ix2 r l))) = _
  rw [cast_at, ksign_eq, slog_eq]

/-- The tenth plane's term. -/
theorem pay10_at (v114 : Vec Ideal S1x64x1024 .f32) (v116 : Elt Ideal .f32) (r : Fin 64) (l : Fin 1024) :
    k0_pay10 v114 v116 (ix2 r l) = v116 * Cert.Spec.slog (v114 (ix3 (0 : Fin 1) r l)) := by
  show v116 * (Ideal.log (max (shapeCast S64x1024 v114 shapeCasts_S1x64x1024_S64x1024 (ix2 r l))
                  (-(shapeCast S64x1024 v114 shapeCasts_S1x64x1024_S64x1024 (ix2 r l))) + epsW)
                * ksign (shapeCast S64x1024 v114 shapeCasts_S1x64x1024_S64x1024 (ix2 r l))) = _
  rw [cast_at, ksign_eq, slog_eq]

/-- The tenth plane's term joins the sum, then the eleventh and twelfth planes' terms. -/
theorem pay11_at (v113 v133 : FVec Ideal S64x1024 .f32) (v135 : Vec Ideal S1x64x1024 .f32) (v137 : Elt Ideal .f32)
    (v156 : Vec Ideal S1x64x1024 .f32) (v158 : Elt Ideal .f32) (r : Fin 64) (l : Fin 1024) :
    k0_pay11 v113 v133 v135 v137 v156 v158 (ix2 r l)
      = v113 (ix2 r l) + v133 (ix2 r l) + v137 * Cert.Spec.slog (v135 (ix3 (0 : Fin 1) r l))
          + v158 * Cert.Spec.slog (v156 (ix3 (0 : Fin 1) r l)) := by
  show v113 (ix2 r l) + v133 (ix2 r l)
      + v137 * (Ideal.log (max (shapeCast S64x1024 v135 shapeCasts_S1x64x1024_S64x1024 (ix2 r l))
                  (-(shapeCast S64x1024 v135 shapeCasts_S1x64x1024_S64x1024 (ix2 r l))) + epsW)
                * ksign (shapeCast S64x1024 v135 shapeCasts_S1x64x1024_S64x1024 (ix2 r l)))
      + v158 * (Ideal.log (max (shapeCast S64x1024 v156 shapeCasts_S1x64x1024_S64x1024 (ix2 r l))
                  (-(shapeCast S64x1024 v156 shapeCasts_S1x64x1024_S64x1024 (ix2 r l))) + epsW)
                * ksign (shapeCast S64x1024 v156 shapeCasts_S1x64x1024_S64x1024 (ix2 r l))) = _
  rw [cast_at, cast_at, ksign_eq, ksign_eq, slog_eq, slog_eq]

theorem pay12_at (v177 : Vec Ideal S1x64x1024 .f32) (r : Fin 64) (l : Fin 1024) :
    k0_pay12 v177 (ix2 r l) = v177 (ix3 (0 : Fin 1) r l) := cast_at v177 r l

/-- The thirteenth plane's term (the plane arrives cast) and the fourteenth's. -/
theorem pay13_at (v176 v178 : FVec Ideal S64x1024 .f32) (v179 : Elt Ideal .f32) (v198 : Vec Ideal S1x64x1024 .f32)
    (v200 : Elt Ideal .f32) (r : Fin 64) (l : Fin 1024) :
    k0_pay13 v176 v178 v179 v198 v200 (ix2 r l)
      = v176 (ix2 r l) + v179 * Cert.Spec.slog (v178 (ix2 r l)) + v200 * Cert.Spec.slog (v198 (ix3 (0 : Fin 1) r l)) := by
  show v176 (ix2 r l)
      + v179 * (Ideal.log (max (v178 (ix2 r l)) (-(v178 (ix2 r l))) + epsW) * ksign (v178 (ix2 r l)))
      + v200 * (Ideal.log (max (shapeCast S64x1024 v198 shapeCasts_S1x64x1024_S64x1024 (ix2 r l))
                  (-(shapeCast S64x1024 v198 shapeCasts_S1x64x1024_S64x1024 (ix2 r l))) + epsW)
                * ksign (shapeCast S64x1024 v198 shapeCasts_S1x64x1024_S64x1024 (ix2 r l))) = _
  rw [cast_at, ksign_eq, ksign_eq, slog_eq, slog_eq]

/-- The square root of a plane, at an element. -/
theorem pay14_at (v220 : Vec Ideal S1x64x1024 .f32) (r : Fin 64) (l : Fin 1024) :
    k0_pay14 v220 (ix2 r l) = Ideal.sqrt (v220 (ix3 (0 : Fin 1) r l)) := by
  show Ideal.sqrt (shapeCast S64x1024 v220 shapeCasts_S1x64x1024_S64x1024 (ix2 r l)) = _
  rw [cast_at]

theorem pay15_at (v223 : Vec Ideal S1x64x1024 .f32) (r : Fin 64) (l : Fin 1024) :
    k0_pay15 v223 (ix2 r l) = Ideal.sqrt (v223 (ix3 (0 : Fin 1) r l)) := by
  show Ideal.sqrt (shapeCast S64x1024 v223 shapeCasts_S1x64x1024_S64x1024 (ix2 r l)) = _
  rw [cast_at]

/-- The last three terms — the shape ratio, the cosine and the sine of the angle — and the bias join the sum, and the
    stored element is the logistic function of it: 0 − z is −z. -/
theorem pay1_at (v218 : FVec Ideal S64x1024 .f32) (v219 : Elt Ideal .f32) (v222 v225 : FVec Ideal S64x1024 .f32) (cst_81 : Ideal .f32)
    (v232 : Elt Ideal .f32) (v233 : Vec Ideal S1x64x1024 .f32) (v239 : Elt Ideal .f32) (v240 : Vec Ideal S1x64x1024 .f32)
    (v246 : Elt Ideal .f32) (r : Fin 64) (l : Fin 1024) :
    k0_pay1 v218 v219 v222 v225 cst_81 v232 v233 v239 v240 v246 (ix2 r l)
      = Cert.Spec.sigm (v218 (ix2 r l) + v219 * Ideal.div (v222 (ix2 r l)) (v225 (ix2 r l) + cst_81)
          + v232 * Ideal.cos (v233 (ix3 (0 : Fin 1) r l)) + v239 * Ideal.sin (v240 (ix3 (0 : Fin 1) r l)) + v246) := by
  show Ideal.div (Ideal.ofBits .f32 0x3F800000#32) (Ideal.ofBits .f32 0x3F800000#32
      + Ideal.exp (Ideal.ofBits .f32 0x00000000#32
          - (v218 (ix2 r l) + v219 * Ideal.div (v222 (ix2 r l)) (v225 (ix2 r l) + cst_81)
              + v232 * Ideal.cos (shapeCast S64x1024 v233 shapeCasts_S1x64x1024_S64x1024 (ix2 r l))
              + v239 * Ideal.sin (shapeCast S64x1024 v240 shapeCasts_S1x64x1024_S64x1024 (ix2 r l)) + v246))) = _
  rw [cast_at, cast_at, Ideal.ofBits_zero_f32, zero_sub]
  rfl

/-! ## The sum, and the stored element -/

/-- A sum over seventeen indices, written out from the left. -/
theorem sum17 (f : Fin 17 → EReal) :
    ∑ k, f k = f 0 + f 1 + f 2 + f 3 + f 4 + f 5 + f 6 + f 7 + f 8 + f 9 + f 10 + f 11 + f 12 + f 13 + f 14 + f 15 + f 16 := by
  simp only [Fin.sum_univ_castSucc, Fin.sum_univ_zero, zero_add]
  rfl

/-- The affine form with its seventeen products written out. -/
theorem logit_eq (A : Fin 15 → EReal) (w : Fin 17 → EReal) (b : EReal) :
    Cert.Spec.logit A w b
      = A 0 * w 0 + A 1 * w 1 + A 2 * w 2 + A 3 * w 3 + Ideal.log (A 4) * w 4
          + Cert.Spec.slog (A 6) * w 5 + Cert.Spec.slog (A 7) * w 6 + Cert.Spec.slog (A 8) * w 7
          + Cert.Spec.slog (A 9) * w 8 + Cert.Spec.slog (A 10) * w 9 + Cert.Spec.slog (A 11) * w 10
          + Cert.Spec.slog (A 12) * w 11 + Cert.Spec.slog (A 13) * w 12 + Cert.Spec.slog (A 14) * w 13
          + Cert.Spec.lshape (A 6) (A 7) * w 14 + Ideal.cos (A 5) * w 15 + Ideal.sin (A 5) * w 16 + b := by
  unfold Cert.Spec.logit
  rw [sum17]
  rfl

/-- THE STORED ELEMENT. Where each loaded plane holds, at (0, r, l), the attribute its plane number names, and each
    loaded word is the word at its position of the eighteen, the stored vector at (r, l) is the score of those fifteen
    attributes under the first seventeen words as weights and the last as bias. -/
theorem stored_apply (r : Fin 64) (l : Fin 1024) (A : Fin 15 → EReal) (wb : Fin 18 → EReal)
    (v0 : Elt Ideal .f32) (v1 : Vec Ideal S1x64x1024 .f32) (v5 : Elt Ideal .f32) (v6 : Vec Ideal S1x64x1024 .f32)
    (v11 : Elt Ideal .f32) (v12 : Vec Ideal S1x64x1024 .f32) (v17 : Elt Ideal .f32) (v18 : Vec Ideal S1x64x1024 .f32)
    (v23 : Elt Ideal .f32) (v24 : Vec Ideal S1x64x1024 .f32) (v30 : Vec Ideal S1x64x1024 .f32) (v32 : Elt Ideal .f32)
    (v51 : Vec Ideal S1x64x1024 .f32) (v53 : Elt Ideal .f32) (v72 : Vec Ideal S1x64x1024 .f32) (v74 : Elt Ideal .f32)
    (v93 : Vec Ideal S1x64x1024 .f32) (v95 : Elt Ideal .f32) (v114 : Vec Ideal S1x64x1024 .f32) (v116 : Elt Ideal .f32)
    (v135 : Vec Ideal S1x64x1024 .f32) (v137 : Elt Ideal .f32) (v156 : Vec Ideal S1x64x1024 .f32) (v158 : Elt Ideal .f32)
    (v177 : Vec Ideal S1x64x1024 .f32) (v179 : Elt Ideal .f32) (v198 : Vec Ideal S1x64x1024 .f32) (v200 : Elt Ideal .f32)
    (v219 : Elt Ideal .f32) (v220 : Vec Ideal S1x64x1024 .f32) (v223 : Vec Ideal S1x64x1024 .f32)
    (v232 : Elt Ideal .f32) (v233 : Vec Ideal S1x64x1024 .f32) (v239 : Elt Ideal .f32) (v240 : Vec Ideal S1x64x1024 .f32)
    (v246 : Elt Ideal .f32)
    (hv1 : v1 (ix3 (0 : Fin 1) r l) = A 0) (hv6 : v6 (ix3 (0 : Fin 1) r l) = A 1) (hv12 : v12 (ix3 (0 : Fin 1) r l) = A 2)
    (hv18 : v18 (ix3 (0 : Fin 1) r l) = A 3) (hv24 : v24 (ix3 (0 : Fin 1) r l) = A 4) (hv30 : v30 (ix3 (0 : Fin 1) r l) = A 6)
    (hv51 : v51 (ix3 (0 : Fin 1) r l) = A 7) (hv72 : v72 (ix3 (0 : Fin 1) r l) = A 8) (hv93 : v93 (ix3 (0 : Fin 1) r l) = A 9)
    (hv114 : v114 (ix3 (0 : Fin 1) r l) = A 10) (hv135 : v135 (ix3 (0 : Fin 1) r l) = A 11)
    (hv156 : v156 (ix3 (0 : Fin 1) r l) = A 12) (hv177 : v177 (ix3 (0 : Fin 1) r l) = A 13)
    (hv198 : v198 (ix3 (0 : Fin 1) r l) = A 14) (hv220 : v220 (ix3 (0 : Fin 1) r l) = A 7)
    (hv223 : v223 (ix3 (0 : Fin 1) r l) = A 6) (hv233 : v233 (ix3 (0 : Fin 1) r l) = A 5)
    (hv240 : v240 (ix3 (0 : Fin 1) r l) = A 5)
    (hv0 : v0 = wb 0) (hv5 : v5 = wb 1) (hv11 : v11 = wb 2) (hv17 : v17 = wb 3) (hv23 : v23 = wb 4) (hv32 : v32 = wb 5)
    (hv53 : v53 = wb 6) (hv74 : v74 = wb 7) (hv95 : v95 = wb 8) (hv116 : v116 = wb 9) (hv137 : v137 = wb 10)
    (hv158 : v158 = wb 11) (hv179 : v179 = wb 12) (hv200 : v200 = wb 13) (hv219 : v219 = wb 14) (hv232 : v232 = wb 15)
    (hv239 : v239 = wb 16) (hv246 : v246 = wb 17) :
    stored v0 v1 v5 v6 v11 v12 v17 v18 v23 v24 v30 v32 v51 v53 v72 v74 v93 v95 v114 v116 v135 v137 v156 v158 v177 v179
        v198 v200 v219 v220 v223 v232 v233 v239 v240 v246 (ix2 r l)
      = Cert.Spec.score A (fun k => wb k.castSucc) (wb (Fin.last 17)) := by
  subst hv0 hv5 hv11 hv17 hv23 hv32 hv53 hv74 hv95 hv116 hv137 hv158 hv179 hv200 hv219 hv232 hv239 hv246
  unfold stored
  rw [pay1_at, pay13_at, pay11_at, pay9_at, pay5_at, pay2_at, pay3_at, pay4_at, pay6_at, pay7_at, pay8_at, pay10_at,
    pay12_at, pay14_at, pay15_at, slog_at, slog_eq,
    hv1, hv6, hv12, hv18, hv24, hv30, hv51, hv72, hv93, hv114, hv135, hv156, hv177, hv198, hv220, hv223, hv233, hv240]
  unfold Cert.Spec.score
  rw [logit_eq]
  refine congrArg Cert.Spec.sigm ?_
  show wb 0 * A 0 + wb 1 * A 1 + wb 2 * A 2 + wb 3 * A 3 + wb 4 * Ideal.log (A 4)
      + wb 5 * Cert.Spec.slog (A 6) + wb 6 * Cert.Spec.slog (A 7) + wb 7 * Cert.Spec.slog (A 8)
      + wb 8 * Cert.Spec.slog (A 9) + wb 9 * Cert.Spec.slog (A 10) + wb 10 * Cert.Spec.slog (A 11)
      + wb 11 * Cert.Spec.slog (A 12) + wb 12 * Cert.Spec.slog (A 13) + wb 13 * Cert.Spec.slog (A 14)
      + wb 14 * Cert.Spec.lshape (A 6) (A 7) + wb 15 * Ideal.cos (A 5) + wb 16 * Ideal.sin (A 5) + wb 17
    = A 0 * wb 0 + A 1 * wb 1 + A 2 * wb 2 + A 3 * wb 3 + Ideal.log (A 4) * wb 4
      + Cert.Spec.slog (A 6) * wb 5 + Cert.Spec.slog (A 7) * wb 6 + Cert.Spec.slog (A 8) * wb 7
      + Cert.Spec.slog (A 9) * wb 8 + Cert.Spec.slog (A 10) * wb 9 + Cert.Spec.slog (A 11) * wb 10
      + Cert.Spec.slog (A 12) * wb 11 + Cert.Spec.slog (A 13) * wb 12 + Cert.Spec.slog (A 14) * wb 13
      + Cert.Spec.lshape (A 6) (A 7) * wb 14 + Ideal.cos (A 5) * wb 15 + Ideal.sin (A 5) * wb 16 + wb 17
  simp only [mul_comm]

end Cert.KernelIdeal.ScoreValue

end
-- ==== Proof.TcSideValue.lean ====
/-
  The value of the score table the TensorCore pallas_call leaves, at the ideal values.

  At point t the body stores, at element (r, l) of the score block, the score of the fifteen attributes that block t
  of the attribute planes holds at (·, r, l) under the eighteen words (the body's stored term read at an element: a
  load of plane k at (0, r, l) is the block's element (k, r, l); a word load is the word). Block t of the planes is
  rows 64t … 64t + 63, and block t of the score table is rows 64t … 64t + 63 too, so point t writes back block t of ONE
  function of the two input arrays: the score, at (R, l), of the attributes the planes hold at (·, R, l). The sixteen
  blocks cover the table (row R is in block R / 64), so after the region the table IS that function.
-/
import proofs.«215733_g63187558859118_cont_9to1_m_256_17_alg».proof.Proof.TcSideData
import proofs.«215733_g63187558859118_cont_9to1_m_256_17_alg».proof.Proof.ScoreBody
import proofs.«215733_g63187558859118_cont_9to1_m_256_17_alg».proof.Proof.ScoreTable
import Idealize.ShloMosaic.Lib.Pipeline.Value

noncomputable section

namespace Cert.Proof.KernelIdealTc

open Cert.KernelIdeal Cert.KernelIdeal.Gen Cert.Proof.KernelIdealSetup

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.ScoreValue (stored stored_apply)

local notation "𝕄" => MT nD τ sig (HIx 1) (Elt Ideal) ℕ UU ℕ

variable (A : (c : Dev nD) → (w : Fin cfg0.W) → Buf (Elt Ideal) ((cfg0.win w).arr.view.loc (c : Thread nD τ)))

theorem hz2 : (![0, 0] : Fin 2 → Nat) = fun _ => 0 := funext fun a => by fin_cases a <;> rfl

/-- A plane of a [15, 64, 1024] block, loaded, at an element. -/
theorem ld_plane (X : S15x64x1024.Idx → Elt Ideal .f32) (k : Fin 15)
    (h : ∀ a, (![k.val, 0, 0] : Fin 3 → Nat) a + S1x64x1024.size a ≤ S15x64x1024.size a) (r : Fin 64) (l : Fin 1024) :
    View.ld (Val := Elt Ideal) X (Rect.unit (s := S15x64x1024) ![k.val, 0, 0] S1x64x1024.size h) (ix3 (0 : Fin 1) r l) = X (ix3 k r l) := by
  show X _ = X _
  refine congrArg X (funext fun a => Fin.ext ?_)
  match a with
  | ⟨0, _⟩ => show k.val + 1 * 0 = k.val; omega
  | ⟨1, _⟩ => show 0 + 1 * r.val = r.val; omega
  | ⟨2, _⟩ => show 0 + 1 * l.val = l.val; omega

/-- A word of the eighteen, loaded. -/
theorem ld_word (X : S18.Idx → Elt Ideal .f32) (k : Fin 18)
    (h : ∀ a, (![k.val] : Fin 1 → Nat) a + S1.size a ≤ S18.size a) (hn : 0 < (Rect.unit (s := S18) ![k.val] S1.size h).shape.numel) :
    View.ld (Val := Elt Ideal) X (Rect.unit (s := S18) ![k.val] S1.size h) (Shape.Idx.first hn) = X (ix1 k) := by
  show X _ = X _
  refine congrArg X (funext fun a => Fin.ext ?_)
  match a with
  | ⟨0, _⟩ => show k.val + 1 * 0 = k.val; omega

/-- WHAT THE BODY LEAVES at element (r, l) of the score block at point `t`: the score of the fifteen attributes its
    planes' block holds there, under the eighteen words. -/
theorem out2_apply (c : Dev nD) (t : Fin cfg0.N) (r : Fin 64) (l : Fin 1024) :
    out2 (F := Ideal) A c t (ix2 r l)
      = Cert.Spec.score (fun k : Fin 15 => iblk A c 0 t (ix3 k r l)) (fun k : Fin 17 => iblk A c 1 t (ix1 k.castSucc))
          (iblk A c 1 t (ix1 (Fin.last 17))) := by
  unfold out2 kernelRun
  dsimp only
  sl_unfold_words
  rw [View.read_writes_junk_eq_canon, View.canon_unit_zero hz2]
  simp only [View.readAt_eq_ld, (hst0 t).read_unread, (hst1 t).read_unread]
  exact stored_apply r l (fun k : Fin 15 => iblk A c 0 t (ix3 k r l)) (fun k : Fin 18 => iblk A c 1 t (ix1 k))
    _ _ _ _ _ _ _ _ _ _ _ _ _ _ _ _ _ _ _ _ _ _ _ _ _ _ _ _ _ _ _ _ _ _ _ _
    (ld_plane _ 0 _ r l) (ld_plane _ 1 _ r l) (ld_plane _ 2 _ r l) (ld_plane _ 3 _ r l) (ld_plane _ 4 _ r l) (ld_plane _ 6 _ r l)
    (ld_plane _ 7 _ r l) (ld_plane _ 8 _ r l) (ld_plane _ 9 _ r l) (ld_plane _ 10 _ r l) (ld_plane _ 11 _ r l) (ld_plane _ 12 _ r l)
    (ld_plane _ 13 _ r l) (ld_plane _ 14 _ r l) (ld_plane _ 7 _ r l) (ld_plane _ 6 _ r l) (ld_plane _ 5 _ r l) (ld_plane _ 5 _ r l)
    (ld_word _ 0 _ _) (ld_word _ 1 _ _) (ld_word _ 2 _ _) (ld_word _ 3 _ _) (ld_word _ 4 _ _) (ld_word _ 5 _ _) (ld_word _ 6 _ _)
    (ld_word _ 7 _ _) (ld_word _ 8 _ _) (ld_word _ 9 _ _) (ld_word _ 10 _ _) (ld_word _ 11 _ _) (ld_word _ 12 _ _) (ld_word _ 13 _ _)
    (ld_word _ 14 _ _) (ld_word _ 15 _ _) (ld_word _ 16 _ _) (ld_word _ 17 _ _)

/-! ## The table as one function of the two input arrays -/

open Cert.KernelIdeal.ScoreValue (attrT wb18 rowScore)

/-- The score table: at (R, l) the score of the attributes the planes hold at (·, R, l), under the eighteen words. -/
def G (A0 : S15x1024x1024.Idx → EReal) (A1 : S18.Idx → EReal) : S1024x1024.Idx → EReal :=
  fun i => Cert.Spec.score (fun k : Fin 15 => A0 (ix3 k (⟨(i 0).val, idx2_lt0 i⟩ : Fin 1024) (⟨(i 1).val, idx2_lt1 i⟩ : Fin 1024)))
    (fun k : Fin 17 => A1 (ix1 k.castSucc)) (A1 (ix1 (Fin.last 17)))

/-- On the prepared planes and words it is the score table's row score. -/
theorem G_rowScore (attr : S1000000x15.Idx → EReal) (w : S17x1.Idx → EReal) (b : S1.Idx → EReal) (R l : Fin 1024) :
    G (attrT attr) (wb18 w b) (ix2 R l) = rowScore attr w b R l := rfl

/-- The printed index maps, decided over the sixteen points: the planes' block moves along the rows with the point, the
    words' block never moves, the score block moves along the rows with the point. -/
theorem idx_facts : ∀ t : Fin cfg0.N, win0_0.index t (0 : Fin 3) = 0 ∧ win0_0.index t (1 : Fin 3) = t.val ∧ win0_0.index t (2 : Fin 3) = 0
    ∧ win0_1.index t (0 : Fin 1) = 0 ∧ win0_2.index t (0 : Fin 2) = t.val ∧ win0_2.index t (1 : Fin 2) = 0 :=
  (by decide +kernel : ∀ t : Fin grid0.N, _)

/-- WHAT POINT `t` WRITES BACK is block `t` of `G` of the two input arrays as the region finds them. -/
theorem flushed2_eq (c : Dev nD) (t : Fin cfg0.N) :
    (dats A 0 c).flushed 2 t = ((cfg0.win 2).blk t).view.read (Elt Ideal) (G (A c 0) (A c 1)) := by
  show (cfg0.win 2).cut (grid0.coords t) ((dats A 0 c).after 2 t) = _
  rw [after0_2]
  obtain ⟨e0, e1, e2, e3, e4, e5⟩ := idx_facts t
  funext j
  obtain ⟨r, l, rfl⟩ : ∃ (r : Fin 64) (l : Fin 1024), j = ix2 r l := ⟨j 0, j 1, eq_ix2 j⟩
  show out2 A c t (ix2 r l) = G (A c 0) (A c 1) (((cfg0.win 2).blk t).view.emb (ix2 r l))
  rw [out2_apply]
  unfold G
  have hf : (fun k : Fin 15 => iblk A c 0 t (ix3 k r l))
      = fun k : Fin 15 => A c 0 (ix3 k (⟨((((cfg0.win 2).blk t).view.emb (ix2 r l)) 0).val, idx2_lt0 _⟩ : Fin 1024)
          (⟨((((cfg0.win 2).blk t).view.emb (ix2 r l)) 1).val, idx2_lt1 _⟩ : Fin 1024)) := by
    funext k
    show A c 0 (((cfg0.win 0).blk t).view.emb (ix3 k r l)) = _
    refine congrArg (A c 0) (funext fun a => Fin.ext ?_)
    match a with
    | ⟨0, _⟩ => show win0_0.index t (0 : Fin 3) * 15 + 1 * k.val = k.val; omega
    | ⟨1, _⟩ => show win0_0.index t (1 : Fin 3) * 64 + 1 * r.val = win0_2.index t (0 : Fin 2) * 64 + 1 * r.val; omega
    | ⟨2, _⟩ => show win0_0.index t (2 : Fin 3) * 1024 + 1 * l.val = win0_2.index t (1 : Fin 2) * 1024 + 1 * l.val; omega
  have hw : ∀ x : Fin 18, iblk A c 1 t (ix1 x) = A c 1 (ix1 x) := fun x => by
    show A c 1 (((cfg0.win 1).blk t).view.emb (ix1 x)) = _
    refine congrArg (A c 1) (funext fun a => Fin.ext ?_)
    match a with
    | ⟨0, _⟩ => show win0_1.index t (0 : Fin 1) * 18 + 1 * x.val = x.val; omega
  rw [hf, funext fun k : Fin 17 => hw k.castSucc, hw]

/-- An index of the table is in point `t`'s block iff each coordinate is in the block's range on its axis. -/
theorem mem_blk2 (t : Fin cfg0.N) (i : S1024x1024.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v6).slice (win0_2.rect t)).set ↔ _
  rw [View.set_slice_whole, Rect.mem_set_unit]
  exact Iff.rfl

/-- The sixteen blocks cover the table: row R is in the block of point R / 64. -/
theorem cover2 (i : S1024x1024.Idx) : ∃ t : Fin cfg0.N, (cfg0.win 2).flush t = true ∧ i ∈ ((cfg0.win 2).blk t).view.set := by
  have hi0 : (i 0).val < 1024 := (i 0).isLt
  have hi1 : (i 1).val < 1024 := (i 1).isLt
  have hN : cfg0.N = 16 := N_0
  have ht : (i 0).val / 64 < cfg0.N := by rw [hN]; omega
  obtain ⟨-, -, -, -, e4, e5⟩ := idx_facts ⟨(i 0).val / 64, ht⟩
  refine ⟨⟨(i 0).val / 64, ht⟩, flush0_2 _, ?_⟩
  rw [mem_blk2]
  intro a
  match a with
  | ⟨0, _⟩ =>
    show win0_2.index ⟨(i 0).val / 64, ht⟩ (0 : Fin 2) * 64 ≤ (i 0).val ∧ (i 0).val < win0_2.index ⟨(i 0).val / 64, ht⟩ (0 : Fin 2) * 64 + 64
    rw [e4]; show (i 0).val / 64 * 64 ≤ (i 0).val ∧ (i 0).val < (i 0).val / 64 * 64 + 64; omega
  | ⟨1, _⟩ =>
    show win0_2.index ⟨(i 0).val / 64, ht⟩ (1 : Fin 2) * 1024 ≤ (i 1).val ∧ (i 1).val < win0_2.index ⟨(i 0).val / 64, ht⟩ (1 : Fin 2) * 1024 + 1024
    rw [e5]; omega

/-- THE TABLE after the region: `G` of the two input arrays as the region finds them. -/
theorem final2 (c : Dev nD) : (dats A 0 c).arrAt 2 cfg0.N = G (A c 0) (A c 1) :=
  (dats A 0 c).arrAt_eq_of_cover 2 (G (A c 0) (A c 1)) (fun t _ => flushed2_eq A c t) cover2

/-- The two inputs after the region: as the region found them. -/
theorem final0 (c : Dev nD) : (dats A 0 c).arrAt 0 cfg0.N = A c 0 := ((dats A 0 c).arrAt_in 0 rfl _).trans (A_eq A c 0)
theorem final1 (c : Dev nD) : (dats A 0 c).arrAt 1 cfg0.N = A c 1 := ((dats A 0 c).arrAt_in 1 rfl _).trans (A_eq A c 1)

end Cert.Proof.KernelIdealTc

end
-- ==== Proof.TcSideSees.lean ====
/-
  What the SparseCore call sees, at the ideal values, as functions of the launch contents.

  After the seven host operations, the TensorCore call and the three reshapes, the flat score table holds at entry n
  the score table's entry n of the launch attribute table, weight column and bias (the planes the TensorCore call
  was given are the prepared planes of the attribute table, the words the prepared words; the call leaves the score
  function of them; the reshape reads it at row n / 1024, lane n % 1024); the flat component numbers and pixel values
  are the reshapes of the two launch arrays; the result buffer is as launched.
-/
import proofs.«215733_g63187558859118_cont_9to1_m_256_17_alg».proof.Proof.TcSideMain
import proofs.«215733_g63187558859118_cont_9to1_m_256_17_alg».proof.Proof.TcSideValue

noncomputable section

namespace Cert.Proof.KernelIdealTc

open Cert.KernelIdeal Cert.KernelIdeal.Gen Cert.Proof.KernelIdealSetup

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.Sem
open Idealize.ShloMosaic.Pipeline (Dat)
open Cert.KernelIdeal.ScoreValue (attrT wb18 rowScore table)

variable (m : (ℓ : Loc nD τ sig) → Buf (Elt Ideal) ℓ) (d : Dev nD)

/-- A TensorCore reference as a device buffer. -/
abbrev dvT (b : Ref sig .tc) : DevRef τ sig := Proc.devRef .tc b

/-- The planes the TensorCore call is given are the prepared planes of the launch attribute table; -/
theorem Ain0 : (Ain m d 0 : S15x1024x1024.Idx → EReal) = attrT (m (d, dvT main_arg1)) := by
  show (StableHlo.after opsPre (V0 m d) (dvT main_v3) : S15x1024x1024.Idx → EReal) = _
  rw [pre_v3]; rfl

/-- the words the prepared words of the launch weight column and bias. -/
theorem Ain1 : (Ain m d 1 : S18.Idx → EReal) = wb18 (m (d, dvT main_arg3)) (m (d, dvT main_arg4)) := by
  show (StableHlo.after opsPre (V0 m d) (dvT main_v5) : S18.Idx → EReal) = _
  rw [pre_v5]; rfl

/-- THE FLAT SCORE TABLE the SparseCore call sees. -/
theorem v7_table : (V3 m d (dvT main_v7) : S1048576.Idx → EReal)
    = table (m (d, dvT main_arg1)) (m (d, dvT main_arg3)) (m (d, dvT main_arg4)) := by
  show (StableHlo.after opsMid (V2 m d) (dvT main_v7) : S1048576.Idx → EReal) = _
  rw [mid_v7, V2_v6, final2 (Ain m) d, Ain0, Ain1]
  funext j
  obtain ⟨n, rfl⟩ : ∃ n : Fin 1048576, j = ix1 n := ⟨j 0, eq_ix1 j⟩
  have h1 : n.val / 1024 < 1024 := by have := n.isLt; omega
  have h2 : n.val % 1024 < 1024 := by omega
  refine (shapeCast_apply _ _ (ix1 n) (ix2 (⟨n.val / 1024, h1⟩ : Fin 1024) (⟨n.val % 1024, h2⟩ : Fin 1024)) ?_).trans ?_
  · rw [Shape.rowMajor_val_two, Shape.rowMajor_val_one]
    show n.val / 1024 * 1024 + n.val % 1024 = n.val
    omega
  · rw [G_rowScore, ScoreValue.table_apply]

/-- The flat component numbers it sees. -/
theorem sees_v8 : (V3 m d (dvT main_v8) : S16777216.Idx → BitVec 32)
    = shapeCast S16777216 (m (d, dvT main_arg2) : S4096x4096.Idx → BitVec 32) shapeCasts_S4096x4096_S16777216 := by
  show (StableHlo.after opsMid (V2 m d) (dvT main_v8) : S16777216.Idx → BitVec 32) = _
  rw [mid_v8, V2_of_ne m d main_arg2 (by decide)]
  show shapeCast S16777216 (StableHlo.after opsPre (V0 m d) (dvT main_arg2) : S4096x4096.Idx → BitVec 32) shapeCasts_S4096x4096_S16777216 = _
  rw [pre_keep (V0 m d) main_arg2 (by decide)]

/-- The flat pixel values it sees. -/
theorem sees_v9 : (V3 m d (dvT main_v9) : S16777216.Idx → EReal)
    = shapeCast S16777216 (m (d, dvT main_arg0) : S4096x4096.Idx → EReal) shapeCasts_S4096x4096_S16777216 := by
  show (StableHlo.after opsMid (V2 m d) (dvT main_v9) : S16777216.Idx → EReal) = _
  rw [mid_v9, V2_of_ne m d main_arg0 (by decide)]
  show shapeCast S16777216 (StableHlo.after opsPre (V0 m d) (dvT main_arg0) : S4096x4096.Idx → EReal) shapeCasts_S4096x4096_S16777216 = _
  rw [pre_keep (V0 m d) main_arg0 (by decide)]

/-- A buffer none of the steps before the SparseCore call writes is as launched. -/
theorem V3_keep (b : Ref sig .tc)
    (hb : b ≠ main_cst ∧ b ≠ main_v0 ∧ b ≠ main_v1 ∧ b ≠ main_v2 ∧ b ≠ main_v3 ∧ b ≠ main_v4 ∧ b ≠ main_v5)
    (h6 : b ≠ main_v6) (hm : b ≠ main_v7 ∧ b ≠ main_v8 ∧ b ≠ main_v9) : V3 m d (dvT b) = m (d, dvT b) := by
  show StableHlo.after opsMid (V2 m d) (dvT b) = _
  rw [mid_keep (V2 m d) b hm, V2_of_ne m d b h6]
  show StableHlo.after opsPre (V0 m d) (dvT b) = _
  rw [pre_keep (V0 m d) b hb]

end Cert.Proof.KernelIdealTc

end
-- ==== Proof.ScHandIdeal.lean ====
/-
  What the TensorCore hands the two SparseCores at the call and gets back.

  Before the call the TensorCore holds the score table, the component numbers, the inputs and the result array whole.
  Each of the three arrays that all 32 tiles read is cut into a remainder, which the TensorCore keeps, and 32 read
  shares, one per tile: tile s of SparseCore c is worker 2 s + c, and (c, s) ↦ 2 s + c is a bijection from 2 × 16
  onto 32. The result array is cut into its 2048 chunks of 8192 pixels, pairwise disjoint and covering it: chunk k of
  tile (c, s) is chunk 128 s + 64 c + k, and ((c, s), k) ↦ 128 s + 64 c + k is a bijection from (2 × 16) × 64 onto
  2048. So what the two SparseCores are handed together is the 32 read shares of each array and the whole result
  array; and back: the same shares, and the result array at component-score × input.
-/
import proofs.«215733_g63187558859118_cont_9to1_m_256_17_alg».proof.Proof.ScLaunchIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "oV" => (Memref.whole Cert.KernelIdeal.main_v10_scv : Memref Cert.KernelIdeal.sig Kind.scVector Space.hbm Cert.KernelIdeal.S16777216 EltTy.f32)

/-! ## The two bijections -/

/-- (SparseCore, tile) ↦ worker number 2 s + c. -/
def widEquiv : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv := fun ⟨c, i⟩ => by
    have hc := c.isLt; have hi := i.isLt
    exact Prod.ext (Fin.ext (show (2 * i.val + c.val) % 2 = c.val by omega)) (Fin.ext (show (2 * i.val + c.val) / 2 = i.val by omega))
  right_inv := fun w => Fin.ext (show 2 * (w.val / 2) + w.val % 2 = w.val by omega)

/-- ((SparseCore, tile), chunk) ↦ chunk number 128 s + 64 c + k. -/
def chunkEquiv : (Fin 2 × Fin 16) × Fin 64 ≃ Fin 2048 where
  toFun x := ⟨128 * x.1.2.val + 64 * x.1.1.val + x.2.val, by have := x.1.1.isLt; have := x.1.2.isLt; have := x.2.isLt; omega⟩
  invFun n := ((⟨n.val / 64 % 2, Nat.mod_lt _ (by decide)⟩, ⟨n.val / 128, by have := n.isLt; omega⟩), ⟨n.val % 64, Nat.mod_lt _ (by decide)⟩)
  left_inv := fun ⟨⟨c, i⟩, k⟩ => by
    have hc := c.isLt; have hi := i.isLt; have hk := k.isLt
    exact Prod.ext (Prod.ext (Fin.ext (show (128 * i.val + 64 * c.val + k.val) / 64 % 2 = c.val by omega))
      (Fin.ext (show (128 * i.val + 64 * c.val + k.val) / 128 = i.val by omega)))
      (Fin.ext (show (128 * i.val + 64 * c.val + k.val) % 64 = k.val by omega))
  right_inv := fun n => Fin.ext (show 128 * (n.val / 128) + 64 * (n.val / 64 % 2) + n.val % 64 = n.val by omega)

/-! ## The chunks of the result array -/

/-- The pixels of chunk `n` of the 2048. -/
abbrev chunkSetN (n : Fin 2048) : Finset S16777216.Idx := ((oV).view.slice (Rect.part (s := S16777216) (a₀ := 0) hdivChunk n)).set

theorem chunkSetN_eq (n : Fin 2048) : chunkSetN n = (Rect.part (s := S16777216) (a₀ := 0) hdivChunk n).set := by
  show ((View.whole (main_v10_scv : Ref sig .scVector)).slice (Rect.part (s := S16777216) (a₀ := 0) hdivChunk n)).set = _
  rw [View.set_slice]; exact Finset.map_refl
theorem chunks_disjoint : ∀ i ∈ (Finset.univ : Finset (Fin 2048)), ∀ j ∈ (Finset.univ : Finset (Fin 2048)), i ≠ j → Disjoint (chunkSetN i) (chunkSetN j) :=
  fun i _ j _ h => by rw [chunkSetN_eq, chunkSetN_eq]; exact Rect.part_disjoint hdivChunk h
theorem chunks_cover : (Finset.univ : Finset (Fin 2048)).biUnion chunkSetN = Finset.univ :=
  (Finset.biUnion_congr rfl fun i _ => chunkSetN_eq i).trans (Rect.biUnion_part hdivChunk)

variable [FloatOps F]

/-! ## Regrouping -/

omit [FloatOps F] in
/-- A family over the call's SparseCores and tiles is the family over 2 × 16. -/
theorem bigSep_tiles (Φ : grid1.Coords → sProp 𝕄) :
    (bigSep Finset.univ fun c : Fin ((K (F := F)).nCore 0) => bigSep Finset.univ fun i : Fin ((K (F := F)).nSub 0) => Φ (coords (F := F) c i))
      = bigSep Finset.univ fun p : Fin 2 × Fin 16 => Φ (coordsV p.1 p.2) :=
  (bigSep_univ_prod (fun p : Fin 2 × Fin 16 => Φ (coordsV p.1 p.2))).symm

omit [FloatOps F] in
/-- The tiles' read shares of an array are its 32 read shares. -/
theorem reads_eq {ℓ : Loc nD τ sig} (f : Buf (Elt F) ℓ) :
    (bigSep Finset.univ fun p : Fin 2 × Fin 16 => (ℓ ↦{tok (coordsV p.1 p.2)} f : sProp 𝕄))
      = bigSep Finset.univ fun w : Fin 32 => (ℓ ↦{Transfers.shareTok fullShare 32 w} f : sProp 𝕄) := by
  rw [bigSep_univ_equiv widEquiv (fun w : Fin 32 => (ℓ ↦{Transfers.shareTok fullShare 32 w} f : sProp 𝕄))]
  rfl

omit [FloatOps F] in
/-- The tiles' chunks of the result array are the array. -/
theorem chunks_eq (d : Dev nD) (q : PosShare TreeShare) (f : Buf (Elt F) (loc10 d)) :
    (bigSep Finset.univ fun p : Fin 2 × Fin 16 => bigSep Finset.univ fun k : Fin 64 => (loc10 d ↦[chunkSet (coordsV p.1 p.2) k]{q} f : sProp 𝕄))
      = (loc10 d ↦{q} f : sProp 𝕄) := by
  rw [← bigSep_univ_prod (fun x : (Fin 2 × Fin 16) × Fin 64 => (loc10 d ↦[chunkSet (coordsV x.1.1 x.1.2) x.2]{q} f : sProp 𝕄)),
    show (bigSep Finset.univ fun x : (Fin 2 × Fin 16) × Fin 64 => (loc10 d ↦[chunkSet (coordsV x.1.1 x.1.2) x.2]{q} f : sProp 𝕄))
      = bigSep Finset.univ fun x : (Fin 2 × Fin 16) × Fin 64 => (loc10 d ↦[chunkSetN (chunkEquiv x)]{q} f : sProp 𝕄) from rfl,
    ← bigSep_univ_equiv chunkEquiv (fun n : Fin 2048 => (loc10 d ↦[chunkSetN n]{q} f : sProp 𝕄)),
    ← pointsTo_biUnion Finset.univ (ℓ := loc10 d) chunkSetN chunks_disjoint, chunks_cover]
  try rfl

section Pay
variable (f7 : S1048576.Idx → Elt F .f32) (f8 : S16777216.Idx → Elt F .i32) (f9 : S16777216.Idx → Elt F .f32) (f10 : S16777216.Idx → Elt F .f32)

/-- What the two SparseCores are handed together. -/
theorem st_all (d : Dev nD) :
    (bigSep Finset.univ fun c : Fin ((K (F := F)).nCore 0) => (P f7 f8 f9 f10).st 0 d c)
      = iprop((bigSep Finset.univ fun w : Fin 32 => loc7 d ↦{Transfers.shareTok fullShare 32 w} f7)
          ∗ (bigSep Finset.univ fun w : Fin 32 => loc8 d ↦{Transfers.shareTok fullShare 32 w} f8)
          ∗ (bigSep Finset.univ fun w : Fin 32 => loc9 d ↦{Transfers.shareTok fullShare 32 w} f9)
          ∗ (loc10 d ↦{fullShare} f10)) := by
  simp only [P_st]
  rw [bigSep_tiles (F := F) (fun L => goH d f7 f8 f9 f10 L)]
  unfold goH
  rw [bigSep_sep', bigSep_sep', bigSep_sep', reads_eq, reads_eq, reads_eq, chunks_eq]

/-- What they hand back together. -/
theorem dn_all (d : Dev nD) :
    (bigSep Finset.univ fun c : Fin ((K (F := F)).nCore 0) => (P f7 f8 f9 f10).dn 0 d c)
      = iprop((bigSep Finset.univ fun w : Fin 32 => loc7 d ↦{Transfers.shareTok fullShare 32 w} f7)
          ∗ (bigSep Finset.univ fun w : Fin 32 => loc8 d ↦{Transfers.shareTok fullShare 32 w} f8)
          ∗ (bigSep Finset.univ fun w : Fin 32 => loc9 d ↦{Transfers.shareTok fullShare 32 w} f9)
          ∗ (loc10 d ↦{fullShare} outV f7 f8 f9)) := by
  simp only [P_dn]
  rw [bigSep_tiles (F := F) (fun L => tdH d f7 f8 f9 L)]
  unfold tdH
  rw [bigSep_sep', bigSep_sep', bigSep_sep', reads_eq, reads_eq, reads_eq, chunks_eq]

/-- AT THE CALL: from the four arrays whole, the three remainders (kept) and what the SparseCores are handed. -/
theorem hst (d : Dev nD) :
    iprop((loc7 d ↦{fullShare} f7) ∗ (loc8 d ↦{fullShare} f8) ∗ (loc9 d ↦{fullShare} f9) ∗ (loc10 d ↦{fullShare} f10))
      ⊢ (iprop(((loc7 d ↦{Transfers.shareDrop fullShare 32} f7) ∗ (loc8 d ↦{Transfers.shareDrop fullShare 32} f8)
            ∗ (loc9 d ↦{Transfers.shareDrop fullShare 32} f9))
          ∗ bigSep Finset.univ fun c : Fin ((K (F := F)).nCore 0) => (P f7 f8 f9 f10).st 0 d c) : sProp 𝕄) := by
  rw [st_all]
  iintro ⟨H7, H8, H9, H10⟩
  ihave H7' := (Transfers.pointsTo_toks_split fullShare 32) $$ H7
  ihave H8' := (Transfers.pointsTo_toks_split fullShare 32) $$ H8
  ihave H9' := (Transfers.pointsTo_toks_split fullShare 32) $$ H9
  icases H7' with ⟨D7, T7⟩
  icases H8' with ⟨D8, T8⟩
  icases H9' with ⟨D9, T9⟩
  isplitl [D7 D8 D9]
  · isplitl [D7]; · iexact D7
    isplitl [D8]; · iexact D8
    iexact D9
  isplitl [T7]; · iexact T7
  isplitl [T8]; · iexact T8
  isplitl [T9]; · iexact T9
  iexact H10

/-- AFTER THE CALL: the way back, the result array at component-score × input. -/
theorem hdn (d : Dev nD) :
    (iprop(((loc7 d ↦{Transfers.shareDrop fullShare 32} f7) ∗ (loc8 d ↦{Transfers.shareDrop fullShare 32} f8)
            ∗ (loc9 d ↦{Transfers.shareDrop fullShare 32} f9))
          ∗ bigSep Finset.univ fun c : Fin ((K (F := F)).nCore 0) => (P f7 f8 f9 f10).dn 0 d c) : sProp 𝕄)
      ⊢ iprop((loc7 d ↦{fullShare} f7) ∗ (loc8 d ↦{fullShare} f8) ∗ (loc9 d ↦{fullShare} f9) ∗ (loc10 d ↦{fullShare} outV f7 f8 f9)) := by
  rw [dn_all]
  iintro ⟨⟨D7, D8, D9⟩, T7, T8, T9, H10⟩
  isplitl [D7 T7]
  · iapply (Transfers.pointsTo_toks_join fullShare 32); isplitl [D7] <;> iassumption
  isplitl [D8 T8]
  · iapply (Transfers.pointsTo_toks_join fullShare 32); isplitl [D8] <;> iassumption
  isplitl [D9 T9]
  · iapply (Transfers.pointsTo_toks_join fullShare 32); isplitl [D9] <;> iassumption
  iexact H10

end Pay

end Cert.Proof.KernelIdealSc

end
-- ==== Proof.TcSideAdaptIdeal.lean ====
/-
  The TensorCore's buffers around the SparseCore call.

  The entry function holds all eighteen of the TensorCore's unscoped buffers together, each whole at its contents.
  The SparseCore call concerns four of them: the flat score table, the flat component numbers, the flat inputs and the
  result array. Taken out of the eighteen, the four are what the call's hand-over starts from: the remainders of the
  three read arrays are kept with the other fourteen buffers, the 32 read shares of each and the result array's 2048
  chunks go to the two SparseCores. After the call the way back gives the four again, the result array now holding
  component-score × input, and with the fourteen they are the eighteen at the contents changed at that one buffer.
  At the end the result buffer — the result array laid out as 4096 × 4096 — and the five argument buffers, which no
  operation has written, are taken out of the eighteen; the rest is dropped.
-/
import proofs.«215733_g63187558859118_cont_9to1_m_256_17_alg».proof.Proof.ScHandIdeal
import proofs.«215733_g63187558859118_cont_9to1_m_256_17_alg».proof.Proof.ScRunIdeal
import proofs.«215733_g63187558859118_cont_9to1_m_256_17_alg».proof.Proof.TcSideHost

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr)
open Cert.Proof.KernelIdealTc (opsTail tail_v11 tail_keep)

variable [FloatOps F]

/-- A TensorCore buffer as a device buffer. -/
abbrev dv (b : Ref sig .tc) : DevRef τ sig := Proc.devRef .tc b

/-- The four buffers of the SparseCore call. -/
def four : Finset (DevRef τ sig) := {dv main_v7, dv main_v8, dv main_v9, dv main_v10}
/-- The result buffer and the five arguments. -/
def six : Finset (DevRef τ sig) := {dv main_v11, dv main_arg0, dv main_arg1, dv main_arg2, dv main_arg3, dv main_arg4}

omit [FloatOps F] in
theorem four_sub : four ⊆ Pipeline.ucRefs τ sig := by decide
omit [FloatOps F] in
theorem six_sub : six ⊆ Pipeline.ucRefs τ sig := by decide

section Val
variable (d : Dev nD) (W : Valuation τ sig (Elt F))

omit [FloatOps F] in
/-- The four, held, are the four arrays whole. -/
theorem held_four : (held (T d) four W : sProp 𝕄)
    = iprop((loc7 d ↦{fullShare} W (dv main_v7)) ∗ (loc8 d ↦{fullShare} W (dv main_v8)) ∗ (loc9 d ↦{fullShare} W (dv main_v9))
        ∗ (loc10 d ↦{fullShare} W (dv main_v10))) := by
  unfold held four
  rw [SparseCore.bigSep_insert' (by decide), SparseCore.bigSep_insert' (by decide), SparseCore.bigSep_insert' (by decide), bigSep_singleton]

omit [FloatOps F] in
/-- The six, held, are the result buffer and the five arguments whole. -/
theorem held_six : (held (T d) six W : sProp 𝕄)
    = iprop((locA d main_v11 ↦{fullShare} W (dv main_v11)) ∗ (locA d main_arg0 ↦{fullShare} W (dv main_arg0))
        ∗ (locA d main_arg1 ↦{fullShare} W (dv main_arg1)) ∗ (locA d main_arg2 ↦{fullShare} W (dv main_arg2))
        ∗ (locA d main_arg3 ↦{fullShare} W (dv main_arg3)) ∗ (locA d main_arg4 ↦{fullShare} W (dv main_arg4))) := by
  unfold held six
  rw [SparseCore.bigSep_insert' (by decide), SparseCore.bigSep_insert' (by decide), SparseCore.bigSep_insert' (by decide),
    SparseCore.bigSep_insert' (by decide), SparseCore.bigSep_insert' (by decide), bigSep_singleton]

/-- What the TensorCore keeps across the call: the other fourteen buffers and the three read arrays' remainders. -/
def Kept : sProp 𝕄 :=
  iprop(held (T d) (Pipeline.ucRefs τ sig \ four) W
    ∗ ((loc7 d ↦{Transfers.shareDrop fullShare 32} W (dv main_v7)) ∗ (loc8 d ↦{Transfers.shareDrop fullShare 32} W (dv main_v8))
      ∗ (loc9 d ↦{Transfers.shareDrop fullShare 32} W (dv main_v9))))

/-- AT THE CALL: the eighteen are what the two SparseCores are handed and what is kept. -/
theorem adapt_st : (held (T d) (Pipeline.ucRefs τ sig) W : sProp 𝕄)
    ⊢ iprop((bigSep Finset.univ fun c : Fin ((K (F := F)).nCore 0) =>
        (P (W (dv main_v7)) (W (dv main_v8)) (W (dv main_v9)) (W (dv main_v10))).st 0 d c) ∗ Kept d W) := by
  rw [held_sub_split (T d) four_sub W, held_four]
  unfold Kept
  iintro ⟨H4, Hrest⟩
  ihave H := (hst (W (dv main_v7)) (W (dv main_v8)) (W (dv main_v9)) (W (dv main_v10)) d) $$ H4
  icases H with ⟨Hd, Hst⟩
  isplitl [Hst]; · iexact Hst
  isplitl [Hrest]; · iexact Hrest
  iexact Hd

/-- AFTER THE CALL: what comes back and what was kept are the eighteen, the result array now at
    component-score × input. -/
theorem adapt_dn : (iprop((bigSep Finset.univ fun c : Fin ((K (F := F)).nCore 0) =>
        (P (W (dv main_v7)) (W (dv main_v8)) (W (dv main_v9)) (W (dv main_v10))).dn 0 d c) ∗ Kept d W) : sProp 𝕄)
    ⊢ held (T d) (Pipeline.ucRefs τ sig)
        (Function.update W (dv main_v10) (outV (W (dv main_v7)) (W (dv main_v8)) (W (dv main_v9)))) := by
  rw [held_sub_split (T d) four_sub (Function.update W (dv main_v10) (outV (W (dv main_v7)) (W (dv main_v8)) (W (dv main_v9)))), held_four,
    Function.update_of_ne (show dv main_v7 ≠ dv main_v10 by decide), Function.update_of_ne (show dv main_v8 ≠ dv main_v10 by decide),
    Function.update_of_ne (show dv main_v9 ≠ dv main_v10 by decide), Function.update_self,
    held_congr (c := T d) (S := Pipeline.ucRefs τ sig \ four) (V' := W) (fun b hb => Function.update_of_ne (fun e => by
      subst e; exact (Finset.mem_sdiff.mp hb).2 (by decide)) _ _)]
  unfold Kept
  iintro ⟨Hdn, Hrest, Hd⟩
  isplitl [Hdn Hd]
  · iapply (hdn (W (dv main_v7)) (W (dv main_v8)) (W (dv main_v9)) (W (dv main_v10)) d)
    isplitl [Hd]; · iexact Hd
    iexact Hdn
  iexact Hrest

end Val

section Fin
variable (m : (ℓ : Loc nD τ sig) → Buf (Elt F) ℓ) (d : Dev nD) (V4 : Valuation τ sig (Elt F))
variable (f7 : S1048576.Idx → Elt F .f32) (f8 : S16777216.Idx → Elt F .i32) (f9 : S16777216.Idx → Elt F .f32)

/-- AT THE END: out of the eighteen after the last reshape, the result buffer and the five arguments, where the
    contents before it hold the call's result at the result array and the launch memory at the arguments. -/
theorem adapt_fin (h10 : V4 (dv main_v10) = outV f7 f8 f9)
    (h0 : V4 (dv main_arg0) = m (locA d main_arg0)) (h1 : V4 (dv main_arg1) = m (locA d main_arg1))
    (h2 : V4 (dv main_arg2) = m (locA d main_arg2)) (h3 : V4 (dv main_arg3) = m (locA d main_arg3))
    (h4 : V4 (dv main_arg4) = m (locA d main_arg4)) :
    (held (T d) (Pipeline.ucRefs τ sig) (StableHlo.after opsTail V4) : sProp 𝕄) ⊢ FIN m f7 f8 f9 d := by
  rw [held_sub_split (T d) six_sub (StableHlo.after opsTail V4), held_six, tail_v11, tail_keep V4 main_arg0 (by decide),
    tail_keep V4 main_arg1 (by decide), tail_keep V4 main_arg2 (by decide), tail_keep V4 main_arg3 (by decide),
    tail_keep V4 main_arg4 (by decide), h10, h0, h1, h2, h3, h4]
  exact sep_elim_left

end Fin

end Cert.Proof.KernelIdealSc

end
-- ==== Proof.TcSideFinIdeal.lean ====
/-
  The entry function on the TensorCore, in the form the launch theorem asks.

  What the SparseCore call sees is fixed by the launch memory: the score table is the TensorCore call's result laid out
  flat, the component numbers and the inputs are the two arguments laid out flat, the result array is as the memory
  holds it. The entry function's proof is stated for any hand-over of the TensorCore's eighteen buffers around the
  call; here the hand-over is the one of the four arrays of the call, and the eighteen buffers at the end are read
  down to the result buffer and the five arguments: no operation before the call writes an argument or the result
  array, the call changes the result array alone, and the last operation lays the result array out as 4096 × 4096.
-/
import proofs.«215733_g63187558859118_cont_9to1_m_256_17_alg».proof.Proof.TcSideMain
import proofs.«215733_g63187558859118_cont_9to1_m_256_17_alg».proof.Proof.TcSideAdaptIdeal

noncomputable section

namespace Cert.Proof.KernelIdealTc

open Cert.KernelIdeal Cert.KernelIdeal.Gen Cert.Proof.KernelIdealSetup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KernelIdealSc (P FIN outV resV locA dv adapt_st adapt_dn adapt_fin Kept)

variable {F : FTy → Type} [FloatOps F]

local notation "𝕄" => MT nD τ sig (HIx 1) (Elt F) ℕ UU ℕ

/-- The one device. -/
abbrev d₀ : Dev nD := ⟨0, Nat.one_pos⟩

section Contents
variable (m : (ℓ : Loc nD τ sig) → Buf (Elt F) ℓ)

/-- What the SparseCore call sees: the flat score table, -/
def f7 : S1048576.Idx → Elt F .f32 := V3 m d₀ (dv main_v7)
/-- the flat component numbers, -/
def f8 : S16777216.Idx → Elt F .i32 := V3 m d₀ (dv main_v8)
/-- the flat inputs, -/
def f9 : S16777216.Idx → Elt F .f32 := V3 m d₀ (dv main_v9)
/-- and the result array as the memory holds it. -/
def f10 : S16777216.Idx → Elt F .f32 := V3 m d₀ (dv main_v10)

/-- The flat component numbers are the third argument laid out flat. -/
theorem v8_eq : f8 m = shapeCast S16777216 (m (locA d₀ main_arg2)) shapeCasts_S4096x4096_S16777216 := by
  unfold f8
  show StableHlo.after opsMid (V2 m d₀) (Proc.devRef .tc main_v8) = _
  rw [mid_v8, V2_of_ne m d₀ main_arg2 (by decide)]
  exact congrArg (fun v : S4096x4096.Idx → BitVec 32 => shapeCast S16777216 v shapeCasts_S4096x4096_S16777216)
    (pre_keep (V0 m d₀) main_arg2 (by decide))

/-- The flat inputs are the first argument laid out flat. -/
theorem v9_eq : f9 m = shapeCast S16777216 (m (locA d₀ main_arg0)) shapeCasts_S4096x4096_S16777216 := by
  unfold f9
  show StableHlo.after opsMid (V2 m d₀) (Proc.devRef .tc main_v9) = _
  rw [mid_v9, V2_of_ne m d₀ main_arg0 (by decide)]
  exact congrArg (fun v : S4096x4096.Idx → Elt F .f32 => shapeCast S16777216 v shapeCasts_S4096x4096_S16777216)
    (pre_keep (V0 m d₀) main_arg0 (by decide))

/-- The flat score table is the TensorCore call's result laid out flat. -/
theorem v7_eq : f7 m = shapeCast S1048576 ((dats (Ain m) 0 d₀).arrAt 2 cfg0.N) shapeCasts_S1024x1024_S1048576 := by
  unfold f7
  show StableHlo.after opsMid (V2 m d₀) (Proc.devRef .tc main_v7) = _
  rw [mid_v7, V2_v6]

end Contents

/-- THE ENTRY FUNCTION, as the launch theorem asks it: from what the launch deals the TensorCore to the handshake state
    after the call, the result buffer at the call's result laid out as 4096 × 4096, and the five arguments as the
    launch memory holds them. -/
theorem hmainFIN [∀ e, Nonempty (Elt F e)] (m : (ℓ : Loc nD τ sig) → Buf (Elt F) ℓ) (ρ : Dev nD → PrngReg)
    (κ : GSem nD τ sig → ℕ) (d : Dev nD) :
    iprop((K (F := F)).ctx Cert.Proof.KernelIdealSc.EH (P (f7 m) (f8 m) (f9 m) (f10 m)) κ ∗ (K (F := F)).tcSt Cert.Proof.KernelIdealSc.EH d 0
        ∗ (K (F := F)).tcRes m ρ d ∗ GP (F := F) d)
      ⊢ wp frame (wpE ((K (F := F)).defs (D (F := F))) 𝒱 (SparseCore.T d) none) Set.univ (main d)
          fun _ => (iprop((K (F := F)).tcSt Cert.Proof.KernelIdealSc.EH d 1 ∗ FIN m (f7 m) (f8 m) (f9 m) d) : sProp 𝕄) := by
  obtain rfl : d = d₀ := Subsingleton.elim _ _
  refine (hmain m (P (f7 m) (f8 m) (f9 m) (f10 m)) ρ (K (F := F)).lev (K (F := F)).refines_self
    (fun d => Function.update (V3 m d) (dv main_v10) (outV (V3 m d (dv main_v7)) (V3 m d (dv main_v8)) (V3 m d (dv main_v9))))
    (fun d => Kept d (V3 m d)) κ d₀ (adapt_st d₀ (V3 m d₀)) (adapt_dn d₀ (V3 m d₀))).trans ?_
  refine wp_mono frame _ Set.univ fun _ => ?_
  iintro ⟨Hst, Hheld⟩
  isplitl [Hst]; · iexact Hst
  iapply (adapt_fin m d₀ (Function.update (V3 m d₀) (dv main_v10) (outV (V3 m d₀ (dv main_v7)) (V3 m d₀ (dv main_v8)) (V3 m d₀ (dv main_v9))))
    (f7 m) (f8 m) (f9 m) (Function.update_self _ _ _)
    ((Function.update_of_ne (show dv main_arg0 ≠ dv main_v10 by decide) _ _).trans ((mid_keep (V2 m d₀) main_arg0 (by decide)).trans ((V2_of_ne m d₀ main_arg0 (by decide)).trans (pre_keep (V0 m d₀) main_arg0 (by decide)))))
    ((Function.update_of_ne (show dv main_arg1 ≠ dv main_v10 by decide) _ _).trans ((mid_keep (V2 m d₀) main_arg1 (by decide)).trans ((V2_of_ne m d₀ main_arg1 (by decide)).trans (pre_keep (V0 m d₀) main_arg1 (by decide)))))
    ((Function.update_of_ne (show dv main_arg2 ≠ dv main_v10 by decide) _ _).trans ((mid_keep (V2 m d₀) main_arg2 (by decide)).trans ((V2_of_ne m d₀ main_arg2 (by decide)).trans (pre_keep (V0 m d₀) main_arg2 (by decide)))))
    ((Function.update_of_ne (show dv main_arg3 ≠ dv main_v10 by decide) _ _).trans ((mid_keep (V2 m d₀) main_arg3 (by decide)).trans ((V2_of_ne m d₀ main_arg3 (by decide)).trans (pre_keep (V0 m d₀) main_arg3 (by decide)))))
    ((Function.update_of_ne (show dv main_arg4 ≠ dv main_v10 by decide) _ _).trans ((mid_keep (V2 m d₀) main_arg4 (by decide)).trans ((V2_of_ne m d₀ main_arg4 (by decide)).trans (pre_keep (V0 m d₀) main_arg4 (by decide))))))
  iexact Hheld

end Cert.Proof.KernelIdealTc

end
-- ==== Proof.TcSideH7.lean ====
/-
  The flat score table the SparseCore call sees is, at the ideal values, the score table of the launch attribute
  table, weight column and bias: the last equation between the TensorCore side and the SparseCore side.
-/
import proofs.«215733_g63187558859118_cont_9to1_m_256_17_alg».proof.Proof.TcSideSees
import proofs.«215733_g63187558859118_cont_9to1_m_256_17_alg».proof.Proof.TcSideFinIdeal

noncomputable section

namespace Cert.Proof.KernelIdealTc

open Cert.KernelIdeal Cert.KernelIdeal.Gen Cert.Proof.KernelIdealSetup
open Idealize.ShloMosaic
open Cert.Proof.KernelIdealSc (locA)

/-- Entry n of what the SparseCore call is given is the score of padded row n of the launch arguments. -/
theorem h7 (m : (ℓ : Loc nD τ sig) → Buf (Elt Ideal) ℓ) :
    f7 (F := Ideal) m = Cert.KernelIdeal.ScoreValue.table (m (locA d₀ main_arg1)) (m (locA d₀ main_arg3)) (m (locA d₀ main_arg4)) :=
  v7_table m d₀

end Cert.Proof.KernelIdealTc

end
-- ==== Proof.SetupBits.lean ====
/-
  The program as the launch theorem of a SparseCore program sees it: its configuration (one call of a vector-subcore
  kernel on 2 SparseCores × 16 tiles, beside one TensorCore pallas_call), the side conditions of that configuration, and
  the ghost state of the proof: the handshakes' rounds, the subcore barrier cells' rounds, and the transfers' counters.
-/
import proofs.«215733_g63187558859118_cont_9to1_m_256_17_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215733_g63187558859118_cont_9to1_m_256_17_alg».proof.Proof.Gen.Kernel
import proofs.«215733_g63187558859118_cont_9to1_m_256_17_alg».proof.Proof.Gen.Kernel.Skeleton

noncomputable section

namespace Cert.Proof.KernelSetup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
/-- The pallas_call's staging cells' rounds: the pipeline library's own algebra (duties unnamed). -/
abbrev UP : Type := UR sig nD τ
abbrev UU : Type := UH × (UB × (UP × Counters))

end Cert.Proof.KernelSetup

end
-- ==== Proof.ScResBits.lean ====
/-
  What the tiles of the SparseCore kernel hold and return. Tile (c, s) — worker 2 s + c of 32 — handles the 524288
  consecutive pixels from 1048576 s + 524288 c on, in 64 chunks of 8192. It is handed a read share of the score table, of
  the component numbers and of the inputs (HBM arrays every tile reads), its 64 chunks of the result array outright, and
  segment s (65536 entries from 65536 s on) of its SparseCore's shared copy of the table; it returns the read shares, its
  chunks of the result holding component-score × input, and its part of the shared copy.
-/
import proofs.«215733_g63187558859118_cont_9to1_m_256_17_alg».proof.Proof.SetupBits
import Idealize.ShloMosaic.Lib.ValueIdx

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Places -/

abbrev cV (L : grid1.Coords) : Fin τ.nSC := (L 0).castLE hcore1
abbrev jV (L : grid1.Coords) : Fin τ.nSub := (L 1).castLE hsub1

/-- The HBM arrays the kernel names, as locations of the device. -/
abbrev loc7 (d : Dev nD) : Loc nD τ sig := (SparseCore.T d).loc main_v7
abbrev loc8 (d : Dev nD) : Loc nD τ sig := (SparseCore.T d).loc main_v8
abbrev loc9 (d : Dev nD) : Loc nD τ sig := (SparseCore.T d).loc main_v9
abbrev loc10 (d : Dev nD) : Loc nD τ sig := (SparseCore.T d).loc main_v10

/-- SparseCore `c`'s shared copy of the score table. -/
abbrev shRef (c : Fin τ.nSC) : DevRef τ sig := ⟨.shared, ⟨0, by decide⟩, c⟩
abbrev shLoc (d : Dev nD) (c : Fin τ.nSC) : Loc nD τ sig := (d, shRef c)

/-- Worker number 2 s + c of tile (c, s). -/
def wid (L : grid1.Coords) : Fin 32 := ⟨2 * (L 1).val + (L 0).val, by have h1 : (L 1).val < 16 := (L 1).isLt; have h0 : (L 0).val < 2 := (L 0).isLt; omega⟩

/-- The flat pixel array cut into 2048 chunks of 8192; the table into 16 segments of 65536. -/
theorem hdivChunk : 2048 ∣ S16777216.size 0 := ⟨8192, rfl⟩
theorem hdivSeg : 16 ∣ S1048576.size 0 := ⟨65536, rfl⟩

/-- Chunk `k` of tile `L` is chunk 128 s + 64 c + k of the 2048. -/
def chunkNo (L : grid1.Coords) (k : Fin 64) : Fin 2048 :=
  ⟨128 * (L 1).val + 64 * (L 0).val + k.val, by have h1 : (L 1).val < 16 := (L 1).isLt; have h0 : (L 0).val < 2 := (L 0).isLt; have := k.isLt; omega⟩

abbrev chunkR (L : grid1.Coords) (k : Fin 64) : Rect S16777216 := Rect.part (s := S16777216) (a₀ := 0) hdivChunk (chunkNo L k)
abbrev segR (i : Fin 16) : Rect S1048576 := Rect.part (s := S1048576) (a₀ := 0) hdivSeg i

/-! ## Sets and shares -/

local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)

/-- The pixels of chunk `k` of tile `L`. -/
abbrev chunkSet (L : grid1.Coords) (k : Fin 64) : Finset S16777216.Idx := ((oV).view.slice (chunkR L k)).set
/-- The entries of segment `i` of the table. -/
abbrev segSet (i : Fin 16) : Finset S1048576.Idx := ((tabV).view.slice (segR i)).set

/-- Tile `L`'s read share of an array all 32 tiles read. -/
abbrev tok (L : grid1.Coords) : PosShare TreeShare := Transfers.shareTok fullShare 32 (wid L)
/-- Tile `i`'s read share of its SparseCore's table once all sixteen segments are written, -/
abbrev tok16 (i : Fin 16) : PosShare TreeShare := Transfers.shareTok fullShare 16 i
/-- and what is left of a segment's full share once its sixteen read shares are dealt. -/
abbrev rest16 : PosShare TreeShare := Transfers.shareDrop fullShare 16

/-! ## Contents -/

/-- The result array: at pixel `p` the table's entry at the pixel's component number (read as a natural number, reduced
    into the table's range — a no-op where the number is in range) times the pixel's input. -/
def outV (f7 : S1048576.Idx → Elt F .f32) (f8 : S16777216.Idx → Elt F .i32) (f9 : S16777216.Idx → Elt F .f32) : S16777216.Idx → Elt F .f32 :=
  fun p => FloatOps.mulf (f7 (ValueIdx.ix1 ⟨(f8 p : BitVec 32).toNat % 1048576, Nat.mod_lt _ (by decide)⟩)) (f9 p)

/-! ## What a tile is handed and hands back -/

section Hand

variable (d : Dev nD) (f7 : S1048576.Idx → Elt F .f32) (f8 : S16777216.Idx → Elt F .i32) (f9 : S16777216.Idx → Elt F .f32) (f10 : S16777216.Idx → Elt F .f32)

/-- Of the HBM arrays: the three read shares and the tile's 64 chunks of the result at their contents before the call. -/
def goH (L : grid1.Coords) : sProp 𝕄 :=
  iprop((loc7 d ↦{tok L} f7) ∗ (loc8 d ↦{tok L} f8) ∗ (loc9 d ↦{tok L} f9)
    ∗ bigSep Finset.univ fun k : Fin 64 => loc10 d ↦[chunkSet L k]{fullShare} f10)
/-- Back: the read shares, and the chunks holding table-entry × input. -/
def tdH (L : grid1.Coords) : sProp 𝕄 :=
  iprop((loc7 d ↦{tok L} f7) ∗ (loc8 d ↦{tok L} f8) ∗ (loc9 d ↦{tok L} f9)
    ∗ bigSep Finset.univ fun k : Fin 64 => loc10 d ↦[chunkSet L k]{fullShare} outV f7 f8 f9)
/-- Of its SparseCore's shared table: its own segment, at any contents; -/
def goS (c : Fin τ.nSC) (i : Fin 16) : sProp 𝕄 := iprop(∃ f, shLoc d c ↦[segSet i]{fullShare} f)
/-- back: what is left of its segment's share after the sixteen read shares were dealt, and its own read share of the
    whole table, all at the score table's contents. -/
def tdS (c : Fin τ.nSC) (i : Fin 16) : sProp 𝕄 :=
  iprop((shLoc d c ↦[segSet i]{rest16} f7) ∗ (shLoc d c ↦{tok16 i} f7))

end Hand

end Cert.Proof.KernelSc

end
-- ==== Proof.ScBarrierBits.lean ====
/-
  The subcore barrier of the SparseCore kernel, as rounds of duties.

  Each tile copies its own segment of the score table into its SparseCore's shared copy, and then all sixteen tiles of
  the SparseCore meet at the barrier: every tile adds one unit to every tile's barrier semaphore and waits for sixteen
  on its own. The sixteen units a tile's semaphore receives are one round of sixteen duties, one per tile of the
  SparseCore, named by the tile's number. Tile n's duty in tile j's round CARRIES something: a read share — the j-th of
  sixteen — of segment n of the shared copy, at the score table's contents. So before the barrier a tile cuts the full
  share of its own segment into what is left over and sixteen read shares, one for each round it has a duty in; and
  after the barrier a tile's own round has collected the j-th read share of every segment, which together are the
  j-th read share of the whole shared copy. That is what lets a tile read any row of the table after the barrier.
-/
import proofs.«215733_g63187558859118_cont_9to1_m_256_17_alg».proof.Proof.ScResBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The barrier cells' rounds library: the left half of the middle factor of the ghost state. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

theorem nSub_eq : τ.nSub = 16 := rfl
theorem bound_one : grid1.bound 1 = 16 := rfl
/-- A tile's number within its SparseCore, as one of sixteen. -/
abbrev jL (L : grid1.Coords) : Fin 16 := Fin.cast bound_one (L 1)

/-! ## The segments of the table -/

local notation "tabV" => (Memref.whole Cert.Kernel.cc1_scratch0 : Memref Cert.Kernel.sig Kind.scVector Space.shared Cert.Kernel.S1048576 EltTy.f32)

theorem segSet_eq (i : Fin 16) : segSet i = (segR i).set := by
  show ((View.whole (cc1_scratch0 : Ref sig .scVector)).slice (segR i)).set = _
  rw [View.set_slice]; exact Finset.map_refl
theorem segs_disjoint : ∀ i ∈ (Finset.univ : Finset (Fin 16)), ∀ j ∈ (Finset.univ : Finset (Fin 16)), i ≠ j → Disjoint (segSet i) (segSet j) :=
  fun i _ j _ h => by rw [segSet_eq, segSet_eq]; exact Rect.part_disjoint hdivSeg h
theorem segs_cover : (Finset.univ : Finset (Fin 16)).biUnion segSet = Finset.univ :=
  (Finset.biUnion_congr rfl fun i _ => segSet_eq i).trans (Rect.biUnion_part hdivSeg)

/-- The shared copy at one share is its sixteen segments at that share. -/
theorem shPts_segs (d : Dev nD) (c : Fin τ.nSC) (q : PosShare TreeShare) (f : Buf (Elt F) (shLoc d c)) :
    (shLoc d c ↦{q} f : sProp 𝕄) = bigSep Finset.univ fun i : Fin 16 => shLoc d c ↦[segSet i]{q} f := by
  rw [← pointsTo_biUnion Finset.univ (ℓ := shLoc d c) segSet segs_disjoint, segs_cover]; try rfl

/-! ## The barrier cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Table
variable (f7 : S1048576.Idx → Elt F .f32)

/-- What tile `n`'s duty in tile `(c, j)`'s round hands over: the `j`-th read share of segment `n` of SparseCore
    `c`'s shared copy, at the score table's contents. -/
def bPay (g : GSem nD τ sig) (n : ℕ) : sProp 𝕄 :=
  match g with
  | ((d, .scVector c j), _) =>
    if h : n < 16 then (shLoc d c ↦[segSet ⟨n, h⟩]{tok16 (Fin.cast nSub_eq j)} f7 : sProp 𝕄) else iprop(emp)
  | _ => iprop(emp)

/-- The barrier cells' schedule: one round on each, of one unit duty per tile of the SparseCore (named by its number),
    each handing over a read share of its segment. -/
def bRd : Rounds.Schedule (GSem nD τ sig) ℕ 𝕄 where
  duties g r := if isBar g ∧ r = 0 then (Finset.univ : Finset (Fin τ.nSub)).image Fin.val else ∅
  amount _ _ _ := 1
  payload g _ n := bPay f7 g n
  amount_pos _ _ _ _ := Nat.one_pos

instance bRd_payload_storable (g : GSem nD τ sig) (r n : ℕ) : BI.Storable (upEmb : UEmb _ 𝕄) ((bRd f7).payload g r n) := by
  show BI.Storable upEmb (bPay f7 g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd f7).duties (bcell d c j) 0 = (Finset.univ : Finset (Fin τ.nSub)).image Fin.val := by
  simp [bRd, isBar]
theorem bRd_mem₀ (d : Dev nD) (c : Fin τ.nSC) (j i : Fin τ.nSub) : i.val ∈ (bRd f7).duties (bcell d c j) 0 := by
  rw [bRd_duties₀]; exact Finset.mem_image_of_mem _ (Finset.mem_univ i)
theorem bRd_expect (d : Dev nD) (c : Fin τ.nSC) (j : Fin τ.nSub) : 0 + grid1.bound 1 = (bRd f7).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

end Table

/-- What the launch has tile `(c, i)` owe for the barrier: a unit on every tile's cell of its SparseCore, at the call's
    index. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

section Table
variable (f7 : S1048576.Idx → Elt F .f32)

/-! ## The tile's own cells for the barrier: what the launch deals its proof -/

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd f7) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What crosses the barrier -/

variable (d : Dev nD) (L : grid1.Coords)

/-- Tile `L`'s duty in tile `j`'s round hands over the `j`-th read share of `L`'s own segment. -/
theorem payload_mine (j : Fin (grid1.bound 1)) :
    (bRd f7).payload (bcell d (cV L) (j.castLE hsub1)) 0 (jV L).val
      = (shLoc d (cV L) ↦[segSet (jL L)]{tok16 (Fin.cast bound_one j)} f7 : sProp 𝕄) := by
  show bPay f7 (bcell d (cV L) (j.castLE hsub1)) (jV L).val = _
  unfold bPay; dsimp only
  rw [dif_pos (show (jV L).val < 16 from (jV L).isLt)]
  rfl

/-- Tile `i`'s duty in tile `L`'s own round hands over `L`'s read share of segment `i`. -/
theorem payload_theirs (i : Fin τ.nSub) :
    (bRd f7).payload (bcell d (cV L) (jV L)) 0 i.val
      = (shLoc d (cV L) ↦[segSet (Fin.cast nSub_eq i)]{tok16 (jL L)} f7 : sProp 𝕄) := by
  show bPay f7 (bcell d (cV L) (jV L)) i.val = _
  unfold bPay; dsimp only
  rw [dif_pos (show i.val < 16 from i.isLt)]
  rfl

/-- Before the barrier: the full share of the tile's own segment, written, is what is left over and the sixteen read
    shares its sixteen duties hand over. -/
theorem pays_intro : (shLoc d (cV L) ↦[segSet (jL L)]{fullShare} f7 : sProp 𝕄)
    ⊢ iprop((shLoc d (cV L) ↦[segSet (jL L)]{rest16} f7)
      ∗ bigSep Finset.univ fun j : Fin (grid1.bound 1) => (bRd f7).payload (bcell d (cV L) (j.castLE hsub1)) 0 (jV L).val) := by
  rw [show (bigSep Finset.univ fun j : Fin (grid1.bound 1) => (bRd f7).payload (bcell d (cV L) (j.castLE hsub1)) 0 (jV L).val)
      = bigSep Finset.univ fun j : Fin 16 => (shLoc d (cV L) ↦[segSet (jL L)]{tok16 j} f7 : sProp 𝕄) from
      bigSep_congr fun j _ => payload_mine f7 d L j]
  exact Transfers.pointsTo_toks_split fullShare 16

/-- After it: what the tile's own round collected — its read share of each of the sixteen segments — is its read share
    of the whole shared copy. -/
theorem pays_elim : (bigSep ((bRd f7).duties (bcell d (cV L) (jV L)) 0 \ ∅) fun n => (bRd f7).payload (bcell d (cV L) (jV L)) 0 n)
    ⊢ (shLoc d (cV L) ↦{tok16 (jL L)} f7 : sProp 𝕄) := by
  rw [Finset.sdiff_empty, bRd_duties₀, bigSep_image_of_injOn (Fin.val_injective.injOn),
    show (bigSep Finset.univ fun i : Fin τ.nSub => (bRd f7).payload (bcell d (cV L) (jV L)) 0 i.val)
      = bigSep Finset.univ fun i : Fin 16 => (shLoc d (cV L) ↦[segSet i]{tok16 (jL L)} f7 : sProp 𝕄) from
      bigSep_congr fun i _ => payload_theirs f7 d L i,
    ← shPts_segs]

end Table

end Cert.Proof.KernelSc

end
-- ==== Proof.ScLaunchBits.lean ====
/-
  What the handshakes of the SparseCore call carry, how a SparseCore's operands split among its sixteen tiles, and a
  tile's obligation.

  The TensorCore hands each of the two SparseCores what its sixteen tiles need of the HBM arrays: per tile a read
  share of the score table, of the component numbers and of the inputs, and the tile's 64 chunks of the result array.
  The sequencer passes these on tile by tile, and adds to each tile segment i of its own shared copy of the table (the
  shared memory is the sequencer's; it is cut into the sixteen segments). Back come the read shares, the chunks at
  component-score × input, and of the shared copy, per tile, what is left of its segment after the sixteen read shares
  were dealt together with its read share of the whole copy: for each segment the leftover and the sixteen read shares
  join to the full share again, and the segments to the whole copy. Each tile also consumes its barrier kit and owes
  its sixteen arrivals at the barrier, in the call's band of levels.
-/
import proofs.«215733_g63187558859118_cont_9to1_m_256_17_alg».proof.Proof.ScBarrierBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Places -/

/-- The grid coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The same from the call's own numbering of its SparseCores and tiles. -/
abbrev coords (c : Fin ((K (F := F)).nCore 0)) (i : Fin ((K (F := F)).nSub 0)) : grid1.Coords :=
  coordsV ⟨((K (F := F)).core 0 c).val, c.isLt⟩ ⟨((K (F := F)).sub 0 i).val, i.isLt⟩

abbrev coreOf (c : Fin ((K (F := F)).nCore 0)) : Fin τ.nSC := (K (F := F)).core 0 c

/-- A tile's program at its coordinates. -/
abbrev tileProg (L : grid1.Coords) :=
  cc1_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0

section Pay
variable (f7 : S1048576.Idx → Elt F .f32) (f8 : S16777216.Idx → Elt F .i32) (f9 : S16777216.Idx → Elt F .f32) (f10 : S16777216.Idx → Elt F .f32)

/-! ## What the handshakes carry -/

/-- The one call: per SparseCore the sixteen tiles' parts of the HBM arrays; per tile that part and its segment of the
    shared copy; back the same at the results. Each tile consumes its barrier kit and owes its arrivals. -/
def P : (K (F := F)).Pay (nD := nD) (Val := Elt F) (Name := ℕ) (U := UU) where
  st := fun q d c => match q with
    | 0 => bigSep Finset.univ fun i : Fin ((K (F := F)).nSub 0) => goH d f7 f8 f9 f10 (coords c i)
  dn := fun q d c => match q with
    | 0 => bigSep Finset.univ fun i : Fin ((K (F := F)).nSub 0) => tdH d f7 f8 f9 (coords c i)
  go := fun q d c i => match q with
    | 0 => iprop(goH d f7 f8 f9 f10 (coords c i) ∗ goS d (coreOf c) (Fin.cast nSub_zero i))
  td := fun q d c i => match q with
    | 0 => iprop(tdH d f7 f8 f9 (coords c i) ∗ tdS d f7 (coreOf c) (Fin.cast nSub_zero i))
  x := fun _ thr => match thr with
    | (d, .scVector c i) => bkit f7 d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

theorem P_st (d : Dev nD) (c : Fin ((K (F := F)).nCore 0)) :
    (P f7 f8 f9 f10).st 0 d c = bigSep Finset.univ fun i : Fin ((K (F := F)).nSub 0) => goH d f7 f8 f9 f10 (coords c i) := rfl
theorem P_dn (d : Dev nD) (c : Fin ((K (F := F)).nCore 0)) :
    (P f7 f8 f9 f10).dn 0 d c = bigSep Finset.univ fun i : Fin ((K (F := F)).nSub 0) => tdH d f7 f8 f9 (coords c i) := rfl
theorem P_go (d : Dev nD) (c : Fin ((K (F := F)).nCore 0)) (i : Fin ((K (F := F)).nSub 0)) :
    (P f7 f8 f9 f10).go 0 d c i = iprop(goH d f7 f8 f9 f10 (coords c i) ∗ goS d (coreOf c) (Fin.cast nSub_zero i)) := rfl
theorem P_td (d : Dev nD) (c : Fin ((K (F := F)).nCore 0)) (i : Fin ((K (F := F)).nSub 0)) :
    (P f7 f8 f9 f10).td 0 d c i = iprop(tdH d f7 f8 f9 (coords c i) ∗ tdS d f7 (coreOf c) (Fin.cast nSub_zero i)) := rfl
theorem P_x_V (d : Dev nD) (c : Fin τ.nSC) (i : Fin τ.nSub) : (P f7 f8 f9 f10).x 0 (V d c i) = bkit f7 d c i := rfl
theorem P_ox_V (d : Dev nD) (c : Fin τ.nSC) (i : Fin τ.nSub) : (P f7 f8 f9 f10).ox 0 (V d c i) = oxV d c := rfl

instance goH_storable (d : Dev nD) (L : grid1.Coords) : BI.Storable (upEmb : UEmb _ 𝕄) (goH d f7 f8 f9 f10 L) := by
  unfold goH; infer_instance
instance tdH_storable (d : Dev nD) (L : grid1.Coords) : BI.Storable (upEmb : UEmb _ 𝕄) (tdH d f7 f8 f9 L) := by
  unfold tdH; infer_instance
instance goS_storable (d : Dev nD) (c : Fin τ.nSC) (i : Fin 16) : BI.Storable (upEmb : UEmb _ 𝕄) (goS (F := F) d c i) := by
  unfold goS; infer_instance
instance tdS_storable (d : Dev nD) (c : Fin τ.nSC) (i : Fin 16) : BI.Storable (upEmb : UEmb _ 𝕄) (tdS d f7 c i) := by
  unfold tdS; infer_instance

instance P_storable : (P f7 f8 f9 f10).IsStorable where
  st q d c := match q with
    | 0 => (inferInstance : BI.Storable (upEmb : UEmb _ 𝕄) (bigSep Finset.univ fun i : Fin ((K (F := F)).nSub 0) => goH d f7 f8 f9 f10 (coords c i)))
  dn q d c := match q with
    | 0 => (inferInstance : BI.Storable (upEmb : UEmb _ 𝕄) (bigSep Finset.univ fun i : Fin ((K (F := F)).nSub 0) => tdH d f7 f8 f9 (coords c i)))
  go q d c i := match q with
    | 0 => (inferInstance : BI.Storable (upEmb : UEmb _ 𝕄) iprop(goH d f7 f8 f9 f10 (coords c i) ∗ goS d (coreOf c) (Fin.cast nSub_zero i)))
  td q d c i := match q with
    | 0 => (inferInstance : BI.Storable (upEmb : UEmb _ 𝕄) iprop(tdH d f7 f8 f9 (coords c i) ∗ tdS d f7 (coreOf c) (Fin.cast nSub_zero i)))

/-! ## A tile's obligation, from its body's proof -/

/-- What the proof of a tile's body establishes, at any coordinates. -/
def TileBody : Prop :=
  ∀ (hF : (K (F := F)).Facts) (d : Dev nD) (L : grid1.Coords) (hidx : ∀ p, (f8 p : BitVec 32).toNat < 1048576)
    (O : CellTallies nD τ sig (HIx 1)) (W : Waits sig (HIx 1)) (hO : ∀ g, O g none = 0)
    (hOlev : ∀ g ι, 0 < O g ι → 8 * (0 : Fin 1).val + 6 ≤ (K (F := F)).lev g ι),
    iprop(levAts (K (F := F)).L (K (F := F)).lev ∗ bkit f7 d (cV L) (jV L) ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (tileProg L)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

theorem defs₀_vector (c : Fin τ.nSC) (s : Fin τ.nSub) :
    defs₀ (F := F) (.scVector c s) 1 ()
      = SparseCore.onTile hcore1 hsub1 (fun c s => tileProg (F := F) (coordsV c s)) ⟨⟩ c s := rfl

set_option maxRecDepth 16384 in
/-- The obligation of the launch theorem for the vector-subcore call, from the body's proof. -/
theorem tileObl (hF : (K (F := F)).Facts) (hidx : ∀ p, (f8 p : BitVec 32).toNat < 1048576) (htile : TileBody f7 f8 f9 f10) :
    (K (F := F)).TileObl (D (F := F)) 𝒱 (P f7 f8 f9 f10) v₀ 0 := by
  intro d c i O W hO hOlev _
  have hci : ((K (F := F)).core 0 c).val < grid1.bound 0 ∧ ((K (F := F)).sub 0 i).val < grid1.bound 1 := ⟨c.isLt, i.isLt⟩
  rw [P_ox_V, P_x_V, P_go, P_td]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile hF d (coordsV ⟨_, hci.1⟩ ⟨_, hci.2⟩) hidx O W hO hOlev

end Pay

end Cert.Proof.KernelSc

end
-- ==== Proof.ScSplitBits.lean ====
/-
  How a SparseCore's operands split among its sixteen tiles and gather again.

  Of the HBM arrays nothing needs cutting here: what the TensorCore hands a SparseCore is already the sixteen tiles'
  parts side by side. The shared copy of the table is the sequencer's own buffer: whole, at a full share, it is its
  sixteen segments at a full share, one per tile. Back, tile i returns what is left of segment i after its sixteen
  read shares were dealt, and its own read share of the whole copy, that is of every segment. Collected over the
  tiles and regrouped by segment, each segment has its leftover and all sixteen read shares again: the full share;
  and the sixteen segments are the whole copy.
-/
import proofs.«215733_g63187558859118_cont_9to1_m_256_17_alg».proof.Proof.ScLaunchBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- A family over the call's sixteen tiles is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The whole copy at a full share deals each tile its segment. -/
theorem goS_deal (d : Dev nD) (c : Fin τ.nSC) (f : Buf (Elt F) (shLoc d c)) :
    (shLoc d c ↦{fullShare} f : sProp 𝕄) ⊢ bigSep Finset.univ fun i : Fin ((K (F := F)).nSub 0) => goS (F := F) d c (Fin.cast nSub_zero i) := by
  rw [bigSep_tasks (F := F) (fun i => goS (F := F) d c i), shPts_segs d c fullShare f]
  unfold goS
  exact bigSep_mono fun i _ => BI.BIClass.exists_intro (Φ := fun g => (shLoc d c ↦[segSet i]{fullShare} g : sProp 𝕄)) f

section Table
variable (f7 : S1048576.Idx → Elt F .f32)

/-- What the sixteen tiles return of the shared copy is the whole copy at a full share. -/
theorem tdS_join (d : Dev nD) (c : Fin τ.nSC) :
    (bigSep Finset.univ fun i : Fin ((K (F := F)).nSub 0) => tdS d f7 c (Fin.cast nSub_zero i))
      ⊢ (iprop(∃ f, shLoc d c ↦{fullShare} f) : sProp 𝕄) := by
  rw [bigSep_tasks (F := F) (fun i => tdS d f7 c i)]
  unfold tdS
  rw [bigSep_sep',
    show (bigSep Finset.univ fun i : Fin 16 => (shLoc d c ↦{tok16 i} f7 : sProp 𝕄))
      = bigSep Finset.univ fun n : Fin 16 => bigSep Finset.univ fun i : Fin 16 => (shLoc d c ↦[segSet n]{tok16 i} f7 : sProp 𝕄) from
      (bigSep_congr fun i _ => shPts_segs d c (tok16 i) f7).trans (bigSep_univ_comm _),
    ← bigSep_sep']
  refine (bigSep_mono (Ψ := fun n : Fin 16 => (shLoc d c ↦[segSet n]{fullShare} f7 : sProp 𝕄)) fun n _ =>
    Transfers.pointsTo_toks_join fullShare 16).trans ?_
  rw [← shPts_segs]
  exact BI.BIClass.exists_intro (Φ := fun g => (shLoc d c ↦{fullShare} g : sProp 𝕄)) f7

variable (f8 : S16777216.Idx → Elt F .i32) (f9 : S16777216.Idx → Elt F .f32) (f10 : S16777216.Idx → Elt F .f32)

/-- THE SPLIT of the launch theorem for the vector-subcore call. -/
theorem vecSplit : (K (F := F)).VecSplit (P f7 f8 f9 f10) 0 := by
  intro d c
  rw [P_st, P_dn]
  simp only [P_go, P_td]
  rw [bigSep_sep', bigSep_sep', ownBufs_S]
  iintro ⟨Hgo, ⟨%fsh, Hsh⟩, Hrest⟩; imodintro
  isplitl [Hgo Hsh]
  · isplitl [Hgo]; · iexact Hgo
    iapply (goS_deal (F := F) d (coreOf c) fsh); iexact Hsh
  iintro ⟨Htd, HtdS⟩
  isplitl [Htd]; · iexact Htd
  isplitl [HtdS]; · iapply (tdS_join f7 d (coreOf c)); iexact HtdS
  iexact Hrest

end Table

end Cert.Proof.KernelSc

end
-- ==== Proof.ScElemBits.lean ====
/-
  The launch element of the ghost state: what the launch hands every tile for the barrier.

  The ghost state is a product: the handshakes' rounds, the barrier cells' rounds, and a last factor (the TensorCore
  call's staging cells' rounds beside the transfers' counters) that is passed on whole. The barrier cells are the 32
  tiles' barrier semaphores; the duty tokens are tile i's token in tile j's round 0, for every pair of tiles of one
  SparseCore. Funding the cells' rounds gives each cell its round state, the fact that it has reached round 0, its
  position at the origin and the tokens; the semaphores at zero come out of the free semaphores the launch hands over;
  states and semaphores make the cells' invariants, allocated at once; the credit for the tiles' own debts regroups
  into sixteen units per tile's own cell. Then every tile gets its kit: the invariants and the "reached" facts of its
  SparseCore's sixteen cells (shared by all: they are persistent), and its own position, its own sixteen tokens and
  its own credit.
-/
import proofs.«215733_g63187558859118_cont_9to1_m_256_17_alg».proof.Proof.ScLaunchBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The handshakes' rounds library: the first factor of the ghost state. -/
abbrev EH : Emb UH (MT nD τ sig (HIx 1) (Elt F) ℕ UU ℕ) := embL

/-- The last factor of the ghost state (the TensorCore call's staging cells' rounds and the transfers' counters),
    whole. -/
def ER : Emb (UP × Counters) (MT nD τ sig (HIx 1) (Elt F) ℕ UU ℕ) :=
  ((Emb.inr : Emb (UP × Counters) (UB × (UP × Counters))).trans (Emb.inr : Emb (UB × (UP × Counters)) UU)).trans
    (uEmb (nD := nD) (sig := sig) (Ix := HIx 1) (Val := Elt F) (Name := ℕ) (U := UU) (Lvl := ℕ)).toEmb

abbrev DCI : Type := Dev nD × Fin τ.nSC × Fin τ.nSub
abbrev bcell₃ (x : DCI) : GSem nD τ sig := bcell x.1 x.2.1 x.2.2

/-- The barrier cells: every tile's barrier semaphore. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element, its last factor `r` given. -/
def u₀ (r : UP × Counters) : UU := (initOf (K (F := F)).hsCells (K (F := F)).hsToks, (initOf bCells bToks, r))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The ghost state's second factor (the barrier cells' rounds beside the last factor), whole. -/
def E2 : Emb (UB × (UP × Counters)) (MT nD τ sig (HIx 1) (Elt F) ℕ UU ℕ) :=
  (Emb.inr : Emb (UB × (UP × Counters)) UU).trans (uEmb (nD := nD) (sig := sig) (Ix := HIx 1) (Val := Elt F) (Name := ℕ) (U := UU) (Lvl := ℕ)).toEmb

/-- The element is its first factor and the rest … -/
theorem ownU_split₁ (a : UH) (b : UB) (r : UP × Counters) :
    (ownU ((a, (b, r)) : UU) : sProp 𝕄) ⊢ iprop(BI.own (EH a) ∗ BI.own (E2 (b, r))) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, r))))

/-- … and the rest is the barrier cells' factor and the last. -/
theorem ownU_split₂ (b : UB) (r : UP × Counters) :
    (BI.own (E2 (b, r)) : sProp 𝕄) ⊢ iprop(BI.own (EB b) ∗ BI.own (ER r)) :=
  BI.own_op_elim ((E2 (F := F)).op_of_mem (Prod.mk_mem_op (URA.mem_op_one b) (URA.mem_one_op r)))

/-- The element is its three factors, each owned. -/
theorem ownU_split (a : UH) (b : UB) (r : UP × Counters) :
    (ownU ((a, (b, r)) : UU) : sProp 𝕄) ⊢ iprop(BI.own (EH a) ∗ BI.own (EB b) ∗ BI.own (ER r)) := by
  iintro Hu
  ihave H := (ownU_split₁ a b r) $$ Hu
  icases H with ⟨HH, HR⟩
  ihave H2 := (ownU_split₂ b r) $$ HR
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem bigSep_emp' {I : Type} (s : Finset I) : (bigSep s fun _ => iprop(emp)) = (iprop(emp) : sProp 𝕄) := bigSep_emp_const s

theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

section Pay
variable (f7 : S1048576.Idx → Elt F .f32) (f8 : S16777216.Idx → Elt F .i32) (f9 : S16777216.Idx → Elt F .f32) (f10 : S16777216.Idx → Elt F .f32)

/-- The barrier cells' invariants, allocated at once. -/
theorem invs_b : iprop((bigSep bCells fun g => (semVal g 0 : sProp 𝕄)) ∗ bigSep bCells fun g => roundState EB (bRd f7) g 0)
    ⊢ |={Set.univ}=> iprop(∃ κ : GSem nD τ sig → ℕ, bigSep bCells fun g => cellInv EB (bRd f7) (κ g) g) := by
  refine (Rounds.bodies_intro EB (bRd f7) bCells).trans ((inv_alloc_family bCells (Rounds.body EB (bRd f7)) ∅ (E := Set.univ)).trans ?_)
  iintro H
  imod H with ⟨%κ, -, Hinv⟩
  imodintro; iexists κ; iexact Hinv

/-- The credit for the kernel's own debts, regrouped: each tile the sixteen units of its own cell. -/
theorem creds_b : ((P f7 f8 f9 f10).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P f7 f8 f9 f10).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P f7 f8 f9 f10).oxFrom 0 (V d c i) = oxV d c := fun i => by
    rw [show (0 : ℕ) = (0 : Fin 1).val from rfl, (P f7 f8 f9 f10).oxFrom_step, (P f7 f8 f9 f10).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P f7 f8 f9 f10).x q (SparseCore.T d)) = iprop(emp) :=
  bigSep_univ_of_subsingleton (0 : Fin 1)
theorem Px_S (d : Dev nD) (c : Fin τ.nSC) : (bigSep Finset.univ fun q : Fin 1 => (P f7 f8 f9 f10).x q (S d c)) = iprop(emp) :=
  bigSep_univ_of_subsingleton (0 : Fin 1)
theorem Px_V (d : Dev nD) (c : Fin τ.nSC) (i : Fin τ.nSub) :
    (bigSep Finset.univ fun q : Fin 1 => (P f7 f8 f9 f10).x q (V d c i)) = bkit f7 d c i :=
  bigSep_univ_of_subsingleton (0 : Fin 1)

/-- What every tile is handed alike: every barrier cell's invariant, and that each has reached round 0. -/
abbrev sharedKit : sProp 𝕄 :=
  iprop((∃ κ : GSem nD τ sig → ℕ, bigSep Finset.univ fun x : DCI => cellInv EB (bRd f7) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(sharedKit f7 ∗ mine (F := F) dci) ⊢ (bkit f7 dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd f7) (κ (bcell₃ x)) (bcell₃ x)) fun j _ =>
        sep_elim_left.trans (bigSep_elim (Φ := fun x : DCI => (cellInv EB (bRd f7) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(sharedKit f7 ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P f7 f8 f9 f10).x q thr : sProp 𝕄) := by
  rw [SparseCore.Cfg.bigSep_threads (fun thr : Thread nD τ => bigSep Finset.univ fun q : Fin 1 => (P f7 f8 f9 f10).x q thr)]
  simp only [Px_T, Px_S, Px_V, bigSep_emp']
  iintro ⟨#Hsh, Hat, Htok, Hcred⟩
  isplitr; · iempintro
  isplitr; · iempintro
  iapply (bigSep_mono_frame (R := sharedKit f7) (Φ := mine (F := F)) fun dci _ => kit_intro f7 dci)
  isplitr; · iexact Hsh
  unfold mine
  rw [bigSep_sep', bigSep_sep']
  isplitl [Hat]; · iexact Hat
  isplitl [Htok]; · iexact Htok
  iexact Hcred

/-- THE LAUNCH ELEMENT, its last factor passed on whole: from the element, the credit for the tiles' own debts and the
    free semaphores at zero, the handshake cells' rounds, the last factor owned, and every thread's start for the
    call. -/
theorem hu₀_sc (r : UP × Counters) : iprop(ownU (u₀ (F := F) r) ∗ (P f7 f8 f9 f10).oxCred ∗ (K (F := F)).freeSems0)
    ⊢ |={Set.univ}=> iprop(BI.own (EH (initOf (K (F := F)).hsCells (K (F := F)).hsToks)) ∗ BI.own (ER r)
        ∗ (bigSep Finset.univ fun thr : Thread nD τ => bigSep Finset.univ fun q : Fin 1 => (P f7 f8 f9 f10).x q thr) : sProp 𝕄) := by
  unfold u₀
  iintro ⟨Hu, Hcred, Hfree⟩
  ihave H := (ownU_split _ _ _) $$ Hu
  icases H with ⟨HH, HB, HR⟩
  imod (Rounds.fund EB (bRd f7) bCells bToks) $$ HB with ⟨Hst, #Hr, Hat, Htok⟩
  ihave Hsems := (sems_b (F := F)) $$ Hfree
  imod (invs_b f7) $$ [Hsems Hst] with ⟨%κ, #Hinv⟩
  · isplitl [Hsems] <;> iassumption
  ihave Hcred' := (creds_b f7 f8 f9 f10) $$ Hcred
  ihave Hinv' := (Entails.of_eq (bCells_eq (F := F) fun g => cellInv EB (bRd f7) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HR]; · iexact HR
  iapply (kits_deal f7 f8 f9 f10)
  isplitr
  · isplitl; · iexists κ; iexact Hinv'
    iexact Hr'
  isplitl [Hat']; · iexact Hat'
  isplitl [Htok']; · iexact Htok'
  iexact Hcred'

end Pay

end Cert.Proof.KernelSc

end
-- ==== Proof.TcSideAlgBits.lean ====
/-
  The TensorCore pallas_call inside the SparseCore program: where the pipeline library's ghost state sits in the
  proof's resource algebra, and the call as @main spells it.

  The pipeline's staging cells (five DMA semaphores: two for the attribute blocks, one for the eighteen words, two for
  the score blocks) are cells of the rounds library with unnamed duties; their component of the algebra is embedded
  beside the handshakes', the barrier cells' and the transfers' counters. The launch element of that component funds,
  for the one TensorCore, the cells' launch state and the duty tokens of the pipeline's 16 + 1 + 16 transfers: what
  the region's entry allocates the cells' invariants from. The region's call in @main is the pipeline's entry label
  seen through the SparseCore program's label signature.
-/
import proofs.«215733_g63187558859118_cont_9to1_m_256_17_alg».proof.Proof.SetupBits
import proofs.«215733_g63187558859118_cont_9to1_m_256_17_alg».proof.Proof.Gen.Kernel.Launch
import Idealize.ShloMosaic.Lib.Pipeline.Regions

noncomputable section

namespace Cert.Proof.KernelTc

open Cert.Kernel Cert.Kernel.Gen Cert.Proof.KernelSetup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

/-- The pipeline library's component of the algebra, embedded: the third of the four. -/
abbrev EP : Emb UP 𝕄 := (Emb.inl : Emb UP (UP × Counters)).trans ((Emb.inr : Emb (UP × Counters) (UB × (UP × Counters))).trans embR)

instance EP_landsIn : (EP (F := F)).LandsIn (upEmb : UEmb _ 𝕄) := by unfold EP embR; infer_instance

/-- The pipeline prefetches no table: its one admissible contents. -/
abbrev adm : (p : Fin 1) → (pcfgs (F := F) p).Adm := fun p => Pipeline.Cfg.toPCfg_adm (cfgs p)

theorem pin_eq (p : Fin 1) : Pipeline.pin (pcfgs (F := F)) adm p = cfg0 := rfl

/-- The staging cells are pairwise distinct. -/
theorem cellOf_inj' : Function.Injective (Pipeline.cellOf (nD := nD) (τ := τ) (Pipeline.pin (pcfgs (F := F)) adm)) := cellOf_inj

/-- What the TensorCore of `d` holds of the pipeline's ghost state between the launch and the region: the cells' launch
    state and the transfers' duty tokens. -/
abbrev GP (d : Dev nD) : sProp 𝕄 :=
  iprop(Pipeline.cellsGhost (Pipeline.pin (pcfgs (F := F)) adm) EP 0 d ∗ Pipeline.toksInit (Pipeline.pin (pcfgs (F := F)) adm) EP 0 d)

/-- The launch element of the pipeline library's component. -/
abbrev uP : UP := initOf (Pipeline.cells (Pipeline.pin (pcfgs (F := F)) adm) cellOf_inj') (Pipeline.launchToks (Pipeline.pin (pcfgs (F := F)) adm) cellOf_inj')

/-- Owning it funds every TensorCore's share. -/
theorem fundP : (BI.own ((EP (F := F)) (uP (F := F))) : sProp 𝕄) ⊢ iprop(|==> bigSep Finset.univ fun d : Dev nD => GP (F := F) d) := by
  refine (Pipeline.fund_ghost (Pipeline.pin (pcfgs (F := F)) adm) EP cellOf_inj').trans ?_
  have e1 : ∀ X : Fin 1 → sProp 𝕄, bigSep Finset.univ X = X 0 := fun X => by
    rw [show (Finset.univ : Finset (Fin 1)) = {0} from rfl, bigSep_singleton]
  simp only [e1]
  exact Idealize.SL.BI.Entails.refl _

/-- The region's call, as @main spells it, is the pipeline's entry call seen through the SparseCore program's labels. -/
theorem lift_call : (SparseCore.liftProg (Q := 1) (Prog.lift (.customCall (Pipeline.entry (0 : Fin 1)) ()) : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

end Cert.Proof.KernelTc

end
-- ==== Proof.ScRunBits.lean ====
/-
  The program's run.

  From any launch memory whose semaphores read zero, every weakly fair execution of the kernel's thirty-five threads
  terminates, and in every final state the result array is the SparseCore call's result — at each pixel the table's
  entry at the pixel's component number times the pixel's input — laid out as 4096 × 4096, and the five argument
  arrays are as they were. This is the launch theorem of a SparseCore program, applied: its ingredients are a tile's
  obligation (from the proof of a tile's body), the split of a SparseCore's operands among its tiles, the proof of the
  entry function on the TensorCore (taken here as a hypothesis, stated the way the launch theorem wants it), the
  launch element of the ghost state — the barrier cells' part dealt to the tiles, the TensorCore call's part funded
  for the TensorCore —, and the reading of the final assertion off the final memory: an array held whole agrees with
  the memory at every index.
-/
import proofs.«215733_g63187558859118_cont_9to1_m_256_17_alg».proof.Proof.ScSplitBits
import proofs.«215733_g63187558859118_cont_9to1_m_256_17_alg».proof.Proof.ScElemBits
import proofs.«215733_g63187558859118_cont_9to1_m_256_17_alg».proof.Proof.TcSideAlgBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

open Cert.Proof.KernelTc (EP GP uP fundP)

/-- A TensorCore buffer of device `d`, as a location. -/
abbrev locA (d : Dev nD) (b : Ref sig .tc) : Loc nD τ sig := (SparseCore.T d).loc b

section Run
variable (m : (ℓ : Loc nD τ sig) → Buf (Elt F) ℓ) (ρ : Dev nD → PrngReg)
variable (f7 : S1048576.Idx → Elt F .f32) (f8 : S16777216.Idx → Elt F .i32) (f9 : S16777216.Idx → Elt F .f32) (f10 : S16777216.Idx → Elt F .f32)

/-- The result: the SparseCore call's result array laid out as 4096 × 4096. -/
def resV : S4096x4096.Idx → Elt F .f32 := shapeCast S4096x4096 (outV f7 f8 f9) shapeCasts_S16777216_S4096x4096

/-- What the TensorCore ends holding: the result and the five arguments, whole. -/
abbrev FIN (d : Dev nD) : sProp 𝕄 :=
  iprop((locA d main_v11 ↦{fullShare} resV f7 f8 f9)
    ∗ (locA d main_arg0 ↦{fullShare} m (locA d main_arg0))
    ∗ (locA d main_arg1 ↦{fullShare} m (locA d main_arg1))
    ∗ (locA d main_arg2 ↦{fullShare} m (locA d main_arg2))
    ∗ (locA d main_arg3 ↦{fullShare} m (locA d main_arg3))
    ∗ (locA d main_arg4 ↦{fullShare} m (locA d main_arg4)))

/-- What that says of a final state. -/
def fq (d : Dev nD) (s' : Phys nD τ sig (Elt F)) : Prop :=
  s'.mem.mem (locA d main_v11) = resV f7 f8 f9
    ∧ s'.mem.mem (locA d main_arg0) = m (locA d main_arg0)
    ∧ s'.mem.mem (locA d main_arg1) = m (locA d main_arg1)
    ∧ s'.mem.mem (locA d main_arg2) = m (locA d main_arg2)
    ∧ s'.mem.mem (locA d main_arg3) = m (locA d main_arg3)
    ∧ s'.mem.mem (locA d main_arg4) = m (locA d main_arg4)

theorem hfin (d : Dev nD) (s' : Phys nD τ sig (Elt F)) : iprop(FIN m f7 f8 f9 d ∗ SI s') ⊢ (⌜fq m f7 f8 f9 d s'⌝ : sProp 𝕄) := by
  iintro ⟨⟨H11, H0, H1, H2, H3, H4⟩, HSI⟩
  icombine HSI H11 gives %h11
  icombine HSI H0 gives %h0
  icombine HSI H1 gives %h1
  icombine HSI H2 gives %h2
  icombine HSI H3 gives %h3
  icombine HSI H4 gives %h4
  ipureintro
  exact ⟨funext fun i => h11 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-- The claim of the run, of every device. -/
def QC : PUnit × MemSt nD τ sig (Elt F) → Prop := fun r => ∀ c : Dev nD,
  r.2.mem (locA c main_v11) = resV f7 f8 f9
    ∧ r.2.mem (locA c main_arg0) = m (locA c main_arg0)
    ∧ r.2.mem (locA c main_arg1) = m (locA c main_arg1)
    ∧ r.2.mem (locA c main_arg2) = m (locA c main_arg2)
    ∧ r.2.mem (locA c main_arg3) = m (locA c main_arg3)
    ∧ r.2.mem (locA c main_arg4) = m (locA c main_arg4)

/-- The launch element: the barrier cells' part dealt to the tiles, the TensorCore call's part funded. -/
theorem hu₀ : iprop(ownU (u₀ (F := F) (uP (F := F), 1)) ∗ (P f7 f8 f9 f10).oxCred ∗ (K (F := F)).freeSems0)
    ⊢ |={Set.univ}=> iprop(BI.own (EH (initOf (K (F := F)).hsCells (K (F := F)).hsToks)) ∗ (bigSep Finset.univ fun d : Dev nD => GP (F := F) d)
        ∗ (bigSep Finset.univ fun thr : Thread nD τ => bigSep Finset.univ fun q : Fin 1 => (P f7 f8 f9 f10).x q thr) : sProp 𝕄) := by
  iintro H
  imod (hu₀_sc f7 f8 f9 f10 (uP (F := F), 1)) $$ H with ⟨HH, HR, HX⟩
  ihave HR' := (show (BI.own (ER (F := F) (uP (F := F), 1)) : sProp 𝕄) ⊢ BI.own ((EP (F := F)) (uP (F := F))) from BI.Entails.refl _) $$ HR
  imod (fundP (F := F)) $$ HR' with HG
  imodintro
  isplitl [HH]; · iexact HH
  isplitl [HG]; · iexact HG
  iexact HX

/-- THE RUN, from the proof of a tile's body and of the entry function. -/
theorem run_main [∀ e, Nonempty (Elt F e)] (hidx : ∀ p, (f8 p : BitVec 32).toNat < 1048576) (htile : TileBody f7 f8 f9 f10)
    (hmainH : ∀ (κ : GSem nD τ sig → ℕ) (d : Dev nD),
      iprop((K (F := F)).ctx EH (P f7 f8 f9 f10) κ ∗ (K (F := F)).tcSt EH d 0 ∗ (K (F := F)).tcRes m ρ d ∗ GP (F := F) d)
        ⊢ wp frame (wpE ((K (F := F)).defs (D (F := F))) 𝒱 (SparseCore.T d) none) Set.univ (main d)
            fun _ => iprop((K (F := F)).tcSt EH d 1 ∗ FIN m f7 f8 f9 d)) :
    θ_run (Cert.Kernel.defs (F := F)) (Cert.Kernel.threads (F := F)) ⟨m, fun _ => 0, ρ⟩ (QC m f7 f8 f9) :=
  SparseCore.Cfg.θ_run_sc (K := K (F := F)) (D := D (F := F)) (𝒱 := 𝒱) (EH := EH) (P := P f7 f8 f9 f10) facts v₀
    (fun q hq => match q with | 0 => nomatch hq)
    (fun q _ => match q with | 0 => tileObl f7 f8 f9 f10 facts hidx htile)
    (fun q _ => match q with | 0 => vecSplit f7 f8 f9 f10)
    m ρ main (fun d => GP (F := F) d) (FIN m f7 f8 f9) (u₀ (F := F) (uP (F := F), 1)) (hu₀ f7 f8 f9 f10) hmainH
    (fq m f7 f8 f9) (hfin m f7 f8 f9) (QC m f7 f8 f9) (fun _ h => h)

end Run

end Cert.Proof.KernelSc

end
-- ==== Proof.TcSideBodyBits.lean ====
/-
  The score kernel's body, run once at symbolic operands.

  Handed its three staging buffers whole — the block of fifteen attribute planes and the eighteen words at any
  contents, the score block at anything — the body makes its eighteen plane loads and eighteen word loads, computes,
  and stores one [64, 1024] vector over the whole score buffer; it names no semaphore, scratch or transfer of its
  own. The run returns the two inputs as they were and the score buffer at contents that are a function of the two
  inputs' contents alone: the witness of the subtype below, which the run finds (every load is covered by what is
  held, the one store covers its buffer).
-/
import proofs.«215733_g63187558859118_cont_9to1_m_256_17_alg».proof.Proof.SetupBits
import proofs.«215733_g63187558859118_cont_9to1_m_256_17_alg».proof.Proof.Gen.Kernel.Skeleton
import Idealize.ShloMosaic.Lib.Tactic

noncomputable section

namespace Cert.Proof.KernelTc

open Cert.Kernel Cert.Kernel.Gen Cert.Proof.KernelSetup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

/-- Memref `M`'s buffer on the TensorCore of `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- What the body leaves in the score buffer, over the inputs' contents, WITH the proof that from the three buffers held
    whole the body runs to its return handing back the inputs as they were and the score buffer at that witness. -/
noncomputable def kernelRun (c : Dev nD) (i : grid0.Coords)
    (M1 : Memref sig .tc .vmem S15x64x1024 .f32) (h1 : M1.IsWhole) (M2 : Memref sig .tc .smem S18 .f32) (h2 : M2.IsWhole)
    (M3 : Memref sig .tc .vmem S64x1024 .f32) (h3 : M3.IsWhole) (f1 : Bf (F := F) c M1) (f2 : Bf (F := F) c M2) :
    { W : Bf (F := F) c M3 // ∀ (f3 : Bf (F := F) c M3) (E : Set ℕ) (Q : PUnit → sProp 𝕄),
        iprop(pt c M1 f1 ∗ pt c M2 f2 ∗ pt c M3 f3 ∗ (iprop(pt c M1 f1 ∗ pt c M2 f2 ∗ pt c M3 W) -∗ Q ⟨⟩))
          ⊢ wp frame (wpE (defs₀ (F := F)) Variants.none c none) E (cc0__scores_body i M1 h1 M2 h2 M3 h3) Q } := by
  refine ⟨?_, fun f3 E Q => ?run⟩
  case run =>
    iintro ⟨H1, H2, H3, Hk⟩
    sl_exec_parts!
    sl_step
    iapply Hk
    isplitl [H1]; · iexact H1
    isplitl [H2]; · iexact H2
    iexact H3

end Cert.Proof.KernelTc

end
-- ==== Proof.TcSideDataBits.lean ====
/-
  The pipeline's proof data for the score kernel, and its body obligation.

  The pipeline runs the body at sixteen points. At point t the first window's current staging buffer holds block t of
  the attribute planes (planes × rows 64t … 64t + 63 × lanes: fetched at every point), the second the eighteen words
  (fetched at the first point only and left in place, so the same at every point), and the third, the score block,
  anything. The body leaves the two inputs as they were and the score block at what its run finds from them; the
  invariant between points is the core's scoped buffers that are no staging buffer (there is none), and what the
  TensorCore owes — its start signals to the two SparseCores, all for the later SparseCore call — passes through
  every point untouched, its recorded waits all at level zero.
-/
import proofs.«215733_g63187558859118_cont_9to1_m_256_17_alg».proof.Proof.TcSideAlgBits
import proofs.«215733_g63187558859118_cont_9to1_m_256_17_alg».proof.Proof.TcSideBodyBits
import proofs.«215733_g63187558859118_cont_9to1_m_256_17_alg».proof.Proof.Gen.Kernel.Points
import Idealize.ShloMosaic.Lib.Pipeline.FrameBody

noncomputable section

namespace Cert.Proof.KernelTc

open Cert.Kernel Cert.Kernel.Gen Cert.Proof.KernelSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig (HIx 1) (Elt F) ℕ UU ℕ

-- the three windowed arrays' contents when the region is entered, per device
variable (A : (c : Dev nD) → (w : Fin cfg0.W) → Buf (Elt F) ((cfg0.win w).arr.view.loc (c : Thread nD τ)))

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (A c w)

/-- The current staging memrefs at a point are whole buffers. -/
theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)

/-- What the body leaves in the score block at point `t`: what its run finds from the two input blocks there. -/
def out2 (c : Dev nD) (t : Fin cfg0.N) : S64x1024.Idx → Elt F .f32 :=
  (st0_2 t).view.read (Elt F)
    (kernelRun c (grid0.coords t) (st0_0 t) (hst0 t) (st0_1 t) (hst1 t) (st0_2 t) (hst2 t)
      ((hst0 t).unread (iblk A c 0 t)) ((hst1 t).unread (iblk A c 1 t))).1

/-! ## The proof data -/

/-- The pairs a wait of the TensorCore may have recorded: those at level zero. -/
def rec0 (c : Dev nD) : Set (SemLoc sig × HIx 1) := {p | (K (F := F)).lev ((T c), p.1) p.2 ≤ 0}

/-- The proof data of the one pipeline on the TensorCore of `c`. -/
def dats (_ : Fin 1) (c : Dev nD) : Dat τ (Elt F) (HIx 1) ℕ UU ℕ cfg0 c where
  A w := A c w
  after w t := match w with
    | ⟨0, _⟩ => iblk A c 0 t
    | ⟨1, _⟩ => iblk A c 1 t
    | ⟨2, _⟩ => out2 A c t
  Φ _ := Pipeline.scopedRest (Ix := HIx 1) (Name := ℕ) (U := UU) (Lvl := ℕ) (Val := Elt F) spec0 c
  q _ := fullShare
  owed _ := (K (F := F)).Otc c 0
  recorded _ := rec0 (F := F) c

theorem A_eq (c : Dev nD) (w : Fin cfg0.W) : (dats A 0 c).A w = A c w := by dsimp only [dats]
theorem after0_0 (c : Dev nD) (t : Fin cfg0.N) : (dats A 0 c).after 0 t = iblk A c 0 t := by dsimp only [dats]
theorem after0_1 (c : Dev nD) (t : Fin cfg0.N) : (dats A 0 c).after 1 t = iblk A c 1 t := by dsimp only [dats]
theorem after0_2 (c : Dev nD) (t : Fin cfg0.N) : (dats A 0 c).after 2 t = out2 A c t := by dsimp only [dats]

/-- The first input's current staging buffer holds its block at every point: it is fetched at every point. -/
theorem before0_0 (c : Dev nD) (t : Fin cfg0.N) (x) : (dats A 0 c).before 0 t x = iblk A c 0 t :=
  ((dats A 0 c).before_in_eq_fetched 0 rfl (fun _ => rfl) (fun _ _ _ => rfl)
    (fun t => by rw [after0_0]; unfold Dat.blockOf iblk; rw [A_eq]; try rfl) t x).trans
    (by unfold Dat.fetched Dat.blockOf iblk; rw [A_eq]; try rfl)

/-- The second input's holds the eighteen words at every point: fetched at the first, its block index never moves. -/
theorem before0_1 (c : Dev nD) (t : Fin cfg0.N) (x) : (dats A 0 c).before 1 t x = iblk A c 1 t :=
  ((dats A 0 c).before_in_eq_fetched 1 rfl (fun _ => rfl) (fun _ _ _ => rfl)
    (fun t => by rw [after0_1]; unfold Dat.blockOf iblk; rw [A_eq]; try rfl) t x).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats A 0 c).Φ t.castSucc ∗ (dats A 0 c).owesAt none t.castSucc
    ∗ (∃ x, owns (c : Thread nD τ) (st0_0 t) fullShare ((dats A 0 c).before 0 t x))
    ∗ (∃ x, owns (c : Thread nD τ) (st0_1 t) fullShare ((dats A 0 c).before 1 t x))
    ∗ (∃ x, owns (c : Thread nD τ) (st0_2 t) fullShare ((dats A 0 c).before 2 t x)))

/-- and what it returns. -/
def bodyPost (c : Dev nD) (t : Fin cfg0.N) : sProp 𝕄 :=
  iprop((dats A 0 c).Φ t.succ ∗ (dats A 0 c).owesAt none t.succ
    ∗ owns (c : Thread nD τ) (st0_0 t) fullShare ((dats A 0 c).after 0 t)
    ∗ owns (c : Thread nD τ) (st0_1 t) fullShare ((dats A 0 c).after 1 t)
    ∗ owns (c : Thread nD τ) (st0_2 t) fullShare ((dats A 0 c).after 2 t))

/-- The body at any point: the inputs' buffers hold their blocks, so the run applies; the invariant and what the core
    owes pass through unread. -/
theorem sound_body (c : Dev nD) (t : Fin cfg0.N) :
    bodyPre A c t ⊢ wp frame (wpE (defs₀ (F := F)) Variants.none c none) Set.univ (bodyAt0 t) (fun _ => bodyPost A c t) := by
  unfold bodyPre bodyPost bodyAt0
  simp only [before0_0, before0_1]
  rw [show (dats A 0 c).Φ t.succ = (dats A 0 c).Φ t.castSucc from rfl,
    show (dats A 0 c).owesAt none t.succ = (dats A 0 c).owesAt none t.castSucc from rfl,
    after0_0, after0_1, after0_2]
  unfold owns
  iintro ⟨HΦ, Ho, ⟨%x0, %f0, %hf0, H0⟩, ⟨%x1, %f1, %hf1, H1⟩, ⟨%x2, %f2, -, H2⟩⟩
  obtain rfl := (hst0 t).eq_unread hf0
  obtain rfl := (hst1 t).eq_unread hf1
  iapply ((kernelRun c (grid0.coords t) (st0_0 t) (hst0 t) (st0_1 t) (hst1 t) (st0_2 t) (hst2 t)
      ((hst0 t).unread (iblk A c 0 t)) ((hst1 t).unread (iblk A c 1 t))).2 f2 Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (hst0 t).read_unread _
    iexact H0
  isplitl [H1]
  · iexists _; isplitr; · ipureintro; exact (hst1 t).read_unread _
    iexact H1
  iexists _; isplitr; · ipureintro; rfl
  iexact H2

/-- The library's body obligation, at every point. -/
theorem body_obligation (c : Dev nD) : BodyObligation (dats (F := F) A 0 c) (defs₀ (F := F)) Variants.none (none : HIx 1) Set.univ := fun t => by
  rw [bigSep_W0, bigSep_W0]
  exact sound_body A c t

end Cert.Proof.KernelTc

end
-- ==== Proof.TcSideRegionBits.lean ====
/-
  The TensorCore pallas_call as one step of @main on the TensorCore.

  From the region boundary, the three windowed arrays held whole (the attribute planes and the eighteen words at any
  contents, the score table at anything), what the TensorCore owes the later SparseCore call with its recorded waits
  at level zero, the level facts and the pipeline's ghost state, the call runs to its return: the boundary again, the
  arrays at what the pipeline library computes from the proof data (the two inputs as they were; the score table
  written block by block), and the same owing. The pipeline's own waits, on its staging semaphores at the index of
  no call, sit at level zero, below every start signal the TensorCore owes, so they may be made while it owes them.
-/
import proofs.«215733_g63187558859118_cont_9to1_m_256_17_alg».proof.Proof.TcSideDataBits

noncomputable section

namespace Cert.Proof.KernelTc

open Cert.Kernel Cert.Kernel.Gen Cert.Proof.KernelSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig (HIx 1) (Elt F) ℕ UU ℕ

variable (A : (c : Dev nD) → (w : Fin cfg0.W) → Buf (Elt F) ((cfg0.win w).arr.view.loc (c : Thread nD τ)))
  (lv : GSem nD τ sig → HIx 1 → ℕ) (hlv : (K (F := F)).Refines lv)

/-- Everything the TensorCore owes before the SparseCore call is owed at that call's index: nothing at the index of no call. -/
theorem Otc_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- What the TensorCore owes before the SparseCore call, its recorded waits bounded: the first conjunct of its handshake
    state before call 0. -/
abbrev tcOwes (d : Dev nD) : sProp 𝕄 :=
  iprop(∃ W, ⌜(K (F := F)).WBelow (T d) W (8 * 0)⌝ ∗ owes (T d) ((K (F := F)).Otc d 0) W)

set_option backward.isDefEq.respectTransparency.types false in
/-- THE REGION: the windows' decided layout, no semaphore of the kernel's own, the body obligation, the wait evidence; entered
    from the three arrays and the owing, left with the arrays at their final contents and the owing. -/
def reg0 : Pipeline.RegionSeg (pcfgs (F := F)) adm (dats A) (none : HIx 1) defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation A c).loose
  hwaits c := Pipeline.cellsWaits_intro (Pipeline.pin (pcfgs (F := F)) adm) (dats A) (none : HIx 1) 0 c fun w s t =>
    (K (F := F)).mayWait_none _ (Otc_none c) lv hlv
  pre c := iprop((dats A 0 c).arrays (A c) ∗ tcOwes c)
  post c := iprop((dats A 0 c).arrays ((dats A 0 c).arrAt · cfg0.N) ∗ tcOwes c)
  X _ := iprop(emp)
  Y _ := iprop(emp)
  Z _ := iprop(emp)
  hentry c := by
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats A 0 c).Φ 0 = Pipeline.scopedRest (Ix := HIx 1) (Name := ℕ) (U := UU) (Lvl := ℕ) (Val := Elt F) spec0 c from rfl]
    iintro ⟨-, -, H⟩; iexact H
  hout c := by
    rw [show (dats A 0 c).Φ (Fin.last cfg0.N) = Pipeline.scopedRest (Ix := HIx 1) (Name := ℕ) (U := UU) (Lvl := ℕ) (Val := Elt F) spec0 c from rfl,
      Pipeline.ownSems0_none]
    iintro H
    isplitr; · iempintro
    isplitr; · iempintro
    iexact H
  hexit c := by
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact Nat.le_refl 0
    iexact HO

include hlv in
set_option backward.isDefEq.respectTransparency.types false in
/-- THE CALL, as @main makes it: from the boundary, the region's entry state, the level facts and the pipeline's ghost
    state, to the continuation from the boundary and the region's exit state. -/
theorem region_wp [∀ e, Nonempty (Elt F e)] (d : Dev nD) (Φ : PUnit → sProp 𝕄) :
    iprop(boundary (T d) ∗ (dats A 0 d).arrays (A d) ∗ tcOwes d ∗ levAts (K (F := F)).L lv ∗ GP d
        ∗ (iprop(boundary (T d) ∗ (dats A 0 d).arrays ((dats A 0 d).arrAt · cfg0.N) ∗ tcOwes d) -∗ Φ ⟨⟩))
      ⊢ wp frame (wpE ((K (F := F)).defs (D (F := F))) 𝒱 (T d) none) Set.univ
          (Prog.lift (.customCall (SparseCore.inner (Pipeline.entry 0)) ())) Φ := by
  have hk : iprop(boundary (T d) ∗ (dats A 0 d).arrays (A d) ∗ tcOwes d ∗ levAts (K (F := F)).L lv ∗ GP d
        ∗ (iprop(boundary (T d) ∗ (dats A 0 d).arrays ((dats A 0 d).arrAt · cfg0.N) ∗ tcOwes d) -∗ Φ ⟨⟩))
      ⊢ iprop((iprop(boundary (d.tc : Thread nD τ) ∗ iprop((dats A 0 d).arrays ((dats A 0 d).arrAt · cfg0.N) ∗ tcOwes d))
            -∗ wp frame (wpE (D (F := F)) 𝒱 (d.tc : Thread nD τ) none) Set.univ (.ret ⟨⟩) Φ)
          ∗ boundary (d.tc : Thread nD τ) ∗ iprop((dats A 0 d).arrays (A d) ∗ tcOwes d) ∗ levAts (K (F := F)).L lv
          ∗ Pipeline.cellsGhost (Pipeline.pin (pcfgs (F := F)) adm) EP 0 d ∗ Pipeline.toksInit (Pipeline.pin (pcfgs (F := F)) adm) EP 0 d) := by
    iintro ⟨Hb, Ha, HO, Hl, ⟨Hg, Ht⟩, Hk⟩
    isplitl [Hk]
    · iintro ⟨Hb, Ha, HO⟩
      rw [wp_ret]
      imodintro
      iapply Hk
      isplitl [Hb]; · iexact Hb
      isplitl [Ha]; · iexact Ha
      iexact HO
    isplitl [Hb]; · iexact Hb
    isplitl [Ha HO]
    · isplitl [Ha]; · iexact Ha
      iexact HO
    isplitl [Hl]; · iexact Hl
    isplitl [Hg]; · iexact Hg
    iexact Ht
  refine hk.trans ?_
  refine Idealize.SL.BI.Entails.trans (Pipeline.RegionSeg.wp (pcfgs (F := F)) adm (dats A) (none : HIx 1) cellOf_inj' EP defs₀ 𝒱₀
    (K (F := F)).L lv (reg0 A lv hlv) d none (fun u hu => nomatch hu) .ret Φ) ?_
  rw [← lift_call]
  exact (K (F := F)).wp_liftProg (D (F := F)) 𝒱 (T d) Set.univ none (Prog.lift (.customCall (Pipeline.entry (0 : Fin 1)) ())) Φ

end Cert.Proof.KernelTc

end
-- ==== Proof.TcSideHostBits.lean ====
/-
  @main on the TensorCore as a chain of five items, and what its three stretches of host operations compute.

  @main is seven host operations (the word of one, its broadcast to 48576 rows, the attribute table padded with them,
  the transpose, its long axis cut into 1024 rows of 1024; the weight column flattened, the bias appended), the
  TensorCore pallas_call, three reshapes (the score table flattened to 1048576 entries; the component numbers and the
  pixel values flattened to 16777216), the SparseCore call, and one reshape (the result back to [4096, 4096]). Each
  stretch writes only its own result buffers: read at a result buffer, the stretch's valuation is the operations' own
  term of the buffers it reads.
-/
import proofs.«215733_g63187558859118_cont_9to1_m_256_17_alg».proof.Proof.SetupBits
import Idealize.ShloMosaic.Lib.Pipeline.Regions
import Idealize.ShloMosaic.Lib.Pipeline.Frame
import Idealize.ShloMosaic.Lib.StableHlo.Run

noncomputable section

namespace Cert.Proof.KernelTc

open Cert.Kernel Cert.Kernel.Gen Cert.Proof.KernelSetup

open Idealize.ShloMosaic Idealize.ShloMosaic.TcCoe
open Idealize.SL Idealize.SL.Sem

variable {F : FTy → Type} [BitOps F]

/-- The seven host operations before the TensorCore call. -/
abbrev opsPre : List (HloOp τ sig (Elt F)) :=
  [ StableHlo.nullary main_cst (constant S_ .f32 0x3F800000#32),
    StableHlo.unary main_cst main_v0 (broadcastInDim S48576x15 ![] bcast_S_S48576x15 : (⟨S_, .f32⟩ : BufTy).Contents (Elt F) → (⟨S48576x15, .f32⟩ : BufTy).Contents (Elt F)),
    StableHlo.binary main_arg1 main_v0 main_v1 ((fun a b => concatenate S1048576x15 0 [⟨S1000000x15, a⟩, ⟨S48576x15, b⟩] concatenates_S1000000x15_S48576x15_S1048576x15_d0) : (⟨S1000000x15, .f32⟩ : BufTy).Contents (Elt F) → (⟨S48576x15, .f32⟩ : BufTy).Contents (Elt F) → (⟨S1048576x15, .f32⟩ : BufTy).Contents (Elt F)),
    StableHlo.unary main_v1 main_v2 ((transpose S15x1048576 [1, 0] · transposes_S1048576x15_S15x1048576_1_0) : (⟨S1048576x15, .f32⟩ : BufTy).Contents (Elt F) → (⟨S15x1048576, .f32⟩ : BufTy).Contents (Elt F)),
    StableHlo.reshape main_v2 main_v3 rfl shapeCasts_S15x1048576_S15x1024x1024,
    StableHlo.reshape main_arg3 main_v4 rfl shapeCasts_S17x1_S17,
    StableHlo.binary main_v4 main_arg4 main_v5 ((fun a b => concatenate S18 0 [⟨S17, a⟩, ⟨S1, b⟩] concatenates_S17_S1_S18_d0) : (⟨S17, .f32⟩ : BufTy).Contents (Elt F) → (⟨S1, .f32⟩ : BufTy).Contents (Elt F) → (⟨S18, .f32⟩ : BufTy).Contents (Elt F)) ]

/-- The three reshapes between the two calls. -/
abbrev opsMid : List (HloOp τ sig (Elt F)) :=
  [ StableHlo.reshape main_v6 main_v7 rfl shapeCasts_S1024x1024_S1048576,
    StableHlo.reshape main_arg2 main_v8 rfl shapeCasts_S4096x4096_S16777216,
    StableHlo.reshape main_arg0 main_v9 rfl shapeCasts_S4096x4096_S16777216 ]

/-- The reshape after the SparseCore call. -/
abbrev opsTail : List (HloOp τ sig (Elt F)) :=
  [ StableHlo.reshape main_v10 main_v11 rfl shapeCasts_S16777216_S4096x4096 ]

/-- @main is the chain of its five items. -/
theorem main_chain (d : Dev nD) : main (F := F) d = Pipeline.chain
    [ StableHlo.seq opsPre,
      Prog.lift (.customCall (SparseCore.inner (Pipeline.entry 0)) ()),
      StableHlo.seq opsMid,
      (sc (F := F)).run d 0,
      StableHlo.seq opsTail ] := by
  chain_rfl

/-- Every host operation touches only the TensorCore's unscoped buffers. -/
theorem opsPre_sub : ∀ op ∈ (opsPre : List (HloOp τ sig (Elt F))), op.bufs ⊆ Pipeline.ucRefs τ sig := fun op h =>
  Pipeline.sub_ucRefs op ((List.forall_iff_forall_mem.mp
    (show (opsPre : List (HloOp τ sig (Elt F))).Forall fun op => op.bufs ⊆ StableHlo.tcRefs τ sig from
      ⟨StableHlo.nullary_bufs_sub .., StableHlo.unary_bufs_sub .., StableHlo.binary_bufs_sub .., StableHlo.unary_bufs_sub ..,
        StableHlo.reshape_bufs_sub .., StableHlo.reshape_bufs_sub .., StableHlo.binary_bufs_sub ..⟩)) op h)
theorem opsMid_sub : ∀ op ∈ (opsMid : List (HloOp τ sig (Elt F))), op.bufs ⊆ Pipeline.ucRefs τ sig := fun op h =>
  Pipeline.sub_ucRefs op ((List.forall_iff_forall_mem.mp
    (show (opsMid : List (HloOp τ sig (Elt F))).Forall fun op => op.bufs ⊆ StableHlo.tcRefs τ sig from
      ⟨StableHlo.reshape_bufs_sub .., StableHlo.reshape_bufs_sub .., StableHlo.reshape_bufs_sub ..⟩)) op h)
theorem opsTail_sub : ∀ op ∈ (opsTail : List (HloOp τ sig (Elt F))), op.bufs ⊆ Pipeline.ucRefs τ sig := fun op h =>
  Pipeline.sub_ucRefs op ((List.forall_iff_forall_mem.mp
    (show (opsTail : List (HloOp τ sig (Elt F))).Forall fun op => op.bufs ⊆ StableHlo.tcRefs τ sig from
      StableHlo.reshape_bufs_sub ..)) op h)

/-- No host operation leaves a buffer at contents not chosen. -/
theorem opsPre_fresh : ∀ op ∈ (opsPre : List (HloOp τ sig (Elt F))), op.fresh = ∅ := by
  intro _ h; (repeat (cases h with | head => rfl | tail _ h => ?_)); exact nomatch h
theorem opsMid_fresh : ∀ op ∈ (opsMid : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

/-! ## What each stretch leaves in the buffers it writes -/

variable (W : Valuation τ sig (Elt F))

/-- The attribute planes the TensorCore call is given. -/
theorem pre_v3 : (StableHlo.after opsPre W (Proc.devRef .tc main_v3) : S15x1024x1024.Idx → Elt F .f32)
    = shapeCast S15x1024x1024 (transpose S15x1048576 [1, 0]
        (concatenate S1048576x15 0 [⟨S1000000x15, (W (Proc.devRef .tc main_arg1) : S1000000x15.Idx → Elt F .f32)⟩,
          ⟨S48576x15, broadcastInDim S48576x15 ![] bcast_S_S48576x15 (constant (F := F) S_ .f32 0x3F800000#32)⟩] concatenates_S1000000x15_S48576x15_S1048576x15_d0)
        transposes_S1048576x15_S15x1048576_1_0) shapeCasts_S15x1048576_S15x1024x1024 := by
  after_results; rfl

/-- The eighteen words it is given. -/
theorem pre_v5 : (StableHlo.after opsPre W (Proc.devRef .tc main_v5) : S18.Idx → Elt F .f32)
    = concatenate S18 0 [⟨S17, shapeCast S17 (W (Proc.devRef .tc main_arg3) : S17x1.Idx → Elt F .f32) shapeCasts_S17x1_S17⟩,
        ⟨S1, (W (Proc.devRef .tc main_arg4) : S1.Idx → Elt F .f32)⟩] concatenates_S17_S1_S18_d0 := by
  after_results; rfl

/-- The first stretch writes none of the arguments, nor the score table. -/
theorem pre_keep (b : Ref sig .tc) (hb : b ≠ main_cst ∧ b ≠ main_v0 ∧ b ≠ main_v1 ∧ b ≠ main_v2 ∧ b ≠ main_v3 ∧ b ≠ main_v4 ∧ b ≠ main_v5) :
    StableHlo.after opsPre W (Proc.devRef .tc b) = W (Proc.devRef .tc b) := by
  obtain ⟨h0, h1, h2, h3, h4, h5, h6⟩ := hb
  refine StableHlo.after_of_forall_not_mem (b := Proc.devRef .tc b) opsPre W fun op hop => ?_
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The flat score table, component numbers and pixel values the SparseCore call is given. -/
theorem mid_v7 : (StableHlo.after opsMid W (Proc.devRef .tc main_v7) : S1048576.Idx → Elt F .f32)
    = shapeCast S1048576 (W (Proc.devRef .tc main_v6) : S1024x1024.Idx → Elt F .f32) shapeCasts_S1024x1024_S1048576 := by
  after_results; rfl
theorem mid_v8 : (StableHlo.after opsMid W (Proc.devRef .tc main_v8) : S16777216.Idx → BitVec 32)
    = shapeCast S16777216 (W (Proc.devRef .tc main_arg2) : S4096x4096.Idx → BitVec 32) shapeCasts_S4096x4096_S16777216 := by
  after_results; rfl
theorem mid_v9 : (StableHlo.after opsMid W (Proc.devRef .tc main_v9) : S16777216.Idx → Elt F .f32)
    = shapeCast S16777216 (W (Proc.devRef .tc main_arg0) : S4096x4096.Idx → Elt F .f32) shapeCasts_S4096x4096_S16777216 := by
  after_results; rfl
theorem mid_keep (b : Ref sig .tc) (hb : b ≠ main_v7 ∧ b ≠ main_v8 ∧ b ≠ main_v9) :
    StableHlo.after opsMid W (Proc.devRef .tc b) = W (Proc.devRef .tc b) := by
  obtain ⟨h0, h1, h2⟩ := hb
  refine StableHlo.after_of_forall_not_mem (b := Proc.devRef .tc b) opsMid W fun op hop => ?_
  simp only [List.mem_cons, List.mem_nil_iff, or_false] at hop
  rcases hop with rfl | rfl | rfl <;>
    simp only [StableHlo.reshape_writes, Finset.mem_singleton] <;>
    exact StableHlo.devRef_ne_of_ne ‹_›

/-- The result, back at [4096, 4096]. -/
theorem tail_v11 : (StableHlo.after opsTail W (Proc.devRef .tc main_v11) : S4096x4096.Idx → Elt F .f32)
    = shapeCast S4096x4096 (W (Proc.devRef .tc main_v10) : S16777216.Idx → Elt F .f32) shapeCasts_S16777216_S4096x4096 := by
  after_results; rfl
theorem tail_keep (b : Ref sig .tc) (hb : b ≠ main_v11) :
    StableHlo.after opsTail W (Proc.devRef .tc b) = W (Proc.devRef .tc b) := by
  refine StableHlo.after_of_forall_not_mem (b := Proc.devRef .tc b) opsTail W fun op hop => ?_
  simp only [List.mem_cons, List.mem_nil_iff, or_false] at hop
  rcases hop with rfl
  simp only [StableHlo.reshape_writes, Finset.mem_singleton]
  exact StableHlo.devRef_ne_of_ne hb

end Cert.Proof.KernelTc

end
-- ==== Proof.TcSideMainBits.lean ====
/-
  @main on the TensorCore, start to end.

  From what the launch deals the TensorCore — the region boundary, @main's eighteen unscoped buffers at the launch
  contents, its handshake state before the one SparseCore call, the pipeline's ghost state — the seven host
  operations run over the unscoped buffers; the three windowed arrays are taken out of them for the TensorCore call and
  put back, the score table at what the pipeline computed; three reshapes run; the SparseCore call takes what its
  payload record asks and gives back what it promises (two entailments the certificate of the SparseCore kernel
  supplies); one reshape runs. What is left is the handshake state after the call and the unscoped buffers at the
  valuation those steps compose.
-/
import proofs.«215733_g63187558859118_cont_9to1_m_256_17_alg».proof.Proof.TcSideRegionBits
import proofs.«215733_g63187558859118_cont_9to1_m_256_17_alg».proof.Proof.TcSideHostBits

noncomputable section

namespace Cert.Proof.KernelTc

open Cert.Kernel Cert.Kernel.Gen Cert.Proof.KernelSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [BitOps F]

local notation "𝕄" => MT nD τ sig (HIx 1) (Elt F) ℕ UU ℕ

variable (m : (ℓ : Loc nD τ sig) → Buf (Elt F) ℓ)

/-! ## The valuations @main passes through -/

/-- The launch contents of device `d`'s buffers; -/
abbrev V0 (d : Dev nD) : Valuation τ sig (Elt F) := fun b => m (d, b)
/-- after the seven host operations; -/
abbrev V1 (d : Dev nD) : Valuation τ sig (Elt F) := StableHlo.after opsPre (V0 m d)
/-- the three windowed arrays as the TensorCore call finds them; -/
abbrev Ain (c : Dev nD) (w : Fin cfg0.W) : Buf (Elt F) ((cfg0.win w).arr.view.loc (c : Thread nD τ)) :=
  V1 m c (Proc.devRef .tc (Pipeline.arrRef spec0 w))
/-- after the TensorCore call: the score table at what the pipeline computed; -/
abbrev V2 (d : Dev nD) : Valuation τ sig (Elt F) :=
  Function.update (V1 m d) (Proc.devRef .tc main_v6) ((dats (Ain m) 0 d).arrAt 2 cfg0.N)
/-- after the three reshapes. -/
abbrev V3 (d : Dev nD) : Valuation τ sig (Elt F) := StableHlo.after opsMid (V2 m d)

/-! ## The windowed arrays out of the unscoped buffers and back -/

theorem hshare (A : (c : Dev nD) → (w : Fin cfg0.W) → Buf (Elt F) ((cfg0.win w).arr.view.loc (c : Thread nD τ))) (d : Dev nD)
    (w : Fin cfg0.W) : (dats A 0 d).share w = fullShare := (dats A 0 d).share_full (fun _ => rfl) w

/-- ENTRY: the unscoped buffers after the host prefix are the three arrays and the rest. -/
theorem entry_split (d : Dev nD) :
    (held (T d) (Pipeline.ucRefs τ sig) (V1 m d) : sProp 𝕄)
      ⊢ iprop((dats (Ain m) 0 d).arrays (Ain m d)
          ∗ Pipeline.unscopedRest (Ix := HIx 1) (Name := ℕ) (U := UU) (Lvl := ℕ) spec0 d (fun b => V1 m d b)) := by
  rw [← Pipeline.unscopedBufs_held d (V1 m d),
    Pipeline.unscopedBufs_split cfgs 0 launch0.win.arr_unscoped launch0.win.arr_inj d (fun b => V1 m d b),
    Pipeline.arrays_eq cfgs (dats (Ain m)) 0 d launch0.arr_whole (hshare (Ain m) d) (Ain m d)]

/-- The score table is no other unscoped buffer. -/
theorem V2_of_ne (d : Dev nD) (b : Ref sig .tc) (hb : b ≠ main_v6) : V2 m d (Proc.devRef .tc b) = V1 m d (Proc.devRef .tc b) :=
  Function.update_of_ne (StableHlo.devRef_ne_of_ne hb) _ _
theorem V2_v6 (d : Dev nD) : V2 m d (Proc.devRef .tc main_v6) = (dats (Ain m) 0 d).arrAt 2 cfg0.N :=
  Function.update_self _ _ _

/-- EXIT: the three arrays as the TensorCore call leaves them, and the rest, are the unscoped buffers at the valuation
    that differs at the score table only. -/
theorem exit_join (d : Dev nD) :
    iprop((dats (Ain m) 0 d).arrays ((dats (Ain m) 0 d).arrAt · cfg0.N)
        ∗ Pipeline.unscopedRest (Ix := HIx 1) (Name := ℕ) (U := UU) (Lvl := ℕ) spec0 d (fun b => V1 m d b))
      ⊢ (held (T d) (Pipeline.ucRefs τ sig) (V2 m d) : sProp 𝕄) := by
  rw [← Pipeline.unscopedBufs_held d (V2 m d),
    Pipeline.unscopedBufs_split cfgs 0 launch0.win.arr_unscoped launch0.win.arr_inj d (fun b => V2 m d b),
    Pipeline.arrays_eq cfgs (dats (Ain m)) 0 d launch0.arr_whole (hshare (Ain m) d) _]
  refine sep_mono (Entails.of_eq (bigSep_congr fun w _ => ?_)) (Entails.of_eq ?_)
  · have hw : (dats (Ain m) 0 d).arrAt w cfg0.N = V2 m d (Proc.devRef .tc (Pipeline.arrRef spec0 w)) := by
      match w with
      | ⟨0, _⟩ => exact (((dats (Ain m) 0 d).arrAt_in 0 rfl _).trans (A_eq (Ain m) d 0)).trans (V2_of_ne m d main_v3 (by decide)).symm
      | ⟨1, _⟩ => exact (((dats (Ain m) 0 d).arrAt_in 1 rfl _).trans (A_eq (Ain m) d 1)).trans (V2_of_ne m d main_v5 (by decide)).symm
      | ⟨2, _⟩ => exact (V2_v6 m d).symm
    rw [hw]
  · unfold Pipeline.unscopedRest
    refine bigSep_congr fun b hb => ?_
    have hne : b ≠ main_v6 := fun e => (Finset.mem_sdiff.mp hb).2 (Finset.mem_image.mpr ⟨2, Finset.mem_univ _, e.symm⟩)
    dsimp only
    rw [V2_of_ne m d b hne]

/-! ## The TensorCore's handshake state before the call, opened -/

/-- The handshakes' component of the algebra, embedded: the first of the four. -/
abbrev EH : Emb UH 𝕄 := embL

variable (P : (K (F := F)).Pay (nD := nD) (Val := Elt F) (Name := ℕ) (U := UU))
  (g : Dev nD → PrngReg) (lv : GSem nD τ sig → HIx 1 → ℕ) (hlv : (K (F := F)).Refines lv)

/-- The handshake state before call 0 gives up its owing and takes it back. -/
theorem tcSt_split (d : Dev nD) :
    (K (F := F)).tcSt (EH (F := F)) d 0 ⊢ iprop(tcOwes d ∗ (tcOwes d -∗ (K (F := F)).tcSt (EH (F := F)) d 0)) := by
  unfold SparseCore.Cfg.tcSt
  iintro ⟨HO, Hr⟩
  isplitl [HO]; · iexact HO
  iintro HO
  isplitl [HO]; · iexact HO
  iexact Hr

/-- What the launch deals the TensorCore, its unscoped buffers as a held set at the launch valuation. -/
theorem tcRes_held (d : Dev nD) :
    ((K (F := F)).tcRes m g d : sProp 𝕄)
      = iprop(boundary (T d) ∗ held (T d) (Pipeline.ucRefs τ sig) (V0 m d) ∗ (K (F := F)).tcSems0 d ∗ prngReg d (g d)) := by
  unfold SparseCore.Cfg.tcRes
  rw [← Pipeline.unscopedBufs_held d (V0 m d)]

/-! ## @main -/

include hlv in
set_option backward.isDefEq.respectTransparency.types false in
/-- @MAIN ON THE TENSORCORE of `d`, for any payload record of the SparseCore call: given what the TensorCore holds
    before that call yields the call's operands and something kept (`hst`), and the call's results with what was kept
    yield the unscoped buffers at a valuation `V4 d` (`hdn`), @main runs from what the launch deals to the handshake
    state after the call and the unscoped buffers at `V4 d` after the last reshape. -/
theorem hmain [∀ e, Nonempty (Elt F e)] (V4 : Dev nD → Valuation τ sig (Elt F)) (Kept : Dev nD → sProp 𝕄)
    (κ : GSem nD τ sig → ℕ) (d : Dev nD)
    (hst : (held (T d) (Pipeline.ucRefs τ sig) (V3 m d) : sProp 𝕄)
      ⊢ iprop((bigSep Finset.univ fun c : Fin ((K (F := F)).nCore 0) => P.st 0 d c) ∗ Kept d))
    (hdn : iprop((bigSep Finset.univ fun c : Fin ((K (F := F)).nCore 0) => P.dn 0 d c) ∗ Kept d)
      ⊢ (held (T d) (Pipeline.ucRefs τ sig) (V4 d) : sProp 𝕄)) :
    iprop((K (F := F)).ctx (EH (F := F)) P κ lv ∗ (K (F := F)).tcSt (EH (F := F)) d 0 ∗ (K (F := F)).tcRes m g d ∗ GP d)
      ⊢ wp frame (wpE ((K (F := F)).defs (D (F := F))) 𝒱 (T d) none) Set.univ (main d)
          fun _ => iprop((K (F := F)).tcSt (EH (F := F)) d 1 ∗ held (T d) (Pipeline.ucRefs τ sig) (StableHlo.after opsTail (V4 d))) := by
  rw [main_chain]
  simp only [Pipeline.chain_cons, Pipeline.chain_nil]
  rw [tcRes_held]
  iintro ⟨#Hctx, Hst, ⟨Hb, Hheld, -, -⟩, HG⟩
  ihave H := (tcSt_split d) $$ Hst
  icases H with ⟨HO, Hrest⟩
  -- the seven host operations
  iapply (StableHlo.wp_seq 𝒱 none Set.univ d (Pipeline.ucRefs τ sig) _ opsPre opsPre_sub opsPre_fresh (V0 m d)) $$ [Hb Hheld]
  · isplitl [Hb] <;> iassumption
  iintro ⟨Hb, Hheld⟩
  -- the TensorCore call
  rw [wp_bind]
  ihave H := (entry_split m d) $$ Hheld
  icases H with ⟨Ha, Hur⟩
  ihave Hlev := (SparseCore.Cfg.ctx_levAts (K := K (F := F)) (EH := EH (F := F)) (P := P) κ (lv := lv)) $$ Hctx
  iapply (region_wp (Ain m) lv hlv d _) $$ [Hb Ha HO HG Hur Hrest Hlev]
  isplitl [Hb]; · iexact Hb
  isplitl [Ha]; · iexact Ha
  isplitl [HO]; · iexact HO
  isplitl [Hlev]; · iexact Hlev
  isplitl [HG]; · iexact HG
  iintro ⟨Hb, Ha, HO⟩
  ihave Hheld := (exit_join m d) $$ [Ha Hur]
  · isplitl [Ha] <;> iassumption
  -- the three reshapes
  iapply (StableHlo.wp_seq 𝒱 none Set.univ d (Pipeline.ucRefs τ sig) _ opsMid opsMid_sub opsMid_fresh (V2 m d)) $$ [Hb Hheld]
  · isplitl [Hb] <;> iassumption
  iintro ⟨Hb, Hheld⟩
  -- the SparseCore call
  rw [wp_bind]
  ihave H := hst $$ Hheld
  icases H with ⟨Hst', Hkept⟩
  iapply ((K (F := F)).wp_run (D (F := F)) 𝒱 (EH := EH (F := F)) (P := P) κ d 0 lv hlv) $$ [HO Hrest Hst' Hb Hkept]
  isplitr; · iexact Hctx
  isplitl [HO Hrest]
  · iapply Hrest; iexact HO
  isplitl [Hst']; · iexact Hst'
  iintro ⟨Hst1, Hdn⟩
  ihave Hheld := hdn $$ [Hdn Hkept]
  · isplitl [Hdn] <;> iassumption
  -- the last reshape
  iapply (StableHlo.wp_seq 𝒱 none Set.univ d (Pipeline.ucRefs τ sig) _ opsTail opsTail_sub opsTail_fresh (V4 d)) $$ [Hb Hheld]
  · isplitl [Hb] <;> iassumption
  iintro ⟨Hb, Hheld⟩
  rw [wp_pure]
  imodintro
  isplitl [Hst1]; · iexact Hst1
  iexact Hheld

end Cert.Proof.KernelTc

end
-- ==== Proof.ScHandBits.lean ====
/-
  What the TensorCore hands the two SparseCores at the call and gets back.

  Before the call the TensorCore holds the score table, the component numbers, the inputs and the result array whole.
  Each of the three arrays that all 32 tiles read is cut into a remainder, which the TensorCore keeps, and 32 read
  shares, one per tile: tile s of SparseCore c is worker 2 s + c, and (c, s) ↦ 2 s + c is a bijection from 2 × 16
  onto 32. The result array is cut into its 2048 chunks of 8192 pixels, pairwise disjoint and covering it: chunk k of
  tile (c, s) is chunk 128 s + 64 c + k, and ((c, s), k) ↦ 128 s + 64 c + k is a bijection from (2 × 16) × 64 onto
  2048. So what the two SparseCores are handed together is the 32 read shares of each array and the whole result
  array; and back: the same shares, and the result array at component-score × input.
-/
import proofs.«215733_g63187558859118_cont_9to1_m_256_17_alg».proof.Proof.ScLaunchBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "oV" => (Memref.whole Cert.Kernel.main_v10_scv : Memref Cert.Kernel.sig Kind.scVector Space.hbm Cert.Kernel.S16777216 EltTy.f32)

/-! ## The two bijections -/

/-- (SparseCore, tile) ↦ worker number 2 s + c. -/
def widEquiv : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv := fun ⟨c, i⟩ => by
    have hc := c.isLt; have hi := i.isLt
    exact Prod.ext (Fin.ext (show (2 * i.val + c.val) % 2 = c.val by omega)) (Fin.ext (show (2 * i.val + c.val) / 2 = i.val by omega))
  right_inv := fun w => Fin.ext (show 2 * (w.val / 2) + w.val % 2 = w.val by omega)

/-- ((SparseCore, tile), chunk) ↦ chunk number 128 s + 64 c + k. -/
def chunkEquiv : (Fin 2 × Fin 16) × Fin 64 ≃ Fin 2048 where
  toFun x := ⟨128 * x.1.2.val + 64 * x.1.1.val + x.2.val, by have := x.1.1.isLt; have := x.1.2.isLt; have := x.2.isLt; omega⟩
  invFun n := ((⟨n.val / 64 % 2, Nat.mod_lt _ (by decide)⟩, ⟨n.val / 128, by have := n.isLt; omega⟩), ⟨n.val % 64, Nat.mod_lt _ (by decide)⟩)
  left_inv := fun ⟨⟨c, i⟩, k⟩ => by
    have hc := c.isLt; have hi := i.isLt; have hk := k.isLt
    exact Prod.ext (Prod.ext (Fin.ext (show (128 * i.val + 64 * c.val + k.val) / 64 % 2 = c.val by omega))
      (Fin.ext (show (128 * i.val + 64 * c.val + k.val) / 128 = i.val by omega)))
      (Fin.ext (show (128 * i.val + 64 * c.val + k.val) % 64 = k.val by omega))
  right_inv := fun n => Fin.ext (show 128 * (n.val / 128) + 64 * (n.val / 64 % 2) + n.val % 64 = n.val by omega)

/-! ## The chunks of the result array -/

/-- The pixels of chunk `n` of the 2048. -/
abbrev chunkSetN (n : Fin 2048) : Finset S16777216.Idx := ((oV).view.slice (Rect.part (s := S16777216) (a₀ := 0) hdivChunk n)).set

theorem chunkSetN_eq (n : Fin 2048) : chunkSetN n = (Rect.part (s := S16777216) (a₀ := 0) hdivChunk n).set := by
  show ((View.whole (main_v10_scv : Ref sig .scVector)).slice (Rect.part (s := S16777216) (a₀ := 0) hdivChunk n)).set = _
  rw [View.set_slice]; exact Finset.map_refl
theorem chunks_disjoint : ∀ i ∈ (Finset.univ : Finset (Fin 2048)), ∀ j ∈ (Finset.univ : Finset (Fin 2048)), i ≠ j → Disjoint (chunkSetN i) (chunkSetN j) :=
  fun i _ j _ h => by rw [chunkSetN_eq, chunkSetN_eq]; exact Rect.part_disjoint hdivChunk h
theorem chunks_cover : (Finset.univ : Finset (Fin 2048)).biUnion chunkSetN = Finset.univ :=
  (Finset.biUnion_congr rfl fun i _ => chunkSetN_eq i).trans (Rect.biUnion_part hdivChunk)

/-! ## Regrouping -/

/-- A family over the call's SparseCores and tiles is the family over 2 × 16. -/
theorem bigSep_tiles (Φ : grid1.Coords → sProp 𝕄) :
    (bigSep Finset.univ fun c : Fin ((K (F := F)).nCore 0) => bigSep Finset.univ fun i : Fin ((K (F := F)).nSub 0) => Φ (coords (F := F) c i))
      = bigSep Finset.univ fun p : Fin 2 × Fin 16 => Φ (coordsV p.1 p.2) :=
  (bigSep_univ_prod (fun p : Fin 2 × Fin 16 => Φ (coordsV p.1 p.2))).symm

/-- The tiles' read shares of an array are its 32 read shares. -/
theorem reads_eq {ℓ : Loc nD τ sig} (f : Buf (Elt F) ℓ) :
    (bigSep Finset.univ fun p : Fin 2 × Fin 16 => (ℓ ↦{tok (coordsV p.1 p.2)} f : sProp 𝕄))
      = bigSep Finset.univ fun w : Fin 32 => (ℓ ↦{Transfers.shareTok fullShare 32 w} f : sProp 𝕄) := by
  rw [bigSep_univ_equiv widEquiv (fun w : Fin 32 => (ℓ ↦{Transfers.shareTok fullShare 32 w} f : sProp 𝕄))]
  rfl

/-- The tiles' chunks of the result array are the array. -/
theorem chunks_eq (d : Dev nD) (q : PosShare TreeShare) (f : Buf (Elt F) (loc10 d)) :
    (bigSep Finset.univ fun p : Fin 2 × Fin 16 => bigSep Finset.univ fun k : Fin 64 => (loc10 d ↦[chunkSet (coordsV p.1 p.2) k]{q} f : sProp 𝕄))
      = (loc10 d ↦{q} f : sProp 𝕄) := by
  rw [← bigSep_univ_prod (fun x : (Fin 2 × Fin 16) × Fin 64 => (loc10 d ↦[chunkSet (coordsV x.1.1 x.1.2) x.2]{q} f : sProp 𝕄)),
    show (bigSep Finset.univ fun x : (Fin 2 × Fin 16) × Fin 64 => (loc10 d ↦[chunkSet (coordsV x.1.1 x.1.2) x.2]{q} f : sProp 𝕄))
      = bigSep Finset.univ fun x : (Fin 2 × Fin 16) × Fin 64 => (loc10 d ↦[chunkSetN (chunkEquiv x)]{q} f : sProp 𝕄) from rfl,
    ← bigSep_univ_equiv chunkEquiv (fun n : Fin 2048 => (loc10 d ↦[chunkSetN n]{q} f : sProp 𝕄)),
    ← pointsTo_biUnion Finset.univ (ℓ := loc10 d) chunkSetN chunks_disjoint, chunks_cover]
  try rfl

section Pay
variable (f7 : S1048576.Idx → Elt F .f32) (f8 : S16777216.Idx → Elt F .i32) (f9 : S16777216.Idx → Elt F .f32) (f10 : S16777216.Idx → Elt F .f32)

/-- What the two SparseCores are handed together. -/
theorem st_all (d : Dev nD) :
    (bigSep Finset.univ fun c : Fin ((K (F := F)).nCore 0) => (P f7 f8 f9 f10).st 0 d c)
      = iprop((bigSep Finset.univ fun w : Fin 32 => loc7 d ↦{Transfers.shareTok fullShare 32 w} f7)
          ∗ (bigSep Finset.univ fun w : Fin 32 => loc8 d ↦{Transfers.shareTok fullShare 32 w} f8)
          ∗ (bigSep Finset.univ fun w : Fin 32 => loc9 d ↦{Transfers.shareTok fullShare 32 w} f9)
          ∗ (loc10 d ↦{fullShare} f10)) := by
  simp only [P_st]
  rw [bigSep_tiles (F := F) (fun L => goH d f7 f8 f9 f10 L)]
  unfold goH
  rw [bigSep_sep', bigSep_sep', bigSep_sep', reads_eq, reads_eq, reads_eq, chunks_eq]

/-- What they hand back together. -/
theorem dn_all (d : Dev nD) :
    (bigSep Finset.univ fun c : Fin ((K (F := F)).nCore 0) => (P f7 f8 f9 f10).dn 0 d c)
      = iprop((bigSep Finset.univ fun w : Fin 32 => loc7 d ↦{Transfers.shareTok fullShare 32 w} f7)
          ∗ (bigSep Finset.univ fun w : Fin 32 => loc8 d ↦{Transfers.shareTok fullShare 32 w} f8)
          ∗ (bigSep Finset.univ fun w : Fin 32 => loc9 d ↦{Transfers.shareTok fullShare 32 w} f9)
          ∗ (loc10 d ↦{fullShare} outV f7 f8 f9)) := by
  simp only [P_dn]
  rw [bigSep_tiles (F := F) (fun L => tdH d f7 f8 f9 L)]
  unfold tdH
  rw [bigSep_sep', bigSep_sep', bigSep_sep', reads_eq, reads_eq, reads_eq, chunks_eq]

/-- AT THE CALL: from the four arrays whole, the three remainders (kept) and what the SparseCores are handed. -/
theorem hst (d : Dev nD) :
    iprop((loc7 d ↦{fullShare} f7) ∗ (loc8 d ↦{fullShare} f8) ∗ (loc9 d ↦{fullShare} f9) ∗ (loc10 d ↦{fullShare} f10))
      ⊢ (iprop(((loc7 d ↦{Transfers.shareDrop fullShare 32} f7) ∗ (loc8 d ↦{Transfers.shareDrop fullShare 32} f8)
            ∗ (loc9 d ↦{Transfers.shareDrop fullShare 32} f9))
          ∗ bigSep Finset.univ fun c : Fin ((K (F := F)).nCore 0) => (P f7 f8 f9 f10).st 0 d c) : sProp 𝕄) := by
  rw [st_all]
  iintro ⟨H7, H8, H9, H10⟩
  ihave H7' := (Transfers.pointsTo_toks_split fullShare 32) $$ H7
  ihave H8' := (Transfers.pointsTo_toks_split fullShare 32) $$ H8
  ihave H9' := (Transfers.pointsTo_toks_split fullShare 32) $$ H9
  icases H7' with ⟨D7, T7⟩
  icases H8' with ⟨D8, T8⟩
  icases H9' with ⟨D9, T9⟩
  isplitl [D7 D8 D9]
  · isplitl [D7]; · iexact D7
    isplitl [D8]; · iexact D8
    iexact D9
  isplitl [T7]; · iexact T7
  isplitl [T8]; · iexact T8
  isplitl [T9]; · iexact T9
  iexact H10

/-- AFTER THE CALL: the way back, the result array at component-score × input. -/
theorem hdn (d : Dev nD) :
    (iprop(((loc7 d ↦{Transfers.shareDrop fullShare 32} f7) ∗ (loc8 d ↦{Transfers.shareDrop fullShare 32} f8)
            ∗ (loc9 d ↦{Transfers.shareDrop fullShare 32} f9))
          ∗ bigSep Finset.univ fun c : Fin ((K (F := F)).nCore 0) => (P f7 f8 f9 f10).dn 0 d c) : sProp 𝕄)
      ⊢ iprop((loc7 d ↦{fullShare} f7) ∗ (loc8 d ↦{fullShare} f8) ∗ (loc9 d ↦{fullShare} f9) ∗ (loc10 d ↦{fullShare} outV f7 f8 f9)) := by
  rw [dn_all]
  iintro ⟨⟨D7, D8, D9⟩, T7, T8, T9, H10⟩
  isplitl [D7 T7]
  · iapply (Transfers.pointsTo_toks_join fullShare 32); isplitl [D7] <;> iassumption
  isplitl [D8 T8]
  · iapply (Transfers.pointsTo_toks_join fullShare 32); isplitl [D8] <;> iassumption
  isplitl [D9 T9]
  · iapply (Transfers.pointsTo_toks_join fullShare 32); isplitl [D9] <;> iassumption
  iexact H10

end Pay

end Cert.Proof.KernelSc

end
-- ==== Proof.TcSideAdaptBits.lean ====
/-
  The TensorCore's buffers around the SparseCore call.

  The entry function holds all eighteen of the TensorCore's unscoped buffers together, each whole at its contents.
  The SparseCore call concerns four of them: the flat score table, the flat component numbers, the flat inputs and the
  result array. Taken out of the eighteen, the four are what the call's hand-over starts from: the remainders of the
  three read arrays are kept with the other fourteen buffers, the 32 read shares of each and the result array's 2048
  chunks go to the two SparseCores. After the call the way back gives the four again, the result array now holding
  component-score × input, and with the fourteen they are the eighteen at the contents changed at that one buffer.
  At the end the result buffer — the result array laid out as 4096 × 4096 — and the five argument buffers, which no
  operation has written, are taken out of the eighteen; the rest is dropped.
-/
import proofs.«215733_g63187558859118_cont_9to1_m_256_17_alg».proof.Proof.ScHandBits
import proofs.«215733_g63187558859118_cont_9to1_m_256_17_alg».proof.Proof.ScRunBits
import proofs.«215733_g63187558859118_cont_9to1_m_256_17_alg».proof.Proof.TcSideHostBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

open Idealize.ShloMosaic.StableHlo (held held_sub_split held_congr)
open Cert.Proof.KernelTc (opsTail tail_v11 tail_keep)

/-- A TensorCore buffer as a device buffer. -/
abbrev dv (b : Ref sig .tc) : DevRef τ sig := Proc.devRef .tc b

/-- The four buffers of the SparseCore call. -/
def four : Finset (DevRef τ sig) := {dv main_v7, dv main_v8, dv main_v9, dv main_v10}
/-- The result buffer and the five arguments. -/
def six : Finset (DevRef τ sig) := {dv main_v11, dv main_arg0, dv main_arg1, dv main_arg2, dv main_arg3, dv main_arg4}

theorem four_sub : four ⊆ Pipeline.ucRefs τ sig := by decide
theorem six_sub : six ⊆ Pipeline.ucRefs τ sig := by decide

section Val
variable (d : Dev nD) (W : Valuation τ sig (Elt F))

/-- The four, held, are the four arrays whole. -/
theorem held_four : (held (T d) four W : sProp 𝕄)
    = iprop((loc7 d ↦{fullShare} W (dv main_v7)) ∗ (loc8 d ↦{fullShare} W (dv main_v8)) ∗ (loc9 d ↦{fullShare} W (dv main_v9))
        ∗ (loc10 d ↦{fullShare} W (dv main_v10))) := by
  unfold held four
  rw [SparseCore.bigSep_insert' (by decide), SparseCore.bigSep_insert' (by decide), SparseCore.bigSep_insert' (by decide), bigSep_singleton]

/-- The six, held, are the result buffer and the five arguments whole. -/
theorem held_six : (held (T d) six W : sProp 𝕄)
    = iprop((locA d main_v11 ↦{fullShare} W (dv main_v11)) ∗ (locA d main_arg0 ↦{fullShare} W (dv main_arg0))
        ∗ (locA d main_arg1 ↦{fullShare} W (dv main_arg1)) ∗ (locA d main_arg2 ↦{fullShare} W (dv main_arg2))
        ∗ (locA d main_arg3 ↦{fullShare} W (dv main_arg3)) ∗ (locA d main_arg4 ↦{fullShare} W (dv main_arg4))) := by
  unfold held six
  rw [SparseCore.bigSep_insert' (by decide), SparseCore.bigSep_insert' (by decide), SparseCore.bigSep_insert' (by decide),
    SparseCore.bigSep_insert' (by decide), SparseCore.bigSep_insert' (by decide), bigSep_singleton]

/-- What the TensorCore keeps across the call: the other fourteen buffers and the three read arrays' remainders. -/
def Kept : sProp 𝕄 :=
  iprop(held (T d) (Pipeline.ucRefs τ sig \ four) W
    ∗ ((loc7 d ↦{Transfers.shareDrop fullShare 32} W (dv main_v7)) ∗ (loc8 d ↦{Transfers.shareDrop fullShare 32} W (dv main_v8))
      ∗ (loc9 d ↦{Transfers.shareDrop fullShare 32} W (dv main_v9))))

/-- AT THE CALL: the eighteen are what the two SparseCores are handed and what is kept. -/
theorem adapt_st : (held (T d) (Pipeline.ucRefs τ sig) W : sProp 𝕄)
    ⊢ iprop((bigSep Finset.univ fun c : Fin ((K (F := F)).nCore 0) =>
        (P (W (dv main_v7)) (W (dv main_v8)) (W (dv main_v9)) (W (dv main_v10))).st 0 d c) ∗ Kept d W) := by
  rw [held_sub_split (T d) four_sub W, held_four]
  unfold Kept
  iintro ⟨H4, Hrest⟩
  ihave H := (hst (W (dv main_v7)) (W (dv main_v8)) (W (dv main_v9)) (W (dv main_v10)) d) $$ H4
  icases H with ⟨Hd, Hst⟩
  isplitl [Hst]; · iexact Hst
  isplitl [Hrest]; · iexact Hrest
  iexact Hd

/-- AFTER THE CALL: what comes back and what was kept are the eighteen, the result array now at
    component-score × input. -/
theorem adapt_dn : (iprop((bigSep Finset.univ fun c : Fin ((K (F := F)).nCore 0) =>
        (P (W (dv main_v7)) (W (dv main_v8)) (W (dv main_v9)) (W (dv main_v10))).dn 0 d c) ∗ Kept d W) : sProp 𝕄)
    ⊢ held (T d) (Pipeline.ucRefs τ sig)
        (Function.update W (dv main_v10) (outV (W (dv main_v7)) (W (dv main_v8)) (W (dv main_v9)))) := by
  rw [held_sub_split (T d) four_sub (Function.update W (dv main_v10) (outV (W (dv main_v7)) (W (dv main_v8)) (W (dv main_v9)))), held_four,
    Function.update_of_ne (show dv main_v7 ≠ dv main_v10 by decide), Function.update_of_ne (show dv main_v8 ≠ dv main_v10 by decide),
    Function.update_of_ne (show dv main_v9 ≠ dv main_v10 by decide), Function.update_self,
    held_congr (c := T d) (S := Pipeline.ucRefs τ sig \ four) (V' := W) (fun b hb => Function.update_of_ne (fun e => by
      subst e; exact (Finset.mem_sdiff.mp hb).2 (by decide)) _ _)]
  unfold Kept
  iintro ⟨Hdn, Hrest, Hd⟩
  isplitl [Hdn Hd]
  · iapply (hdn (W (dv main_v7)) (W (dv main_v8)) (W (dv main_v9)) (W (dv main_v10)) d)
    isplitl [Hd]; · iexact Hd
    iexact Hdn
  iexact Hrest

end Val

section Fin
variable (m : (ℓ : Loc nD τ sig) → Buf (Elt F) ℓ) (d : Dev nD) (V4 : Valuation τ sig (Elt F))
variable (f7 : S1048576.Idx → Elt F .f32) (f8 : S16777216.Idx → Elt F .i32) (f9 : S16777216.Idx → Elt F .f32)

/-- AT THE END: out of the eighteen after the last reshape, the result buffer and the five arguments, where the
    contents before it hold the call's result at the result array and the launch memory at the arguments. -/
theorem adapt_fin (h10 : V4 (dv main_v10) = outV f7 f8 f9)
    (h0 : V4 (dv main_arg0) = m (locA d main_arg0)) (h1 : V4 (dv main_arg1) = m (locA d main_arg1))
    (h2 : V4 (dv main_arg2) = m (locA d main_arg2)) (h3 : V4 (dv main_arg3) = m (locA d main_arg3))
    (h4 : V4 (dv main_arg4) = m (locA d main_arg4)) :
    (held (T d) (Pipeline.ucRefs τ sig) (StableHlo.after opsTail V4) : sProp 𝕄) ⊢ FIN m f7 f8 f9 d := by
  rw [held_sub_split (T d) six_sub (StableHlo.after opsTail V4), held_six, tail_v11, tail_keep V4 main_arg0 (by decide),
    tail_keep V4 main_arg1 (by decide), tail_keep V4 main_arg2 (by decide), tail_keep V4 main_arg3 (by decide),
    tail_keep V4 main_arg4 (by decide), h10, h0, h1, h2, h3, h4]
  exact sep_elim_left

end Fin

end Cert.Proof.KernelSc

end
-- ==== Proof.TcSideFinBits.lean ====
/-
  The entry function on the TensorCore, in the form the launch theorem asks.

  What the SparseCore call sees is fixed by the launch memory: the score table is the TensorCore call's result laid out
  flat, the component numbers and the inputs are the two arguments laid out flat, the result array is as the memory
  holds it. The entry function's proof is stated for any hand-over of the TensorCore's eighteen buffers around the
  call; here the hand-over is the one of the four arrays of the call, and the eighteen buffers at the end are read
  down to the result buffer and the five arguments: no operation before the call writes an argument or the result
  array, the call changes the result array alone, and the last operation lays the result array out as 4096 × 4096.
-/
import proofs.«215733_g63187558859118_cont_9to1_m_256_17_alg».proof.Proof.TcSideMainBits
import proofs.«215733_g63187558859118_cont_9to1_m_256_17_alg».proof.Proof.TcSideAdaptBits

noncomputable section

namespace Cert.Proof.KernelTc

open Cert.Kernel Cert.Kernel.Gen Cert.Proof.KernelSetup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KernelSc (P FIN outV resV locA dv adapt_st adapt_dn adapt_fin Kept)

variable {F : FTy → Type} [BitOps F]

local notation "𝕄" => MT nD τ sig (HIx 1) (Elt F) ℕ UU ℕ

/-- The one device. -/
abbrev d₀ : Dev nD := ⟨0, Nat.one_pos⟩

section Contents
variable (m : (ℓ : Loc nD τ sig) → Buf (Elt F) ℓ)

/-- What the SparseCore call sees: the flat score table, -/
def f7 : S1048576.Idx → Elt F .f32 := V3 m d₀ (dv main_v7)
/-- the flat component numbers, -/
def f8 : S16777216.Idx → Elt F .i32 := V3 m d₀ (dv main_v8)
/-- the flat inputs, -/
def f9 : S16777216.Idx → Elt F .f32 := V3 m d₀ (dv main_v9)
/-- and the result array as the memory holds it. -/
def f10 : S16777216.Idx → Elt F .f32 := V3 m d₀ (dv main_v10)

/-- The flat component numbers are the third argument laid out flat. -/
theorem v8_eq : f8 m = shapeCast S16777216 (m (locA d₀ main_arg2)) shapeCasts_S4096x4096_S16777216 := by
  unfold f8
  show StableHlo.after opsMid (V2 m d₀) (Proc.devRef .tc main_v8) = _
  rw [mid_v8, V2_of_ne m d₀ main_arg2 (by decide)]
  exact congrArg (fun v : S4096x4096.Idx → BitVec 32 => shapeCast S16777216 v shapeCasts_S4096x4096_S16777216)
    (pre_keep (V0 m d₀) main_arg2 (by decide))

/-- The flat inputs are the first argument laid out flat. -/
theorem v9_eq : f9 m = shapeCast S16777216 (m (locA d₀ main_arg0)) shapeCasts_S4096x4096_S16777216 := by
  unfold f9
  show StableHlo.after opsMid (V2 m d₀) (Proc.devRef .tc main_v9) = _
  rw [mid_v9, V2_of_ne m d₀ main_arg0 (by decide)]
  exact congrArg (fun v : S4096x4096.Idx → Elt F .f32 => shapeCast S16777216 v shapeCasts_S4096x4096_S16777216)
    (pre_keep (V0 m d₀) main_arg0 (by decide))

/-- The flat score table is the TensorCore call's result laid out flat. -/
theorem v7_eq : f7 m = shapeCast S1048576 ((dats (Ain m) 0 d₀).arrAt 2 cfg0.N) shapeCasts_S1024x1024_S1048576 := by
  unfold f7
  show StableHlo.after opsMid (V2 m d₀) (Proc.devRef .tc main_v7) = _
  rw [mid_v7, V2_v6]

end Contents

/-- THE ENTRY FUNCTION, as the launch theorem asks it: from what the launch deals the TensorCore to the handshake state
    after the call, the result buffer at the call's result laid out as 4096 × 4096, and the five arguments as the
    launch memory holds them. -/
theorem hmainFIN [∀ e, Nonempty (Elt F e)] (m : (ℓ : Loc nD τ sig) → Buf (Elt F) ℓ) (ρ : Dev nD → PrngReg)
    (κ : GSem nD τ sig → ℕ) (d : Dev nD) :
    iprop((K (F := F)).ctx Cert.Proof.KernelSc.EH (P (f7 m) (f8 m) (f9 m) (f10 m)) κ ∗ (K (F := F)).tcSt Cert.Proof.KernelSc.EH d 0
        ∗ (K (F := F)).tcRes m ρ d ∗ GP (F := F) d)
      ⊢ wp frame (wpE ((K (F := F)).defs (D (F := F))) 𝒱 (SparseCore.T d) none) Set.univ (main d)
          fun _ => (iprop((K (F := F)).tcSt Cert.Proof.KernelSc.EH d 1 ∗ FIN m (f7 m) (f8 m) (f9 m) d) : sProp 𝕄) := by
  obtain rfl : d = d₀ := Subsingleton.elim _ _
  refine (hmain m (P (f7 m) (f8 m) (f9 m) (f10 m)) ρ (K (F := F)).lev (K (F := F)).refines_self
    (fun d => Function.update (V3 m d) (dv main_v10) (outV (V3 m d (dv main_v7)) (V3 m d (dv main_v8)) (V3 m d (dv main_v9))))
    (fun d => Kept d (V3 m d)) κ d₀ (adapt_st d₀ (V3 m d₀)) (adapt_dn d₀ (V3 m d₀))).trans ?_
  refine wp_mono frame _ Set.univ fun _ => ?_
  iintro ⟨Hst, Hheld⟩
  isplitl [Hst]; · iexact Hst
  iapply (adapt_fin m d₀ (Function.update (V3 m d₀) (dv main_v10) (outV (V3 m d₀ (dv main_v7)) (V3 m d₀ (dv main_v8)) (V3 m d₀ (dv main_v9))))
    (f7 m) (f8 m) (f9 m) (Function.update_self _ _ _)
    ((Function.update_of_ne (show dv main_arg0 ≠ dv main_v10 by decide) _ _).trans ((mid_keep (V2 m d₀) main_arg0 (by decide)).trans ((V2_of_ne m d₀ main_arg0 (by decide)).trans (pre_keep (V0 m d₀) main_arg0 (by decide)))))
    ((Function.update_of_ne (show dv main_arg1 ≠ dv main_v10 by decide) _ _).trans ((mid_keep (V2 m d₀) main_arg1 (by decide)).trans ((V2_of_ne m d₀ main_arg1 (by decide)).trans (pre_keep (V0 m d₀) main_arg1 (by decide)))))
    ((Function.update_of_ne (show dv main_arg2 ≠ dv main_v10 by decide) _ _).trans ((mid_keep (V2 m d₀) main_arg2 (by decide)).trans ((V2_of_ne m d₀ main_arg2 (by decide)).trans (pre_keep (V0 m d₀) main_arg2 (by decide)))))
    ((Function.update_of_ne (show dv main_arg3 ≠ dv main_v10 by decide) _ _).trans ((mid_keep (V2 m d₀) main_arg3 (by decide)).trans ((V2_of_ne m d₀ main_arg3 (by decide)).trans (pre_keep (V0 m d₀) main_arg3 (by decide)))))
    ((Function.update_of_ne (show dv main_arg4 ≠ dv main_v10 by decide) _ _).trans ((mid_keep (V2 m d₀) main_arg4 (by decide)).trans ((V2_of_ne m d₀ main_arg4 (by decide)).trans (pre_keep (V0 m d₀) main_arg4 (by decide))))))
  iexact Hheld

end Cert.Proof.KernelTc

end
-- ==== Proof.ScTileOwnIdeal.lean ====
/-
  The tile's own storage, named: of the scoped DMA cells the launch hands a tile at zero, the nine its kernel uses (two
  each for the component-number copies, the input copies, the gathers and the result copies, and one for the copy of the
  table segment); of its scoped buffers, the six chunk-sized scratch buffers. Each family is taken out of the launch's
  conjunction over all the tile's cells (buffers), the others left as they came.
-/
import proofs.«215733_g63187558859118_cont_9to1_m_256_17_alg».proof.Proof.ScBarrierIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

/-! ## The tile's own cells and buffers, taken out of what the launch hands it -/

abbrev sI0 : DmaSem sig := ((SemArray.slice cc1_scratch7 (Rect.unit (s := S2) ![0] S1.size inb_S2_S1_0)).squeeze S_ squeezes_S1_S_).sem
abbrev sI1 : DmaSem sig := ((SemArray.slice cc1_scratch7 (Rect.unit (s := S2) ![1] S1.size inb_S2_S1_1)).squeeze S_ squeezes_S1_S_).sem
abbrev sX0 : DmaSem sig := ((SemArray.slice cc1_scratch8 (Rect.unit (s := S2) ![0] S1.size inb_S2_S1_0)).squeeze S_ squeezes_S1_S_).sem
abbrev sX1 : DmaSem sig := ((SemArray.slice cc1_scratch8 (Rect.unit (s := S2) ![1] S1.size inb_S2_S1_1)).squeeze S_ squeezes_S1_S_).sem
abbrev sG0 : DmaSem sig := ((SemArray.slice cc1_scratch9 (Rect.unit (s := S2) ![0] S1.size inb_S2_S1_0)).squeeze S_ squeezes_S1_S_).sem
abbrev sG1 : DmaSem sig := ((SemArray.slice cc1_scratch9 (Rect.unit (s := S2) ![1] S1.size inb_S2_S1_1)).squeeze S_ squeezes_S1_S_).sem
abbrev sO0 : DmaSem sig := ((SemArray.slice cc1_scratch10 (Rect.unit (s := S2) ![0] S1.size inb_S2_S1_0)).squeeze S_ squeezes_S1_S_).sem
abbrev sO1 : DmaSem sig := ((SemArray.slice cc1_scratch10 (Rect.unit (s := S2) ![1] S1.size inb_S2_S1_1)).squeeze S_ squeezes_S1_S_).sem
abbrev sT : DmaSem sig := cc1_scoped0.sem

abbrev cell (d : Dev nD) (L : grid1.Coords) (s : DmaSem sig) : GSem nD τ sig := (V d (cV L) (jV L), .dma s)

variable (d : Dev nD) (L : grid1.Coords)

abbrev restCells : Finset (GSem nD τ sig) := (((((((((ownCells (V d (cV L) (jV L))).erase (cell d L sI0)).erase (cell d L sI1)).erase (cell d L sX0)).erase (cell d L sX1)).erase (cell d L sG0)).erase (cell d L sG1)).erase (cell d L sO0)).erase (cell d L sO1)).erase (cell d L sT)
abbrev restRefs : Finset (DevRef τ sig) := ((((((ownRefs (τ := τ) (.scVector (cV L) (jV L))).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)

omit [FloatOps F] in
theorem ownSems0_V :
    (ownSems0 (V d (cV L) (jV L)) : sProp 𝕄)
      = iprop(semVal (cell d L sI0) 0 ∗ semVal (cell d L sI1) 0 ∗ semVal (cell d L sX0) 0 ∗ semVal (cell d L sX1) 0 ∗ semVal (cell d L sG0) 0 ∗ semVal (cell d L sG1) 0 ∗ semVal (cell d L sO0) 0 ∗ semVal (cell d L sO1) 0 ∗ semVal (cell d L sT) 0
          ∗ bigSep (restCells d L) fun g => semVal g 0) := by
  unfold SparseCore.Cfg.ownSems0
  rw [SparseCore.bigSep_erase' ((mem_ownCells (g := cell d L sI0)).mpr ⟨rfl, by show (SemLoc.dma sI0 : SemLoc sig).isScoped .scVector = true; decide⟩),
    SparseCore.bigSep_erase' (Finset.mem_erase.mpr ⟨fun h => absurd (congrArg (fun g : GSem nD τ sig => g.2) h) (by show (SemLoc.dma sI1 : SemLoc sig) ≠ SemLoc.dma sI0; decide), (mem_ownCells (g := cell d L sI1)).mpr ⟨rfl, by show (SemLoc.dma sI1 : SemLoc sig).isScoped .scVector = true; decide⟩⟩),
    SparseCore.bigSep_erase' (Finset.mem_erase.mpr ⟨fun h => absurd (congrArg (fun g : GSem nD τ sig => g.2) h) (by show (SemLoc.dma sX0 : SemLoc sig) ≠ SemLoc.dma sI1; decide), Finset.mem_erase.mpr ⟨fun h => absurd (congrArg (fun g : GSem nD τ sig => g.2) h) (by show (SemLoc.dma sX0 : SemLoc sig) ≠ SemLoc.dma sI0; decide), (mem_ownCells (g := cell d L sX0)).mpr ⟨rfl, by show (SemLoc.dma sX0 : SemLoc sig).isScoped .scVector = true; decide⟩⟩⟩),
    SparseCore.bigSep_erase' (Finset.mem_erase.mpr ⟨fun h => absurd (congrArg (fun g : GSem nD τ sig => g.2) h) (by show (SemLoc.dma sX1 : SemLoc sig) ≠ SemLoc.dma sX0; decide), Finset.mem_erase.mpr ⟨fun h => absurd (congrArg (fun g : GSem nD τ sig => g.2) h) (by show (SemLoc.dma sX1 : SemLoc sig) ≠ SemLoc.dma sI1; decide), Finset.mem_erase.mpr ⟨fun h => absurd (congrArg (fun g : GSem nD τ sig => g.2) h) (by show (SemLoc.dma sX1 : SemLoc sig) ≠ SemLoc.dma sI0; decide), (mem_ownCells (g := cell d L sX1)).mpr ⟨rfl, by show (SemLoc.dma sX1 : SemLoc sig).isScoped .scVector = true; decide⟩⟩⟩⟩),
    SparseCore.bigSep_erase' (Finset.mem_erase.mpr ⟨fun h => absurd (congrArg (fun g : GSem nD τ sig => g.2) h) (by show (SemLoc.dma sG0 : SemLoc sig) ≠ SemLoc.dma sX1; decide), Finset.mem_erase.mpr ⟨fun h => absurd (congrArg (fun g : GSem nD τ sig => g.2) h) (by show (SemLoc.dma sG0 : SemLoc sig) ≠ SemLoc.dma sX0; decide), Finset.mem_erase.mpr ⟨fun h => absurd (congrArg (fun g : GSem nD τ sig => g.2) h) (by show (SemLoc.dma sG0 : SemLoc sig) ≠ SemLoc.dma sI1; decide), Finset.mem_erase.mpr ⟨fun h => absurd (congrArg (fun g : GSem nD τ sig => g.2) h) (by show (SemLoc.dma sG0 : SemLoc sig) ≠ SemLoc.dma sI0; decide), (mem_ownCells (g := cell d L sG0)).mpr ⟨rfl, by show (SemLoc.dma sG0 : SemLoc sig).isScoped .scVector = true; decide⟩⟩⟩⟩⟩),
    SparseCore.bigSep_erase' (Finset.mem_erase.mpr ⟨fun h => absurd (congrArg (fun g : GSem nD τ sig => g.2) h) (by show (SemLoc.dma sG1 : SemLoc sig) ≠ SemLoc.dma sG0; decide), Finset.mem_erase.mpr ⟨fun h => absurd (congrArg (fun g : GSem nD τ sig => g.2) h) (by show (SemLoc.dma sG1 : SemLoc sig) ≠ SemLoc.dma sX1; decide), Finset.mem_erase.mpr ⟨fun h => absurd (congrArg (fun g : GSem nD τ sig => g.2) h) (by show (SemLoc.dma sG1 : SemLoc sig) ≠ SemLoc.dma sX0; decide), Finset.mem_erase.mpr ⟨fun h => absurd (congrArg (fun g : GSem nD τ sig => g.2) h) (by show (SemLoc.dma sG1 : SemLoc sig) ≠ SemLoc.dma sI1; decide), Finset.mem_erase.mpr ⟨fun h => absurd (congrArg (fun g : GSem nD τ sig => g.2) h) (by show (SemLoc.dma sG1 : SemLoc sig) ≠ SemLoc.dma sI0; decide), (mem_ownCells (g := cell d L sG1)).mpr ⟨rfl, by show (SemLoc.dma sG1 : SemLoc sig).isScoped .scVector = true; decide⟩⟩⟩⟩⟩⟩),
    SparseCore.bigSep_erase' (Finset.mem_erase.mpr ⟨fun h => absurd (congrArg (fun g : GSem nD τ sig => g.2) h) (by show (SemLoc.dma sO0 : SemLoc sig) ≠ SemLoc.dma sG1; decide), Finset.mem_erase.mpr ⟨fun h => absurd (congrArg (fun g : GSem nD τ sig => g.2) h) (by show (SemLoc.dma sO0 : SemLoc sig) ≠ SemLoc.dma sG0; decide), Finset.mem_erase.mpr ⟨fun h => absurd (congrArg (fun g : GSem nD τ sig => g.2) h) (by show (SemLoc.dma sO0 : SemLoc sig) ≠ SemLoc.dma sX1; decide), Finset.mem_erase.mpr ⟨fun h => absurd (congrArg (fun g : GSem nD τ sig => g.2) h) (by show (SemLoc.dma sO0 : SemLoc sig) ≠ SemLoc.dma sX0; decide), Finset.mem_erase.mpr ⟨fun h => absurd (congrArg (fun g : GSem nD τ sig => g.2) h) (by show (SemLoc.dma sO0 : SemLoc sig) ≠ SemLoc.dma sI1; decide), Finset.mem_erase.mpr ⟨fun h => absurd (congrArg (fun g : GSem nD τ sig => g.2) h) (by show (SemLoc.dma sO0 : SemLoc sig) ≠ SemLoc.dma sI0; decide), (mem_ownCells (g := cell d L sO0)).mpr ⟨rfl, by show (SemLoc.dma sO0 : SemLoc sig).isScoped .scVector = true; decide⟩⟩⟩⟩⟩⟩⟩),
    SparseCore.bigSep_erase' (Finset.mem_erase.mpr ⟨fun h => absurd (congrArg (fun g : GSem nD τ sig => g.2) h) (by show (SemLoc.dma sO1 : SemLoc sig) ≠ SemLoc.dma sO0; decide), Finset.mem_erase.mpr ⟨fun h => absurd (congrArg (fun g : GSem nD τ sig => g.2) h) (by show (SemLoc.dma sO1 : SemLoc sig) ≠ SemLoc.dma sG1; decide), Finset.mem_erase.mpr ⟨fun h => absurd (congrArg (fun g : GSem nD τ sig => g.2) h) (by show (SemLoc.dma sO1 : SemLoc sig) ≠ SemLoc.dma sG0; decide), Finset.mem_erase.mpr ⟨fun h => absurd (congrArg (fun g : GSem nD τ sig => g.2) h) (by show (SemLoc.dma sO1 : SemLoc sig) ≠ SemLoc.dma sX1; decide), Finset.mem_erase.mpr ⟨fun h => absurd (congrArg (fun g : GSem nD τ sig => g.2) h) (by show (SemLoc.dma sO1 : SemLoc sig) ≠ SemLoc.dma sX0; decide), Finset.mem_erase.mpr ⟨fun h => absurd (congrArg (fun g : GSem nD τ sig => g.2) h) (by show (SemLoc.dma sO1 : SemLoc sig) ≠ SemLoc.dma sI1; decide), Finset.mem_erase.mpr ⟨fun h => absurd (congrArg (fun g : GSem nD τ sig => g.2) h) (by show (SemLoc.dma sO1 : SemLoc sig) ≠ SemLoc.dma sI0; decide), (mem_ownCells (g := cell d L sO1)).mpr ⟨rfl, by show (SemLoc.dma sO1 : SemLoc sig).isScoped .scVector = true; decide⟩⟩⟩⟩⟩⟩⟩⟩),
    SparseCore.bigSep_erase' (Finset.mem_erase.mpr ⟨fun h => absurd (congrArg (fun g : GSem nD τ sig => g.2) h) (by show (SemLoc.dma sT : SemLoc sig) ≠ SemLoc.dma sO1; decide), Finset.mem_erase.mpr ⟨fun h => absurd (congrArg (fun g : GSem nD τ sig => g.2) h) (by show (SemLoc.dma sT : SemLoc sig) ≠ SemLoc.dma sO0; decide), Finset.mem_erase.mpr ⟨fun h => absurd (congrArg (fun g : GSem nD τ sig => g.2) h) (by show (SemLoc.dma sT : SemLoc sig) ≠ SemLoc.dma sG1; decide), Finset.mem_erase.mpr ⟨fun h => absurd (congrArg (fun g : GSem nD τ sig => g.2) h) (by show (SemLoc.dma sT : SemLoc sig) ≠ SemLoc.dma sG0; decide), Finset.mem_erase.mpr ⟨fun h => absurd (congrArg (fun g : GSem nD τ sig => g.2) h) (by show (SemLoc.dma sT : SemLoc sig) ≠ SemLoc.dma sX1; decide), Finset.mem_erase.mpr ⟨fun h => absurd (congrArg (fun g : GSem nD τ sig => g.2) h) (by show (SemLoc.dma sT : SemLoc sig) ≠ SemLoc.dma sX0; decide), Finset.mem_erase.mpr ⟨fun h => absurd (congrArg (fun g : GSem nD τ sig => g.2) h) (by show (SemLoc.dma sT : SemLoc sig) ≠ SemLoc.dma sI1; decide), Finset.mem_erase.mpr ⟨fun h => absurd (congrArg (fun g : GSem nD τ sig => g.2) h) (by show (SemLoc.dma sT : SemLoc sig) ≠ SemLoc.dma sI0; decide), (mem_ownCells (g := cell d L sT)).mpr ⟨rfl, by show (SemLoc.dma sT : SemLoc sig).isScoped .scVector = true; decide⟩⟩⟩⟩⟩⟩⟩⟩⟩)]

omit [FloatOps F] in
theorem ownBufs_V :
    (ownBufs (V d (cV L) (jV L)) : sProp 𝕄)
      = iprop((∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f)
          ∗ bigSep (restRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch1) rfl),
    SparseCore.bigSep_erase' (Finset.mem_erase.mpr ⟨fun h => absurd (congrArg (fun b : DevRef τ sig => b.idx.val) h) (by show ¬ ((1 : Nat) = 0); decide), SparseCore.Cfg.mem_ownRefs_of_owner (p := Proc.scVector (cV L) (jV L)) (b := (Proc.scVector (cV L) (jV L)).devRef cc1_scratch2) rfl⟩),
    SparseCore.bigSep_erase' (Finset.mem_erase.mpr ⟨fun h => absurd (congrArg (fun b : DevRef τ sig => b.idx.val) h) (by show ¬ ((2 : Nat) = 1); decide), Finset.mem_erase.mpr ⟨fun h => absurd (congrArg (fun b : DevRef τ sig => b.idx.val) h) (by show ¬ ((2 : Nat) = 0); decide), SparseCore.Cfg.mem_ownRefs_of_owner (p := Proc.scVector (cV L) (jV L)) (b := (Proc.scVector (cV L) (jV L)).devRef cc1_scratch3) rfl⟩⟩),
    SparseCore.bigSep_erase' (Finset.mem_erase.mpr ⟨fun h => absurd (congrArg (fun b : DevRef τ sig => b.idx.val) h) (by show ¬ ((3 : Nat) = 2); decide), Finset.mem_erase.mpr ⟨fun h => absurd (congrArg (fun b : DevRef τ sig => b.idx.val) h) (by show ¬ ((3 : Nat) = 1); decide), Finset.mem_erase.mpr ⟨fun h => absurd (congrArg (fun b : DevRef τ sig => b.idx.val) h) (by show ¬ ((3 : Nat) = 0); decide), SparseCore.Cfg.mem_ownRefs_of_owner (p := Proc.scVector (cV L) (jV L)) (b := (Proc.scVector (cV L) (jV L)).devRef cc1_scratch4) rfl⟩⟩⟩),
    SparseCore.bigSep_erase' (Finset.mem_erase.mpr ⟨fun h => absurd (congrArg (fun b : DevRef τ sig => b.idx.val) h) (by show ¬ ((4 : Nat) = 3); decide), Finset.mem_erase.mpr ⟨fun h => absurd (congrArg (fun b : DevRef τ sig => b.idx.val) h) (by show ¬ ((4 : Nat) = 2); decide), Finset.mem_erase.mpr ⟨fun h => absurd (congrArg (fun b : DevRef τ sig => b.idx.val) h) (by show ¬ ((4 : Nat) = 1); decide), Finset.mem_erase.mpr ⟨fun h => absurd (congrArg (fun b : DevRef τ sig => b.idx.val) h) (by show ¬ ((4 : Nat) = 0); decide), SparseCore.Cfg.mem_ownRefs_of_owner (p := Proc.scVector (cV L) (jV L)) (b := (Proc.scVector (cV L) (jV L)).devRef cc1_scratch5) rfl⟩⟩⟩⟩),
    SparseCore.bigSep_erase' (Finset.mem_erase.mpr ⟨fun h => absurd (congrArg (fun b : DevRef τ sig => b.idx.val) h) (by show ¬ ((5 : Nat) = 4); decide), Finset.mem_erase.mpr ⟨fun h => absurd (congrArg (fun b : DevRef τ sig => b.idx.val) h) (by show ¬ ((5 : Nat) = 3); decide), Finset.mem_erase.mpr ⟨fun h => absurd (congrArg (fun b : DevRef τ sig => b.idx.val) h) (by show ¬ ((5 : Nat) = 2); decide), Finset.mem_erase.mpr ⟨fun h => absurd (congrArg (fun b : DevRef τ sig => b.idx.val) h) (by show ¬ ((5 : Nat) = 1); decide), Finset.mem_erase.mpr ⟨fun h => absurd (congrArg (fun b : DevRef τ sig => b.idx.val) h) (by show ¬ ((5 : Nat) = 0); decide), SparseCore.Cfg.mem_ownRefs_of_owner (p := Proc.scVector (cV L) (jV L)) (b := (Proc.scVector (cV L) (jV L)).devRef cc1_scratch6) rfl⟩⟩⟩⟩⟩)]

end Cert.Proof.KernelIdealSc

end
-- ==== Proof.ScTileGeomIdeal.lean ====
/-
  Where the tile's pieces of the arrays lie, and what its copies leave in them.

  The result array is cut into 2048 chunks of 8192 pixels and tile L owns 64 consecutive ones; the score table's shared
  copy is cut into 16 segments of 65536 entries and tile L writes segment number (L 1). This module says that the 64
  chunks are pairwise disjoint (so holding them chunk by chunk is holding their union), that the segment the kernel
  slices at offset 65536 · (L 1) is that segment, that a copy of the same slice of the score table into it leaves the
  score table's entries there, and that a chunk of component numbers copied into an index buffer is in the table's range
  whenever every component number is.
-/
import proofs.«215733_g63187558859118_cont_9to1_m_256_17_alg».proof.Proof.ScTileOwnIdeal
import Idealize.ShloMosaic.Lib.Writes

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)
variable (f7 : S1048576.Idx → Elt F .f32) (f8 : S16777216.Idx → Elt F .i32) (f9 f10 : S16777216.Idx → Elt F .f32)

/-! ## Pure facts about the tile's sets and contents (geometry and values) -/

/-- Every pixel outside tile `L`'s 64 chunks. -/
def Others : Finset S16777216.Idx := Finset.univ \ (Finset.univ.biUnion fun k : Fin 64 => chunkSet L k)

omit [FloatOps F] in
theorem pts7 (q : PosShare TreeShare) (f : S1048576.Idx → Elt F .f32) : ((scV).view.loc (V d (cV L) (jV L)) ↦{q} f : sProp 𝕄) = (loc7 d ↦{q} f) := rfl
omit [FloatOps F] in
theorem pts8 (q : PosShare TreeShare) (f : S16777216.Idx → Elt F .i32) : ((iV).view.loc (V d (cV L) (jV L)) ↦{q} f : sProp 𝕄) = (loc8 d ↦{q} f) := rfl
omit [FloatOps F] in
theorem pts9 (q : PosShare TreeShare) (f : S16777216.Idx → Elt F .f32) : ((xV).view.loc (V d (cV L) (jV L)) ↦{q} f : sProp 𝕄) = (loc9 d ↦{q} f) := rfl
omit [FloatOps F] in
theorem ptsTab (q : PosShare TreeShare) (f : S1048576.Idx → Elt F .f32) : ((tabV).view.loc (V d (cV L) (jV L)) ↦{q} f : sProp 𝕄) = (shLoc d (cV L) ↦{q} f) := rfl
omit [FloatOps F] in
theorem ptsI0 (f : Buf (Elt F) ((V d (cV L) (jV L)).loc cc1_scratch1)) : ((i0V).view.loc (V d (cV L) (jV L)) ↦{fullShare} f : sProp 𝕄) = ((V d (cV L) (jV L)).loc cc1_scratch1 ↦{fullShare} f) := rfl
omit [FloatOps F] in
theorem ptsI1 (f : Buf (Elt F) ((V d (cV L) (jV L)).loc cc1_scratch2)) : ((i1V).view.loc (V d (cV L) (jV L)) ↦{fullShare} f : sProp 𝕄) = ((V d (cV L) (jV L)).loc cc1_scratch2 ↦{fullShare} f) := rfl
omit [FloatOps F] in
theorem ptsX0 (f : Buf (Elt F) ((V d (cV L) (jV L)).loc cc1_scratch3)) : ((x0V).view.loc (V d (cV L) (jV L)) ↦{fullShare} f : sProp 𝕄) = ((V d (cV L) (jV L)).loc cc1_scratch3 ↦{fullShare} f) := rfl
omit [FloatOps F] in
theorem ptsX1 (f : Buf (Elt F) ((V d (cV L) (jV L)).loc cc1_scratch4)) : ((x1V).view.loc (V d (cV L) (jV L)) ↦{fullShare} f : sProp 𝕄) = ((V d (cV L) (jV L)).loc cc1_scratch4 ↦{fullShare} f) := rfl
omit [FloatOps F] in
theorem ptsG0 (f : Buf (Elt F) ((V d (cV L) (jV L)).loc cc1_scratch5)) : ((g0V).view.loc (V d (cV L) (jV L)) ↦{fullShare} f : sProp 𝕄) = ((V d (cV L) (jV L)).loc cc1_scratch5 ↦{fullShare} f) := rfl
omit [FloatOps F] in
theorem ptsG1 (f : Buf (Elt F) ((V d (cV L) (jV L)).loc cc1_scratch6)) : ((g1V).view.loc (V d (cV L) (jV L)) ↦{fullShare} f : sProp 𝕄) = ((V d (cV L) (jV L)).loc cc1_scratch6 ↦{fullShare} f) := rfl

/-! ## The chunks of the result -/

omit [FloatOps F] in
theorem chunkSet_eq (k : Fin 64) : chunkSet L k = (chunkR L k).set := by
  show ((View.whole (main_v10_scv : Ref sig .scVector)).slice (chunkR L k)).set = _
  rw [View.set_slice]; exact Finset.map_refl

omit [FloatOps F] in
/-- Different chunks of one tile are different chunks of the 2048. -/
theorem chunkNo_injective : Function.Injective (chunkNo L) := fun k k' e => Fin.ext (by
  have h := congrArg Fin.val e
  simp only [chunkNo] at h
  omega)

omit [FloatOps F] in
theorem geom_chunks_disjoint : ∀ k ∈ (Finset.univ : Finset (Fin 64)), ∀ k' ∈ (Finset.univ : Finset (Fin 64)), k ≠ k' → Disjoint (chunkSet L k) (chunkSet L k') :=
  fun k _ k' _ h => by rw [chunkSet_eq, chunkSet_eq]; exact Rect.part_disjoint hdivChunk fun e => h (chunkNo_injective L e)

/-- The tile's 64 chunks of the result, held chunk by chunk, are its region held as the complement of everything else. -/
theorem out_join (f : S16777216.Idx → Elt F .f32) :
    (bigSep Finset.univ fun k : Fin 64 => (loc10 d ↦[chunkSet L k]{fullShare} f : sProp 𝕄))
      = ((oV).view.loc (V d (cV L) (jV L)) ↦[Finset.univ \ Others L]{fullShare} f) := by
  rw [← pointsTo_biUnion Finset.univ (ℓ := loc10 d) (chunkSet L) (geom_chunks_disjoint L)]
  unfold Others
  rw [Finset.sdiff_sdiff_eq_self (Finset.subset_univ _)]

/-! ## The segment of the table -/

omit [FloatOps F] in
/-- The rectangle the kernel slices at offset 65536 · (L 1) is segment (L 1) of the sixteen. -/
theorem segRect_eq : Rect.unit (s := S1048576) (k1_off2 L) S65536.size (k1_off2_inb L) = segR (jL L) := by
  unfold segR Rect.part Rect.block
  congr 1 <;> funext a
  · rw [k1_off2_eq]
    match a with
    | ⟨0, _⟩ => simp [Shape.partIx, Shape.partSize]; exact Nat.mul_comm _ _
  · match a with
    | ⟨0, _⟩ => simp [Shape.partSize]

omit [FloatOps F] in
/-- The table segment the tile copies into, as the program slices it, is segment `jL L`. -/
theorem seg_spell :
    ((tabV).slice (Rect.unit (s := S1048576) (k1_off2 L) S65536.size (k1_off2_inb L)) (fun _ => rfl)).view.set = segSet (jL L) := by
  show ((tabV).view.slice (Rect.unit (s := S1048576) (k1_off2 L) S65536.size (k1_off2_inb L))).set = ((tabV).view.slice (segR (jL L))).set
  rw [segRect_eq]

/-- After the copy the segment holds the score table's entries. -/
theorem seg_copy_val (fsh : S1048576.Idx → Elt F .f32) :
    ∀ i ∈ segSet (jL L),
      View.write (Elt F) ((tabV).slice (Rect.unit (s := S1048576) (k1_off2 L) S65536.size (k1_off2_inb L)) (fun _ => rfl)).view fsh
        (ReadAs.same.apply (View.read (Elt F) ((scV).slice (Rect.unit (s := S1048576) (k1_off2 L) S65536.size (k1_off2_inb L)) (fun _ => rfl)).view f7)) Finset.univ i = f7 i := by
  intro i hi
  rw [← seg_spell] at hi
  obtain ⟨y, -, rfl⟩ := Finset.mem_map.mp hi
  rw [View.write_emb_of_mem _ _ (Finset.mem_univ y)]
  rfl

/-- A chunk of component numbers copied into an index buffer is in the table's range, whatever the buffer held. -/
theorem hinW0 (hidx : ∀ p, (f8 p : BitVec 32).toNat < 1048576) :
    ∀ (a : Buf (Elt F) ((V d (cV L) (jV L)).loc cc1_scratch1)) (off : Fin 1 → Nat) (h : ∀ a, off a + S8192.size a ≤ S16777216.size a) (x : S8192.Idx),
      ((i0V).view.read (Elt F) (View.write (Elt F) (i0V).view a (ReadAs.same.apply (View.read (Elt F) ((iV).slice (Rect.unit (s := S16777216) off S8192.size h) (fun _ => rfl)).view f8)) Finset.univ) x).toNat < 1048576 := by
  intro a off h x
  rw [View.read_write_univ]
  exact hidx _
theorem hinW1 (hidx : ∀ p, (f8 p : BitVec 32).toNat < 1048576) :
    ∀ (a : Buf (Elt F) ((V d (cV L) (jV L)).loc cc1_scratch2)) (off : Fin 1 → Nat) (h : ∀ a, off a + S8192.size a ≤ S16777216.size a) (x : S8192.Idx),
      ((i1V).view.read (Elt F) (View.write (Elt F) (i1V).view a (ReadAs.same.apply (View.read (Elt F) ((iV).slice (Rect.unit (s := S16777216) off S8192.size h) (fun _ => rfl)).view f8)) Finset.univ) x).toNat < 1048576 := by
  intro a off h x
  rw [View.read_write_univ]
  exact hidx _

abbrev segM : Memref sig .scVector .shared S65536 .f32 := (tabV).slice (Rect.unit (s := S1048576) (k1_off2 L) S65536.size (k1_off2_inb L)) (fun _ => rfl)
abbrev srcM : Memref sig .scVector .hbm S65536 .f32 := (scV).slice (Rect.unit (s := S1048576) (k1_off2 L) S65536.size (k1_off2_inb L)) (fun _ => rfl)

/-- Once its copy has landed, the tile's segment of the shared table holds the score table's entries. -/
theorem seg_done (fsh : Buf (Elt F) (shLoc d (cV L))) :
    ((segM L).view.loc (V d (cV L) (jV L)) ↦[(segM L).view.set]{fullShare}
        ((segM L).view.writes (Elt F) fsh [⟨Rect.whole (Rect.unit (s := S1048576) (k1_off2 L) S65536.size (k1_off2_inb L)).shape, ReadAs.same.apply (View.read (Elt F) (srcM L).view f7)⟩]) : sProp 𝕄)
      ⊢ (shLoc d (cV L) ↦[segSet (jL L)]{fullShare} f7) := by
  rw [seg_spell]
  refine Entails.of_eq (pointsTo_congr fun i hi => ?_)
  rw [← seg_spell] at hi
  obtain ⟨y, -, rfl⟩ := Finset.mem_map.mp hi
  rw [View.writes_singleton]
  have e : (segM L).view.emb y
      = ((segM L).view.slice (Rect.whole (Rect.unit (s := S1048576) (k1_off2 L) S65536.size (k1_off2_inb L)).shape)).emb y := by
    show _ = (segM L).view.emb ((Rect.whole _).emb y); rw [Rect.emb_whole_apply]
  rw [e, View.write_emb_of_mem _ _ (Finset.mem_univ y), ← e]
  rfl

/-! ## The windows the result is copied out through -/

omit [FloatOps F] in
/-- The window of 8192 pixels that the copy of trip `k`, slot `r`, writes is the tile's chunk 2 k + r. -/
theorem winRect_eq (k : Fin k1_t1_loop.trips) (r : Fin 2)
    (h : ∀ a, (k1_off4 L k (BitVec.ofNat 32 r.val)) a + S8192.size a ≤ S16777216.size a) (hk : 2 * k.val + r.val < 64) :
    Rect.unit (s := S16777216) (k1_off4 L k (BitVec.ofNat 32 r.val)) S8192.size h = chunkR L ⟨2 * k.val + r.val, hk⟩ := by
  unfold chunkR Rect.part Rect.block
  congr 1 <;> funext a
  · rw [k1_off4_eq]
    match a with
    | ⟨0, _⟩ => simp [Shape.partIx, Shape.partSize, chunkNo]; omega
  · match a with
    | ⟨0, _⟩ => simp [Shape.partSize]

omit [FloatOps F] in
/-- So it lies inside the tile's own region: it is disjoint from every pixel outside the tile's 64 chunks. -/
theorem win_disj (k : Fin k1_t1_loop.trips) (r : Fin 2)
    (h : ∀ a, (k1_off4 L k (BitVec.ofNat 32 r.val)) a + S8192.size a ≤ S16777216.size a) :
    Disjoint ((oV).slice (Rect.unit (s := S16777216) (k1_off4 L k (BitVec.ofNat 32 r.val)) S8192.size h) (fun _ => rfl)).view.set (Others L) := by
  have hk : 2 * k.val + r.val < 64 := by
    have h1 := k.isLt; have h2 := k1_t1_abs.2.1; have h3 := r.isLt; omega
  have e : ((oV).slice (Rect.unit (s := S16777216) (k1_off4 L k (BitVec.ofNat 32 r.val)) S8192.size h) (fun _ => rfl)).view.set
      = chunkSet L ⟨2 * k.val + r.val, hk⟩ := by
    show ((oV).view.slice (Rect.unit (s := S16777216) (k1_off4 L k (BitVec.ofNat 32 r.val)) S8192.size h)).set = ((oV).view.slice (chunkR L ⟨2 * k.val + r.val, hk⟩)).set
    rw [winRect_eq L k r h hk]
  rw [e]
  exact Finset.disjoint_of_subset_left (Finset.subset_biUnion_of_mem (chunkSet L) (Finset.mem_univ _)) Finset.disjoint_sdiff

omit [FloatOps F] in
/-- The window a result copy writes lies inside the tile's own region. -/
theorem win_disj0 : ∀ (k : Fin k1_t1_loop.trips) (h : ∀ a, (k1_off4 L k 0#32) a + S8192.size a ≤ S16777216.size a),
    Disjoint ((oV).slice (Rect.unit (s := S16777216) (k1_off4 L k 0#32) S8192.size h) (fun _ => rfl)).view.set (Others L) :=
  fun k h => win_disj L k ⟨0, by decide⟩ h
omit [FloatOps F] in
theorem win_disj1 : ∀ (k : Fin k1_t1_loop.trips) (h : ∀ a, (k1_off4 L k 1#32) a + S8192.size a ≤ S16777216.size a),
    Disjoint ((oV).slice (Rect.unit (s := S16777216) (k1_off4 L k 1#32) S8192.size h) (fun _ => rfl)).view.set (Others L) :=
  fun k h => win_disj L k ⟨1, by decide⟩ h

end Cert.Proof.KernelIdealSc

end
-- ==== Proof.ScMulIdeal.lean ====
/-
  The two multiplication loops of the SparseCore kernel and what they leave.

  Each of the two loops walks a buffer of 8192 numbers (the entries gathered from the score table) in 512 pieces of
  sixteen: at trip j it reads entries 16 j … 16 j + 15 of the gathered buffer and of an input buffer, multiplies them
  entry by entry, and writes the sixteen products back over the gathered entries. A trip touches only its own sixteen
  entries, so before trip j the gathered buffer holds the products on its first 16 j entries and what it held at the
  start on the rest, and after the last trip it holds, at every entry, the product of what the two buffers held there.

  The last section reads the pieces the value is made of: a chunk copied from a flat array holds the array's entries from
  the chunk's offset on; a gather of single entries delivers, at entry j, the table's entry at the j-th word of the list;
  so a chunk's gathered entries times its inputs are, pixel by pixel, the score of the pixel's component times the
  pixel's input.
-/
import proofs.«215733_g63187558859118_cont_9to1_m_256_17_alg».proof.Proof.ScResIdeal
import Idealize.ShloMosaic.Lib.Tactic
import Idealize.ShloMosaic.Lib.Writes
import Idealize.ShloMosaic.Lib.SparseCore.Stream
import Idealize.ShloMosaic.Lib.Pipeline.Value

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The product, entry by entry -/

/-- The two loops' payloads are one term: sixteen products, entry by entry (the casts between a shape and itself are
    the identity). -/
theorem k1_pay2_apply (a b : Vec F S16 .f32) (y : S16.Idx) : k1_pay2 a b y = FloatOps.mulf (a y) (b y) := by
  unfold k1_pay2
  rw [shapeCast_self, shapeCast_self, shapeCast_self]; rfl
theorem k1_pay1_apply (a b : Vec F S16 .f32) (y : S16.Idx) : k1_pay1 a b y = FloatOps.mulf (a y) (b y) := by
  unfold k1_pay1
  rw [shapeCast_self, shapeCast_self, shapeCast_self]; rfl

/-- Piece `j` of a buffer of 8192: its sixteen entries from 16 j on. -/
def piece16 (f : S8192.Idx → Elt F .f32) (j : Fin 512) : Vec F S16 .f32 :=
  fun y => f (ValueIdx.ix1 ⟨16 * j.val + (y 0).val, by
    have h : (y 0).val < 16 := (y 0).isLt
    have := j.isLt; omega⟩)

/-- What a loop leaves in the gathered buffer, as one function of the two buffers before it: entry `i` is entry
    `i % 16` of the loop's payload at pieces `i / 16` of the two buffers. -/
def prod16 (g x : S8192.Idx → Elt F .f32) : S8192.Idx → Elt F .f32 :=
  fun i => k1_pay2 (piece16 g ⟨(i 0).val / 16, by have h : (i 0).val < 8192 := (i 0).isLt; omega⟩)
    (piece16 x ⟨(i 0).val / 16, by have h : (i 0).val < 8192 := (i 0).isLt; omega⟩)
    (ValueIdx.ix1 ⟨(i 0).val % 16, Nat.mod_lt _ (by decide)⟩)

/-- Entry by entry it is the product. -/
theorem prod16_at (g x : S8192.Idx → Elt F .f32) (i : S8192.Idx) : prod16 g x i = FloatOps.mulf (g i) (x i) := by
  have e : ∀ h, (ValueIdx.ix1 (⟨16 * ((i 0).val / 16) + (i 0).val % 16, h⟩ : Fin 8192) : S8192.Idx) = i := fun h =>
    funext fun d => match d with | ⟨0, _⟩ => Fin.ext (Nat.div_add_mod _ 16)
  unfold prod16
  rw [k1_pay2_apply]
  unfold piece16
  exact congrArg₂ FloatOps.mulf (congrArg g (e _)) (congrArg x (e _))

theorem prod16_apply (g x : S8192.Idx → Elt F .f32) (j : Fin 8192) :
    prod16 g x (ValueIdx.ix1 j) = FloatOps.mulf (g (ValueIdx.ix1 j)) (x (ValueIdx.ix1 j)) := prod16_at g x _

/-- The gathered buffer before trip `n`: the product on its first 16 n entries, as it was on the rest. -/
def mulUpTo (g x : S8192.Idx → Elt F .f32) : ℕ → S8192.Idx → Elt F .f32
  | 0 => g
  | n + 1 => fun i => if (i 0).val < 16 * (n + 1) then prod16 g x i else g i

theorem mulUpTo_apply (g x : S8192.Idx → Elt F .f32) (n : ℕ) (i : S8192.Idx) :
    mulUpTo g x n i = if (i 0).val < 16 * n then prod16 g x i else g i := by
  cases n with
  | zero => exact (if_neg (by omega)).symm
  | succ n => rfl

/-- After 512 trips it is the product everywhere. -/
theorem mulUpTo_512 (g x : S8192.Idx → Elt F .f32) : mulUpTo g x 512 = prod16 g x :=
  funext fun i => by
    have h : (i 0).val < 8192 := (i 0).isLt
    rw [mulUpTo_apply, if_pos (by omega)]

/-- One trip, as a statement about functions: contents that read the sixteen products on piece `k` and the contents
    before trip `k` elsewhere are the contents before trip `k + 1`. -/
theorem mulUpTo_succ_of (g x : S8192.Idx → Elt F .f32) (k : ℕ) (off : Fin 1 → ℕ) (inb : ∀ a, off a + S16.size a ≤ S8192.size a)
    (hoff : off 0 = 16 * k) (G : S8192.Idx → Elt F .f32)
    (hin : ∀ y, G ((Rect.unit (s := S8192) off S16.size inb).emb y)
      = FloatOps.mulf (mulUpTo g x k ((Rect.unit (s := S8192) off S16.size inb).emb y)) (x ((Rect.unit (s := S8192) off S16.size inb).emb y)))
    (hout : ∀ i, i ∉ (Rect.unit (s := S8192) off S16.size inb).set → G i = mulUpTo g x k i) :
    G = mulUpTo g x (k + 1) := by
  funext i
  by_cases hi : i ∈ (Rect.unit (s := S8192) off S16.size inb).set
  · obtain ⟨y, rfl⟩ : ∃ y, (Rect.unit (s := S8192) off S16.size inb).emb y = i := (Rect.unit (s := S8192) off S16.size inb).exists_idx_of_mem hi
    have hy : (y 0).val < 16 := (y 0).isLt
    have hv : (((Rect.unit (s := S8192) off S16.size inb).emb y) 0).val = 16 * k + (y 0).val := by
      show off 0 + 1 * (y 0).val = _; omega
    rw [hin, mulUpTo_apply, mulUpTo_apply, if_neg (by omega), if_pos (by omega), prod16_at]
  · rw [hout i hi, mulUpTo_apply, mulUpTo_apply]
    have hn : ¬ (16 * k ≤ (i 0).val ∧ (i 0).val < 16 * k + 16) := fun h => hi (Rect.mem_set_unit.mpr fun a => by
      match a with
      | ⟨0, _⟩ => exact ⟨by show off 0 ≤ (i 0).val; omega, by show (i 0).val < off 0 + 16; omega⟩)
    by_cases h1 : (i 0).val < 16 * k
    · rw [if_pos h1, if_pos (by omega)]
    · rw [if_neg h1, if_neg (by omega)]

/-! ## The two loops -/

section LoopA

variable (d : Dev nD) (L : grid1.Coords) (q : PosShare TreeShare) (g x : S8192.Idx → Elt F .f32)

/-- Before trip `k` of the first loop: the first gathered buffer at the product on its first 16 k entries and as it was beyond, the first input buffer untouched. -/
def mulInvA (k : ℕ) (_ : Unit) : sProp 𝕄 :=
  iprop((((Memref.whole Cert.KernelIdeal.cc1_scratch5 : Memref Cert.KernelIdeal.sig Kind.scVector Space.vmem Cert.KernelIdeal.S8192 EltTy.f32)).view.loc (V d (cV L) (jV L)) ↦{fullShare} mulUpTo g x k) ∗ (((Memref.whole Cert.KernelIdeal.cc1_scratch3 : Memref Cert.KernelIdeal.sig Kind.scVector Space.vmem Cert.KernelIdeal.S8192 EltTy.f32)).view.loc (V d (cV L) (jV L)) ↦{q} x))

/-- What trip `k`'s store leaves is the contents before trip `k + 1`: the stored piece is the sixteen products (the
    trip read its own, still untouched, sixteen entries), and the store touches nothing else. -/
theorem mulUpTo_succA (k : Fin k1_t2_loop.trips) :
    ((Memref.whole Cert.KernelIdeal.cc1_scratch5 : Memref Cert.KernelIdeal.sig Kind.scVector Space.vmem Cert.KernelIdeal.S8192 EltTy.f32)).view.writes (Elt F) (mulUpTo g x k.val)
      [⟨(Rect.unit (s := S8192) (k1_off3 k) S16.size (k1_off3_inb k)),
        (k1_pay2 (View.readAt (Elt F) ((Memref.whole Cert.KernelIdeal.cc1_scratch5 : Memref Cert.KernelIdeal.sig Kind.scVector Space.vmem Cert.KernelIdeal.S8192 EltTy.f32)).view (Rect.unit (s := S8192) (k1_off3 k) S16.size (k1_off3_inb k)).toLoadRect (mulUpTo g x k.val))
          (View.readAt (Elt F) ((Memref.whole Cert.KernelIdeal.cc1_scratch3 : Memref Cert.KernelIdeal.sig Kind.scVector Space.vmem Cert.KernelIdeal.S8192 EltTy.f32)).view (Rect.unit (s := S8192) (k1_off3 k) S16.size (k1_off3_inb k)).toLoadRect x))⟩]
      = mulUpTo g x (k.val + 1) :=
  mulUpTo_succ_of g x k.val (k1_off3 k) (k1_off3_inb k) (by rw [k1_off3_eq]; rfl) _
    (fun y => (View.read_writes_cons_emb ((Memref.whole Cert.KernelIdeal.cc1_scratch5 : Memref Cert.KernelIdeal.sig Kind.scVector Space.vmem Cert.KernelIdeal.S8192 EltTy.f32)).view (mulUpTo g x k.val) (Rect.unit (s := S8192) (k1_off3 k) S16.size (k1_off3_inb k))
        (k1_pay2 (View.readAt (Elt F) ((Memref.whole Cert.KernelIdeal.cc1_scratch5 : Memref Cert.KernelIdeal.sig Kind.scVector Space.vmem Cert.KernelIdeal.S8192 EltTy.f32)).view (Rect.unit (s := S8192) (k1_off3 k) S16.size (k1_off3_inb k)).toLoadRect (mulUpTo g x k.val))
          (View.readAt (Elt F) ((Memref.whole Cert.KernelIdeal.cc1_scratch3 : Memref Cert.KernelIdeal.sig Kind.scVector Space.vmem Cert.KernelIdeal.S8192 EltTy.f32)).view (Rect.unit (s := S8192) (k1_off3 k) S16.size (k1_off3_inb k)).toLoadRect x)) [] y).trans (by rw [k1_pay2_apply]; rfl))
    (fun i hi => View.read_writes_apply_of_forall_not_mem ((Memref.whole Cert.KernelIdeal.cc1_scratch5 : Memref Cert.KernelIdeal.sig Kind.scVector Space.vmem Cert.KernelIdeal.S8192 EltTy.f32)).view (mulUpTo g x k.val) i
        [⟨(Rect.unit (s := S8192) (k1_off3 k) S16.size (k1_off3_inb k)), (k1_pay2 (View.readAt (Elt F) ((Memref.whole Cert.KernelIdeal.cc1_scratch5 : Memref Cert.KernelIdeal.sig Kind.scVector Space.vmem Cert.KernelIdeal.S8192 EltTy.f32)).view (Rect.unit (s := S8192) (k1_off3 k) S16.size (k1_off3_inb k)).toLoadRect (mulUpTo g x k.val))
          (View.readAt (Elt F) ((Memref.whole Cert.KernelIdeal.cc1_scratch3 : Memref Cert.KernelIdeal.sig Kind.scVector Space.vmem Cert.KernelIdeal.S8192 EltTy.f32)).view (Rect.unit (s := S8192) (k1_off3 k) S16.size (k1_off3_inb k)).toLoadRect x))⟩]
        (fun p hp => by rw [List.mem_singleton.mp hp]; exact hi))

/-- One trip at a symbolic `k`: two loads of piece `k` of the gathered buffer, one of the input buffer, the store of
    their products over piece `k`. -/
theorem mulStepA (v2 c0 c1 : BitVec 32) (k1_t1 : Fin k1_t1_loop.trips) (k : Fin k1_t2_loop.trips) (acc : Unit) :
    mulInvA d L q g x k.val acc ⊢ wp (M := 𝕄) frame (wpE (defs₀ (F := F)) 𝒱₀ (V d (cV L) (jV L)) none) Set.univ
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1 k acc)
      (mulInvA d L q g x (k.val + 1)) := by
  unfold mulInvA
  iintro ⟨HG, HX⟩
  unfold k1_t2_body
  sl_exec
  sl_step
  rw [← mulUpTo_succA g x k]
  isplitl [HG]; · iexact HG
  iexact HX

set_option warn.classDefReducibility false in
/-- The loop's invariant: before trip `k` the gathered buffer at `mulUpTo g x k` (at trip 0: as it was), the input
    buffer at `x`; one trip takes it from `k` to `k + 1`. -/
@[sl_loop] def mulLoopA (v2 c0 c1 : BitVec 32) (k1_t1 : Fin k1_t1_loop.trips) :
    LoopInv (M := 𝕄) frame (wpE (defs₀ (F := F)) 𝒱₀ (V d (cV L) (jV L)) none) Set.univ k1_t2_loop.lb k1_t2_loop.ub k1_t2_loop.st k1_t2_ok ⟨⟩
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1) where
  inv := mulInvA d L q g x
  step := mulStepA d L q g x v2 c0 c1 k1_t1

/-- After the loop's last trip the gathered buffer holds the product everywhere. -/
theorem mulUpTo_tripsA : mulUpTo g x (Scf.trips k1_t2_loop.lb k1_t2_loop.ub k1_t2_loop.st) = prod16 g x := by
  rw [show Scf.trips k1_t2_loop.lb k1_t2_loop.ub k1_t2_loop.st = 512 by decide]; exact mulUpTo_512 g x

end LoopA

section LoopB

variable (d : Dev nD) (L : grid1.Coords) (q : PosShare TreeShare) (g x : S8192.Idx → Elt F .f32)

/-- Before trip `k` of the second loop: the second gathered buffer at the product on its first 16 k entries and as it was beyond, the second input buffer untouched. -/
def mulInvB (k : ℕ) (_ : Unit) : sProp 𝕄 :=
  iprop((((Memref.whole Cert.KernelIdeal.cc1_scratch6 : Memref Cert.KernelIdeal.sig Kind.scVector Space.vmem Cert.KernelIdeal.S8192 EltTy.f32)).view.loc (V d (cV L) (jV L)) ↦{fullShare} mulUpTo g x k) ∗ (((Memref.whole Cert.KernelIdeal.cc1_scratch4 : Memref Cert.KernelIdeal.sig Kind.scVector Space.vmem Cert.KernelIdeal.S8192 EltTy.f32)).view.loc (V d (cV L) (jV L)) ↦{q} x))

/-- What trip `k`'s store leaves is the contents before trip `k + 1`: the stored piece is the sixteen products (the
    trip read its own, still untouched, sixteen entries), and the store touches nothing else. -/
theorem mulUpTo_succB (k : Fin k1_t3_loop.trips) :
    ((Memref.whole Cert.KernelIdeal.cc1_scratch6 : Memref Cert.KernelIdeal.sig Kind.scVector Space.vmem Cert.KernelIdeal.S8192 EltTy.f32)).view.writes (Elt F) (mulUpTo g x k.val)
      [⟨(Rect.unit (s := S8192) (k1_off6 k) S16.size (k1_off6_inb k)),
        (k1_pay1 (View.readAt (Elt F) ((Memref.whole Cert.KernelIdeal.cc1_scratch6 : Memref Cert.KernelIdeal.sig Kind.scVector Space.vmem Cert.KernelIdeal.S8192 EltTy.f32)).view (Rect.unit (s := S8192) (k1_off6 k) S16.size (k1_off6_inb k)).toLoadRect (mulUpTo g x k.val))
          (View.readAt (Elt F) ((Memref.whole Cert.KernelIdeal.cc1_scratch4 : Memref Cert.KernelIdeal.sig Kind.scVector Space.vmem Cert.KernelIdeal.S8192 EltTy.f32)).view (Rect.unit (s := S8192) (k1_off6 k) S16.size (k1_off6_inb k)).toLoadRect x))⟩]
      = mulUpTo g x (k.val + 1) :=
  mulUpTo_succ_of g x k.val (k1_off6 k) (k1_off6_inb k) (by rw [k1_off6_eq]; rfl) _
    (fun y => (View.read_writes_cons_emb ((Memref.whole Cert.KernelIdeal.cc1_scratch6 : Memref Cert.KernelIdeal.sig Kind.scVector Space.vmem Cert.KernelIdeal.S8192 EltTy.f32)).view (mulUpTo g x k.val) (Rect.unit (s := S8192) (k1_off6 k) S16.size (k1_off6_inb k))
        (k1_pay1 (View.readAt (Elt F) ((Memref.whole Cert.KernelIdeal.cc1_scratch6 : Memref Cert.KernelIdeal.sig Kind.scVector Space.vmem Cert.KernelIdeal.S8192 EltTy.f32)).view (Rect.unit (s := S8192) (k1_off6 k) S16.size (k1_off6_inb k)).toLoadRect (mulUpTo g x k.val))
          (View.readAt (Elt F) ((Memref.whole Cert.KernelIdeal.cc1_scratch4 : Memref Cert.KernelIdeal.sig Kind.scVector Space.vmem Cert.KernelIdeal.S8192 EltTy.f32)).view (Rect.unit (s := S8192) (k1_off6 k) S16.size (k1_off6_inb k)).toLoadRect x)) [] y).trans (by rw [k1_pay1_apply]; rfl))
    (fun i hi => View.read_writes_apply_of_forall_not_mem ((Memref.whole Cert.KernelIdeal.cc1_scratch6 : Memref Cert.KernelIdeal.sig Kind.scVector Space.vmem Cert.KernelIdeal.S8192 EltTy.f32)).view (mulUpTo g x k.val) i
        [⟨(Rect.unit (s := S8192) (k1_off6 k) S16.size (k1_off6_inb k)), (k1_pay1 (View.readAt (Elt F) ((Memref.whole Cert.KernelIdeal.cc1_scratch6 : Memref Cert.KernelIdeal.sig Kind.scVector Space.vmem Cert.KernelIdeal.S8192 EltTy.f32)).view (Rect.unit (s := S8192) (k1_off6 k) S16.size (k1_off6_inb k)).toLoadRect (mulUpTo g x k.val))
          (View.readAt (Elt F) ((Memref.whole Cert.KernelIdeal.cc1_scratch4 : Memref Cert.KernelIdeal.sig Kind.scVector Space.vmem Cert.KernelIdeal.S8192 EltTy.f32)).view (Rect.unit (s := S8192) (k1_off6 k) S16.size (k1_off6_inb k)).toLoadRect x))⟩]
        (fun p hp => by rw [List.mem_singleton.mp hp]; exact hi))

/-- One trip at a symbolic `k`: two loads of piece `k` of the gathered buffer, one of the input buffer, the store of
    their products over piece `k`. -/
theorem mulStepB  (k : Fin k1_t3_loop.trips) (acc : Unit) :
    mulInvB d L q g x k.val acc ⊢ wp (M := 𝕄) frame (wpE (defs₀ (F := F)) 𝒱₀ (V d (cV L) (jV L)) none) Set.univ
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 k acc)
      (mulInvB d L q g x (k.val + 1)) := by
  unfold mulInvB
  iintro ⟨HG, HX⟩
  unfold k1_t3_body
  sl_exec
  sl_step
  rw [← mulUpTo_succB g x k]
  isplitl [HG]; · iexact HG
  iexact HX

set_option warn.classDefReducibility false in
/-- The loop's invariant: before trip `k` the gathered buffer at `mulUpTo g x k` (at trip 0: as it was), the input
    buffer at `x`; one trip takes it from `k` to `k + 1`. -/
@[sl_loop] def mulLoopB  :
    LoopInv (M := 𝕄) frame (wpE (defs₀ (F := F)) 𝒱₀ (V d (cV L) (jV L)) none) Set.univ k1_t3_loop.lb k1_t3_loop.ub k1_t3_loop.st k1_t3_ok ⟨⟩
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0) where
  inv := mulInvB d L q g x
  step := mulStepB d L q g x

/-- After the loop's last trip the gathered buffer holds the product everywhere. -/
theorem mulUpTo_tripsB : mulUpTo g x (Scf.trips k1_t3_loop.lb k1_t3_loop.ub k1_t3_loop.st) = prod16 g x := by
  rw [show Scf.trips k1_t3_loop.lb k1_t3_loop.ub k1_t3_loop.st = 512 by decide]; exact mulUpTo_512 g x

end LoopB

/-! ## The same invariants for buffers held on their own element sets -/

section LoopAS

variable (d : Dev nD) (L : grid1.Coords) (q : PosShare TreeShare) (g x : S8192.Idx → Elt F .f32)

/-- The same invariant with each buffer held on its own element set (all of it): how a buffer is held once a copy into
    it has landed. -/
def mulInvAS (k : ℕ) (_ : Unit) : sProp 𝕄 :=
  iprop((((Memref.whole Cert.KernelIdeal.cc1_scratch5 : Memref Cert.KernelIdeal.sig Kind.scVector Space.vmem Cert.KernelIdeal.S8192 EltTy.f32)).view.loc (V d (cV L) (jV L)) ↦[((Memref.whole Cert.KernelIdeal.cc1_scratch5 : Memref Cert.KernelIdeal.sig Kind.scVector Space.vmem Cert.KernelIdeal.S8192 EltTy.f32)).view.set]{fullShare} mulUpTo g x k)
    ∗ (((Memref.whole Cert.KernelIdeal.cc1_scratch3 : Memref Cert.KernelIdeal.sig Kind.scVector Space.vmem Cert.KernelIdeal.S8192 EltTy.f32)).view.loc (V d (cV L) (jV L)) ↦[((Memref.whole Cert.KernelIdeal.cc1_scratch3 : Memref Cert.KernelIdeal.sig Kind.scVector Space.vmem Cert.KernelIdeal.S8192 EltTy.f32)).view.set]{q} x))

theorem mulStepAS (v2 c0 c1 : BitVec 32) (k1_t1 : Fin k1_t1_loop.trips) (k : Fin k1_t2_loop.trips) (acc : Unit) :
    mulInvAS d L q g x k.val acc ⊢ wp (M := 𝕄) frame (wpE (defs₀ (F := F)) 𝒱₀ (V d (cV L) (jV L)) none) Set.univ
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1 k acc)
      (mulInvAS d L q g x (k.val + 1)) := by
  unfold mulInvAS
  iintro ⟨HG, HX⟩
  unfold k1_t2_body
  sl_exec
  sl_step
  rw [← mulUpTo_succA g x k]
  isplitl [HG]; · iexact HG
  iexact HX

set_option warn.classDefReducibility false in
@[sl_loop] def mulLoopAS (v2 c0 c1 : BitVec 32) (k1_t1 : Fin k1_t1_loop.trips) :
    LoopInv (M := 𝕄) frame (wpE (defs₀ (F := F)) 𝒱₀ (V d (cV L) (jV L)) none) Set.univ k1_t2_loop.lb k1_t2_loop.ub k1_t2_loop.st k1_t2_ok ⟨⟩
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1) where
  inv := mulInvAS d L q g x
  step := mulStepAS d L q g x v2 c0 c1 k1_t1

end LoopAS

section LoopBS

variable (d : Dev nD) (L : grid1.Coords) (q : PosShare TreeShare) (g x : S8192.Idx → Elt F .f32)

/-- The same invariant with each buffer held on its own element set (all of it): how a buffer is held once a copy into
    it has landed. -/
def mulInvBS (k : ℕ) (_ : Unit) : sProp 𝕄 :=
  iprop((((Memref.whole Cert.KernelIdeal.cc1_scratch6 : Memref Cert.KernelIdeal.sig Kind.scVector Space.vmem Cert.KernelIdeal.S8192 EltTy.f32)).view.loc (V d (cV L) (jV L)) ↦[((Memref.whole Cert.KernelIdeal.cc1_scratch6 : Memref Cert.KernelIdeal.sig Kind.scVector Space.vmem Cert.KernelIdeal.S8192 EltTy.f32)).view.set]{fullShare} mulUpTo g x k)
    ∗ (((Memref.whole Cert.KernelIdeal.cc1_scratch4 : Memref Cert.KernelIdeal.sig Kind.scVector Space.vmem Cert.KernelIdeal.S8192 EltTy.f32)).view.loc (V d (cV L) (jV L)) ↦[((Memref.whole Cert.KernelIdeal.cc1_scratch4 : Memref Cert.KernelIdeal.sig Kind.scVector Space.vmem Cert.KernelIdeal.S8192 EltTy.f32)).view.set]{q} x))

theorem mulStepBS  (k : Fin k1_t3_loop.trips) (acc : Unit) :
    mulInvBS d L q g x k.val acc ⊢ wp (M := 𝕄) frame (wpE (defs₀ (F := F)) 𝒱₀ (V d (cV L) (jV L)) none) Set.univ
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 k acc)
      (mulInvBS d L q g x (k.val + 1)) := by
  unfold mulInvBS
  iintro ⟨HG, HX⟩
  unfold k1_t3_body
  sl_exec
  sl_step
  rw [← mulUpTo_succB g x k]
  isplitl [HG]; · iexact HG
  iexact HX

set_option warn.classDefReducibility false in
@[sl_loop] def mulLoopBS  :
    LoopInv (M := 𝕄) frame (wpE (defs₀ (F := F)) 𝒱₀ (V d (cV L) (jV L)) none) Set.univ k1_t3_loop.lb k1_t3_loop.ub k1_t3_loop.st k1_t3_ok ⟨⟩
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0) where
  inv := mulInvBS d L q g x
  step := mulStepBS d L q g x

end LoopBS

/-! ## Reading a chunk, a gathered entry, and the result at a pixel -/

section Reads

local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)

/-- Pixel `off + j` of the flat array of 16777216, for `j` inside a chunk of 8192 that starts at `off`. -/
abbrev pix (off : Fin 1 → ℕ) (h : ∀ a, off a + S8192.size a ≤ S16777216.size a) (j : Fin 8192) : S16777216.Idx :=
  ValueIdx.ix1 ⟨off 0 + j.val, by
    have h0 : off 0 + 8192 ≤ 16777216 := h 0
    have := j.isLt; omega⟩

/-- Entry `j` of a chunk of 8192 inputs copied from offset `off` of the flat input array is the array's entry `off + j`. -/
theorem read_chunk_f32 (off : Fin 1 → ℕ) (h : ∀ a, off a + S8192.size a ≤ S16777216.size a) (f : S16777216.Idx → Elt F .f32) (j : Fin 8192) :
    View.read (Elt F) ((xV).slice (Rect.unit (s := S16777216) off S8192.size h) (fun _ => rfl)).view f (ValueIdx.ix1 j) = f (pix off h j) :=
  congrArg f (funext fun a => match a with | ⟨0, _⟩ => Fin.ext (by show off 0 + 1 * j.val = off 0 + j.val; omega))

/-- The same for a chunk of component numbers. -/
theorem read_chunk_i32 (off : Fin 1 → ℕ) (h : ∀ a, off a + S8192.size a ≤ S16777216.size a) (f : S16777216.Idx → Elt F .i32) (j : Fin 8192) :
    View.read (Elt F) ((iV).slice (Rect.unit (s := S16777216) off S8192.size h) (fun _ => rfl)).view f (ValueIdx.ix1 j) = f (pix off h j) :=
  congrArg f (funext fun a => match a with | ⟨0, _⟩ => Fin.ext (by show off 0 + 1 * j.val = off 0 + j.val; omega))

/-- A copy between buffers of one shape and element type moves the values as they are. -/
theorem readAs_same (g : S8192.Idx → Elt F .f32) : (ReadAs.same : ReadAs (Elt F) S8192 .f32 S8192 .f32).apply g = g := rfl

omit [FloatOps F] in
/-- On a list of 8192 words, the word at row-major position `j` is the word at index `j`. -/
theorem rows_at (idx : S8192.Idx → Elt F .i32) (hn : S8192.numel = S8192.size gathers_S1048576_S8192.axis')
    (hin : ∀ x, (idx x : BitVec 32).toNat < S1048576.size gathers_S1048576_S8192.axis) (j : Fin 8192) :
    SparseCore.rows idx hn hin j = ⟨(idx (ValueIdx.ix1 j) : BitVec 32).toNat, hin _⟩ := by
  unfold SparseCore.rows
  have e : S8192.rowMajor.symm (Fin.cast hn.symm j) = ValueIdx.ix1 j :=
    (Equiv.symm_apply_eq _).mpr (Fin.ext (by rw [Shape.rowMajor_val_one]; rfl))
  exact Fin.ext (by show (idx _ : BitVec 32).toNat = _; rw [e])

omit [FloatOps F] in
/-- Entry `j` of what a gather of 8192 single entries delivers is the table's entry at the `j`-th word of the list. -/
theorem gather_at (tab : S1048576.Idx → Elt F .f32) (idx : S8192.Idx → Elt F .i32) (hn : S8192.numel = S8192.size gathers_S1048576_S8192.axis')
    (hin : ∀ x, (idx x : BitVec 32).toNat < S1048576.size gathers_S1048576_S8192.axis) (j : Fin 8192) :
    SparseCore.gatherPayload gathers_S1048576_S8192 tab (SparseCore.rows idx hn hin) (ValueIdx.ix1 j)
      = tab (ValueIdx.ix1 ⟨(idx (ValueIdx.ix1 j) : BitVec 32).toNat, hin _⟩) := by
  unfold SparseCore.gatherPayload
  refine congrArg tab (funext fun b => ?_)
  match b with
  | ⟨0, _⟩ =>
    show gathers_S1048576_S8192.idx (SparseCore.rows idx hn hin) (ValueIdx.ix1 j) gathers_S1048576_S8192.axis = _
    rw [Shape.Gathers.idx_axis]
    exact rows_at idx hn hin j

/-- The value at a pixel: a chunk's gathered entries (the table at the chunk's component numbers) times the chunk's
    inputs, entry by entry, is the result array's value at each pixel of the chunk. The words are those of the component
    numbers `f8` on the chunk, the inputs those of `f9`, and every word is in the table's range. -/
theorem chunk_val_of (f7 : S1048576.Idx → Elt F .f32) (f8 : S16777216.Idx → Elt F .i32) (f9 : S16777216.Idx → Elt F .f32)
    (off : Fin 1 → ℕ) (h : ∀ a, off a + S8192.size a ≤ S16777216.size a)
    (idx : S8192.Idx → Elt F .i32) (xs : S8192.Idx → Elt F .f32)
    (hidx : ∀ j : Fin 8192, idx (ValueIdx.ix1 j) = f8 (pix off h j)) (hxs : ∀ j : Fin 8192, xs (ValueIdx.ix1 j) = f9 (pix off h j))
    (hn : S8192.numel = S8192.size gathers_S1048576_S8192.axis')
    (hin : ∀ x, (idx x : BitVec 32).toNat < S1048576.size gathers_S1048576_S8192.axis) (j : Fin 8192) :
    prod16 (SparseCore.gatherPayload gathers_S1048576_S8192 f7 (SparseCore.rows idx hn hin)) xs (ValueIdx.ix1 j)
      = outV f7 f8 f9 (pix off h j) := by
  rw [prod16_apply, gather_at, hxs]
  unfold outV
  have hlt : (f8 (pix off h j) : BitVec 32).toNat < 1048576 := by rw [← hidx]; exact hin _
  refine congrArg (fun t => FloatOps.mulf (f7 t) (f9 (pix off h j))) (congrArg ValueIdx.ix1 (Fin.ext ?_))
  show (idx (ValueIdx.ix1 j) : BitVec 32).toNat = (f8 (pix off h j) : BitVec 32).toNat % 1048576
  rw [Nat.mod_eq_of_lt hlt, hidx]

/-- The same with the chunk's words and inputs spelt as the kernel's copies deliver them: the slices of the two flat
    arrays at the chunk's offset, moved as they are. -/
theorem chunk_val (f7 : S1048576.Idx → Elt F .f32) (f8 : S16777216.Idx → Elt F .i32) (f9 : S16777216.Idx → Elt F .f32)
    (off : Fin 1 → ℕ) (h : ∀ a, off a + S8192.size a ≤ S16777216.size a)
    (hn : S8192.numel = S8192.size gathers_S1048576_S8192.axis')
    (hin : ∀ x, ((ReadAs.same.apply (View.read (Elt F) ((iV).slice (Rect.unit (s := S16777216) off S8192.size h) (fun _ => rfl)).view f8) : S8192.Idx → Elt F .i32) x : BitVec 32).toNat
      < S1048576.size gathers_S1048576_S8192.axis) (j : Fin 8192) :
    prod16 (SparseCore.gatherPayload gathers_S1048576_S8192 f7
        (SparseCore.rows (ReadAs.same.apply (View.read (Elt F) ((iV).slice (Rect.unit (s := S16777216) off S8192.size h) (fun _ => rfl)).view f8)) hn hin))
      (ReadAs.same.apply (View.read (Elt F) ((xV).slice (Rect.unit (s := S16777216) off S8192.size h) (fun _ => rfl)).view f9)) (ValueIdx.ix1 j)
      = outV f7 f8 f9 (pix off h j) :=
  chunk_val_of f7 f8 f9 off h _ _ (fun j => read_chunk_i32 off h f8 j) (fun j => read_chunk_f32 off h f9 j) hn hin j

end Reads

end Cert.Proof.KernelIdealSc

end
-- ==== Proof.ScTileInvIdeal.lean ====
/-
  The loop over pairs of chunks of a tile, stated: what the tile holds before trip t (chunks 2t and 2t+1).
  Chunk 2t's component numbers and inputs have landed in the first pair of buffers and its gather from the shared table
  is under way; chunk 2t+1's two copies are under way into the second pair; from the second trip on, the copy of chunk
  2t-1's products out of the second gathered buffer is under way, and every earlier chunk of the result is written.
  The trip's four conditions (is a result copy pending, is there a chunk after the next, for either half) are decided over
  the 32 trips, and the offsets the kernel computes for the copies it issues are the chunks' first pixels.
-/
import proofs.«215733_g63187558859118_cont_9to1_m_256_17_alg».proof.Proof.ScTileGeomIdeal
import proofs.«215733_g63187558859118_cont_9to1_m_256_17_alg».proof.Proof.ScMulIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)
variable (f7 : S1048576.Idx → Elt F .f32) (f8 : S16777216.Idx → Elt F .i32) (f9 f10 : S16777216.Idx → Elt F .f32)

/-! ## The outer loop's invariant -/

local notation "thrV" => (V d (cV L) (jV L))

abbrev iSl (off : Fin 1 → Nat) (h : ∀ a, off a + S8192.size a ≤ S16777216.size a) : Memref sig .scVector .hbm S8192 .i32 :=
  (iV).slice (Rect.unit (s := S16777216) off S8192.size h) (fun _ => rfl)
abbrev xSl (off : Fin 1 → Nat) (h : ∀ a, off a + S8192.size a ≤ S16777216.size a) : Memref sig .scVector .hbm S8192 .f32 :=
  (xV).slice (Rect.unit (s := S16777216) off S8192.size h) (fun _ => rfl)
abbrev oSl (off : Fin 1 → Nat) (h : ∀ a, off a + S8192.size a ≤ S16777216.size a) : Memref sig .scVector .hbm S8192 .f32 :=
  (oV).slice (Rect.unit (s := S16777216) off S8192.size h) (fun _ => rfl)
abbrev tabW : Memref sig .scVector .shared S1048576 .f32 :=
  (tabV).slice (Rect.unit (s := S1048576) ![0] S1048576.size inb_S1048576_S1048576_0) (fun _ => rfl)

abbrev dI0 : DmaSem sig := ⟨5, by decide⟩
abbrev dI1 : DmaSem sig := ⟨6, by decide⟩
abbrev dX0 : DmaSem sig := ⟨7, by decide⟩
abbrev dX1 : DmaSem sig := ⟨8, by decide⟩
abbrev dG0 : DmaSem sig := ⟨9, by decide⟩
abbrev dG1 : DmaSem sig := ⟨10, by decide⟩
abbrev dO0 : DmaSem sig := ⟨11, by decide⟩
abbrev dO1 : DmaSem sig := ⟨12, by decide⟩

/-- The first pixel of chunk `k` of the tile. -/
def offC (k : ℕ) : Fin 1 → Nat := ![1048576 * (L 1).val + 524288 * (L 0).val + 8192 * k]

/-- A chunk of component numbers / of inputs, as a copy reads it off the flat array. -/
abbrev cI (off : Fin 1 → Nat) (h : ∀ a, off a + S8192.size a ≤ S16777216.size a) : S8192.Idx → Elt F .i32 :=
  ReadAs.same.apply (View.read (Elt F) (iSl off h).view f8)
abbrev cX (off : Fin 1 → Nat) (h : ∀ a, off a + S8192.size a ≤ S16777216.size a) : S8192.Idx → Elt F .f32 :=
  ReadAs.same.apply (View.read (Elt F) (xSl off h).view f9)

/-- A copy of a chunk of component numbers into the first (second) index buffer, under way: it delivers the buffer
    holding the chunk and gives the chunk's read share back. -/
abbrev inI0 (a : Buf (Elt F) ((V d (cV L) (jV L)).loc cc1_scratch1)) (off : Fin 1 → Nat) (h : ∀ a, off a + S8192.size a ≤ S16777216.size a) : sProp 𝕄 :=
  Transfers.Flight countersEmb thrV (SemLoc.dma dI0) (default : HIx 1) 262144
    iprop(((i0V).view.loc thrV ↦{fullShare} View.write (Elt F) (i0V).view a (cI f8 off h) Finset.univ)
      ∗ ((iV).view.loc thrV ↦[(iSl off h).view.set]{tok L} f8))
abbrev inI1 (a : Buf (Elt F) ((V d (cV L) (jV L)).loc cc1_scratch2)) (off : Fin 1 → Nat) (h : ∀ a, off a + S8192.size a ≤ S16777216.size a) : sProp 𝕄 :=
  Transfers.Flight countersEmb thrV (SemLoc.dma dI1) (default : HIx 1) 262144
    iprop(((i1V).view.loc thrV ↦{fullShare} View.write (Elt F) (i1V).view a (cI f8 off h) Finset.univ)
      ∗ ((iV).view.loc thrV ↦[(iSl off h).view.set]{tok L} f8))
abbrev inX0 (a : Buf (Elt F) ((V d (cV L) (jV L)).loc cc1_scratch3)) (off : Fin 1 → Nat) (h : ∀ a, off a + S8192.size a ≤ S16777216.size a) : sProp 𝕄 :=
  Transfers.Flight countersEmb thrV (SemLoc.dma dX0) (default : HIx 1) 262144
    iprop(((x0V).view.loc thrV ↦{fullShare} View.write (Elt F) (x0V).view a (cX f9 off h) Finset.univ)
      ∗ ((xV).view.loc thrV ↦[(xSl off h).view.set]{tok L} f9))
abbrev inX1 (a : Buf (Elt F) ((V d (cV L) (jV L)).loc cc1_scratch4)) (off : Fin 1 → Nat) (h : ∀ a, off a + S8192.size a ≤ S16777216.size a) : sProp 𝕄 :=
  Transfers.Flight countersEmb thrV (SemLoc.dma dX1) (default : HIx 1) 262144
    iprop(((x1V).view.loc thrV ↦{fullShare} View.write (Elt F) (x1V).view a (cX f9 off h) Finset.univ)
      ∗ ((xV).view.loc thrV ↦[(xSl off h).view.set]{tok L} f9))

/-- The gather of a chunk under way on the first (second) pair of buffers: it delivers the gathered buffer written
    with the table's entries at the chunk's component numbers, the index buffer, and the table's read share. -/
abbrev gath0 (a : Buf (Elt F) ((V d (cV L) (jV L)).loc cc1_scratch5)) (ci : Buf (Elt F) ((V d (cV L) (jV L)).loc cc1_scratch1))
    (hci : ∀ x, ((i0V).view.read (Elt F) ci x).toNat < 1048576) : sProp 𝕄 :=
  Transfers.Flight countersEmb thrV (SemLoc.dma dG0) (default : HIx 1) 262144
    iprop((((g0V).view.loc thrV ↦{fullShare} (g0V).view.writes (Elt F) a
              [⟨Rect.whole cc1_scratch5.ty.shape, SparseCore.gatherPayload gathers_S1048576_S8192 (View.read (Elt F) (tabW).view f7)
                  (SparseCore.rows (View.read (Elt F) (i0V).view ci) rfl hci)⟩])
          ∗ ((i0V).view.loc thrV ↦{fullShare} ci))
      ∗ ((tabV).view.loc thrV ↦[(tabW).view.set]{tok16 (jL L)} f7))
abbrev gath1 (a : Buf (Elt F) ((V d (cV L) (jV L)).loc cc1_scratch6)) (ci : Buf (Elt F) ((V d (cV L) (jV L)).loc cc1_scratch2))
    (hci : ∀ x, ((i1V).view.read (Elt F) ci x).toNat < 1048576) : sProp 𝕄 :=
  Transfers.Flight countersEmb thrV (SemLoc.dma dG1) (default : HIx 1) 262144
    iprop((((g1V).view.loc thrV ↦{fullShare} (g1V).view.writes (Elt F) a
              [⟨Rect.whole cc1_scratch6.ty.shape, SparseCore.gatherPayload gathers_S1048576_S8192 (View.read (Elt F) (tabW).view f7)
                  (SparseCore.rows (View.read (Elt F) (i1V).view ci) rfl hci)⟩])
          ∗ ((i1V).view.loc thrV ↦{fullShare} ci))
      ∗ ((tabV).view.loc thrV ↦[(tabW).view.set]{tok16 (jL L)} f7))

variable (O : CellTallies nD τ sig (HIx 1)) (W : Waits sig (HIx 1))

/-- Before trip `t` < 32 (chunks 2t and 2t+1), the part about the inputs and the gathers: chunk 2t+1's two copies
    are under way into the second pair of buffers; chunk 2t's inputs have landed in the first pair and its gather is
    under way. The offsets are carried as the copies were issued (they equal the chunks' first pixels). -/
def InvA (t : ℕ) : sProp 𝕄 :=
  iprop(∃ (off0 : Fin 1 → Nat) (h0 : ∀ a, off0 a + S8192.size a ≤ S16777216.size a) (off1 : Fin 1 → Nat) (h1 : ∀ a, off1 a + S8192.size a ≤ S16777216.size a)
      (a1 : Buf (Elt F) ((V d (cV L) (jV L)).loc cc1_scratch1)) (a2 : Buf (Elt F) ((V d (cV L) (jV L)).loc cc1_scratch2))
      (a3 : Buf (Elt F) ((V d (cV L) (jV L)).loc cc1_scratch3)) (a4 : Buf (Elt F) ((V d (cV L) (jV L)).loc cc1_scratch4))
      (a5 : Buf (Elt F) ((V d (cV L) (jV L)).loc cc1_scratch5)) (W' : Waits sig (HIx 1))
      (hc : ∀ x, ((i0V).view.read (Elt F) (View.write (Elt F) (i0V).view a1 (cI f8 off0 h0) Finset.univ) x).toNat < 1048576),
    ⌜off0 = offC L (2 * t) ∧ off1 = offC L (2 * t + 1) ∧ ∀ p ∈ W', p ∈ W ∨ p.2 = none ∨ p.2 = some (0 : Fin 1)⌝
    ∗ owes thrV O W' ∗ Transfers.MayWaits thrV (default : HIx 1) O
    ∗ inI1 d L f8 a2 off1 h1 ∗ inX1 d L f9 a4 off1 h1
    ∗ ((iV).view.loc thrV ↦[Finset.univ \ (iSl off1 h1).view.set]{tok L} f8)
    ∗ ((xV).view.loc thrV ↦[Finset.univ \ (xSl off1 h1).view.set]{tok L} f9)
    ∗ semVal (thrV, SemLoc.dma dI0) 0 ∗ semVal (thrV, SemLoc.dma dX0) 0
    ∗ ((x0V).view.loc thrV ↦{fullShare} View.write (Elt F) (x0V).view a3 (cX f9 off0 h0) Finset.univ)
    ∗ gath0 d L f7 a5 (View.write (Elt F) (i0V).view a1 (cI f8 off0 h0) Finset.univ) hc
    ∗ ((tabV).view.loc thrV ↦[Finset.univ \ (tabW).view.set]{tok16 (jL L)} f7)
    ∗ semVal (thrV, SemLoc.dma dG1) 0 ∗ semVal (thrV, SemLoc.dma dO0) 0)

/-- Before trip 0, the part about the result: nothing written yet, the second gathered buffer free. -/
def OutB0 : sProp 𝕄 :=
  iprop(∃ (a6 : Buf (Elt F) ((V d (cV L) (jV L)).loc cc1_scratch6)),
    ((oV).view.loc thrV ↦[Finset.univ \ Others L]{fullShare} f10) ∗ ((g1V).view.loc thrV ↦{fullShare} a6) ∗ semVal (thrV, SemLoc.dma dO1) 0)

/-- The result array holds component-score × input on the tile's first `n` chunks. -/
def ValF (n : ℕ) (fo : S16777216.Idx → Elt F .f32) : Prop :=
  ∀ p : S16777216.Idx, offC L 0 0 ≤ (p 0).val → (p 0).val < offC L 0 0 + 8192 * n → fo p = outV f7 f8 f9 p

/-- A result copy under way from the first (second) gathered buffer into a chunk of the result array. -/
abbrev outF0 (fo : S16777216.Idx → Elt F .f32) (cg : Buf (Elt F) ((V d (cV L) (jV L)).loc cc1_scratch5))
    (off : Fin 1 → Nat) (h : ∀ a, off a + S8192.size a ≤ S16777216.size a) : sProp 𝕄 :=
  Transfers.Flight countersEmb thrV (SemLoc.dma dO0) (default : HIx 1) 262144
    iprop(((oV).view.loc thrV ↦[(oSl off h).view.set]{fullShare} fo) ∗ ((g0V).view.loc thrV ↦[(g0V).view.set]{fullShare} cg))
abbrev outF1 (fo : S16777216.Idx → Elt F .f32) (cg : Buf (Elt F) ((V d (cV L) (jV L)).loc cc1_scratch6))
    (off : Fin 1 → Nat) (h : ∀ a, off a + S8192.size a ≤ S16777216.size a) : sProp 𝕄 :=
  Transfers.Flight countersEmb thrV (SemLoc.dma dO1) (default : HIx 1) 262144
    iprop(((oV).view.loc thrV ↦[(oSl off h).view.set]{fullShare} fo) ∗ ((g1V).view.loc thrV ↦[(g1V).view.set]{fullShare} cg))

/-- Before trip `t` ≥ 1, the part about the result: chunk 2t-1's copy out of the second gathered buffer, issued by the
    trip before, is under way. -/
def OutB1 (t : ℕ) : sProp 𝕄 :=
  iprop(∃ (fo : S16777216.Idx → Elt F .f32) (cg : Buf (Elt F) ((V d (cV L) (jV L)).loc cc1_scratch6)) (k' : Fin k1_t1_loop.trips),
    ⌜k'.val + 1 = t ∧ ValF L f7 f8 f9 (2 * t) fo⌝
    ∗ outF1 d L fo cg (k1_off4 L k' 1#32) (k1_off4_inb L k' 1)
    ∗ ((g1V).view.loc thrV ↦[Finset.univ \ (g1V).view.set]{fullShare} cg)
    ∗ ((oV).view.loc thrV ↦[(Finset.univ \ Others L) \ (oSl (k1_off4 L k' 1#32) (k1_off4_inb L k' 1)).view.set]{fullShare} fo))

/-- After the last trip: every input copy and gather is done, the index and input buffers are at rest, and the last two
    chunks' result copies (issued by trip `k` = 31) are under way, one out of each gathered buffer; the second was
    issued after the first, so the result array's contents are the first copy's with the second chunk written. -/
def InvX : sProp 𝕄 :=
  iprop(∃ (fo : S16777216.Idx → Elt F .f32) (w1 : S8192.Idx → Elt F .f32)
      (cg0 : Buf (Elt F) ((V d (cV L) (jV L)).loc cc1_scratch5)) (cg1 : Buf (Elt F) ((V d (cV L) (jV L)).loc cc1_scratch6))
      (c1 : Buf (Elt F) ((V d (cV L) (jV L)).loc cc1_scratch1)) (c2 : Buf (Elt F) ((V d (cV L) (jV L)).loc cc1_scratch2))
      (c3 : Buf (Elt F) ((V d (cV L) (jV L)).loc cc1_scratch3)) (c4 : Buf (Elt F) ((V d (cV L) (jV L)).loc cc1_scratch4))
      (W' : Waits sig (HIx 1)) (k : Fin k1_t1_loop.trips),
    ⌜k.val = 31 ∧ ValF L f7 f8 f9 64 (View.write (Elt F) (oSl (k1_off4 L k 1#32) (k1_off4_inb L k 1)).view fo w1 Finset.univ)
        ∧ ∀ p ∈ W', p ∈ W ∨ p.2 = none ∨ p.2 = some (0 : Fin 1)⌝
    ∗ owes thrV O W' ∗ Transfers.MayWaits thrV (default : HIx 1) O
    ∗ ((iV).view.loc thrV ↦{tok L} f8) ∗ ((xV).view.loc thrV ↦{tok L} f9)
    ∗ semVal (thrV, SemLoc.dma dI0) 0 ∗ semVal (thrV, SemLoc.dma dX0) 0 ∗ semVal (thrV, SemLoc.dma dI1) 0 ∗ semVal (thrV, SemLoc.dma dX1) 0
    ∗ semVal (thrV, SemLoc.dma dG0) 0 ∗ semVal (thrV, SemLoc.dma dG1) 0
    ∗ ((i0V).view.loc thrV ↦{fullShare} c1) ∗ ((i1V).view.loc thrV ↦{fullShare} c2)
    ∗ ((x0V).view.loc thrV ↦{fullShare} c3) ∗ ((x1V).view.loc thrV ↦{fullShare} c4)
    ∗ ((tabV).view.loc thrV ↦{tok16 (jL L)} f7)
    ∗ outF0 d L fo cg0 (k1_off4 L k 0#32) (k1_off4_inb L k 0)
    ∗ ((g0V).view.loc thrV ↦[Finset.univ \ (g0V).view.set]{fullShare} cg0)
    ∗ outF1 d L (View.write (Elt F) (oSl (k1_off4 L k 1#32) (k1_off4_inb L k 1)).view fo w1 Finset.univ) cg1 (k1_off4 L k 1#32) (k1_off4_inb L k 1)
    ∗ ((g1V).view.loc thrV ↦[Finset.univ \ (g1V).view.set]{fullShare} cg1)
    ∗ ((oV).view.loc thrV ↦[((Finset.univ \ Others L) \ (oSl (k1_off4 L k 0#32) (k1_off4_inb L k 0)).view.set) \ (oSl (k1_off4 L k 1#32) (k1_off4_inb L k 1)).view.set]{fullShare}
          View.write (Elt F) (oSl (k1_off4 L k 1#32) (k1_off4_inb L k 1)).view fo w1 Finset.univ))

/-- The invariant of the loop over pairs of chunks, before trip `t` (after the loop at `t` = 32). -/
def Inv (t : ℕ) : sProp 𝕄 :=
  if t < 32 then iprop(InvA d L f7 f8 f9 O W t ∗ (if t = 0 then OutB0 d L f10 else OutB1 d L f7 f8 f9 t)) else InvX d L f7 f8 f9 O W

/-! ## The trip's conditions, decided over the 32 trips -/

omit [FloatOps F] in
/-- "A result copy of the previous chunk is pending" (chunk number 2k ≥ 1) holds from the second trip on. -/
theorem c93 : ∀ k : Fin k1_t1_loop.trips,
    (Scalar.cmpi .ne (Scalar.extui (Scalar.cmpi .sge (Scalar.addi (Scalar.muli 2#32 (Scf.iv 0#32 1#32 k)) 0#32) 1#32)) 0#32 = 1#1) ↔ 1 ≤ k.val := by
  decide +kernel
omit [FloatOps F] in
/-- "There is a chunk after the next" (2k + 2 < 64) holds up to the last trip but one. -/
theorem c3 : ∀ k : Fin k1_t1_loop.trips, (k1_cond3 k = 1#1) ↔ k.val ≤ 30 := by decide +kernel
omit [FloatOps F] in
theorem c6 : ∀ k : Fin k1_t1_loop.trips, (k1_cond6 k = 1#1) ↔ k.val ≤ 30 := by decide +kernel
omit [FloatOps F] in
theorem c71 : ∀ k : Fin k1_t1_loop.trips,
    (Scalar.cmpi .ne (Scalar.extui (Scalar.cmpi .slt (Scalar.addi (Scalar.addi (Scalar.muli 2#32 (Scf.iv 0#32 1#32 k)) 1#32) 1#32) 64#32)) 0#32 = 1#1) ↔ k.val ≤ 30 := by
  decide +kernel

/-- The word the kernel computes for the tile's first pixel (worker number times pixels per worker). -/
abbrev baseW : BitVec 32 := Scalar.muli (Scalar.addi (Scalar.muli (BitVec.ofNat 32 (L 1).val) 2#32) (BitVec.ofNat 32 (L 0).val)) 524288#32

abbrev tripProg (k : Fin k1_t1_loop.trips) : Prog (TpuEff nD τ sig (Elt F) Λ₀ (.scVector ((L 0).castLE hcore1) ((L 1).castLE hsub1))) Unit :=
  k1_t1_body L scV (Memref.isWhole_whole _) xV (Memref.isWhole_whole _) iV (Memref.isWhole_whole _) oV (Memref.isWhole_whole _)
    tabV (Memref.isWhole_whole _) i0V (Memref.isWhole_whole _) i1V (Memref.isWhole_whole _) x0V (Memref.isWhole_whole _) x1V (Memref.isWhole_whole _)
    g0V (Memref.isWhole_whole _) g1V (Memref.isWhole_whole _) cc1_scratch7 cc1_scratch8 cc1_scratch9 cc1_scratch10 cc1_scoped0 (baseW L) k ()

omit [FloatOps F] in
theorem off5_eq (k : Fin k1_t1_loop.trips) : k1_off5 L k = offC L (2 * (k.val + 1)) := by
  rw [k1_off5_eq]; unfold offC
  rw [show 1048576 * (L 1).val + 524288 * (L 0).val + 16384 * k.val + 16384 = 1048576 * (L 1).val + 524288 * (L 0).val + 8192 * (2 * (k.val + 1)) from by omega]
omit [FloatOps F] in
theorem off7_eq (k : Fin k1_t1_loop.trips) : k1_off7 L k = offC L (2 * (k.val + 1) + 1) := by
  rw [k1_off7_eq]; unfold offC
  rw [show 1048576 * (L 1).val + 524288 * (L 0).val + 16384 * k.val + 24576 = 1048576 * (L 1).val + 524288 * (L 0).val + 8192 * (2 * (k.val + 1) + 1) from by omega]
omit [FloatOps F] in
theorem off41_eq (k : Fin k1_t1_loop.trips) : k1_off4 L k 1#32 = offC L (2 * (k.val + 1) - 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * (k.val + 1) - 1) from by simp; omega]

end Cert.Proof.KernelIdealSc

end
-- ==== Proof.ScTileValIdeal.lean ====
/-
  What the result array holds, chunk after chunk.

  A tile writes its 64 chunks of the result in order, two per trip. Each chunk written is, pixel by pixel, the score of
  the pixel's component times the pixel's input: the chunk's gathered entries are the score table at the chunk's
  component numbers, the multiplication loop leaves their products with the chunk's inputs, and the copy out moves them
  as they are. A write through a chunk's window changes that chunk only, so after n chunks the array holds the result on
  the tile's first n chunks; after 64 it holds it on all of the tile's region.
-/
import proofs.«215733_g63187558859118_cont_9to1_m_256_17_alg».proof.Proof.ScTileInvIdeal
import Idealize.ShloMosaic.Lib.Writes

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)
variable (f7 : S1048576.Idx → Elt F .f32) (f8 : S16777216.Idx → Elt F .i32) (f9 f10 : S16777216.Idx → Elt F .f32)

/-! ## One chunk written: the window's pixels change, the others stay -/

/-- Inside the chunk at `off`: pixel `off + j` of the array after a whole write of `w` through the chunk's window is
    `w`'s entry `j`. -/
theorem write_chunk_in (off : Fin 1 → ℕ) (h : ∀ a, off a + S8192.size a ≤ S16777216.size a) (f : S16777216.Idx → Elt F .f32) (w : S8192.Idx → Elt F .f32) (j : Fin 8192) :
    View.write (Elt F) (oSl off h).view f w Finset.univ (pix off h j) = w (ValueIdx.ix1 j) := by
  have e : pix off h j = (oSl off h).view.emb (ValueIdx.ix1 j) :=
    funext fun a => match a with | ⟨0, _⟩ => Fin.ext (by show off 0 + j.val = off 0 + 1 * j.val; omega)
  rw [e, View.write_emb_of_mem _ _ (Finset.mem_univ _)]; rfl

/-- Outside it the array is unchanged. -/
theorem write_chunk_out (off : Fin 1 → ℕ) (h : ∀ a, off a + S8192.size a ≤ S16777216.size a) (f : S16777216.Idx → Elt F .f32) (w : S8192.Idx → Elt F .f32)
    (p : S16777216.Idx) (hp : ¬ (off 0 ≤ (p 0).val ∧ (p 0).val < off 0 + 8192)) :
    View.write (Elt F) (oSl off h).view f w Finset.univ p = f p := by
  refine View.write_of_not_mem _ _ _ ?_
  rw [View.setOn_univ]
  show p ∉ ((View.whole (main_v10_scv : Ref sig .scVector)).slice (Rect.unit (s := S16777216) off S8192.size h)).set
  rw [View.set_slice_whole]
  intro hm
  rw [Rect.mem_set_unit] at hm
  exact hp ⟨(hm 0).1, (hm 0).2⟩

omit [FloatOps F] in
/-- A pixel inside the chunk at `off` is `off + j` for its position `j` in the chunk. -/
theorem pix_of_mem (off : Fin 1 → ℕ) (h : ∀ a, off a + S8192.size a ≤ S16777216.size a) (p : S16777216.Idx)
    (hp : off 0 ≤ (p 0).val ∧ (p 0).val < off 0 + 8192) : p = pix off h ⟨(p 0).val - off 0, by omega⟩ :=
  funext fun a => match a with | ⟨0, _⟩ => Fin.ext (by show (p 0).val = off 0 + ((p 0).val - off 0); omega)

/-- The array after one chunk is written: the written values on the chunk, as it was elsewhere. -/
theorem write_chunk (off : Fin 1 → ℕ) (h : ∀ a, off a + S8192.size a ≤ S16777216.size a) (f G : S16777216.Idx → Elt F .f32) (w : S8192.Idx → Elt F .f32)
    (hw : ∀ j : Fin 8192, w (ValueIdx.ix1 j) = G (pix off h j)) (p : S16777216.Idx) :
    View.write (Elt F) (oSl off h).view f w Finset.univ p
      = if off 0 ≤ (p 0).val ∧ (p 0).val < off 0 + 8192 then G p else f p := by
  by_cases hp : off 0 ≤ (p 0).val ∧ (p 0).val < off 0 + 8192
  · rw [if_pos hp]
    conv_lhs => rw [pix_of_mem off h p hp]
    rw [write_chunk_in, hw, ← pix_of_mem off h p hp]
  · rw [if_neg hp, write_chunk_out off h f w p hp]

/-! ## The result on the tile's first n chunks -/

omit [FloatOps F] in
theorem offC_zero (n : ℕ) : offC L n 0 = offC L 0 0 + 8192 * n := by
  show 1048576 * (L 1).val + 524288 * (L 0).val + 8192 * n = 1048576 * (L 1).val + 524288 * (L 0).val + 8192 * 0 + 8192 * n
  omega

/-- Before any chunk is written there is nothing to say. -/
theorem valF_zero (fo : S16777216.Idx → Elt F .f32) : ValF L f7 f8 f9 0 fo :=
  fun p h1 h2 => absurd h2 (by omega)

/-- A trip writes chunks n and n + 1: from the result on the first n chunks to the result on the first n + 2. -/
theorem valF_trip (n : ℕ) (fo : S16777216.Idx → Elt F .f32) (hV : ValF L f7 f8 f9 n fo)
    (off0 : Fin 1 → ℕ) (h0 : ∀ a, off0 a + S8192.size a ≤ S16777216.size a) (off1 : Fin 1 → ℕ) (h1 : ∀ a, off1 a + S8192.size a ≤ S16777216.size a)
    (e0 : off0 = offC L n) (e1 : off1 = offC L (n + 1)) (w0 w1 : S8192.Idx → Elt F .f32)
    (hw0 : ∀ j : Fin 8192, w0 (ValueIdx.ix1 j) = outV f7 f8 f9 (pix off0 h0 j))
    (hw1 : ∀ j : Fin 8192, w1 (ValueIdx.ix1 j) = outV f7 f8 f9 (pix off1 h1 j)) :
    ValF L f7 f8 f9 (n + 2) (View.write (Elt F) (oSl off1 h1).view (View.write (Elt F) (oSl off0 h0).view fo w0 Finset.univ) w1 Finset.univ) := by
  intro p hlo hhi
  have b0 : off0 0 = offC L 0 0 + 8192 * n := by rw [e0]; exact offC_zero L n
  have b1 : off1 0 = offC L 0 0 + 8192 * (n + 1) := by rw [e1]; exact offC_zero L (n + 1)
  rw [write_chunk off1 h1 _ (outV f7 f8 f9) w1 hw1 p]
  by_cases hp1 : off1 0 ≤ (p 0).val ∧ (p 0).val < off1 0 + 8192
  · rw [if_pos hp1]
  · rw [if_neg hp1, write_chunk off0 h0 fo (outV f7 f8 f9) w0 hw0 p]
    by_cases hp0 : off0 0 ≤ (p 0).val ∧ (p 0).val < off0 0 + 8192
    · rw [if_pos hp0]
    · rw [if_neg hp0]
      exact hV p hlo (by omega)

/-- After all 64 chunks the array holds the result on the tile's whole region. -/
theorem valF_final (fo : S16777216.Idx → Elt F .f32) (hV : ValF L f7 f8 f9 64 fo) :
    ∀ p ∈ Finset.univ \ Others L, fo p = outV f7 f8 f9 p := by
  intro p hp
  unfold Others at hp
  rw [Finset.sdiff_sdiff_eq_self (Finset.subset_univ _)] at hp
  obtain ⟨k, -, hk⟩ := Finset.mem_biUnion.mp hp
  rw [chunkSet_eq, Rect.mem_set_unit] at hk
  have h0 := hk 0
  have hk64 := k.isLt
  have hL1 : (L 1).val < 16 := (L 1).isLt
  have hL0 : (L 0).val < 2 := (L 0).isLt
  simp [Shape.partIx, Shape.partSize, chunkNo] at h0
  refine hV p ?_ ?_
  · show 1048576 * (L 1).val + 524288 * (L 0).val + 8192 * 0 ≤ (p 0).val
    omega
  · show (p 0).val < 1048576 * (L 1).val + 524288 * (L 0).val + 8192 * 0 + 8192 * 64
    omega

/-! ## What a chunk's copy out carries -/

omit [FloatOps F] in
/-- The shared table read through its whole-extent window is the table. -/
theorem read_tabW (f : S1048576.Idx → Elt F .f32) : View.read (Elt F) (tabW).view f = f :=
  funext fun i => congrArg f (funext fun a => match a with | ⟨0, _⟩ => Fin.ext (by show 0 + 1 * (i 0).val = (i 0).val; omega))

/-- The first gathered buffer after the first multiplication loop, moved as it is, is the result on the chunk: its
    entries were the table at the chunk's component numbers, and the loop multiplied them by the chunk's inputs. -/
theorem payA (G X : S8192.Idx → Elt F .f32) (ci : S8192.Idx → Elt F .i32)
    (off : Fin 1 → ℕ) (h : ∀ a, off a + S8192.size a ≤ S16777216.size a)
    (hn : S8192.numel = S8192.size gathers_S1048576_S8192.axis')
    (hin : ∀ x, (ci x : BitVec 32).toNat < S1048576.size gathers_S1048576_S8192.axis)
    (hG : ∀ i, G i = SparseCore.gatherPayload gathers_S1048576_S8192 (View.read (Elt F) (tabW).view f7) (SparseCore.rows ci hn hin) i)
    (hci : ∀ j : Fin 8192, ci (ValueIdx.ix1 j) = f8 (pix off h j)) (hX : ∀ j : Fin 8192, X (ValueIdx.ix1 j) = f9 (pix off h j)) (j : Fin 8192) :
    (ReadAs.same.apply (View.read (Elt F) (g0V).view (mulUpTo G X (Scf.trips k1_t2_loop.lb k1_t2_loop.ub k1_t2_loop.st))) : S8192.Idx → Elt F .f32) (ValueIdx.ix1 j)
      = outV f7 f8 f9 (pix off h j) := by
  show mulUpTo G X (Scf.trips k1_t2_loop.lb k1_t2_loop.ub k1_t2_loop.st) (ValueIdx.ix1 j) = _
  have hc := chunk_val_of f7 f8 f9 off h ci X hci hX hn hin j
  rw [prod16_apply] at hc
  rw [mulUpTo_tripsA, prod16_apply, hG, read_tabW]
  exact hc

/-- The same for the second gathered buffer and the second loop. -/
theorem payB (G X : S8192.Idx → Elt F .f32) (ci : S8192.Idx → Elt F .i32)
    (off : Fin 1 → ℕ) (h : ∀ a, off a + S8192.size a ≤ S16777216.size a)
    (hn : S8192.numel = S8192.size gathers_S1048576_S8192.axis')
    (hin : ∀ x, (ci x : BitVec 32).toNat < S1048576.size gathers_S1048576_S8192.axis)
    (hG : ∀ i, G i = SparseCore.gatherPayload gathers_S1048576_S8192 (View.read (Elt F) (tabW).view f7) (SparseCore.rows ci hn hin) i)
    (hci : ∀ j : Fin 8192, ci (ValueIdx.ix1 j) = f8 (pix off h j)) (hX : ∀ j : Fin 8192, X (ValueIdx.ix1 j) = f9 (pix off h j)) (j : Fin 8192) :
    (ReadAs.same.apply (View.read (Elt F) (g1V).view (mulUpTo G X (Scf.trips k1_t3_loop.lb k1_t3_loop.ub k1_t3_loop.st))) : S8192.Idx → Elt F .f32) (ValueIdx.ix1 j)
      = outV f7 f8 f9 (pix off h j) := by
  show mulUpTo G X (Scf.trips k1_t3_loop.lb k1_t3_loop.ub k1_t3_loop.st) (ValueIdx.ix1 j) = _
  have hc := chunk_val_of f7 f8 f9 off h ci X hci hX hn hin j
  rw [prod16_apply] at hc
  rw [mulUpTo_tripsB, prod16_apply, hG, read_tabW]
  exact hc

/-! ## The buffers as the copies leave them, read at an entry -/

/-- A gathered buffer written whole holds what was written, whatever it held. -/
theorem gathered_at0 (a : S8192.Idx → Elt F .f32) (gp : S8192.Idx → Elt F .f32) (i : S8192.Idx) :
    View.write (Elt F) ((g0V).view.slice (Rect.whole cc1_scratch5.ty.shape)) a gp Finset.univ i = gp i := by
  have e := View.read_slice_write_emb (v := (g0V).view) (Rect.whole cc1_scratch5.ty.shape) a gp (Finset.mem_univ i)
  rw [Rect.emb_whole_apply] at e
  exact e
theorem gathered_at1 (a : S8192.Idx → Elt F .f32) (gp : S8192.Idx → Elt F .f32) (i : S8192.Idx) :
    View.write (Elt F) ((g1V).view.slice (Rect.whole cc1_scratch6.ty.shape)) a gp Finset.univ i = gp i := by
  have e := View.read_slice_write_emb (v := (g1V).view) (Rect.whole cc1_scratch6.ty.shape) a gp (Finset.mem_univ i)
  rw [Rect.emb_whole_apply] at e
  exact e
theorem gathered_writes_at0 (a : S8192.Idx → Elt F .f32) (gp : S8192.Idx → Elt F .f32) (i : S8192.Idx) :
    (g0V).view.writes (Elt F) a [⟨Rect.whole cc1_scratch5.ty.shape, gp⟩] i = gp i := gathered_at0 a gp i
theorem gathered_writes_at1 (a : S8192.Idx → Elt F .f32) (gp : S8192.Idx → Elt F .f32) (i : S8192.Idx) :
    (g1V).view.writes (Elt F) a [⟨Rect.whole cc1_scratch6.ty.shape, gp⟩] i = gp i := gathered_at1 a gp i

/-- An index buffer written whole with a chunk of component numbers reads, at entry `j`, the chunk's `j`-th number. -/
theorem ci_at0 (a : S8192.Idx → Elt F .i32) (off : Fin 1 → ℕ) (h : ∀ a, off a + S8192.size a ≤ S16777216.size a) (j : Fin 8192) :
    View.read (Elt F) (i0V).view (View.write (Elt F) (i0V).view a (cI f8 off h) Finset.univ) (ValueIdx.ix1 j) = f8 (pix off h j) := by
  rw [View.read_write_univ]; exact read_chunk_i32 off h f8 j
theorem ci_at1 (a : S8192.Idx → Elt F .i32) (off : Fin 1 → ℕ) (h : ∀ a, off a + S8192.size a ≤ S16777216.size a) (j : Fin 8192) :
    View.read (Elt F) (i1V).view (View.write (Elt F) (i1V).view a (cI f8 off h) Finset.univ) (ValueIdx.ix1 j) = f8 (pix off h j) := by
  rw [View.read_write_univ]; exact read_chunk_i32 off h f8 j

/-- An input buffer written whole with a chunk of inputs holds, at entry `j`, the chunk's `j`-th input. -/
theorem x_at0 (a : S8192.Idx → Elt F .f32) (off : Fin 1 → ℕ) (h : ∀ a, off a + S8192.size a ≤ S16777216.size a) (j : Fin 8192) :
    View.write (Elt F) (x0V).view a (cX f9 off h) Finset.univ (ValueIdx.ix1 j) = f9 (pix off h j) :=
  (congrFun (View.read_write_univ (v := (x0V).view) a (cX f9 off h)) (ValueIdx.ix1 j)).trans (read_chunk_f32 off h f9 j)
theorem x_at1 (a : S8192.Idx → Elt F .f32) (off : Fin 1 → ℕ) (h : ∀ a, off a + S8192.size a ≤ S16777216.size a) (j : Fin 8192) :
    View.write (Elt F) (x1V).view a (cX f9 off h) Finset.univ (ValueIdx.ix1 j) = f9 (pix off h j) :=
  (congrFun (View.read_write_univ (v := (x1V).view) a (cX f9 off h)) (ValueIdx.ix1 j)).trans (read_chunk_f32 off h f9 j)

end Cert.Proof.KernelIdealSc

end
-- ==== Proof.ScTileStepAIdeal.lean ====
/-
  One trip of the loop over pairs of chunks, FIRST TRIP (no result copy is pending yet): from the loop's invariant before
  the trip to the invariant before the next. The trip waits for the first chunk's gather and the second chunk's inputs, starts the
  second chunk's gather, multiplies the first chunk's table entries by its inputs in place, starts that product's copy into the
  result array and the fetch of the chunk after next; then the same for the second chunk with the roles of the two buffer pairs
  exchanged, waiting for the first product's copy before its buffer is gathered into again. The products written are the
  specification's at every pixel of the two chunks (the value carried beside the resources).
-/
import proofs.«215733_g63187558859118_cont_9to1_m_256_17_alg».proof.Proof.ScTileValIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))
omit [FloatOps F] in
/-- A wait recorded at the index of the tile's own copies keeps the recorded waits within what the launch allows. -/
theorem waits_ok {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp

omit [FloatOps F] in
theorem off40_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
omit [FloatOps F] in
theorem off41n_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
omit [FloatOps F] in
theorem pix_congr {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- The first trip: no result copy is pending. -/
theorem trip_stepA (hidx : ∀ p, (f8 p : BitVec 32).toNat < 1048576) (k : Fin k1_t1_loop.trips) (hk0 : k.val = 0) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hin0 := hinW0 d L f8 hidx
  have hin1 := hinW1 d L f8 hidx
  unfold Inv
  rw [if_pos (by omega : k.val < 32), if_pos (by omega : k.val + 1 < 32), if_pos hk0, if_neg (Nat.succ_ne_zero _)]
  unfold InvA OutB0 OutB1
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%a6, Ho, B6, HsO1⟩⟩
  obtain ⟨rfl, rfl, hW'⟩ := hp
  sl_exec
  have hv : ¬ trip_stepA.sl.v93 k = 1#1 := fun h => absurd ((c93 k).mp h) (by omega)
  have hc3 : k1_cond3 k = 1#1 := (c3 k).mpr (by omega)
  have hc6 : k1_cond6 k = 1#1 := (c6 k).mpr (by omega)
  have hd0 := win_disj0 (L := L)
  have hd1 := win_disj1 (L := L)
  sl_exec
  have hv71 : trip_stepA.sl.v71 k = 1#1 := (c71 k).mpr (by omega)
  ihave G1 := (Guarded.elim_pos hv71) $$ if1
  icases G1 with ⟨Hi, HsI0, B3, Hx, HsX0, HsO0, Ho, HsG0⟩
  ihave Htab2 := (show ((tabV).view.loc thrV ↦[Finset.univ \ gset (trip_stepA.sl.v71 k = 1#1) (fun _ => (tabW).view.set)]{tok16 (jL L)} f7 : sProp 𝕄)
      ⊢ ((tabV).view.loc thrV ↦[Finset.univ \ (tabW).view.set]{tok16 (jL L)} f7) from by
    rw [gset.pos hv71]) $$ Htab
  sl_exec
  sl_unfold_run_names
  sl_step
  isplitr [HsO1 B6 Ho]
  · iexists (k1_off5 L k), (k1_off5_inb L k hc3), (k1_off7 L k), (k1_off7_inb L k hc6), _, _, _, _, _, _, (hin0 _ _ _)
    isplitr
    swap
    isplitl [HO]; · iexact HO
    isplitr; · iexact Hmw
    isplitl [HsI1]; · iexact HsI1
    isplitl [HsX1]; · iexact HsX1
    isplitl [Hi]; · iexact Hi
    isplitl [Hx]; · iexact Hx
    isplitl [HsI0]; · iexact HsI0
    isplitl [HsX0]; · iexact HsX0
    isplitl [B3]; · iexact B3
    isplitl [HsG0]; · iexact HsG0
    isplitl [Htab2]; · iexact Htab2
    isplitl [HsG1]; · iexact HsG1
    iexact HsO0
    ipureintro
    refine ⟨off5_eq L k, off7_eq L k, ?_⟩
    split <;> repeat (first | exact hW' | refine waits_ok ?_ _)
  · iexists _, _, k
    isplitr
    swap
    isplitl [HsO1]; · iexact HsO1
    isplitl [B6]; · iexact B6
    iexact Ho
    ipureintro
    refine ⟨rfl, ?_⟩
    rw [show 2 * (k.val + 1) = 2 * k.val + 2 from by omega]
    refine valF_trip L f7 f8 f9 (2 * k.val) f10 (by rw [hk0]; exact valF_zero L f7 f8 f9 f10)
      (k1_off4 L k 0#32) (k1_off4_inb L k 0) (k1_off4 L k 1#32) (k1_off4_inb L k 1) (off40_eq L k) (off41n_eq L k) _ _ ?_ ?_
    · intro j
      rw [pix_congr (off40_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congr (off41n_eq L k) (k1_off4_inb L k 1) h1 j]
      exact payB f7 f8 f9 _ _ _ _ h1 rfl (hin1 a2 _ h1) (fun i => gathered_at1 _ _ i) (ci_at1 f8 a2 _ h1) (x_at1 f9 a4 _ h1) j

end Cert.Proof.KernelIdealSc

end
-- ==== Proof.ScTileStepBIdeal.lean ====
/-
  One trip of the loop over pairs of chunks, A MIDDLE TRIP (the previous trip's second result copy is pending and is waited for before its buffer is gathered into): from the loop's invariant before
  the trip to the invariant before the next. The trip waits for the first chunk's gather and the second chunk's inputs, starts the
  second chunk's gather, multiplies the first chunk's table entries by its inputs in place, starts that product's copy into the
  result array and the fetch of the chunk after next; then the same for the second chunk with the roles of the two buffer pairs
  exchanged, waiting for the first product's copy before its buffer is gathered into again. The products written are the
  specification's at every pixel of the two chunks (the value carried beside the resources).
-/
import proofs.«215733_g63187558859118_cont_9to1_m_256_17_alg».proof.Proof.ScTileValIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))
omit [FloatOps F] in
/-- A wait recorded at the index of the tile's own copies keeps the recorded waits within what the launch allows. -/
theorem waits_okB {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp

omit [FloatOps F] in
theorem off40B_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
omit [FloatOps F] in
theorem off41B_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
omit [FloatOps F] in
theorem pix_congrB {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- A middle trip: the previous trip's second result copy is pending, and is waited for before its buffer is gathered into. -/
theorem trip_stepB (hidx : ∀ p, (f8 p : BitVec 32).toNat < 1048576) (k : Fin k1_t1_loop.trips) (hk1 : 1 ≤ k.val) (hk30 : k.val ≤ 30) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hin0 := hinW0 d L f8 hidx
  have hin1 := hinW1 d L f8 hidx
  unfold Inv
  rw [if_pos (by omega : k.val < 32), if_pos (by omega : k.val + 1 < 32), if_neg (by omega : ¬ k.val = 0), if_neg (Nat.succ_ne_zero _)]
  unfold InvA OutB1
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%fo, %cg, %k', %hk', HsO1, B6, Ho⟩⟩
  obtain ⟨rfl, rfl, hW'⟩ := hp
  obtain ⟨hk'e, hVal⟩ := hk'
  have hd0 := win_disj0 (L := L)
  have hd1 := win_disj1 (L := L)
  sl_exec
  have hv : trip_stepB.sl.v93 k = 1#1 := (c93 k).mpr hk1
  ihave G0 := (Guarded.elim_pos hv) $$ if1
  icases G0 with ⟨B6, HsO1, Ho⟩
  have hc3 : k1_cond3 k = 1#1 := (c3 k).mpr (by omega)
  have hc6 : k1_cond6 k = 1#1 := (c6 k).mpr (by omega)
  have hd0 := win_disj0 (L := L)
  have hd1 := win_disj1 (L := L)
  sl_exec
  have hv71 : trip_stepB.sl.v71 k = 1#1 := (c71 k).mpr (by omega)
  ihave G1 := (Guarded.elim_pos hv71) $$ if1
  icases G1 with ⟨Hi, HsI0, B3, Hx, HsX0, HsO0, Ho, HsG0⟩
  ihave Htab2 := (show ((tabV).view.loc thrV ↦[Finset.univ \ gset (trip_stepB.sl.v71 k = 1#1) (fun _ => (tabW).view.set)]{tok16 (jL L)} f7 : sProp 𝕄)
      ⊢ ((tabV).view.loc thrV ↦[Finset.univ \ (tabW).view.set]{tok16 (jL L)} f7) from by
    rw [gset.pos hv71]) $$ Htab
  sl_exec
  sl_unfold_run_names
  sl_step
  isplitr [HsO1 B6 Ho]
  · iexists (k1_off5 L k), (k1_off5_inb L k hc3), (k1_off7 L k), (k1_off7_inb L k hc6), _, _, _, _, _, _, (hin0 _ _ _)
    isplitr
    swap
    isplitl [HO]; · iexact HO
    isplitr; · iexact Hmw
    isplitl [HsI1]; · iexact HsI1
    isplitl [HsX1]; · iexact HsX1
    isplitl [Hi]; · iexact Hi
    isplitl [Hx]; · iexact Hx
    isplitl [HsI0]; · iexact HsI0
    isplitl [HsX0]; · iexact HsX0
    isplitl [B3]; · iexact B3
    isplitl [HsG0]; · iexact HsG0
    isplitl [Htab2]; · iexact Htab2
    isplitl [HsG1]; · iexact HsG1
    iexact HsO0
    ipureintro
    refine ⟨off5_eq L k, off7_eq L k, ?_⟩
    repeat' split
    all_goals repeat (first | exact hW' | refine waits_okB ?_ _)
  · iexists _, _, k
    isplitr
    swap
    isplitl [HsO1]; · iexact HsO1
    isplitl [B6]; · iexact B6
    iexact Ho
    ipureintro
    refine ⟨rfl, ?_⟩
    rw [show 2 * (k.val + 1) = 2 * k.val + 2 from by omega]
    refine valF_trip L f7 f8 f9 (2 * k.val) fo hVal
      (k1_off4 L k 0#32) (k1_off4_inb L k 0) (k1_off4 L k 1#32) (k1_off4_inb L k 1) (off40B_eq L k) (off41B_eq L k) _ _ ?_ ?_
    · intro j
      rw [pix_congrB (off40B_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congrB (off41B_eq L k) (k1_off4_inb L k 1) h1 j]
      exact payB f7 f8 f9 _ _ _ _ h1 rfl (hin1 a2 _ h1) (fun i => gathered_at1 _ _ i) (ci_at1 f8 a2 _ h1) (x_at1 f9 a4 _ h1) j

end Cert.Proof.KernelIdealSc

end
-- ==== Proof.ScTileStepCIdeal.lean ====
/-
  One trip of the loop over pairs of chunks, THE LAST TRIP: there is no chunk after the next, so nothing more is fetched or
  gathered; the two chunks are multiplied and their result copies are started and left under way, which is the state the kernel's
  two final waits start from.
-/
import proofs.«215733_g63187558859118_cont_9to1_m_256_17_alg».proof.Proof.ScTileValIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))

omit [FloatOps F] in
theorem waits_okC {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp
omit [FloatOps F] in
theorem off40C_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
omit [FloatOps F] in
theorem off41C_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
omit [FloatOps F] in
theorem pix_congrC {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- The last trip: nothing more is fetched or gathered; both chunks' result copies are left under way. -/
theorem trip_stepC (hidx : ∀ p, (f8 p : BitVec 32).toNat < 1048576) (k : Fin k1_t1_loop.trips) (hk31 : k.val = 31) :
    Inv d L f7 f8 f9 f10 O W k.val ⊢ (wp frame (wpE (defs₀ (F := F)) 𝒱₀ (V d (cV L) (jV L)) none) Set.univ (tripProg (F := F) L k)
      fun _ => Inv d L f7 f8 f9 f10 O W 32 : sProp 𝕄) := by
  have hin0 := hinW0 d L f8 hidx
  have hin1 := hinW1 d L f8 hidx
  unfold Inv
  rw [if_pos (show k.val < 32 from by rw [hk31]; decide), if_neg (show ¬ (32 : ℕ) < 32 from by decide), if_neg (show ¬ k.val = 0 from by rw [hk31]; decide)]
  unfold InvA OutB1 InvX
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%fo, %cg, %k', %hk', HsO1, B6, Ho⟩⟩
  obtain ⟨rfl, rfl, hW'⟩ := hp
  obtain ⟨hk'e, hVal⟩ := hk'
  have hd0 := win_disj0 (L := L)
  have hd1 := win_disj1 (L := L)
  sl_exec
  have hv : trip_stepC.sl.v93 k = 1#1 := (c93 k).mpr (by omega)
  ihave G0 := (Guarded.elim_pos hv) $$ if1
  icases G0 with ⟨B6, HsO1, Ho⟩
  have hc3 : ¬ k1_cond3 k = 1#1 := fun h => absurd ((c3 k).mp h) (by omega)
  have hc6 : ¬ k1_cond6 k = 1#1 := fun h => absurd ((c6 k).mp h) (by omega)
  sl_exec
  have hv71 : ¬ trip_stepC.sl.v71 k = 1#1 := fun h => absurd ((c71 k).mp h) (by omega)
  sl_exec
  sl_unfold_run_names
  sl_step
  iexists _, _, _, _, _, _, _, _, _, k
  isplitr
  swap
  isplitl [HO]; · iexact HO
  isplitr; · iexact Hmw
  isplitl [Hi]; · iexact Hi
  isplitl [Hx]; · iexact Hx
  isplitl [HsI0]; · iexact HsI0
  isplitl [HsX0]; · iexact HsX0
  isplitl [HsI1]; · iexact HsI1
  isplitl [HsX1]; · iexact HsX1
  isplitl [HsG0]; · iexact HsG0
  isplitl [HsG1]; · iexact HsG1
  isplitl [HsG0_dst_and]; · iexact HsG0_dst_and
  isplitl [HsI1_dst]; · iexact HsI1_dst
  isplitl [B3]; · iexact B3
  isplitl [HsX1_dst]; · iexact HsX1_dst
  isplitl [Htab]; · iexact Htab
  isplitl [HsO0]; · iexact HsO0
  isplitl [HsG0_dst]; · iexact HsG0_dst
  isplitl [HsO1]; · iexact HsO1
  isplitl [B6]; · iexact B6
  iexact Ho
  ipureintro
  refine ⟨hk31, ?_, ?_⟩
  · rw [show (64 : ℕ) = 2 * k.val + 2 from by omega]
    refine valF_trip L f7 f8 f9 (2 * k.val) fo hVal
      (k1_off4 L k 0#32) (k1_off4_inb L k 0) (k1_off4 L k 1#32) (k1_off4_inb L k 1) (off40C_eq L k) (off41C_eq L k) _ _ ?_ ?_
    · intro j
      rw [pix_congrC (off40C_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congrC (off41C_eq L k) (k1_off4_inb L k 1) h1 j]
      exact payB f7 f8 f9 _ _ _ _ h1 rfl (hin1 a2 _ h1) (fun i => gathered_at1 _ _ i) (ci_at1 f8 a2 _ h1) (x_at1 f9 a4 _ h1) j
  · split <;> repeat (first | exact hW' | refine waits_okC ?_ _)

end Cert.Proof.KernelIdealSc

end
-- ==== Proof.ScTileStepIdeal.lean ====
/-
  One trip of the loop over pairs of chunks, whichever trip it is: the first, a middle one, or the last.
-/
import proofs.«215733_g63187558859118_cont_9to1_m_256_17_alg».proof.Proof.ScTileStepAIdeal
import proofs.«215733_g63187558859118_cont_9to1_m_256_17_alg».proof.Proof.ScTileStepBIdeal
import proofs.«215733_g63187558859118_cont_9to1_m_256_17_alg».proof.Proof.ScTileStepCIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)
variable (f7 : S1048576.Idx → Elt F .f32) (f8 : S16777216.Idx → Elt F .i32) (f9 f10 : S16777216.Idx → Elt F .f32)
variable (O : CellTallies nD τ sig (HIx 1)) (W : Waits sig (HIx 1))

theorem trip_step (hidx : ∀ p, (f8 p : BitVec 32).toNat < 1048576) (k : Fin k1_t1_loop.trips) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hk : k.val < 32 := Nat.lt_of_lt_of_le k.isLt k1_t1_abs.2.1
  rcases Nat.eq_zero_or_pos k.val with h0 | h1
  · exact trip_stepA d L f7 f8 f9 f10 O W hidx k h0
  · by_cases h31 : k.val = 31
    · have e : k.val + 1 = 32 := by omega
      rw [e]
      exact trip_stepC d L f7 f8 f9 f10 O W hidx k h31
    · exact trip_stepB d L f7 f8 f9 f10 O W hidx k h1 (by omega)

end Cert.Proof.KernelIdealSc

end
-- ==== Proof.ScTileIdeal.lean ====
/-
  The task of one tile (vector subcore) of the SparseCore kernel, whole. It fetches the first two chunks' component numbers and
  inputs, copies its segment of the score table into its SparseCore's shared copy, and meets the other fifteen tiles at the
  barrier, where every tile hands every tile a read share of its segment: past it each tile reads the whole table. Then, chunk
  by chunk, it gathers the table's entries at the chunk's component numbers (all in range by the precondition), multiplies
  them by the chunk's inputs and copies the products into its part of the result array, the next chunk's fetches and gather
  under way meanwhile (the loop's invariant, ScTileInvIdeal; one trip, ScTileStepIdeal). After the last two copies have landed
  it hands back its read shares, its chunks of the result holding component-score × input at every pixel, its share of the
  shared table and its own buffers and cells.
-/
import proofs.«215733_g63187558859118_cont_9to1_m_256_17_alg».proof.Proof.ScTileStepIdeal

noncomputable section

namespace Cert.Proof.KernelIdealSc

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "scV" => (Memref.whole Cert.KernelIdeal.main_v7_scv : Memref Cert.KernelIdeal.sig Kind.scVector Space.hbm Cert.KernelIdeal.S1048576 EltTy.f32)
local notation "xV" => (Memref.whole Cert.KernelIdeal.main_v9_scv : Memref Cert.KernelIdeal.sig Kind.scVector Space.hbm Cert.KernelIdeal.S16777216 EltTy.f32)
local notation "iV" => (Memref.whole Cert.KernelIdeal.main_v8_scv : Memref Cert.KernelIdeal.sig Kind.scVector Space.hbm Cert.KernelIdeal.S16777216 EltTy.i32)
local notation "oV" => (Memref.whole Cert.KernelIdeal.main_v10_scv : Memref Cert.KernelIdeal.sig Kind.scVector Space.hbm Cert.KernelIdeal.S16777216 EltTy.f32)
local notation "tabV" => (Memref.whole Cert.KernelIdeal.cc1_scratch0 : Memref Cert.KernelIdeal.sig Kind.scVector Space.shared Cert.KernelIdeal.S1048576 EltTy.f32)
local notation "i0V" => (Memref.whole Cert.KernelIdeal.cc1_scratch1 : Memref Cert.KernelIdeal.sig Kind.scVector Space.vmem Cert.KernelIdeal.S8192 EltTy.i32)
local notation "i1V" => (Memref.whole Cert.KernelIdeal.cc1_scratch2 : Memref Cert.KernelIdeal.sig Kind.scVector Space.vmem Cert.KernelIdeal.S8192 EltTy.i32)
local notation "x0V" => (Memref.whole Cert.KernelIdeal.cc1_scratch3 : Memref Cert.KernelIdeal.sig Kind.scVector Space.vmem Cert.KernelIdeal.S8192 EltTy.f32)
local notation "x1V" => (Memref.whole Cert.KernelIdeal.cc1_scratch4 : Memref Cert.KernelIdeal.sig Kind.scVector Space.vmem Cert.KernelIdeal.S8192 EltTy.f32)
local notation "g0V" => (Memref.whole Cert.KernelIdeal.cc1_scratch5 : Memref Cert.KernelIdeal.sig Kind.scVector Space.vmem Cert.KernelIdeal.S8192 EltTy.f32)
local notation "g1V" => (Memref.whole Cert.KernelIdeal.cc1_scratch6 : Memref Cert.KernelIdeal.sig Kind.scVector Space.vmem Cert.KernelIdeal.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))

omit [FloatOps F] in
theorem off10_eq : k1_off1 L 0#32 = offC L (2 * 0) := by
  have e := k1_off1_eq L (0 : Fin 2)
  rw [show (BitVec.ofNat 32 (8192 * (0 : Fin 2).val) : BitVec 32) = 0#32 from rfl] at e
  rw [e]; unfold offC; simp
omit [FloatOps F] in
theorem off11_eq : k1_off1 L 8192#32 = offC L (2 * 0 + 1) := by
  have e := k1_off1_eq L (1 : Fin 2)
  rw [show (BitVec.ofNat 32 (8192 * (1 : Fin 2).val) : BitVec 32) = 8192#32 from rfl] at e
  rw [e]; unfold offC; simp

omit [FloatOps F] in
theorem waits_ok0 {W W' : Waits sig (HIx 1)} (hW' : ∀ p ∈ W', p ∈ W ∨ p.2 = none ∨ p.2 = some (0 : Fin 1)) (s : SemLoc sig) :
    ∀ p ∈ insert (s, (some 0 : HIx 1)) W', p ∈ W ∨ p.2 = none ∨ p.2 = some (0 : Fin 1) := by
  intro p hp
  rcases Finset.mem_insert.mp hp with rfl | hp
  · exact .inr (.inr rfl)
  · exact hW' p hp

theorem Inv_exit : Inv d L f7 f8 f9 f10 O W 32 = InvX d L f7 f8 f9 O W := by
  unfold Inv; rw [if_neg (by decide : ¬ (32 : ℕ) < 32)]
theorem Inv_zero : Inv d L f7 f8 f9 f10 O W 0 = iprop(InvA d L f7 f8 f9 O W 0 ∗ OutB0 d L f10) := by
  unfold Inv; rw [if_pos (by decide : (0 : ℕ) < 32), if_pos rfl]

omit [FloatOps F] in
theorem trips_eq : Scf.trips k1_t1_loop.lb k1_t1_loop.ub k1_t1_loop.st = 32 := by decide +kernel

set_option maxHeartbeats 4000000 in
theorem tile_body_of (hF : (K (F := F)).Facts) (hidx : ∀ p, (f8 p : BitVec 32).toNat < 1048576)
    (hstep : ∀ k : Fin k1_t1_loop.trips, Inv d L f7 f8 f9 f10 O W k.val ⊢ (wp frame (wpE (defs₀ (F := F)) 𝒱₀ (V d (cV L) (jV L)) none) Set.univ (tripProg (F := F) L k) fun _ => Inv d L f7 f8 f9 f10 O W (k.val + 1) : sProp 𝕄))
    (hO : ∀ g, O g none = 0)
    (hOlev : ∀ g ι, 0 < O g ι → 8 * (0 : Fin 1).val + 6 ≤ (K (F := F)).lev g ι) :
    iprop(levAts (K (F := F)).L (K (F := F)).lev ∗ bkit f7 d (cV L) (jV L)
        ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ (wp frame (wpE (defs₀ (F := F)) 𝒱₀ (V d (cV L) (jV L)) none) Set.univ
          (cc1_body L scV (Memref.isWhole_whole _) xV (Memref.isWhole_whole _) iV (Memref.isWhole_whole _) oV (Memref.isWhole_whole _)
            tabV (Memref.isWhole_whole _) i0V (Memref.isWhole_whole _) i1V (Memref.isWhole_whole _) x0V (Memref.isWhole_whole _) x1V (Memref.isWhole_whole _)
            g0V (Memref.isWhole_whole _) g1V (Memref.isWhole_whole _) cc1_scratch7 cc1_scratch8 cc1_scratch9 cc1_scratch10 cc1_scoped0)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [cc1_body_eq_skeleton]; unfold cc1_body_skel
  rw [k1_part2_eq_skeleton]; unfold k1_part2_skel
  rw [(K (F := F)).scopedBufs_V hF d (cV L) (jV L), SparseCore.Cfg.scopedSems0_V (Val := Elt F) d (cV L) (jV L), ownSems0_V, ownBufs_V]
  unfold bkit goH goS
  iintro ⟨#Hlv, ⟨⟨%κ, #Hinv⟩, Htoks, #Hrch, Hat, Hcred⟩, ⟨⟨H7, H8, H9, Hout⟩, ⟨%fsh, Hsh⟩⟩,
    ⟨⟨%a1, H1⟩, ⟨%a2, H2⟩, ⟨%a3, H3⟩, ⟨%a4, H4⟩, ⟨%a5, H5⟩, ⟨%a6, H6⟩, Hbufs⟩,
    ⟨HsI0, HsI1, HsX0, HsX1, HsG0, HsG1, HsO0, HsO1, HsT, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  have hin0 := hinW0 d L f8 hidx
  have hin1 := hinW1 d L f8 hidx
  -- the arrays and buffers as the kernel's memrefs name them
  ihave Hs := (Entails.of_eq (pts7 (F := F) d L (tok L) f7).symm) $$ H7
  ihave Hi := (Entails.of_eq (pts8 (F := F) d L (tok L) f8).symm) $$ H8
  ihave Hx := (Entails.of_eq (pts9 (F := F) d L (tok L) f9).symm) $$ H9
  ihave Ho := (Entails.of_eq (out_join (F := F) d L f10)) $$ Hout
  ihave B1 := (Entails.of_eq (ptsI0 (F := F) d L a1).symm) $$ H1
  ihave B2 := (Entails.of_eq (ptsI1 (F := F) d L a2).symm) $$ H2
  ihave B3 := (Entails.of_eq (ptsX0 (F := F) d L a3).symm) $$ H3
  ihave B4 := (Entails.of_eq (ptsX1 (F := F) d L a4).symm) $$ H4
  ihave B5 := (Entails.of_eq (ptsG0 (F := F) d L a5).symm) $$ H5
  ihave B6 := (Entails.of_eq (ptsG1 (F := F) d L a6).symm) $$ H6
  ihave Hseg := (show (shLoc d (cV L) ↦[segSet (jL L)]{fullShare} fsh : sProp 𝕄)
      ⊢ (((tabV).slice (Rect.unit (s := S1048576) (k1_off2 L) S65536.size (k1_off2_inb L)) (fun _ => rfl)).view.loc (V d (cV L) (jV L)) ↦[((tabV).slice (Rect.unit (s := S1048576) (k1_off2 L) S65536.size (k1_off2_inb L)) (fun _ => rfl)).view.set]{fullShare} fsh) from by
    rw [seg_spell]; exact BI.Entails.refl _) $$ Hsh
  -- the four input copies, the segment's copy and its wait
  sl_exec
  -- the segment now holds the score table's entries: a read share of it to every tile's round, the rest kept
  sl_unfold_run_names
  ihave Hseg2 := (seg_done (F := F) d L f7 fsh) $$ Hseg
  ihave Hp := (pays_intro f7 d L) $$ Hseg2
  icases Hp with ⟨Hrest, Hpays⟩
  sl_rw [bind_assoc]
  iapply (SparseCore.wp_subcoreBarrier 𝒱₀ none EB (bRd f7) d (sc := cV L) (i := jV L) sc_bar0 (grid1.bound 1) hsub1 (L 1) rfl κ (fun _ => 0) (jV L).val
      (fun j => bRd_mem₀ f7 d _ _ _) (fun _ => rfl) (bRd_expect f7 d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab0 := (pays_elim f7 d L) $$ Hgot
  ihave Htab := (Entails.of_eq (ptsTab (F := F) d L (tok16 (jL L)) f7).symm) $$ Htab0
  -- the first chunk's waits and its gather
  sl_exec
  sl_unfold_run_names
  sl_for (fun (t : Nat) (_ : PUnit) => (Inv d L f7 f8 f9 f10 O W t : sProp 𝕄)) $$ [HsI1 HsX1 Hi Hx HsI0 HsX0 B3 HsG0 Htab HsG1 HsO0 HO Ho B6 HsO1 Hmw2]
  · -- one trip
    intro k acc
    exact hstep k
  · -- before the first trip
    rw [Inv_zero]
    unfold InvA OutB0
    isplitr [Ho B6 HsO1]
    · iexists (k1_off1 L 0#32), (k1_off1_inb L 0), (k1_off1 L 8192#32), (k1_off1_inb L 1), a1, a2, a3, a4, a5, _, (hin0 _ _ _)
      isplitr
      swap
      isplitl [HO]; · iexact HO
      isplitr; · iexact Hmw2
      isplitl [HsI1]; · iexact HsI1
      isplitl [HsX1]; · iexact HsX1
      isplitl [Hi]; · iexact Hi
      isplitl [Hx]; · iexact Hx
      isplitl [HsI0]; · iexact HsI0
      isplitl [HsX0]; · iexact HsX0
      isplitl [B3]; · iexact B3
      isplitl [HsG0]; · iexact HsG0
      isplitl [Htab]; · iexact Htab
      isplitl [HsG1]; · iexact HsG1
      iexact HsO0
      ipureintro
      refine ⟨off10_eq L, off11_eq L, ?_⟩
      exact waits_ok (waits_ok (waits_ok0 (waits_ok (fun p hp => .inl hp) _) _) _) _
    · iexists a6
      isplitl [Ho]; · iexact Ho
      isplitl [B6]; · iexact B6
      iexact HsO1
  · -- after the last trip: the two result copies still under way, then everything handed back
    rw [trips_eq, Inv_exit]
    unfold InvX
    iintro %acc ⟨%fo, %w1, %cg0, %cg1, %c1, %c2, %c3, %c4, %W', %kl, %hp, HO, #Hmw, Hi, Hx, HsI0, HsX0, HsI1, HsX1, HsG0, HsG1, B1, B2, B3, B4, Htab, HsO0, G0r, HsO1, G1r, Ho⟩
    obtain ⟨hkl, hVal, hW'⟩ := hp
    have hd0 := win_disj0 (L := L)
    have hd1 := win_disj1 (L := L)
    sl_exec
    sl_step
    have hfin := valF_final L f7 f8 f9 _ hVal
    ihave Ho2 := (show ((oV).view.loc thrV ↦[Finset.univ \ Others L]{fullShare} (View.write (Elt F) (oSl (k1_off4 L kl 1#32) (k1_off4_inb L kl 1)).view fo w1 Finset.univ) : sProp 𝕄)
        ⊢ ((oV).view.loc thrV ↦[Finset.univ \ Others L]{fullShare} outV f7 f8 f9) from Entails.of_eq (pointsTo_congr hfin)) $$ Ho
    ihave Hout := (Entails.of_eq (out_join (F := F) d L (outV f7 f8 f9)).symm) $$ Ho2
    isplitl [Hs Hi Hx Hout Hrest Htab]
    · isplitl [Hs Hi Hx Hout]
      · unfold tdH
        isplitl [Hs]; · iapply (Entails.of_eq (pts7 (F := F) d L (tok L) f7)); iexact Hs
        isplitl [Hi]; · iapply (Entails.of_eq (pts8 (F := F) d L (tok L) f8)); iexact Hi
        isplitl [Hx]; · iapply (Entails.of_eq (pts9 (F := F) d L (tok L) f9)); iexact Hx
        iexact Hout
      · unfold tdS
        isplitl [Hrest]; · iexact Hrest
        iapply (Entails.of_eq (ptsTab (F := F) d L (tok16 (jL L)) f7)); iexact Htab
    isplitl [B1 B2 B3 B4 G0r G1r Hbufs]
    · isplitl [B1]; · iexists c1; iapply (Entails.of_eq (ptsI0 (F := F) d L c1)); iexact B1
      isplitl [B2]; · iexists c2; iapply (Entails.of_eq (ptsI1 (F := F) d L c2)); iexact B2
      isplitl [B3]; · iexists c3; iapply (Entails.of_eq (ptsX0 (F := F) d L c3)); iexact B3
      isplitl [B4]; · iexists c4; iapply (Entails.of_eq (ptsX1 (F := F) d L c4)); iexact B4
      isplitl [G0r]; · iexists cg0; iapply (Entails.of_eq (ptsG0 (F := F) d L cg0)); iexact G0r
      isplitl [G1r]; · iexists cg1; iapply (Entails.of_eq (ptsG1 (F := F) d L cg1)); iexact G1r
      iexact Hbufs
    isplitl [HsI0 HsI1 HsX0 HsX1 HsG0 HsG1 HsO0 HsO1 HsT Hsems]
    · isplitl [HsI0]; · iexact HsI0
      isplitl [HsI1]; · iexact HsI1
      isplitl [HsX0]; · iexact HsX0
      isplitl [HsX1]; · iexact HsX1
      isplitl [HsG0]; · iexact HsG0
      isplitl [HsG1]; · iexact HsG1
      isplitl [HsO0]; · iexact HsO0
      isplitl [HsO1]; · iexact HsO1
      isplitl [HsT]; · iexact HsT
      iexact Hsems
    iexists _
    isplitr
    swap
    iexact HO
    ipureintro
    exact waits_ok (waits_ok hW' _) _

/-- The tile's task, with the trip's step supplied. -/
theorem tile_body (hF : (K (F := F)).Facts) (d : Dev nD) (L : grid1.Coords)
    (f7 : S1048576.Idx → Elt F .f32) (f8 : S16777216.Idx → Elt F .i32) (f9 f10 : S16777216.Idx → Elt F .f32)
    (hidx : ∀ p, (f8 p : BitVec 32).toNat < 1048576)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit f7 d (cV L) (jV L)
        ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ (wp frame (wpE (defs₀ (F := F)) 𝒱₀ (V d (cV L) (jV L)) none) Set.univ
          (cc1_body L scV (Memref.isWhole_whole _) xV (Memref.isWhole_whole _) iV (Memref.isWhole_whole _) oV (Memref.isWhole_whole _)
            tabV (Memref.isWhole_whole _) i0V (Memref.isWhole_whole _) i1V (Memref.isWhole_whole _) x0V (Memref.isWhole_whole _) x1V (Memref.isWhole_whole _)
            g0V (Memref.isWhole_whole _) g1V (Memref.isWhole_whole _) cc1_scratch7 cc1_scratch8 cc1_scratch9 cc1_scratch10 cc1_scoped0)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) :=
  tile_body_of d L f7 f8 f9 f10 O W hF hidx (fun k => trip_step d L f7 f8 f9 f10 O W hidx k) hO hOlev

end Cert.Proof.KernelIdealSc

end
-- ==== Proof.ScTileOwnBits.lean ====
/-
  The tile's own storage, named: of the scoped DMA cells the launch hands a tile at zero, the nine its kernel uses (two
  each for the component-number copies, the input copies, the gathers and the result copies, and one for the copy of the
  table segment); of its scoped buffers, the six chunk-sized scratch buffers. Each family is taken out of the launch's
  conjunction over all the tile's cells (buffers), the others left as they came.
-/
import proofs.«215733_g63187558859118_cont_9to1_m_256_17_alg».proof.Proof.ScBarrierBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

/-! ## The tile's own cells and buffers, taken out of what the launch hands it -/

abbrev sI0 : DmaSem sig := ((SemArray.slice cc1_scratch7 (Rect.unit (s := S2) ![0] S1.size inb_S2_S1_0)).squeeze S_ squeezes_S1_S_).sem
abbrev sI1 : DmaSem sig := ((SemArray.slice cc1_scratch7 (Rect.unit (s := S2) ![1] S1.size inb_S2_S1_1)).squeeze S_ squeezes_S1_S_).sem
abbrev sX0 : DmaSem sig := ((SemArray.slice cc1_scratch8 (Rect.unit (s := S2) ![0] S1.size inb_S2_S1_0)).squeeze S_ squeezes_S1_S_).sem
abbrev sX1 : DmaSem sig := ((SemArray.slice cc1_scratch8 (Rect.unit (s := S2) ![1] S1.size inb_S2_S1_1)).squeeze S_ squeezes_S1_S_).sem
abbrev sG0 : DmaSem sig := ((SemArray.slice cc1_scratch9 (Rect.unit (s := S2) ![0] S1.size inb_S2_S1_0)).squeeze S_ squeezes_S1_S_).sem
abbrev sG1 : DmaSem sig := ((SemArray.slice cc1_scratch9 (Rect.unit (s := S2) ![1] S1.size inb_S2_S1_1)).squeeze S_ squeezes_S1_S_).sem
abbrev sO0 : DmaSem sig := ((SemArray.slice cc1_scratch10 (Rect.unit (s := S2) ![0] S1.size inb_S2_S1_0)).squeeze S_ squeezes_S1_S_).sem
abbrev sO1 : DmaSem sig := ((SemArray.slice cc1_scratch10 (Rect.unit (s := S2) ![1] S1.size inb_S2_S1_1)).squeeze S_ squeezes_S1_S_).sem
abbrev sT : DmaSem sig := cc1_scoped0.sem

abbrev cell (d : Dev nD) (L : grid1.Coords) (s : DmaSem sig) : GSem nD τ sig := (V d (cV L) (jV L), .dma s)

variable (d : Dev nD) (L : grid1.Coords)

abbrev restCells : Finset (GSem nD τ sig) := (((((((((ownCells (V d (cV L) (jV L))).erase (cell d L sI0)).erase (cell d L sI1)).erase (cell d L sX0)).erase (cell d L sX1)).erase (cell d L sG0)).erase (cell d L sG1)).erase (cell d L sO0)).erase (cell d L sO1)).erase (cell d L sT)
abbrev restRefs : Finset (DevRef τ sig) := ((((((ownRefs (τ := τ) (.scVector (cV L) (jV L))).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)

theorem ownSems0_V :
    (ownSems0 (V d (cV L) (jV L)) : sProp 𝕄)
      = iprop(semVal (cell d L sI0) 0 ∗ semVal (cell d L sI1) 0 ∗ semVal (cell d L sX0) 0 ∗ semVal (cell d L sX1) 0 ∗ semVal (cell d L sG0) 0 ∗ semVal (cell d L sG1) 0 ∗ semVal (cell d L sO0) 0 ∗ semVal (cell d L sO1) 0 ∗ semVal (cell d L sT) 0
          ∗ bigSep (restCells d L) fun g => semVal g 0) := by
  unfold SparseCore.Cfg.ownSems0
  rw [SparseCore.bigSep_erase' ((mem_ownCells (g := cell d L sI0)).mpr ⟨rfl, by show (SemLoc.dma sI0 : SemLoc sig).isScoped .scVector = true; decide⟩),
    SparseCore.bigSep_erase' (Finset.mem_erase.mpr ⟨fun h => absurd (congrArg (fun g : GSem nD τ sig => g.2) h) (by show (SemLoc.dma sI1 : SemLoc sig) ≠ SemLoc.dma sI0; decide), (mem_ownCells (g := cell d L sI1)).mpr ⟨rfl, by show (SemLoc.dma sI1 : SemLoc sig).isScoped .scVector = true; decide⟩⟩),
    SparseCore.bigSep_erase' (Finset.mem_erase.mpr ⟨fun h => absurd (congrArg (fun g : GSem nD τ sig => g.2) h) (by show (SemLoc.dma sX0 : SemLoc sig) ≠ SemLoc.dma sI1; decide), Finset.mem_erase.mpr ⟨fun h => absurd (congrArg (fun g : GSem nD τ sig => g.2) h) (by show (SemLoc.dma sX0 : SemLoc sig) ≠ SemLoc.dma sI0; decide), (mem_ownCells (g := cell d L sX0)).mpr ⟨rfl, by show (SemLoc.dma sX0 : SemLoc sig).isScoped .scVector = true; decide⟩⟩⟩),
    SparseCore.bigSep_erase' (Finset.mem_erase.mpr ⟨fun h => absurd (congrArg (fun g : GSem nD τ sig => g.2) h) (by show (SemLoc.dma sX1 : SemLoc sig) ≠ SemLoc.dma sX0; decide), Finset.mem_erase.mpr ⟨fun h => absurd (congrArg (fun g : GSem nD τ sig => g.2) h) (by show (SemLoc.dma sX1 : SemLoc sig) ≠ SemLoc.dma sI1; decide), Finset.mem_erase.mpr ⟨fun h => absurd (congrArg (fun g : GSem nD τ sig => g.2) h) (by show (SemLoc.dma sX1 : SemLoc sig) ≠ SemLoc.dma sI0; decide), (mem_ownCells (g := cell d L sX1)).mpr ⟨rfl, by show (SemLoc.dma sX1 : SemLoc sig).isScoped .scVector = true; decide⟩⟩⟩⟩),
    SparseCore.bigSep_erase' (Finset.mem_erase.mpr ⟨fun h => absurd (congrArg (fun g : GSem nD τ sig => g.2) h) (by show (SemLoc.dma sG0 : SemLoc sig) ≠ SemLoc.dma sX1; decide), Finset.mem_erase.mpr ⟨fun h => absurd (congrArg (fun g : GSem nD τ sig => g.2) h) (by show (SemLoc.dma sG0 : SemLoc sig) ≠ SemLoc.dma sX0; decide), Finset.mem_erase.mpr ⟨fun h => absurd (congrArg (fun g : GSem nD τ sig => g.2) h) (by show (SemLoc.dma sG0 : SemLoc sig) ≠ SemLoc.dma sI1; decide), Finset.mem_erase.mpr ⟨fun h => absurd (congrArg (fun g : GSem nD τ sig => g.2) h) (by show (SemLoc.dma sG0 : SemLoc sig) ≠ SemLoc.dma sI0; decide), (mem_ownCells (g := cell d L sG0)).mpr ⟨rfl, by show (SemLoc.dma sG0 : SemLoc sig).isScoped .scVector = true; decide⟩⟩⟩⟩⟩),
    SparseCore.bigSep_erase' (Finset.mem_erase.mpr ⟨fun h => absurd (congrArg (fun g : GSem nD τ sig => g.2) h) (by show (SemLoc.dma sG1 : SemLoc sig) ≠ SemLoc.dma sG0; decide), Finset.mem_erase.mpr ⟨fun h => absurd (congrArg (fun g : GSem nD τ sig => g.2) h) (by show (SemLoc.dma sG1 : SemLoc sig) ≠ SemLoc.dma sX1; decide), Finset.mem_erase.mpr ⟨fun h => absurd (congrArg (fun g : GSem nD τ sig => g.2) h) (by show (SemLoc.dma sG1 : SemLoc sig) ≠ SemLoc.dma sX0; decide), Finset.mem_erase.mpr ⟨fun h => absurd (congrArg (fun g : GSem nD τ sig => g.2) h) (by show (SemLoc.dma sG1 : SemLoc sig) ≠ SemLoc.dma sI1; decide), Finset.mem_erase.mpr ⟨fun h => absurd (congrArg (fun g : GSem nD τ sig => g.2) h) (by show (SemLoc.dma sG1 : SemLoc sig) ≠ SemLoc.dma sI0; decide), (mem_ownCells (g := cell d L sG1)).mpr ⟨rfl, by show (SemLoc.dma sG1 : SemLoc sig).isScoped .scVector = true; decide⟩⟩⟩⟩⟩⟩),
    SparseCore.bigSep_erase' (Finset.mem_erase.mpr ⟨fun h => absurd (congrArg (fun g : GSem nD τ sig => g.2) h) (by show (SemLoc.dma sO0 : SemLoc sig) ≠ SemLoc.dma sG1; decide), Finset.mem_erase.mpr ⟨fun h => absurd (congrArg (fun g : GSem nD τ sig => g.2) h) (by show (SemLoc.dma sO0 : SemLoc sig) ≠ SemLoc.dma sG0; decide), Finset.mem_erase.mpr ⟨fun h => absurd (congrArg (fun g : GSem nD τ sig => g.2) h) (by show (SemLoc.dma sO0 : SemLoc sig) ≠ SemLoc.dma sX1; decide), Finset.mem_erase.mpr ⟨fun h => absurd (congrArg (fun g : GSem nD τ sig => g.2) h) (by show (SemLoc.dma sO0 : SemLoc sig) ≠ SemLoc.dma sX0; decide), Finset.mem_erase.mpr ⟨fun h => absurd (congrArg (fun g : GSem nD τ sig => g.2) h) (by show (SemLoc.dma sO0 : SemLoc sig) ≠ SemLoc.dma sI1; decide), Finset.mem_erase.mpr ⟨fun h => absurd (congrArg (fun g : GSem nD τ sig => g.2) h) (by show (SemLoc.dma sO0 : SemLoc sig) ≠ SemLoc.dma sI0; decide), (mem_ownCells (g := cell d L sO0)).mpr ⟨rfl, by show (SemLoc.dma sO0 : SemLoc sig).isScoped .scVector = true; decide⟩⟩⟩⟩⟩⟩⟩),
    SparseCore.bigSep_erase' (Finset.mem_erase.mpr ⟨fun h => absurd (congrArg (fun g : GSem nD τ sig => g.2) h) (by show (SemLoc.dma sO1 : SemLoc sig) ≠ SemLoc.dma sO0; decide), Finset.mem_erase.mpr ⟨fun h => absurd (congrArg (fun g : GSem nD τ sig => g.2) h) (by show (SemLoc.dma sO1 : SemLoc sig) ≠ SemLoc.dma sG1; decide), Finset.mem_erase.mpr ⟨fun h => absurd (congrArg (fun g : GSem nD τ sig => g.2) h) (by show (SemLoc.dma sO1 : SemLoc sig) ≠ SemLoc.dma sG0; decide), Finset.mem_erase.mpr ⟨fun h => absurd (congrArg (fun g : GSem nD τ sig => g.2) h) (by show (SemLoc.dma sO1 : SemLoc sig) ≠ SemLoc.dma sX1; decide), Finset.mem_erase.mpr ⟨fun h => absurd (congrArg (fun g : GSem nD τ sig => g.2) h) (by show (SemLoc.dma sO1 : SemLoc sig) ≠ SemLoc.dma sX0; decide), Finset.mem_erase.mpr ⟨fun h => absurd (congrArg (fun g : GSem nD τ sig => g.2) h) (by show (SemLoc.dma sO1 : SemLoc sig) ≠ SemLoc.dma sI1; decide), Finset.mem_erase.mpr ⟨fun h => absurd (congrArg (fun g : GSem nD τ sig => g.2) h) (by show (SemLoc.dma sO1 : SemLoc sig) ≠ SemLoc.dma sI0; decide), (mem_ownCells (g := cell d L sO1)).mpr ⟨rfl, by show (SemLoc.dma sO1 : SemLoc sig).isScoped .scVector = true; decide⟩⟩⟩⟩⟩⟩⟩⟩),
    SparseCore.bigSep_erase' (Finset.mem_erase.mpr ⟨fun h => absurd (congrArg (fun g : GSem nD τ sig => g.2) h) (by show (SemLoc.dma sT : SemLoc sig) ≠ SemLoc.dma sO1; decide), Finset.mem_erase.mpr ⟨fun h => absurd (congrArg (fun g : GSem nD τ sig => g.2) h) (by show (SemLoc.dma sT : SemLoc sig) ≠ SemLoc.dma sO0; decide), Finset.mem_erase.mpr ⟨fun h => absurd (congrArg (fun g : GSem nD τ sig => g.2) h) (by show (SemLoc.dma sT : SemLoc sig) ≠ SemLoc.dma sG1; decide), Finset.mem_erase.mpr ⟨fun h => absurd (congrArg (fun g : GSem nD τ sig => g.2) h) (by show (SemLoc.dma sT : SemLoc sig) ≠ SemLoc.dma sG0; decide), Finset.mem_erase.mpr ⟨fun h => absurd (congrArg (fun g : GSem nD τ sig => g.2) h) (by show (SemLoc.dma sT : SemLoc sig) ≠ SemLoc.dma sX1; decide), Finset.mem_erase.mpr ⟨fun h => absurd (congrArg (fun g : GSem nD τ sig => g.2) h) (by show (SemLoc.dma sT : SemLoc sig) ≠ SemLoc.dma sX0; decide), Finset.mem_erase.mpr ⟨fun h => absurd (congrArg (fun g : GSem nD τ sig => g.2) h) (by show (SemLoc.dma sT : SemLoc sig) ≠ SemLoc.dma sI1; decide), Finset.mem_erase.mpr ⟨fun h => absurd (congrArg (fun g : GSem nD τ sig => g.2) h) (by show (SemLoc.dma sT : SemLoc sig) ≠ SemLoc.dma sI0; decide), (mem_ownCells (g := cell d L sT)).mpr ⟨rfl, by show (SemLoc.dma sT : SemLoc sig).isScoped .scVector = true; decide⟩⟩⟩⟩⟩⟩⟩⟩⟩)]

theorem ownBufs_V :
    (ownBufs (V d (cV L) (jV L)) : sProp 𝕄)
      = iprop((∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f)
          ∗ bigSep (restRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch1) rfl),
    SparseCore.bigSep_erase' (Finset.mem_erase.mpr ⟨fun h => absurd (congrArg (fun b : DevRef τ sig => b.idx.val) h) (by show ¬ ((1 : Nat) = 0); decide), SparseCore.Cfg.mem_ownRefs_of_owner (p := Proc.scVector (cV L) (jV L)) (b := (Proc.scVector (cV L) (jV L)).devRef cc1_scratch2) rfl⟩),
    SparseCore.bigSep_erase' (Finset.mem_erase.mpr ⟨fun h => absurd (congrArg (fun b : DevRef τ sig => b.idx.val) h) (by show ¬ ((2 : Nat) = 1); decide), Finset.mem_erase.mpr ⟨fun h => absurd (congrArg (fun b : DevRef τ sig => b.idx.val) h) (by show ¬ ((2 : Nat) = 0); decide), SparseCore.Cfg.mem_ownRefs_of_owner (p := Proc.scVector (cV L) (jV L)) (b := (Proc.scVector (cV L) (jV L)).devRef cc1_scratch3) rfl⟩⟩),
    SparseCore.bigSep_erase' (Finset.mem_erase.mpr ⟨fun h => absurd (congrArg (fun b : DevRef τ sig => b.idx.val) h) (by show ¬ ((3 : Nat) = 2); decide), Finset.mem_erase.mpr ⟨fun h => absurd (congrArg (fun b : DevRef τ sig => b.idx.val) h) (by show ¬ ((3 : Nat) = 1); decide), Finset.mem_erase.mpr ⟨fun h => absurd (congrArg (fun b : DevRef τ sig => b.idx.val) h) (by show ¬ ((3 : Nat) = 0); decide), SparseCore.Cfg.mem_ownRefs_of_owner (p := Proc.scVector (cV L) (jV L)) (b := (Proc.scVector (cV L) (jV L)).devRef cc1_scratch4) rfl⟩⟩⟩),
    SparseCore.bigSep_erase' (Finset.mem_erase.mpr ⟨fun h => absurd (congrArg (fun b : DevRef τ sig => b.idx.val) h) (by show ¬ ((4 : Nat) = 3); decide), Finset.mem_erase.mpr ⟨fun h => absurd (congrArg (fun b : DevRef τ sig => b.idx.val) h) (by show ¬ ((4 : Nat) = 2); decide), Finset.mem_erase.mpr ⟨fun h => absurd (congrArg (fun b : DevRef τ sig => b.idx.val) h) (by show ¬ ((4 : Nat) = 1); decide), Finset.mem_erase.mpr ⟨fun h => absurd (congrArg (fun b : DevRef τ sig => b.idx.val) h) (by show ¬ ((4 : Nat) = 0); decide), SparseCore.Cfg.mem_ownRefs_of_owner (p := Proc.scVector (cV L) (jV L)) (b := (Proc.scVector (cV L) (jV L)).devRef cc1_scratch5) rfl⟩⟩⟩⟩),
    SparseCore.bigSep_erase' (Finset.mem_erase.mpr ⟨fun h => absurd (congrArg (fun b : DevRef τ sig => b.idx.val) h) (by show ¬ ((5 : Nat) = 4); decide), Finset.mem_erase.mpr ⟨fun h => absurd (congrArg (fun b : DevRef τ sig => b.idx.val) h) (by show ¬ ((5 : Nat) = 3); decide), Finset.mem_erase.mpr ⟨fun h => absurd (congrArg (fun b : DevRef τ sig => b.idx.val) h) (by show ¬ ((5 : Nat) = 2); decide), Finset.mem_erase.mpr ⟨fun h => absurd (congrArg (fun b : DevRef τ sig => b.idx.val) h) (by show ¬ ((5 : Nat) = 1); decide), Finset.mem_erase.mpr ⟨fun h => absurd (congrArg (fun b : DevRef τ sig => b.idx.val) h) (by show ¬ ((5 : Nat) = 0); decide), SparseCore.Cfg.mem_ownRefs_of_owner (p := Proc.scVector (cV L) (jV L)) (b := (Proc.scVector (cV L) (jV L)).devRef cc1_scratch6) rfl⟩⟩⟩⟩⟩)]

end Cert.Proof.KernelSc

end
-- ==== Proof.ScTileGeomBits.lean ====
/-
  Where the tile's pieces of the arrays lie, and what its copies leave in them.

  The result array is cut into 2048 chunks of 8192 pixels and tile L owns 64 consecutive ones; the score table's shared
  copy is cut into 16 segments of 65536 entries and tile L writes segment number (L 1). This module says that the 64
  chunks are pairwise disjoint (so holding them chunk by chunk is holding their union), that the segment the kernel
  slices at offset 65536 · (L 1) is that segment, that a copy of the same slice of the score table into it leaves the
  score table's entries there, and that a chunk of component numbers copied into an index buffer is in the table's range
  whenever every component number is.
-/
import proofs.«215733_g63187558859118_cont_9to1_m_256_17_alg».proof.Proof.ScTileOwnBits
import Idealize.ShloMosaic.Lib.Writes

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)
variable (f7 : S1048576.Idx → Elt F .f32) (f8 : S16777216.Idx → Elt F .i32) (f9 f10 : S16777216.Idx → Elt F .f32)

/-! ## Pure facts about the tile's sets and contents (geometry and values) -/

/-- Every pixel outside tile `L`'s 64 chunks. -/
def Others : Finset S16777216.Idx := Finset.univ \ (Finset.univ.biUnion fun k : Fin 64 => chunkSet L k)

theorem pts7 (q : PosShare TreeShare) (f : S1048576.Idx → Elt F .f32) : ((scV).view.loc (V d (cV L) (jV L)) ↦{q} f : sProp 𝕄) = (loc7 d ↦{q} f) := rfl
theorem pts8 (q : PosShare TreeShare) (f : S16777216.Idx → Elt F .i32) : ((iV).view.loc (V d (cV L) (jV L)) ↦{q} f : sProp 𝕄) = (loc8 d ↦{q} f) := rfl
theorem pts9 (q : PosShare TreeShare) (f : S16777216.Idx → Elt F .f32) : ((xV).view.loc (V d (cV L) (jV L)) ↦{q} f : sProp 𝕄) = (loc9 d ↦{q} f) := rfl
theorem ptsTab (q : PosShare TreeShare) (f : S1048576.Idx → Elt F .f32) : ((tabV).view.loc (V d (cV L) (jV L)) ↦{q} f : sProp 𝕄) = (shLoc d (cV L) ↦{q} f) := rfl
theorem ptsI0 (f : Buf (Elt F) ((V d (cV L) (jV L)).loc cc1_scratch1)) : ((i0V).view.loc (V d (cV L) (jV L)) ↦{fullShare} f : sProp 𝕄) = ((V d (cV L) (jV L)).loc cc1_scratch1 ↦{fullShare} f) := rfl
theorem ptsI1 (f : Buf (Elt F) ((V d (cV L) (jV L)).loc cc1_scratch2)) : ((i1V).view.loc (V d (cV L) (jV L)) ↦{fullShare} f : sProp 𝕄) = ((V d (cV L) (jV L)).loc cc1_scratch2 ↦{fullShare} f) := rfl
theorem ptsX0 (f : Buf (Elt F) ((V d (cV L) (jV L)).loc cc1_scratch3)) : ((x0V).view.loc (V d (cV L) (jV L)) ↦{fullShare} f : sProp 𝕄) = ((V d (cV L) (jV L)).loc cc1_scratch3 ↦{fullShare} f) := rfl
theorem ptsX1 (f : Buf (Elt F) ((V d (cV L) (jV L)).loc cc1_scratch4)) : ((x1V).view.loc (V d (cV L) (jV L)) ↦{fullShare} f : sProp 𝕄) = ((V d (cV L) (jV L)).loc cc1_scratch4 ↦{fullShare} f) := rfl
theorem ptsG0 (f : Buf (Elt F) ((V d (cV L) (jV L)).loc cc1_scratch5)) : ((g0V).view.loc (V d (cV L) (jV L)) ↦{fullShare} f : sProp 𝕄) = ((V d (cV L) (jV L)).loc cc1_scratch5 ↦{fullShare} f) := rfl
theorem ptsG1 (f : Buf (Elt F) ((V d (cV L) (jV L)).loc cc1_scratch6)) : ((g1V).view.loc (V d (cV L) (jV L)) ↦{fullShare} f : sProp 𝕄) = ((V d (cV L) (jV L)).loc cc1_scratch6 ↦{fullShare} f) := rfl

/-! ## The chunks of the result -/

theorem chunkSet_eq (k : Fin 64) : chunkSet L k = (chunkR L k).set := by
  show ((View.whole (main_v10_scv : Ref sig .scVector)).slice (chunkR L k)).set = _
  rw [View.set_slice]; exact Finset.map_refl

/-- Different chunks of one tile are different chunks of the 2048. -/
theorem chunkNo_injective : Function.Injective (chunkNo L) := fun k k' e => Fin.ext (by
  have h := congrArg Fin.val e
  simp only [chunkNo] at h
  omega)

theorem geom_chunks_disjoint : ∀ k ∈ (Finset.univ : Finset (Fin 64)), ∀ k' ∈ (Finset.univ : Finset (Fin 64)), k ≠ k' → Disjoint (chunkSet L k) (chunkSet L k') :=
  fun k _ k' _ h => by rw [chunkSet_eq, chunkSet_eq]; exact Rect.part_disjoint hdivChunk fun e => h (chunkNo_injective L e)

/-- The tile's 64 chunks of the result, held chunk by chunk, are its region held as the complement of everything else. -/
theorem out_join (f : S16777216.Idx → Elt F .f32) :
    (bigSep Finset.univ fun k : Fin 64 => (loc10 d ↦[chunkSet L k]{fullShare} f : sProp 𝕄))
      = ((oV).view.loc (V d (cV L) (jV L)) ↦[Finset.univ \ Others L]{fullShare} f) := by
  rw [← pointsTo_biUnion Finset.univ (ℓ := loc10 d) (chunkSet L) (geom_chunks_disjoint L)]
  unfold Others
  rw [Finset.sdiff_sdiff_eq_self (Finset.subset_univ _)]

/-! ## The segment of the table -/

/-- The rectangle the kernel slices at offset 65536 · (L 1) is segment (L 1) of the sixteen. -/
theorem segRect_eq : Rect.unit (s := S1048576) (k1_off2 L) S65536.size (k1_off2_inb L) = segR (jL L) := by
  unfold segR Rect.part Rect.block
  congr 1 <;> funext a
  · rw [k1_off2_eq]
    match a with
    | ⟨0, _⟩ => simp [Shape.partIx, Shape.partSize]; exact Nat.mul_comm _ _
  · match a with
    | ⟨0, _⟩ => simp [Shape.partSize]

/-- The table segment the tile copies into, as the program slices it, is segment `jL L`. -/
theorem seg_spell :
    ((tabV).slice (Rect.unit (s := S1048576) (k1_off2 L) S65536.size (k1_off2_inb L)) (fun _ => rfl)).view.set = segSet (jL L) := by
  show ((tabV).view.slice (Rect.unit (s := S1048576) (k1_off2 L) S65536.size (k1_off2_inb L))).set = ((tabV).view.slice (segR (jL L))).set
  rw [segRect_eq]

/-- After the copy the segment holds the score table's entries. -/
theorem seg_copy_val (fsh : S1048576.Idx → Elt F .f32) :
    ∀ i ∈ segSet (jL L),
      View.write (Elt F) ((tabV).slice (Rect.unit (s := S1048576) (k1_off2 L) S65536.size (k1_off2_inb L)) (fun _ => rfl)).view fsh
        (ReadAs.same.apply (View.read (Elt F) ((scV).slice (Rect.unit (s := S1048576) (k1_off2 L) S65536.size (k1_off2_inb L)) (fun _ => rfl)).view f7)) Finset.univ i = f7 i := by
  intro i hi
  rw [← seg_spell] at hi
  obtain ⟨y, -, rfl⟩ := Finset.mem_map.mp hi
  rw [View.write_emb_of_mem _ _ (Finset.mem_univ y)]
  rfl

/-- A chunk of component numbers copied into an index buffer is in the table's range, whatever the buffer held. -/
theorem hinW0 (hidx : ∀ p, (f8 p : BitVec 32).toNat < 1048576) :
    ∀ (a : Buf (Elt F) ((V d (cV L) (jV L)).loc cc1_scratch1)) (off : Fin 1 → Nat) (h : ∀ a, off a + S8192.size a ≤ S16777216.size a) (x : S8192.Idx),
      ((i0V).view.read (Elt F) (View.write (Elt F) (i0V).view a (ReadAs.same.apply (View.read (Elt F) ((iV).slice (Rect.unit (s := S16777216) off S8192.size h) (fun _ => rfl)).view f8)) Finset.univ) x).toNat < 1048576 := by
  intro a off h x
  rw [View.read_write_univ]
  exact hidx _
theorem hinW1 (hidx : ∀ p, (f8 p : BitVec 32).toNat < 1048576) :
    ∀ (a : Buf (Elt F) ((V d (cV L) (jV L)).loc cc1_scratch2)) (off : Fin 1 → Nat) (h : ∀ a, off a + S8192.size a ≤ S16777216.size a) (x : S8192.Idx),
      ((i1V).view.read (Elt F) (View.write (Elt F) (i1V).view a (ReadAs.same.apply (View.read (Elt F) ((iV).slice (Rect.unit (s := S16777216) off S8192.size h) (fun _ => rfl)).view f8)) Finset.univ) x).toNat < 1048576 := by
  intro a off h x
  rw [View.read_write_univ]
  exact hidx _

abbrev segM : Memref sig .scVector .shared S65536 .f32 := (tabV).slice (Rect.unit (s := S1048576) (k1_off2 L) S65536.size (k1_off2_inb L)) (fun _ => rfl)
abbrev srcM : Memref sig .scVector .hbm S65536 .f32 := (scV).slice (Rect.unit (s := S1048576) (k1_off2 L) S65536.size (k1_off2_inb L)) (fun _ => rfl)

/-- Once its copy has landed, the tile's segment of the shared table holds the score table's entries. -/
theorem seg_done (fsh : Buf (Elt F) (shLoc d (cV L))) :
    ((segM L).view.loc (V d (cV L) (jV L)) ↦[(segM L).view.set]{fullShare}
        ((segM L).view.writes (Elt F) fsh [⟨Rect.whole (Rect.unit (s := S1048576) (k1_off2 L) S65536.size (k1_off2_inb L)).shape, ReadAs.same.apply (View.read (Elt F) (srcM L).view f7)⟩]) : sProp 𝕄)
      ⊢ (shLoc d (cV L) ↦[segSet (jL L)]{fullShare} f7) := by
  rw [seg_spell]
  refine Entails.of_eq (pointsTo_congr fun i hi => ?_)
  rw [← seg_spell] at hi
  obtain ⟨y, -, rfl⟩ := Finset.mem_map.mp hi
  rw [View.writes_singleton]
  have e : (segM L).view.emb y
      = ((segM L).view.slice (Rect.whole (Rect.unit (s := S1048576) (k1_off2 L) S65536.size (k1_off2_inb L)).shape)).emb y := by
    show _ = (segM L).view.emb ((Rect.whole _).emb y); rw [Rect.emb_whole_apply]
  rw [e, View.write_emb_of_mem _ _ (Finset.mem_univ y), ← e]
  rfl

/-! ## The windows the result is copied out through -/

/-- The window of 8192 pixels that the copy of trip `k`, slot `r`, writes is the tile's chunk 2 k + r. -/
theorem winRect_eq (k : Fin k1_t1_loop.trips) (r : Fin 2)
    (h : ∀ a, (k1_off4 L k (BitVec.ofNat 32 r.val)) a + S8192.size a ≤ S16777216.size a) (hk : 2 * k.val + r.val < 64) :
    Rect.unit (s := S16777216) (k1_off4 L k (BitVec.ofNat 32 r.val)) S8192.size h = chunkR L ⟨2 * k.val + r.val, hk⟩ := by
  unfold chunkR Rect.part Rect.block
  congr 1 <;> funext a
  · rw [k1_off4_eq]
    match a with
    | ⟨0, _⟩ => simp [Shape.partIx, Shape.partSize, chunkNo]; omega
  · match a with
    | ⟨0, _⟩ => simp [Shape.partSize]

/-- So it lies inside the tile's own region: it is disjoint from every pixel outside the tile's 64 chunks. -/
theorem win_disj (k : Fin k1_t1_loop.trips) (r : Fin 2)
    (h : ∀ a, (k1_off4 L k (BitVec.ofNat 32 r.val)) a + S8192.size a ≤ S16777216.size a) :
    Disjoint ((oV).slice (Rect.unit (s := S16777216) (k1_off4 L k (BitVec.ofNat 32 r.val)) S8192.size h) (fun _ => rfl)).view.set (Others L) := by
  have hk : 2 * k.val + r.val < 64 := by
    have h1 := k.isLt; have h2 := k1_t1_abs.2.1; have h3 := r.isLt; omega
  have e : ((oV).slice (Rect.unit (s := S16777216) (k1_off4 L k (BitVec.ofNat 32 r.val)) S8192.size h) (fun _ => rfl)).view.set
      = chunkSet L ⟨2 * k.val + r.val, hk⟩ := by
    show ((oV).view.slice (Rect.unit (s := S16777216) (k1_off4 L k (BitVec.ofNat 32 r.val)) S8192.size h)).set = ((oV).view.slice (chunkR L ⟨2 * k.val + r.val, hk⟩)).set
    rw [winRect_eq L k r h hk]
  rw [e]
  exact Finset.disjoint_of_subset_left (Finset.subset_biUnion_of_mem (chunkSet L) (Finset.mem_univ _)) Finset.disjoint_sdiff

/-- The window a result copy writes lies inside the tile's own region. -/
theorem win_disj0 : ∀ (k : Fin k1_t1_loop.trips) (h : ∀ a, (k1_off4 L k 0#32) a + S8192.size a ≤ S16777216.size a),
    Disjoint ((oV).slice (Rect.unit (s := S16777216) (k1_off4 L k 0#32) S8192.size h) (fun _ => rfl)).view.set (Others L) :=
  fun k h => win_disj L k ⟨0, by decide⟩ h
theorem win_disj1 : ∀ (k : Fin k1_t1_loop.trips) (h : ∀ a, (k1_off4 L k 1#32) a + S8192.size a ≤ S16777216.size a),
    Disjoint ((oV).slice (Rect.unit (s := S16777216) (k1_off4 L k 1#32) S8192.size h) (fun _ => rfl)).view.set (Others L) :=
  fun k h => win_disj L k ⟨1, by decide⟩ h

end Cert.Proof.KernelSc

end
-- ==== Proof.ScMulBits.lean ====
/-
  The two multiplication loops of the SparseCore kernel and what they leave.

  Each of the two loops walks a buffer of 8192 numbers (the entries gathered from the score table) in 512 pieces of
  sixteen: at trip j it reads entries 16 j … 16 j + 15 of the gathered buffer and of an input buffer, multiplies them
  entry by entry, and writes the sixteen products back over the gathered entries. A trip touches only its own sixteen
  entries, so before trip j the gathered buffer holds the products on its first 16 j entries and what it held at the
  start on the rest, and after the last trip it holds, at every entry, the product of what the two buffers held there.

  The last section reads the pieces the value is made of: a chunk copied from a flat array holds the array's entries from
  the chunk's offset on; a gather of single entries delivers, at entry j, the table's entry at the j-th word of the list;
  so a chunk's gathered entries times its inputs are, pixel by pixel, the score of the pixel's component times the
  pixel's input.
-/
import proofs.«215733_g63187558859118_cont_9to1_m_256_17_alg».proof.Proof.ScResBits
import Idealize.ShloMosaic.Lib.Tactic
import Idealize.ShloMosaic.Lib.Writes
import Idealize.ShloMosaic.Lib.SparseCore.Stream
import Idealize.ShloMosaic.Lib.Pipeline.Value

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## The product, entry by entry -/

/-- The two loops' payloads are one term: sixteen products, entry by entry (the casts between a shape and itself are
    the identity). -/
theorem k1_pay2_apply (a b : Vec F S16 .f32) (y : S16.Idx) : k1_pay2 a b y = FloatOps.mulf (a y) (b y) := by
  unfold k1_pay2
  rw [shapeCast_self, shapeCast_self, shapeCast_self]; rfl
theorem k1_pay1_apply (a b : Vec F S16 .f32) (y : S16.Idx) : k1_pay1 a b y = FloatOps.mulf (a y) (b y) := by
  unfold k1_pay1
  rw [shapeCast_self, shapeCast_self, shapeCast_self]; rfl

/-- Piece `j` of a buffer of 8192: its sixteen entries from 16 j on. -/
def piece16 (f : S8192.Idx → Elt F .f32) (j : Fin 512) : Vec F S16 .f32 :=
  fun y => f (ValueIdx.ix1 ⟨16 * j.val + (y 0).val, by
    have h : (y 0).val < 16 := (y 0).isLt
    have := j.isLt; omega⟩)

/-- What a loop leaves in the gathered buffer, as one function of the two buffers before it: entry `i` is entry
    `i % 16` of the loop's payload at pieces `i / 16` of the two buffers. -/
def prod16 (g x : S8192.Idx → Elt F .f32) : S8192.Idx → Elt F .f32 :=
  fun i => k1_pay2 (piece16 g ⟨(i 0).val / 16, by have h : (i 0).val < 8192 := (i 0).isLt; omega⟩)
    (piece16 x ⟨(i 0).val / 16, by have h : (i 0).val < 8192 := (i 0).isLt; omega⟩)
    (ValueIdx.ix1 ⟨(i 0).val % 16, Nat.mod_lt _ (by decide)⟩)

/-- Entry by entry it is the product. -/
theorem prod16_at (g x : S8192.Idx → Elt F .f32) (i : S8192.Idx) : prod16 g x i = FloatOps.mulf (g i) (x i) := by
  have e : ∀ h, (ValueIdx.ix1 (⟨16 * ((i 0).val / 16) + (i 0).val % 16, h⟩ : Fin 8192) : S8192.Idx) = i := fun h =>
    funext fun d => match d with | ⟨0, _⟩ => Fin.ext (Nat.div_add_mod _ 16)
  unfold prod16
  rw [k1_pay2_apply]
  unfold piece16
  exact congrArg₂ FloatOps.mulf (congrArg g (e _)) (congrArg x (e _))

theorem prod16_apply (g x : S8192.Idx → Elt F .f32) (j : Fin 8192) :
    prod16 g x (ValueIdx.ix1 j) = FloatOps.mulf (g (ValueIdx.ix1 j)) (x (ValueIdx.ix1 j)) := prod16_at g x _

/-- The gathered buffer before trip `n`: the product on its first 16 n entries, as it was on the rest. -/
def mulUpTo (g x : S8192.Idx → Elt F .f32) : ℕ → S8192.Idx → Elt F .f32
  | 0 => g
  | n + 1 => fun i => if (i 0).val < 16 * (n + 1) then prod16 g x i else g i

theorem mulUpTo_apply (g x : S8192.Idx → Elt F .f32) (n : ℕ) (i : S8192.Idx) :
    mulUpTo g x n i = if (i 0).val < 16 * n then prod16 g x i else g i := by
  cases n with
  | zero => exact (if_neg (by omega)).symm
  | succ n => rfl

/-- After 512 trips it is the product everywhere. -/
theorem mulUpTo_512 (g x : S8192.Idx → Elt F .f32) : mulUpTo g x 512 = prod16 g x :=
  funext fun i => by
    have h : (i 0).val < 8192 := (i 0).isLt
    rw [mulUpTo_apply, if_pos (by omega)]

/-- One trip, as a statement about functions: contents that read the sixteen products on piece `k` and the contents
    before trip `k` elsewhere are the contents before trip `k + 1`. -/
theorem mulUpTo_succ_of (g x : S8192.Idx → Elt F .f32) (k : ℕ) (off : Fin 1 → ℕ) (inb : ∀ a, off a + S16.size a ≤ S8192.size a)
    (hoff : off 0 = 16 * k) (G : S8192.Idx → Elt F .f32)
    (hin : ∀ y, G ((Rect.unit (s := S8192) off S16.size inb).emb y)
      = FloatOps.mulf (mulUpTo g x k ((Rect.unit (s := S8192) off S16.size inb).emb y)) (x ((Rect.unit (s := S8192) off S16.size inb).emb y)))
    (hout : ∀ i, i ∉ (Rect.unit (s := S8192) off S16.size inb).set → G i = mulUpTo g x k i) :
    G = mulUpTo g x (k + 1) := by
  funext i
  by_cases hi : i ∈ (Rect.unit (s := S8192) off S16.size inb).set
  · obtain ⟨y, rfl⟩ : ∃ y, (Rect.unit (s := S8192) off S16.size inb).emb y = i := (Rect.unit (s := S8192) off S16.size inb).exists_idx_of_mem hi
    have hy : (y 0).val < 16 := (y 0).isLt
    have hv : (((Rect.unit (s := S8192) off S16.size inb).emb y) 0).val = 16 * k + (y 0).val := by
      show off 0 + 1 * (y 0).val = _; omega
    rw [hin, mulUpTo_apply, mulUpTo_apply, if_neg (by omega), if_pos (by omega), prod16_at]
  · rw [hout i hi, mulUpTo_apply, mulUpTo_apply]
    have hn : ¬ (16 * k ≤ (i 0).val ∧ (i 0).val < 16 * k + 16) := fun h => hi (Rect.mem_set_unit.mpr fun a => by
      match a with
      | ⟨0, _⟩ => exact ⟨by show off 0 ≤ (i 0).val; omega, by show (i 0).val < off 0 + 16; omega⟩)
    by_cases h1 : (i 0).val < 16 * k
    · rw [if_pos h1, if_pos (by omega)]
    · rw [if_neg h1, if_neg (by omega)]

/-! ## The two loops -/

section LoopA

variable (d : Dev nD) (L : grid1.Coords) (q : PosShare TreeShare) (g x : S8192.Idx → Elt F .f32)

/-- Before trip `k` of the first loop: the first gathered buffer at the product on its first 16 k entries and as it was beyond, the first input buffer untouched. -/
def mulInvA (k : ℕ) (_ : Unit) : sProp 𝕄 :=
  iprop((((Memref.whole Cert.Kernel.cc1_scratch5 : Memref Cert.Kernel.sig Kind.scVector Space.vmem Cert.Kernel.S8192 EltTy.f32)).view.loc (V d (cV L) (jV L)) ↦{fullShare} mulUpTo g x k) ∗ (((Memref.whole Cert.Kernel.cc1_scratch3 : Memref Cert.Kernel.sig Kind.scVector Space.vmem Cert.Kernel.S8192 EltTy.f32)).view.loc (V d (cV L) (jV L)) ↦{q} x))

/-- What trip `k`'s store leaves is the contents before trip `k + 1`: the stored piece is the sixteen products (the
    trip read its own, still untouched, sixteen entries), and the store touches nothing else. -/
theorem mulUpTo_succA (k : Fin k1_t2_loop.trips) :
    ((Memref.whole Cert.Kernel.cc1_scratch5 : Memref Cert.Kernel.sig Kind.scVector Space.vmem Cert.Kernel.S8192 EltTy.f32)).view.writes (Elt F) (mulUpTo g x k.val)
      [⟨(Rect.unit (s := S8192) (k1_off3 k) S16.size (k1_off3_inb k)),
        (k1_pay2 (View.readAt (Elt F) ((Memref.whole Cert.Kernel.cc1_scratch5 : Memref Cert.Kernel.sig Kind.scVector Space.vmem Cert.Kernel.S8192 EltTy.f32)).view (Rect.unit (s := S8192) (k1_off3 k) S16.size (k1_off3_inb k)).toLoadRect (mulUpTo g x k.val))
          (View.readAt (Elt F) ((Memref.whole Cert.Kernel.cc1_scratch3 : Memref Cert.Kernel.sig Kind.scVector Space.vmem Cert.Kernel.S8192 EltTy.f32)).view (Rect.unit (s := S8192) (k1_off3 k) S16.size (k1_off3_inb k)).toLoadRect x))⟩]
      = mulUpTo g x (k.val + 1) :=
  mulUpTo_succ_of g x k.val (k1_off3 k) (k1_off3_inb k) (by rw [k1_off3_eq]; rfl) _
    (fun y => (View.read_writes_cons_emb ((Memref.whole Cert.Kernel.cc1_scratch5 : Memref Cert.Kernel.sig Kind.scVector Space.vmem Cert.Kernel.S8192 EltTy.f32)).view (mulUpTo g x k.val) (Rect.unit (s := S8192) (k1_off3 k) S16.size (k1_off3_inb k))
        (k1_pay2 (View.readAt (Elt F) ((Memref.whole Cert.Kernel.cc1_scratch5 : Memref Cert.Kernel.sig Kind.scVector Space.vmem Cert.Kernel.S8192 EltTy.f32)).view (Rect.unit (s := S8192) (k1_off3 k) S16.size (k1_off3_inb k)).toLoadRect (mulUpTo g x k.val))
          (View.readAt (Elt F) ((Memref.whole Cert.Kernel.cc1_scratch3 : Memref Cert.Kernel.sig Kind.scVector Space.vmem Cert.Kernel.S8192 EltTy.f32)).view (Rect.unit (s := S8192) (k1_off3 k) S16.size (k1_off3_inb k)).toLoadRect x)) [] y).trans (by rw [k1_pay2_apply]; rfl))
    (fun i hi => View.read_writes_apply_of_forall_not_mem ((Memref.whole Cert.Kernel.cc1_scratch5 : Memref Cert.Kernel.sig Kind.scVector Space.vmem Cert.Kernel.S8192 EltTy.f32)).view (mulUpTo g x k.val) i
        [⟨(Rect.unit (s := S8192) (k1_off3 k) S16.size (k1_off3_inb k)), (k1_pay2 (View.readAt (Elt F) ((Memref.whole Cert.Kernel.cc1_scratch5 : Memref Cert.Kernel.sig Kind.scVector Space.vmem Cert.Kernel.S8192 EltTy.f32)).view (Rect.unit (s := S8192) (k1_off3 k) S16.size (k1_off3_inb k)).toLoadRect (mulUpTo g x k.val))
          (View.readAt (Elt F) ((Memref.whole Cert.Kernel.cc1_scratch3 : Memref Cert.Kernel.sig Kind.scVector Space.vmem Cert.Kernel.S8192 EltTy.f32)).view (Rect.unit (s := S8192) (k1_off3 k) S16.size (k1_off3_inb k)).toLoadRect x))⟩]
        (fun p hp => by rw [List.mem_singleton.mp hp]; exact hi))

/-- One trip at a symbolic `k`: two loads of piece `k` of the gathered buffer, one of the input buffer, the store of
    their products over piece `k`. -/
theorem mulStepA (v2 c0 c1 : BitVec 32) (k1_t1 : Fin k1_t1_loop.trips) (k : Fin k1_t2_loop.trips) (acc : Unit) :
    mulInvA d L q g x k.val acc ⊢ wp (M := 𝕄) frame (wpE (defs₀ (F := F)) 𝒱₀ (V d (cV L) (jV L)) none) Set.univ
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1 k acc)
      (mulInvA d L q g x (k.val + 1)) := by
  unfold mulInvA
  iintro ⟨HG, HX⟩
  unfold k1_t2_body
  sl_exec
  sl_step
  rw [← mulUpTo_succA g x k]
  isplitl [HG]; · iexact HG
  iexact HX

set_option warn.classDefReducibility false in
/-- The loop's invariant: before trip `k` the gathered buffer at `mulUpTo g x k` (at trip 0: as it was), the input
    buffer at `x`; one trip takes it from `k` to `k + 1`. -/
@[sl_loop] def mulLoopA (v2 c0 c1 : BitVec 32) (k1_t1 : Fin k1_t1_loop.trips) :
    LoopInv (M := 𝕄) frame (wpE (defs₀ (F := F)) 𝒱₀ (V d (cV L) (jV L)) none) Set.univ k1_t2_loop.lb k1_t2_loop.ub k1_t2_loop.st k1_t2_ok ⟨⟩
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1) where
  inv := mulInvA d L q g x
  step := mulStepA d L q g x v2 c0 c1 k1_t1

/-- After the loop's last trip the gathered buffer holds the product everywhere. -/
theorem mulUpTo_tripsA : mulUpTo g x (Scf.trips k1_t2_loop.lb k1_t2_loop.ub k1_t2_loop.st) = prod16 g x := by
  rw [show Scf.trips k1_t2_loop.lb k1_t2_loop.ub k1_t2_loop.st = 512 by decide]; exact mulUpTo_512 g x

end LoopA

section LoopB

variable (d : Dev nD) (L : grid1.Coords) (q : PosShare TreeShare) (g x : S8192.Idx → Elt F .f32)

/-- Before trip `k` of the second loop: the second gathered buffer at the product on its first 16 k entries and as it was beyond, the second input buffer untouched. -/
def mulInvB (k : ℕ) (_ : Unit) : sProp 𝕄 :=
  iprop((((Memref.whole Cert.Kernel.cc1_scratch6 : Memref Cert.Kernel.sig Kind.scVector Space.vmem Cert.Kernel.S8192 EltTy.f32)).view.loc (V d (cV L) (jV L)) ↦{fullShare} mulUpTo g x k) ∗ (((Memref.whole Cert.Kernel.cc1_scratch4 : Memref Cert.Kernel.sig Kind.scVector Space.vmem Cert.Kernel.S8192 EltTy.f32)).view.loc (V d (cV L) (jV L)) ↦{q} x))

/-- What trip `k`'s store leaves is the contents before trip `k + 1`: the stored piece is the sixteen products (the
    trip read its own, still untouched, sixteen entries), and the store touches nothing else. -/
theorem mulUpTo_succB (k : Fin k1_t3_loop.trips) :
    ((Memref.whole Cert.Kernel.cc1_scratch6 : Memref Cert.Kernel.sig Kind.scVector Space.vmem Cert.Kernel.S8192 EltTy.f32)).view.writes (Elt F) (mulUpTo g x k.val)
      [⟨(Rect.unit (s := S8192) (k1_off6 k) S16.size (k1_off6_inb k)),
        (k1_pay1 (View.readAt (Elt F) ((Memref.whole Cert.Kernel.cc1_scratch6 : Memref Cert.Kernel.sig Kind.scVector Space.vmem Cert.Kernel.S8192 EltTy.f32)).view (Rect.unit (s := S8192) (k1_off6 k) S16.size (k1_off6_inb k)).toLoadRect (mulUpTo g x k.val))
          (View.readAt (Elt F) ((Memref.whole Cert.Kernel.cc1_scratch4 : Memref Cert.Kernel.sig Kind.scVector Space.vmem Cert.Kernel.S8192 EltTy.f32)).view (Rect.unit (s := S8192) (k1_off6 k) S16.size (k1_off6_inb k)).toLoadRect x))⟩]
      = mulUpTo g x (k.val + 1) :=
  mulUpTo_succ_of g x k.val (k1_off6 k) (k1_off6_inb k) (by rw [k1_off6_eq]; rfl) _
    (fun y => (View.read_writes_cons_emb ((Memref.whole Cert.Kernel.cc1_scratch6 : Memref Cert.Kernel.sig Kind.scVector Space.vmem Cert.Kernel.S8192 EltTy.f32)).view (mulUpTo g x k.val) (Rect.unit (s := S8192) (k1_off6 k) S16.size (k1_off6_inb k))
        (k1_pay1 (View.readAt (Elt F) ((Memref.whole Cert.Kernel.cc1_scratch6 : Memref Cert.Kernel.sig Kind.scVector Space.vmem Cert.Kernel.S8192 EltTy.f32)).view (Rect.unit (s := S8192) (k1_off6 k) S16.size (k1_off6_inb k)).toLoadRect (mulUpTo g x k.val))
          (View.readAt (Elt F) ((Memref.whole Cert.Kernel.cc1_scratch4 : Memref Cert.Kernel.sig Kind.scVector Space.vmem Cert.Kernel.S8192 EltTy.f32)).view (Rect.unit (s := S8192) (k1_off6 k) S16.size (k1_off6_inb k)).toLoadRect x)) [] y).trans (by rw [k1_pay1_apply]; rfl))
    (fun i hi => View.read_writes_apply_of_forall_not_mem ((Memref.whole Cert.Kernel.cc1_scratch6 : Memref Cert.Kernel.sig Kind.scVector Space.vmem Cert.Kernel.S8192 EltTy.f32)).view (mulUpTo g x k.val) i
        [⟨(Rect.unit (s := S8192) (k1_off6 k) S16.size (k1_off6_inb k)), (k1_pay1 (View.readAt (Elt F) ((Memref.whole Cert.Kernel.cc1_scratch6 : Memref Cert.Kernel.sig Kind.scVector Space.vmem Cert.Kernel.S8192 EltTy.f32)).view (Rect.unit (s := S8192) (k1_off6 k) S16.size (k1_off6_inb k)).toLoadRect (mulUpTo g x k.val))
          (View.readAt (Elt F) ((Memref.whole Cert.Kernel.cc1_scratch4 : Memref Cert.Kernel.sig Kind.scVector Space.vmem Cert.Kernel.S8192 EltTy.f32)).view (Rect.unit (s := S8192) (k1_off6 k) S16.size (k1_off6_inb k)).toLoadRect x))⟩]
        (fun p hp => by rw [List.mem_singleton.mp hp]; exact hi))

/-- One trip at a symbolic `k`: two loads of piece `k` of the gathered buffer, one of the input buffer, the store of
    their products over piece `k`. -/
theorem mulStepB  (k : Fin k1_t3_loop.trips) (acc : Unit) :
    mulInvB d L q g x k.val acc ⊢ wp (M := 𝕄) frame (wpE (defs₀ (F := F)) 𝒱₀ (V d (cV L) (jV L)) none) Set.univ
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 k acc)
      (mulInvB d L q g x (k.val + 1)) := by
  unfold mulInvB
  iintro ⟨HG, HX⟩
  unfold k1_t3_body
  sl_exec
  sl_step
  rw [← mulUpTo_succB g x k]
  isplitl [HG]; · iexact HG
  iexact HX

set_option warn.classDefReducibility false in
/-- The loop's invariant: before trip `k` the gathered buffer at `mulUpTo g x k` (at trip 0: as it was), the input
    buffer at `x`; one trip takes it from `k` to `k + 1`. -/
@[sl_loop] def mulLoopB  :
    LoopInv (M := 𝕄) frame (wpE (defs₀ (F := F)) 𝒱₀ (V d (cV L) (jV L)) none) Set.univ k1_t3_loop.lb k1_t3_loop.ub k1_t3_loop.st k1_t3_ok ⟨⟩
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0) where
  inv := mulInvB d L q g x
  step := mulStepB d L q g x

/-- After the loop's last trip the gathered buffer holds the product everywhere. -/
theorem mulUpTo_tripsB : mulUpTo g x (Scf.trips k1_t3_loop.lb k1_t3_loop.ub k1_t3_loop.st) = prod16 g x := by
  rw [show Scf.trips k1_t3_loop.lb k1_t3_loop.ub k1_t3_loop.st = 512 by decide]; exact mulUpTo_512 g x

end LoopB

/-! ## The same invariants for buffers held on their own element sets -/

section LoopAS

variable (d : Dev nD) (L : grid1.Coords) (q : PosShare TreeShare) (g x : S8192.Idx → Elt F .f32)

/-- The same invariant with each buffer held on its own element set (all of it): how a buffer is held once a copy into
    it has landed. -/
def mulInvAS (k : ℕ) (_ : Unit) : sProp 𝕄 :=
  iprop((((Memref.whole Cert.Kernel.cc1_scratch5 : Memref Cert.Kernel.sig Kind.scVector Space.vmem Cert.Kernel.S8192 EltTy.f32)).view.loc (V d (cV L) (jV L)) ↦[((Memref.whole Cert.Kernel.cc1_scratch5 : Memref Cert.Kernel.sig Kind.scVector Space.vmem Cert.Kernel.S8192 EltTy.f32)).view.set]{fullShare} mulUpTo g x k)
    ∗ (((Memref.whole Cert.Kernel.cc1_scratch3 : Memref Cert.Kernel.sig Kind.scVector Space.vmem Cert.Kernel.S8192 EltTy.f32)).view.loc (V d (cV L) (jV L)) ↦[((Memref.whole Cert.Kernel.cc1_scratch3 : Memref Cert.Kernel.sig Kind.scVector Space.vmem Cert.Kernel.S8192 EltTy.f32)).view.set]{q} x))

theorem mulStepAS (v2 c0 c1 : BitVec 32) (k1_t1 : Fin k1_t1_loop.trips) (k : Fin k1_t2_loop.trips) (acc : Unit) :
    mulInvAS d L q g x k.val acc ⊢ wp (M := 𝕄) frame (wpE (defs₀ (F := F)) 𝒱₀ (V d (cV L) (jV L)) none) Set.univ
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1 k acc)
      (mulInvAS d L q g x (k.val + 1)) := by
  unfold mulInvAS
  iintro ⟨HG, HX⟩
  unfold k1_t2_body
  sl_exec
  sl_step
  rw [← mulUpTo_succA g x k]
  isplitl [HG]; · iexact HG
  iexact HX

set_option warn.classDefReducibility false in
@[sl_loop] def mulLoopAS (v2 c0 c1 : BitVec 32) (k1_t1 : Fin k1_t1_loop.trips) :
    LoopInv (M := 𝕄) frame (wpE (defs₀ (F := F)) 𝒱₀ (V d (cV L) (jV L)) none) Set.univ k1_t2_loop.lb k1_t2_loop.ub k1_t2_loop.st k1_t2_ok ⟨⟩
      (k1_t2_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 v2 c0 c1 k1_t1) where
  inv := mulInvAS d L q g x
  step := mulStepAS d L q g x v2 c0 c1 k1_t1

end LoopAS

section LoopBS

variable (d : Dev nD) (L : grid1.Coords) (q : PosShare TreeShare) (g x : S8192.Idx → Elt F .f32)

/-- The same invariant with each buffer held on its own element set (all of it): how a buffer is held once a copy into
    it has landed. -/
def mulInvBS (k : ℕ) (_ : Unit) : sProp 𝕄 :=
  iprop((((Memref.whole Cert.Kernel.cc1_scratch6 : Memref Cert.Kernel.sig Kind.scVector Space.vmem Cert.Kernel.S8192 EltTy.f32)).view.loc (V d (cV L) (jV L)) ↦[((Memref.whole Cert.Kernel.cc1_scratch6 : Memref Cert.Kernel.sig Kind.scVector Space.vmem Cert.Kernel.S8192 EltTy.f32)).view.set]{fullShare} mulUpTo g x k)
    ∗ (((Memref.whole Cert.Kernel.cc1_scratch4 : Memref Cert.Kernel.sig Kind.scVector Space.vmem Cert.Kernel.S8192 EltTy.f32)).view.loc (V d (cV L) (jV L)) ↦[((Memref.whole Cert.Kernel.cc1_scratch4 : Memref Cert.Kernel.sig Kind.scVector Space.vmem Cert.Kernel.S8192 EltTy.f32)).view.set]{q} x))

theorem mulStepBS  (k : Fin k1_t3_loop.trips) (acc : Unit) :
    mulInvBS d L q g x k.val acc ⊢ wp (M := 𝕄) frame (wpE (defs₀ (F := F)) 𝒱₀ (V d (cV L) (jV L)) none) Set.univ
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 k acc)
      (mulInvBS d L q g x (k.val + 1)) := by
  unfold mulInvBS
  iintro ⟨HG, HX⟩
  unfold k1_t3_body
  sl_exec
  sl_step
  rw [← mulUpTo_succB g x k]
  isplitl [HG]; · iexact HG
  iexact HX

set_option warn.classDefReducibility false in
@[sl_loop] def mulLoopBS  :
    LoopInv (M := 𝕄) frame (wpE (defs₀ (F := F)) 𝒱₀ (V d (cV L) (jV L)) none) Set.univ k1_t3_loop.lb k1_t3_loop.ub k1_t3_loop.st k1_t3_ok ⟨⟩
      (k1_t3_body (F := F) L (Memref.whole main_v7_scv) (Memref.isWhole_whole _) (Memref.whole main_v9_scv) (Memref.isWhole_whole _) (Memref.whole main_v8_scv) (Memref.isWhole_whole _) (Memref.whole main_v10_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0) where
  inv := mulInvBS d L q g x
  step := mulStepBS d L q g x

end LoopBS

/-! ## Reading a chunk, a gathered entry, and the result at a pixel -/

section Reads

local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)

/-- Pixel `off + j` of the flat array of 16777216, for `j` inside a chunk of 8192 that starts at `off`. -/
abbrev pix (off : Fin 1 → ℕ) (h : ∀ a, off a + S8192.size a ≤ S16777216.size a) (j : Fin 8192) : S16777216.Idx :=
  ValueIdx.ix1 ⟨off 0 + j.val, by
    have h0 : off 0 + 8192 ≤ 16777216 := h 0
    have := j.isLt; omega⟩

/-- Entry `j` of a chunk of 8192 inputs copied from offset `off` of the flat input array is the array's entry `off + j`. -/
theorem read_chunk_f32 (off : Fin 1 → ℕ) (h : ∀ a, off a + S8192.size a ≤ S16777216.size a) (f : S16777216.Idx → Elt F .f32) (j : Fin 8192) :
    View.read (Elt F) ((xV).slice (Rect.unit (s := S16777216) off S8192.size h) (fun _ => rfl)).view f (ValueIdx.ix1 j) = f (pix off h j) :=
  congrArg f (funext fun a => match a with | ⟨0, _⟩ => Fin.ext (by show off 0 + 1 * j.val = off 0 + j.val; omega))

/-- The same for a chunk of component numbers. -/
theorem read_chunk_i32 (off : Fin 1 → ℕ) (h : ∀ a, off a + S8192.size a ≤ S16777216.size a) (f : S16777216.Idx → Elt F .i32) (j : Fin 8192) :
    View.read (Elt F) ((iV).slice (Rect.unit (s := S16777216) off S8192.size h) (fun _ => rfl)).view f (ValueIdx.ix1 j) = f (pix off h j) :=
  congrArg f (funext fun a => match a with | ⟨0, _⟩ => Fin.ext (by show off 0 + 1 * j.val = off 0 + j.val; omega))

/-- A copy between buffers of one shape and element type moves the values as they are. -/
theorem readAs_same (g : S8192.Idx → Elt F .f32) : (ReadAs.same : ReadAs (Elt F) S8192 .f32 S8192 .f32).apply g = g := rfl

/-- On a list of 8192 words, the word at row-major position `j` is the word at index `j`. -/
theorem rows_at (idx : S8192.Idx → Elt F .i32) (hn : S8192.numel = S8192.size gathers_S1048576_S8192.axis')
    (hin : ∀ x, (idx x : BitVec 32).toNat < S1048576.size gathers_S1048576_S8192.axis) (j : Fin 8192) :
    SparseCore.rows idx hn hin j = ⟨(idx (ValueIdx.ix1 j) : BitVec 32).toNat, hin _⟩ := by
  unfold SparseCore.rows
  have e : S8192.rowMajor.symm (Fin.cast hn.symm j) = ValueIdx.ix1 j :=
    (Equiv.symm_apply_eq _).mpr (Fin.ext (by rw [Shape.rowMajor_val_one]; rfl))
  exact Fin.ext (by show (idx _ : BitVec 32).toNat = _; rw [e])

/-- Entry `j` of what a gather of 8192 single entries delivers is the table's entry at the `j`-th word of the list. -/
theorem gather_at (tab : S1048576.Idx → Elt F .f32) (idx : S8192.Idx → Elt F .i32) (hn : S8192.numel = S8192.size gathers_S1048576_S8192.axis')
    (hin : ∀ x, (idx x : BitVec 32).toNat < S1048576.size gathers_S1048576_S8192.axis) (j : Fin 8192) :
    SparseCore.gatherPayload gathers_S1048576_S8192 tab (SparseCore.rows idx hn hin) (ValueIdx.ix1 j)
      = tab (ValueIdx.ix1 ⟨(idx (ValueIdx.ix1 j) : BitVec 32).toNat, hin _⟩) := by
  unfold SparseCore.gatherPayload
  refine congrArg tab (funext fun b => ?_)
  match b with
  | ⟨0, _⟩ =>
    show gathers_S1048576_S8192.idx (SparseCore.rows idx hn hin) (ValueIdx.ix1 j) gathers_S1048576_S8192.axis = _
    rw [Shape.Gathers.idx_axis]
    exact rows_at idx hn hin j

/-- The value at a pixel: a chunk's gathered entries (the table at the chunk's component numbers) times the chunk's
    inputs, entry by entry, is the result array's value at each pixel of the chunk. The words are those of the component
    numbers `f8` on the chunk, the inputs those of `f9`, and every word is in the table's range. -/
theorem chunk_val_of (f7 : S1048576.Idx → Elt F .f32) (f8 : S16777216.Idx → Elt F .i32) (f9 : S16777216.Idx → Elt F .f32)
    (off : Fin 1 → ℕ) (h : ∀ a, off a + S8192.size a ≤ S16777216.size a)
    (idx : S8192.Idx → Elt F .i32) (xs : S8192.Idx → Elt F .f32)
    (hidx : ∀ j : Fin 8192, idx (ValueIdx.ix1 j) = f8 (pix off h j)) (hxs : ∀ j : Fin 8192, xs (ValueIdx.ix1 j) = f9 (pix off h j))
    (hn : S8192.numel = S8192.size gathers_S1048576_S8192.axis')
    (hin : ∀ x, (idx x : BitVec 32).toNat < S1048576.size gathers_S1048576_S8192.axis) (j : Fin 8192) :
    prod16 (SparseCore.gatherPayload gathers_S1048576_S8192 f7 (SparseCore.rows idx hn hin)) xs (ValueIdx.ix1 j)
      = outV f7 f8 f9 (pix off h j) := by
  rw [prod16_apply, gather_at, hxs]
  unfold outV
  have hlt : (f8 (pix off h j) : BitVec 32).toNat < 1048576 := by rw [← hidx]; exact hin _
  refine congrArg (fun t => FloatOps.mulf (f7 t) (f9 (pix off h j))) (congrArg ValueIdx.ix1 (Fin.ext ?_))
  show (idx (ValueIdx.ix1 j) : BitVec 32).toNat = (f8 (pix off h j) : BitVec 32).toNat % 1048576
  rw [Nat.mod_eq_of_lt hlt, hidx]

/-- The same with the chunk's words and inputs spelt as the kernel's copies deliver them: the slices of the two flat
    arrays at the chunk's offset, moved as they are. -/
theorem chunk_val (f7 : S1048576.Idx → Elt F .f32) (f8 : S16777216.Idx → Elt F .i32) (f9 : S16777216.Idx → Elt F .f32)
    (off : Fin 1 → ℕ) (h : ∀ a, off a + S8192.size a ≤ S16777216.size a)
    (hn : S8192.numel = S8192.size gathers_S1048576_S8192.axis')
    (hin : ∀ x, ((ReadAs.same.apply (View.read (Elt F) ((iV).slice (Rect.unit (s := S16777216) off S8192.size h) (fun _ => rfl)).view f8) : S8192.Idx → Elt F .i32) x : BitVec 32).toNat
      < S1048576.size gathers_S1048576_S8192.axis) (j : Fin 8192) :
    prod16 (SparseCore.gatherPayload gathers_S1048576_S8192 f7
        (SparseCore.rows (ReadAs.same.apply (View.read (Elt F) ((iV).slice (Rect.unit (s := S16777216) off S8192.size h) (fun _ => rfl)).view f8)) hn hin))
      (ReadAs.same.apply (View.read (Elt F) ((xV).slice (Rect.unit (s := S16777216) off S8192.size h) (fun _ => rfl)).view f9)) (ValueIdx.ix1 j)
      = outV f7 f8 f9 (pix off h j) :=
  chunk_val_of f7 f8 f9 off h _ _ (fun j => read_chunk_i32 off h f8 j) (fun j => read_chunk_f32 off h f9 j) hn hin j

end Reads

end Cert.Proof.KernelSc

end
-- ==== Proof.ScTileInvBits.lean ====
/-
  The loop over pairs of chunks of a tile, stated: what the tile holds before trip t (chunks 2t and 2t+1).
  Chunk 2t's component numbers and inputs have landed in the first pair of buffers and its gather from the shared table
  is under way; chunk 2t+1's two copies are under way into the second pair; from the second trip on, the copy of chunk
  2t-1's products out of the second gathered buffer is under way, and every earlier chunk of the result is written.
  The trip's four conditions (is a result copy pending, is there a chunk after the next, for either half) are decided over
  the 32 trips, and the offsets the kernel computes for the copies it issues are the chunks' first pixels.
-/
import proofs.«215733_g63187558859118_cont_9to1_m_256_17_alg».proof.Proof.ScTileGeomBits
import proofs.«215733_g63187558859118_cont_9to1_m_256_17_alg».proof.Proof.ScMulBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)
variable (f7 : S1048576.Idx → Elt F .f32) (f8 : S16777216.Idx → Elt F .i32) (f9 f10 : S16777216.Idx → Elt F .f32)

/-! ## The outer loop's invariant -/

local notation "thrV" => (V d (cV L) (jV L))

abbrev iSl (off : Fin 1 → Nat) (h : ∀ a, off a + S8192.size a ≤ S16777216.size a) : Memref sig .scVector .hbm S8192 .i32 :=
  (iV).slice (Rect.unit (s := S16777216) off S8192.size h) (fun _ => rfl)
abbrev xSl (off : Fin 1 → Nat) (h : ∀ a, off a + S8192.size a ≤ S16777216.size a) : Memref sig .scVector .hbm S8192 .f32 :=
  (xV).slice (Rect.unit (s := S16777216) off S8192.size h) (fun _ => rfl)
abbrev oSl (off : Fin 1 → Nat) (h : ∀ a, off a + S8192.size a ≤ S16777216.size a) : Memref sig .scVector .hbm S8192 .f32 :=
  (oV).slice (Rect.unit (s := S16777216) off S8192.size h) (fun _ => rfl)
abbrev tabW : Memref sig .scVector .shared S1048576 .f32 :=
  (tabV).slice (Rect.unit (s := S1048576) ![0] S1048576.size inb_S1048576_S1048576_0) (fun _ => rfl)

abbrev dI0 : DmaSem sig := ⟨5, by decide⟩
abbrev dI1 : DmaSem sig := ⟨6, by decide⟩
abbrev dX0 : DmaSem sig := ⟨7, by decide⟩
abbrev dX1 : DmaSem sig := ⟨8, by decide⟩
abbrev dG0 : DmaSem sig := ⟨9, by decide⟩
abbrev dG1 : DmaSem sig := ⟨10, by decide⟩
abbrev dO0 : DmaSem sig := ⟨11, by decide⟩
abbrev dO1 : DmaSem sig := ⟨12, by decide⟩

/-- The first pixel of chunk `k` of the tile. -/
def offC (k : ℕ) : Fin 1 → Nat := ![1048576 * (L 1).val + 524288 * (L 0).val + 8192 * k]

/-- A chunk of component numbers / of inputs, as a copy reads it off the flat array. -/
abbrev cI (off : Fin 1 → Nat) (h : ∀ a, off a + S8192.size a ≤ S16777216.size a) : S8192.Idx → Elt F .i32 :=
  ReadAs.same.apply (View.read (Elt F) (iSl off h).view f8)
abbrev cX (off : Fin 1 → Nat) (h : ∀ a, off a + S8192.size a ≤ S16777216.size a) : S8192.Idx → Elt F .f32 :=
  ReadAs.same.apply (View.read (Elt F) (xSl off h).view f9)

/-- A copy of a chunk of component numbers into the first (second) index buffer, under way: it delivers the buffer
    holding the chunk and gives the chunk's read share back. -/
abbrev inI0 (a : Buf (Elt F) ((V d (cV L) (jV L)).loc cc1_scratch1)) (off : Fin 1 → Nat) (h : ∀ a, off a + S8192.size a ≤ S16777216.size a) : sProp 𝕄 :=
  Transfers.Flight countersEmb thrV (SemLoc.dma dI0) (default : HIx 1) 262144
    iprop(((i0V).view.loc thrV ↦{fullShare} View.write (Elt F) (i0V).view a (cI f8 off h) Finset.univ)
      ∗ ((iV).view.loc thrV ↦[(iSl off h).view.set]{tok L} f8))
abbrev inI1 (a : Buf (Elt F) ((V d (cV L) (jV L)).loc cc1_scratch2)) (off : Fin 1 → Nat) (h : ∀ a, off a + S8192.size a ≤ S16777216.size a) : sProp 𝕄 :=
  Transfers.Flight countersEmb thrV (SemLoc.dma dI1) (default : HIx 1) 262144
    iprop(((i1V).view.loc thrV ↦{fullShare} View.write (Elt F) (i1V).view a (cI f8 off h) Finset.univ)
      ∗ ((iV).view.loc thrV ↦[(iSl off h).view.set]{tok L} f8))
abbrev inX0 (a : Buf (Elt F) ((V d (cV L) (jV L)).loc cc1_scratch3)) (off : Fin 1 → Nat) (h : ∀ a, off a + S8192.size a ≤ S16777216.size a) : sProp 𝕄 :=
  Transfers.Flight countersEmb thrV (SemLoc.dma dX0) (default : HIx 1) 262144
    iprop(((x0V).view.loc thrV ↦{fullShare} View.write (Elt F) (x0V).view a (cX f9 off h) Finset.univ)
      ∗ ((xV).view.loc thrV ↦[(xSl off h).view.set]{tok L} f9))
abbrev inX1 (a : Buf (Elt F) ((V d (cV L) (jV L)).loc cc1_scratch4)) (off : Fin 1 → Nat) (h : ∀ a, off a + S8192.size a ≤ S16777216.size a) : sProp 𝕄 :=
  Transfers.Flight countersEmb thrV (SemLoc.dma dX1) (default : HIx 1) 262144
    iprop(((x1V).view.loc thrV ↦{fullShare} View.write (Elt F) (x1V).view a (cX f9 off h) Finset.univ)
      ∗ ((xV).view.loc thrV ↦[(xSl off h).view.set]{tok L} f9))

/-- The gather of a chunk under way on the first (second) pair of buffers: it delivers the gathered buffer written
    with the table's entries at the chunk's component numbers, the index buffer, and the table's read share. -/
abbrev gath0 (a : Buf (Elt F) ((V d (cV L) (jV L)).loc cc1_scratch5)) (ci : Buf (Elt F) ((V d (cV L) (jV L)).loc cc1_scratch1))
    (hci : ∀ x, ((i0V).view.read (Elt F) ci x).toNat < 1048576) : sProp 𝕄 :=
  Transfers.Flight countersEmb thrV (SemLoc.dma dG0) (default : HIx 1) 262144
    iprop((((g0V).view.loc thrV ↦{fullShare} (g0V).view.writes (Elt F) a
              [⟨Rect.whole cc1_scratch5.ty.shape, SparseCore.gatherPayload gathers_S1048576_S8192 (View.read (Elt F) (tabW).view f7)
                  (SparseCore.rows (View.read (Elt F) (i0V).view ci) rfl hci)⟩])
          ∗ ((i0V).view.loc thrV ↦{fullShare} ci))
      ∗ ((tabV).view.loc thrV ↦[(tabW).view.set]{tok16 (jL L)} f7))
abbrev gath1 (a : Buf (Elt F) ((V d (cV L) (jV L)).loc cc1_scratch6)) (ci : Buf (Elt F) ((V d (cV L) (jV L)).loc cc1_scratch2))
    (hci : ∀ x, ((i1V).view.read (Elt F) ci x).toNat < 1048576) : sProp 𝕄 :=
  Transfers.Flight countersEmb thrV (SemLoc.dma dG1) (default : HIx 1) 262144
    iprop((((g1V).view.loc thrV ↦{fullShare} (g1V).view.writes (Elt F) a
              [⟨Rect.whole cc1_scratch6.ty.shape, SparseCore.gatherPayload gathers_S1048576_S8192 (View.read (Elt F) (tabW).view f7)
                  (SparseCore.rows (View.read (Elt F) (i1V).view ci) rfl hci)⟩])
          ∗ ((i1V).view.loc thrV ↦{fullShare} ci))
      ∗ ((tabV).view.loc thrV ↦[(tabW).view.set]{tok16 (jL L)} f7))

variable (O : CellTallies nD τ sig (HIx 1)) (W : Waits sig (HIx 1))

/-- Before trip `t` < 32 (chunks 2t and 2t+1), the part about the inputs and the gathers: chunk 2t+1's two copies
    are under way into the second pair of buffers; chunk 2t's inputs have landed in the first pair and its gather is
    under way. The offsets are carried as the copies were issued (they equal the chunks' first pixels). -/
def InvA (t : ℕ) : sProp 𝕄 :=
  iprop(∃ (off0 : Fin 1 → Nat) (h0 : ∀ a, off0 a + S8192.size a ≤ S16777216.size a) (off1 : Fin 1 → Nat) (h1 : ∀ a, off1 a + S8192.size a ≤ S16777216.size a)
      (a1 : Buf (Elt F) ((V d (cV L) (jV L)).loc cc1_scratch1)) (a2 : Buf (Elt F) ((V d (cV L) (jV L)).loc cc1_scratch2))
      (a3 : Buf (Elt F) ((V d (cV L) (jV L)).loc cc1_scratch3)) (a4 : Buf (Elt F) ((V d (cV L) (jV L)).loc cc1_scratch4))
      (a5 : Buf (Elt F) ((V d (cV L) (jV L)).loc cc1_scratch5)) (W' : Waits sig (HIx 1))
      (hc : ∀ x, ((i0V).view.read (Elt F) (View.write (Elt F) (i0V).view a1 (cI f8 off0 h0) Finset.univ) x).toNat < 1048576),
    ⌜off0 = offC L (2 * t) ∧ off1 = offC L (2 * t + 1) ∧ ∀ p ∈ W', p ∈ W ∨ p.2 = none ∨ p.2 = some (0 : Fin 1)⌝
    ∗ owes thrV O W' ∗ Transfers.MayWaits thrV (default : HIx 1) O
    ∗ inI1 d L f8 a2 off1 h1 ∗ inX1 d L f9 a4 off1 h1
    ∗ ((iV).view.loc thrV ↦[Finset.univ \ (iSl off1 h1).view.set]{tok L} f8)
    ∗ ((xV).view.loc thrV ↦[Finset.univ \ (xSl off1 h1).view.set]{tok L} f9)
    ∗ semVal (thrV, SemLoc.dma dI0) 0 ∗ semVal (thrV, SemLoc.dma dX0) 0
    ∗ ((x0V).view.loc thrV ↦{fullShare} View.write (Elt F) (x0V).view a3 (cX f9 off0 h0) Finset.univ)
    ∗ gath0 d L f7 a5 (View.write (Elt F) (i0V).view a1 (cI f8 off0 h0) Finset.univ) hc
    ∗ ((tabV).view.loc thrV ↦[Finset.univ \ (tabW).view.set]{tok16 (jL L)} f7)
    ∗ semVal (thrV, SemLoc.dma dG1) 0 ∗ semVal (thrV, SemLoc.dma dO0) 0)

/-- Before trip 0, the part about the result: nothing written yet, the second gathered buffer free. -/
def OutB0 : sProp 𝕄 :=
  iprop(∃ (a6 : Buf (Elt F) ((V d (cV L) (jV L)).loc cc1_scratch6)),
    ((oV).view.loc thrV ↦[Finset.univ \ Others L]{fullShare} f10) ∗ ((g1V).view.loc thrV ↦{fullShare} a6) ∗ semVal (thrV, SemLoc.dma dO1) 0)

/-- The result array holds component-score × input on the tile's first `n` chunks. -/
def ValF (n : ℕ) (fo : S16777216.Idx → Elt F .f32) : Prop :=
  ∀ p : S16777216.Idx, offC L 0 0 ≤ (p 0).val → (p 0).val < offC L 0 0 + 8192 * n → fo p = outV f7 f8 f9 p

/-- A result copy under way from the first (second) gathered buffer into a chunk of the result array. -/
abbrev outF0 (fo : S16777216.Idx → Elt F .f32) (cg : Buf (Elt F) ((V d (cV L) (jV L)).loc cc1_scratch5))
    (off : Fin 1 → Nat) (h : ∀ a, off a + S8192.size a ≤ S16777216.size a) : sProp 𝕄 :=
  Transfers.Flight countersEmb thrV (SemLoc.dma dO0) (default : HIx 1) 262144
    iprop(((oV).view.loc thrV ↦[(oSl off h).view.set]{fullShare} fo) ∗ ((g0V).view.loc thrV ↦[(g0V).view.set]{fullShare} cg))
abbrev outF1 (fo : S16777216.Idx → Elt F .f32) (cg : Buf (Elt F) ((V d (cV L) (jV L)).loc cc1_scratch6))
    (off : Fin 1 → Nat) (h : ∀ a, off a + S8192.size a ≤ S16777216.size a) : sProp 𝕄 :=
  Transfers.Flight countersEmb thrV (SemLoc.dma dO1) (default : HIx 1) 262144
    iprop(((oV).view.loc thrV ↦[(oSl off h).view.set]{fullShare} fo) ∗ ((g1V).view.loc thrV ↦[(g1V).view.set]{fullShare} cg))

/-- Before trip `t` ≥ 1, the part about the result: chunk 2t-1's copy out of the second gathered buffer, issued by the
    trip before, is under way. -/
def OutB1 (t : ℕ) : sProp 𝕄 :=
  iprop(∃ (fo : S16777216.Idx → Elt F .f32) (cg : Buf (Elt F) ((V d (cV L) (jV L)).loc cc1_scratch6)) (k' : Fin k1_t1_loop.trips),
    ⌜k'.val + 1 = t ∧ ValF L f7 f8 f9 (2 * t) fo⌝
    ∗ outF1 d L fo cg (k1_off4 L k' 1#32) (k1_off4_inb L k' 1)
    ∗ ((g1V).view.loc thrV ↦[Finset.univ \ (g1V).view.set]{fullShare} cg)
    ∗ ((oV).view.loc thrV ↦[(Finset.univ \ Others L) \ (oSl (k1_off4 L k' 1#32) (k1_off4_inb L k' 1)).view.set]{fullShare} fo))

/-- After the last trip: every input copy and gather is done, the index and input buffers are at rest, and the last two
    chunks' result copies (issued by trip `k` = 31) are under way, one out of each gathered buffer; the second was
    issued after the first, so the result array's contents are the first copy's with the second chunk written. -/
def InvX : sProp 𝕄 :=
  iprop(∃ (fo : S16777216.Idx → Elt F .f32) (w1 : S8192.Idx → Elt F .f32)
      (cg0 : Buf (Elt F) ((V d (cV L) (jV L)).loc cc1_scratch5)) (cg1 : Buf (Elt F) ((V d (cV L) (jV L)).loc cc1_scratch6))
      (c1 : Buf (Elt F) ((V d (cV L) (jV L)).loc cc1_scratch1)) (c2 : Buf (Elt F) ((V d (cV L) (jV L)).loc cc1_scratch2))
      (c3 : Buf (Elt F) ((V d (cV L) (jV L)).loc cc1_scratch3)) (c4 : Buf (Elt F) ((V d (cV L) (jV L)).loc cc1_scratch4))
      (W' : Waits sig (HIx 1)) (k : Fin k1_t1_loop.trips),
    ⌜k.val = 31 ∧ ValF L f7 f8 f9 64 (View.write (Elt F) (oSl (k1_off4 L k 1#32) (k1_off4_inb L k 1)).view fo w1 Finset.univ)
        ∧ ∀ p ∈ W', p ∈ W ∨ p.2 = none ∨ p.2 = some (0 : Fin 1)⌝
    ∗ owes thrV O W' ∗ Transfers.MayWaits thrV (default : HIx 1) O
    ∗ ((iV).view.loc thrV ↦{tok L} f8) ∗ ((xV).view.loc thrV ↦{tok L} f9)
    ∗ semVal (thrV, SemLoc.dma dI0) 0 ∗ semVal (thrV, SemLoc.dma dX0) 0 ∗ semVal (thrV, SemLoc.dma dI1) 0 ∗ semVal (thrV, SemLoc.dma dX1) 0
    ∗ semVal (thrV, SemLoc.dma dG0) 0 ∗ semVal (thrV, SemLoc.dma dG1) 0
    ∗ ((i0V).view.loc thrV ↦{fullShare} c1) ∗ ((i1V).view.loc thrV ↦{fullShare} c2)
    ∗ ((x0V).view.loc thrV ↦{fullShare} c3) ∗ ((x1V).view.loc thrV ↦{fullShare} c4)
    ∗ ((tabV).view.loc thrV ↦{tok16 (jL L)} f7)
    ∗ outF0 d L fo cg0 (k1_off4 L k 0#32) (k1_off4_inb L k 0)
    ∗ ((g0V).view.loc thrV ↦[Finset.univ \ (g0V).view.set]{fullShare} cg0)
    ∗ outF1 d L (View.write (Elt F) (oSl (k1_off4 L k 1#32) (k1_off4_inb L k 1)).view fo w1 Finset.univ) cg1 (k1_off4 L k 1#32) (k1_off4_inb L k 1)
    ∗ ((g1V).view.loc thrV ↦[Finset.univ \ (g1V).view.set]{fullShare} cg1)
    ∗ ((oV).view.loc thrV ↦[((Finset.univ \ Others L) \ (oSl (k1_off4 L k 0#32) (k1_off4_inb L k 0)).view.set) \ (oSl (k1_off4 L k 1#32) (k1_off4_inb L k 1)).view.set]{fullShare}
          View.write (Elt F) (oSl (k1_off4 L k 1#32) (k1_off4_inb L k 1)).view fo w1 Finset.univ))

/-- The invariant of the loop over pairs of chunks, before trip `t` (after the loop at `t` = 32). -/
def Inv (t : ℕ) : sProp 𝕄 :=
  if t < 32 then iprop(InvA d L f7 f8 f9 O W t ∗ (if t = 0 then OutB0 d L f10 else OutB1 d L f7 f8 f9 t)) else InvX d L f7 f8 f9 O W

/-! ## The trip's conditions, decided over the 32 trips -/

/-- "A result copy of the previous chunk is pending" (chunk number 2k ≥ 1) holds from the second trip on. -/
theorem c93 : ∀ k : Fin k1_t1_loop.trips,
    (Scalar.cmpi .ne (Scalar.extui (Scalar.cmpi .sge (Scalar.addi (Scalar.muli 2#32 (Scf.iv 0#32 1#32 k)) 0#32) 1#32)) 0#32 = 1#1) ↔ 1 ≤ k.val := by
  decide +kernel
/-- "There is a chunk after the next" (2k + 2 < 64) holds up to the last trip but one. -/
theorem c3 : ∀ k : Fin k1_t1_loop.trips, (k1_cond3 k = 1#1) ↔ k.val ≤ 30 := by decide +kernel
theorem c6 : ∀ k : Fin k1_t1_loop.trips, (k1_cond6 k = 1#1) ↔ k.val ≤ 30 := by decide +kernel
theorem c71 : ∀ k : Fin k1_t1_loop.trips,
    (Scalar.cmpi .ne (Scalar.extui (Scalar.cmpi .slt (Scalar.addi (Scalar.addi (Scalar.muli 2#32 (Scf.iv 0#32 1#32 k)) 1#32) 1#32) 64#32)) 0#32 = 1#1) ↔ k.val ≤ 30 := by
  decide +kernel

/-- The word the kernel computes for the tile's first pixel (worker number times pixels per worker). -/
abbrev baseW : BitVec 32 := Scalar.muli (Scalar.addi (Scalar.muli (BitVec.ofNat 32 (L 1).val) 2#32) (BitVec.ofNat 32 (L 0).val)) 524288#32

abbrev tripProg (k : Fin k1_t1_loop.trips) : Prog (TpuEff nD τ sig (Elt F) Λ₀ (.scVector ((L 0).castLE hcore1) ((L 1).castLE hsub1))) Unit :=
  k1_t1_body L scV (Memref.isWhole_whole _) xV (Memref.isWhole_whole _) iV (Memref.isWhole_whole _) oV (Memref.isWhole_whole _)
    tabV (Memref.isWhole_whole _) i0V (Memref.isWhole_whole _) i1V (Memref.isWhole_whole _) x0V (Memref.isWhole_whole _) x1V (Memref.isWhole_whole _)
    g0V (Memref.isWhole_whole _) g1V (Memref.isWhole_whole _) cc1_scratch7 cc1_scratch8 cc1_scratch9 cc1_scratch10 cc1_scoped0 (baseW L) k ()

theorem off5_eq (k : Fin k1_t1_loop.trips) : k1_off5 L k = offC L (2 * (k.val + 1)) := by
  rw [k1_off5_eq]; unfold offC
  rw [show 1048576 * (L 1).val + 524288 * (L 0).val + 16384 * k.val + 16384 = 1048576 * (L 1).val + 524288 * (L 0).val + 8192 * (2 * (k.val + 1)) from by omega]
theorem off7_eq (k : Fin k1_t1_loop.trips) : k1_off7 L k = offC L (2 * (k.val + 1) + 1) := by
  rw [k1_off7_eq]; unfold offC
  rw [show 1048576 * (L 1).val + 524288 * (L 0).val + 16384 * k.val + 24576 = 1048576 * (L 1).val + 524288 * (L 0).val + 8192 * (2 * (k.val + 1) + 1) from by omega]
theorem off41_eq (k : Fin k1_t1_loop.trips) : k1_off4 L k 1#32 = offC L (2 * (k.val + 1) - 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * (k.val + 1) - 1) from by simp; omega]

end Cert.Proof.KernelSc

end
-- ==== Proof.ScTileValBits.lean ====
/-
  What the result array holds, chunk after chunk.

  A tile writes its 64 chunks of the result in order, two per trip. Each chunk written is, pixel by pixel, the score of
  the pixel's component times the pixel's input: the chunk's gathered entries are the score table at the chunk's
  component numbers, the multiplication loop leaves their products with the chunk's inputs, and the copy out moves them
  as they are. A write through a chunk's window changes that chunk only, so after n chunks the array holds the result on
  the tile's first n chunks; after 64 it holds it on all of the tile's region.
-/
import proofs.«215733_g63187558859118_cont_9to1_m_256_17_alg».proof.Proof.ScTileInvBits
import Idealize.ShloMosaic.Lib.Writes

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)
variable (f7 : S1048576.Idx → Elt F .f32) (f8 : S16777216.Idx → Elt F .i32) (f9 f10 : S16777216.Idx → Elt F .f32)

/-! ## One chunk written: the window's pixels change, the others stay -/

/-- Inside the chunk at `off`: pixel `off + j` of the array after a whole write of `w` through the chunk's window is
    `w`'s entry `j`. -/
theorem write_chunk_in (off : Fin 1 → ℕ) (h : ∀ a, off a + S8192.size a ≤ S16777216.size a) (f : S16777216.Idx → Elt F .f32) (w : S8192.Idx → Elt F .f32) (j : Fin 8192) :
    View.write (Elt F) (oSl off h).view f w Finset.univ (pix off h j) = w (ValueIdx.ix1 j) := by
  have e : pix off h j = (oSl off h).view.emb (ValueIdx.ix1 j) :=
    funext fun a => match a with | ⟨0, _⟩ => Fin.ext (by show off 0 + j.val = off 0 + 1 * j.val; omega)
  rw [e, View.write_emb_of_mem _ _ (Finset.mem_univ _)]; rfl

/-- Outside it the array is unchanged. -/
theorem write_chunk_out (off : Fin 1 → ℕ) (h : ∀ a, off a + S8192.size a ≤ S16777216.size a) (f : S16777216.Idx → Elt F .f32) (w : S8192.Idx → Elt F .f32)
    (p : S16777216.Idx) (hp : ¬ (off 0 ≤ (p 0).val ∧ (p 0).val < off 0 + 8192)) :
    View.write (Elt F) (oSl off h).view f w Finset.univ p = f p := by
  refine View.write_of_not_mem _ _ _ ?_
  rw [View.setOn_univ]
  show p ∉ ((View.whole (main_v10_scv : Ref sig .scVector)).slice (Rect.unit (s := S16777216) off S8192.size h)).set
  rw [View.set_slice_whole]
  intro hm
  rw [Rect.mem_set_unit] at hm
  exact hp ⟨(hm 0).1, (hm 0).2⟩

/-- A pixel inside the chunk at `off` is `off + j` for its position `j` in the chunk. -/
theorem pix_of_mem (off : Fin 1 → ℕ) (h : ∀ a, off a + S8192.size a ≤ S16777216.size a) (p : S16777216.Idx)
    (hp : off 0 ≤ (p 0).val ∧ (p 0).val < off 0 + 8192) : p = pix off h ⟨(p 0).val - off 0, by omega⟩ :=
  funext fun a => match a with | ⟨0, _⟩ => Fin.ext (by show (p 0).val = off 0 + ((p 0).val - off 0); omega)

/-- The array after one chunk is written: the written values on the chunk, as it was elsewhere. -/
theorem write_chunk (off : Fin 1 → ℕ) (h : ∀ a, off a + S8192.size a ≤ S16777216.size a) (f G : S16777216.Idx → Elt F .f32) (w : S8192.Idx → Elt F .f32)
    (hw : ∀ j : Fin 8192, w (ValueIdx.ix1 j) = G (pix off h j)) (p : S16777216.Idx) :
    View.write (Elt F) (oSl off h).view f w Finset.univ p
      = if off 0 ≤ (p 0).val ∧ (p 0).val < off 0 + 8192 then G p else f p := by
  by_cases hp : off 0 ≤ (p 0).val ∧ (p 0).val < off 0 + 8192
  · rw [if_pos hp]
    conv_lhs => rw [pix_of_mem off h p hp]
    rw [write_chunk_in, hw, ← pix_of_mem off h p hp]
  · rw [if_neg hp, write_chunk_out off h f w p hp]

/-! ## The result on the tile's first n chunks -/

theorem offC_zero (n : ℕ) : offC L n 0 = offC L 0 0 + 8192 * n := by
  show 1048576 * (L 1).val + 524288 * (L 0).val + 8192 * n = 1048576 * (L 1).val + 524288 * (L 0).val + 8192 * 0 + 8192 * n
  omega

/-- Before any chunk is written there is nothing to say. -/
theorem valF_zero (fo : S16777216.Idx → Elt F .f32) : ValF L f7 f8 f9 0 fo :=
  fun p h1 h2 => absurd h2 (by omega)

/-- A trip writes chunks n and n + 1: from the result on the first n chunks to the result on the first n + 2. -/
theorem valF_trip (n : ℕ) (fo : S16777216.Idx → Elt F .f32) (hV : ValF L f7 f8 f9 n fo)
    (off0 : Fin 1 → ℕ) (h0 : ∀ a, off0 a + S8192.size a ≤ S16777216.size a) (off1 : Fin 1 → ℕ) (h1 : ∀ a, off1 a + S8192.size a ≤ S16777216.size a)
    (e0 : off0 = offC L n) (e1 : off1 = offC L (n + 1)) (w0 w1 : S8192.Idx → Elt F .f32)
    (hw0 : ∀ j : Fin 8192, w0 (ValueIdx.ix1 j) = outV f7 f8 f9 (pix off0 h0 j))
    (hw1 : ∀ j : Fin 8192, w1 (ValueIdx.ix1 j) = outV f7 f8 f9 (pix off1 h1 j)) :
    ValF L f7 f8 f9 (n + 2) (View.write (Elt F) (oSl off1 h1).view (View.write (Elt F) (oSl off0 h0).view fo w0 Finset.univ) w1 Finset.univ) := by
  intro p hlo hhi
  have b0 : off0 0 = offC L 0 0 + 8192 * n := by rw [e0]; exact offC_zero L n
  have b1 : off1 0 = offC L 0 0 + 8192 * (n + 1) := by rw [e1]; exact offC_zero L (n + 1)
  rw [write_chunk off1 h1 _ (outV f7 f8 f9) w1 hw1 p]
  by_cases hp1 : off1 0 ≤ (p 0).val ∧ (p 0).val < off1 0 + 8192
  · rw [if_pos hp1]
  · rw [if_neg hp1, write_chunk off0 h0 fo (outV f7 f8 f9) w0 hw0 p]
    by_cases hp0 : off0 0 ≤ (p 0).val ∧ (p 0).val < off0 0 + 8192
    · rw [if_pos hp0]
    · rw [if_neg hp0]
      exact hV p hlo (by omega)

/-- After all 64 chunks the array holds the result on the tile's whole region. -/
theorem valF_final (fo : S16777216.Idx → Elt F .f32) (hV : ValF L f7 f8 f9 64 fo) :
    ∀ p ∈ Finset.univ \ Others L, fo p = outV f7 f8 f9 p := by
  intro p hp
  unfold Others at hp
  rw [Finset.sdiff_sdiff_eq_self (Finset.subset_univ _)] at hp
  obtain ⟨k, -, hk⟩ := Finset.mem_biUnion.mp hp
  rw [chunkSet_eq, Rect.mem_set_unit] at hk
  have h0 := hk 0
  have hk64 := k.isLt
  have hL1 : (L 1).val < 16 := (L 1).isLt
  have hL0 : (L 0).val < 2 := (L 0).isLt
  simp [Shape.partIx, Shape.partSize, chunkNo] at h0
  refine hV p ?_ ?_
  · show 1048576 * (L 1).val + 524288 * (L 0).val + 8192 * 0 ≤ (p 0).val
    omega
  · show (p 0).val < 1048576 * (L 1).val + 524288 * (L 0).val + 8192 * 0 + 8192 * 64
    omega

/-! ## What a chunk's copy out carries -/

/-- The shared table read through its whole-extent window is the table. -/
theorem read_tabW (f : S1048576.Idx → Elt F .f32) : View.read (Elt F) (tabW).view f = f :=
  funext fun i => congrArg f (funext fun a => match a with | ⟨0, _⟩ => Fin.ext (by show 0 + 1 * (i 0).val = (i 0).val; omega))

/-- The first gathered buffer after the first multiplication loop, moved as it is, is the result on the chunk: its
    entries were the table at the chunk's component numbers, and the loop multiplied them by the chunk's inputs. -/
theorem payA (G X : S8192.Idx → Elt F .f32) (ci : S8192.Idx → Elt F .i32)
    (off : Fin 1 → ℕ) (h : ∀ a, off a + S8192.size a ≤ S16777216.size a)
    (hn : S8192.numel = S8192.size gathers_S1048576_S8192.axis')
    (hin : ∀ x, (ci x : BitVec 32).toNat < S1048576.size gathers_S1048576_S8192.axis)
    (hG : ∀ i, G i = SparseCore.gatherPayload gathers_S1048576_S8192 (View.read (Elt F) (tabW).view f7) (SparseCore.rows ci hn hin) i)
    (hci : ∀ j : Fin 8192, ci (ValueIdx.ix1 j) = f8 (pix off h j)) (hX : ∀ j : Fin 8192, X (ValueIdx.ix1 j) = f9 (pix off h j)) (j : Fin 8192) :
    (ReadAs.same.apply (View.read (Elt F) (g0V).view (mulUpTo G X (Scf.trips k1_t2_loop.lb k1_t2_loop.ub k1_t2_loop.st))) : S8192.Idx → Elt F .f32) (ValueIdx.ix1 j)
      = outV f7 f8 f9 (pix off h j) := by
  show mulUpTo G X (Scf.trips k1_t2_loop.lb k1_t2_loop.ub k1_t2_loop.st) (ValueIdx.ix1 j) = _
  have hc := chunk_val_of f7 f8 f9 off h ci X hci hX hn hin j
  rw [prod16_apply] at hc
  rw [mulUpTo_tripsA, prod16_apply, hG, read_tabW]
  exact hc

/-- The same for the second gathered buffer and the second loop. -/
theorem payB (G X : S8192.Idx → Elt F .f32) (ci : S8192.Idx → Elt F .i32)
    (off : Fin 1 → ℕ) (h : ∀ a, off a + S8192.size a ≤ S16777216.size a)
    (hn : S8192.numel = S8192.size gathers_S1048576_S8192.axis')
    (hin : ∀ x, (ci x : BitVec 32).toNat < S1048576.size gathers_S1048576_S8192.axis)
    (hG : ∀ i, G i = SparseCore.gatherPayload gathers_S1048576_S8192 (View.read (Elt F) (tabW).view f7) (SparseCore.rows ci hn hin) i)
    (hci : ∀ j : Fin 8192, ci (ValueIdx.ix1 j) = f8 (pix off h j)) (hX : ∀ j : Fin 8192, X (ValueIdx.ix1 j) = f9 (pix off h j)) (j : Fin 8192) :
    (ReadAs.same.apply (View.read (Elt F) (g1V).view (mulUpTo G X (Scf.trips k1_t3_loop.lb k1_t3_loop.ub k1_t3_loop.st))) : S8192.Idx → Elt F .f32) (ValueIdx.ix1 j)
      = outV f7 f8 f9 (pix off h j) := by
  show mulUpTo G X (Scf.trips k1_t3_loop.lb k1_t3_loop.ub k1_t3_loop.st) (ValueIdx.ix1 j) = _
  have hc := chunk_val_of f7 f8 f9 off h ci X hci hX hn hin j
  rw [prod16_apply] at hc
  rw [mulUpTo_tripsB, prod16_apply, hG, read_tabW]
  exact hc

/-! ## The buffers as the copies leave them, read at an entry -/

/-- A gathered buffer written whole holds what was written, whatever it held. -/
theorem gathered_at0 (a : S8192.Idx → Elt F .f32) (gp : S8192.Idx → Elt F .f32) (i : S8192.Idx) :
    View.write (Elt F) ((g0V).view.slice (Rect.whole cc1_scratch5.ty.shape)) a gp Finset.univ i = gp i := by
  have e := View.read_slice_write_emb (v := (g0V).view) (Rect.whole cc1_scratch5.ty.shape) a gp (Finset.mem_univ i)
  rw [Rect.emb_whole_apply] at e
  exact e
theorem gathered_at1 (a : S8192.Idx → Elt F .f32) (gp : S8192.Idx → Elt F .f32) (i : S8192.Idx) :
    View.write (Elt F) ((g1V).view.slice (Rect.whole cc1_scratch6.ty.shape)) a gp Finset.univ i = gp i := by
  have e := View.read_slice_write_emb (v := (g1V).view) (Rect.whole cc1_scratch6.ty.shape) a gp (Finset.mem_univ i)
  rw [Rect.emb_whole_apply] at e
  exact e
theorem gathered_writes_at0 (a : S8192.Idx → Elt F .f32) (gp : S8192.Idx → Elt F .f32) (i : S8192.Idx) :
    (g0V).view.writes (Elt F) a [⟨Rect.whole cc1_scratch5.ty.shape, gp⟩] i = gp i := gathered_at0 a gp i
theorem gathered_writes_at1 (a : S8192.Idx → Elt F .f32) (gp : S8192.Idx → Elt F .f32) (i : S8192.Idx) :
    (g1V).view.writes (Elt F) a [⟨Rect.whole cc1_scratch6.ty.shape, gp⟩] i = gp i := gathered_at1 a gp i

/-- An index buffer written whole with a chunk of component numbers reads, at entry `j`, the chunk's `j`-th number. -/
theorem ci_at0 (a : S8192.Idx → Elt F .i32) (off : Fin 1 → ℕ) (h : ∀ a, off a + S8192.size a ≤ S16777216.size a) (j : Fin 8192) :
    View.read (Elt F) (i0V).view (View.write (Elt F) (i0V).view a (cI f8 off h) Finset.univ) (ValueIdx.ix1 j) = f8 (pix off h j) := by
  rw [View.read_write_univ]; exact read_chunk_i32 off h f8 j
theorem ci_at1 (a : S8192.Idx → Elt F .i32) (off : Fin 1 → ℕ) (h : ∀ a, off a + S8192.size a ≤ S16777216.size a) (j : Fin 8192) :
    View.read (Elt F) (i1V).view (View.write (Elt F) (i1V).view a (cI f8 off h) Finset.univ) (ValueIdx.ix1 j) = f8 (pix off h j) := by
  rw [View.read_write_univ]; exact read_chunk_i32 off h f8 j

/-- An input buffer written whole with a chunk of inputs holds, at entry `j`, the chunk's `j`-th input. -/
theorem x_at0 (a : S8192.Idx → Elt F .f32) (off : Fin 1 → ℕ) (h : ∀ a, off a + S8192.size a ≤ S16777216.size a) (j : Fin 8192) :
    View.write (Elt F) (x0V).view a (cX f9 off h) Finset.univ (ValueIdx.ix1 j) = f9 (pix off h j) :=
  (congrFun (View.read_write_univ (v := (x0V).view) a (cX f9 off h)) (ValueIdx.ix1 j)).trans (read_chunk_f32 off h f9 j)
theorem x_at1 (a : S8192.Idx → Elt F .f32) (off : Fin 1 → ℕ) (h : ∀ a, off a + S8192.size a ≤ S16777216.size a) (j : Fin 8192) :
    View.write (Elt F) (x1V).view a (cX f9 off h) Finset.univ (ValueIdx.ix1 j) = f9 (pix off h j) :=
  (congrFun (View.read_write_univ (v := (x1V).view) a (cX f9 off h)) (ValueIdx.ix1 j)).trans (read_chunk_f32 off h f9 j)

end Cert.Proof.KernelSc

end
-- ==== Proof.ScTileStepABits.lean ====
/-
  One trip of the loop over pairs of chunks, FIRST TRIP (no result copy is pending yet): from the loop's invariant before
  the trip to the invariant before the next. The trip waits for the first chunk's gather and the second chunk's inputs, starts the
  second chunk's gather, multiplies the first chunk's table entries by its inputs in place, starts that product's copy into the
  result array and the fetch of the chunk after next; then the same for the second chunk with the roles of the two buffer pairs
  exchanged, waiting for the first product's copy before its buffer is gathered into again. The products written are the
  specification's at every pixel of the two chunks (the value carried beside the resources).
-/
import proofs.«215733_g63187558859118_cont_9to1_m_256_17_alg».proof.Proof.ScTileValBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))
/-- A wait recorded at the index of the tile's own copies keeps the recorded waits within what the launch allows. -/
theorem waits_ok {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp

theorem off40_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
theorem off41n_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
theorem pix_congr {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- The first trip: no result copy is pending. -/
theorem trip_stepA (hidx : ∀ p, (f8 p : BitVec 32).toNat < 1048576) (k : Fin k1_t1_loop.trips) (hk0 : k.val = 0) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hin0 := hinW0 d L f8 hidx
  have hin1 := hinW1 d L f8 hidx
  unfold Inv
  rw [if_pos (by omega : k.val < 32), if_pos (by omega : k.val + 1 < 32), if_pos hk0, if_neg (Nat.succ_ne_zero _)]
  unfold InvA OutB0 OutB1
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%a6, Ho, B6, HsO1⟩⟩
  obtain ⟨rfl, rfl, hW'⟩ := hp
  sl_exec
  have hv : ¬ trip_stepA.sl.v93 k = 1#1 := fun h => absurd ((c93 k).mp h) (by omega)
  have hc3 : k1_cond3 k = 1#1 := (c3 k).mpr (by omega)
  have hc6 : k1_cond6 k = 1#1 := (c6 k).mpr (by omega)
  have hd0 := win_disj0 (L := L)
  have hd1 := win_disj1 (L := L)
  sl_exec
  have hv71 : trip_stepA.sl.v71 k = 1#1 := (c71 k).mpr (by omega)
  ihave G1 := (Guarded.elim_pos hv71) $$ if1
  icases G1 with ⟨Hi, HsI0, B3, Hx, HsX0, HsO0, Ho, HsG0⟩
  ihave Htab2 := (show ((tabV).view.loc thrV ↦[Finset.univ \ gset (trip_stepA.sl.v71 k = 1#1) (fun _ => (tabW).view.set)]{tok16 (jL L)} f7 : sProp 𝕄)
      ⊢ ((tabV).view.loc thrV ↦[Finset.univ \ (tabW).view.set]{tok16 (jL L)} f7) from by
    rw [gset.pos hv71]) $$ Htab
  sl_exec
  sl_unfold_run_names
  sl_step
  isplitr [HsO1 B6 Ho]
  · iexists (k1_off5 L k), (k1_off5_inb L k hc3), (k1_off7 L k), (k1_off7_inb L k hc6), _, _, _, _, _, _, (hin0 _ _ _)
    isplitr
    swap
    isplitl [HO]; · iexact HO
    isplitr; · iexact Hmw
    isplitl [HsI1]; · iexact HsI1
    isplitl [HsX1]; · iexact HsX1
    isplitl [Hi]; · iexact Hi
    isplitl [Hx]; · iexact Hx
    isplitl [HsI0]; · iexact HsI0
    isplitl [HsX0]; · iexact HsX0
    isplitl [B3]; · iexact B3
    isplitl [HsG0]; · iexact HsG0
    isplitl [Htab2]; · iexact Htab2
    isplitl [HsG1]; · iexact HsG1
    iexact HsO0
    ipureintro
    refine ⟨off5_eq L k, off7_eq L k, ?_⟩
    split <;> repeat (first | exact hW' | refine waits_ok ?_ _)
  · iexists _, _, k
    isplitr
    swap
    isplitl [HsO1]; · iexact HsO1
    isplitl [B6]; · iexact B6
    iexact Ho
    ipureintro
    refine ⟨rfl, ?_⟩
    rw [show 2 * (k.val + 1) = 2 * k.val + 2 from by omega]
    refine valF_trip L f7 f8 f9 (2 * k.val) f10 (by rw [hk0]; exact valF_zero L f7 f8 f9 f10)
      (k1_off4 L k 0#32) (k1_off4_inb L k 0) (k1_off4 L k 1#32) (k1_off4_inb L k 1) (off40_eq L k) (off41n_eq L k) _ _ ?_ ?_
    · intro j
      rw [pix_congr (off40_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congr (off41n_eq L k) (k1_off4_inb L k 1) h1 j]
      exact payB f7 f8 f9 _ _ _ _ h1 rfl (hin1 a2 _ h1) (fun i => gathered_at1 _ _ i) (ci_at1 f8 a2 _ h1) (x_at1 f9 a4 _ h1) j

end Cert.Proof.KernelSc

end
-- ==== Proof.ScTileStepBBits.lean ====
/-
  One trip of the loop over pairs of chunks, A MIDDLE TRIP (the previous trip's second result copy is pending and is waited for before its buffer is gathered into): from the loop's invariant before
  the trip to the invariant before the next. The trip waits for the first chunk's gather and the second chunk's inputs, starts the
  second chunk's gather, multiplies the first chunk's table entries by its inputs in place, starts that product's copy into the
  result array and the fetch of the chunk after next; then the same for the second chunk with the roles of the two buffer pairs
  exchanged, waiting for the first product's copy before its buffer is gathered into again. The products written are the
  specification's at every pixel of the two chunks (the value carried beside the resources).
-/
import proofs.«215733_g63187558859118_cont_9to1_m_256_17_alg».proof.Proof.ScTileValBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))
/-- A wait recorded at the index of the tile's own copies keeps the recorded waits within what the launch allows. -/
theorem waits_okB {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp

theorem off40B_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
theorem off41B_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
theorem pix_congrB {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- A middle trip: the previous trip's second result copy is pending, and is waited for before its buffer is gathered into. -/
theorem trip_stepB (hidx : ∀ p, (f8 p : BitVec 32).toNat < 1048576) (k : Fin k1_t1_loop.trips) (hk1 : 1 ≤ k.val) (hk30 : k.val ≤ 30) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hin0 := hinW0 d L f8 hidx
  have hin1 := hinW1 d L f8 hidx
  unfold Inv
  rw [if_pos (by omega : k.val < 32), if_pos (by omega : k.val + 1 < 32), if_neg (by omega : ¬ k.val = 0), if_neg (Nat.succ_ne_zero _)]
  unfold InvA OutB1
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%fo, %cg, %k', %hk', HsO1, B6, Ho⟩⟩
  obtain ⟨rfl, rfl, hW'⟩ := hp
  obtain ⟨hk'e, hVal⟩ := hk'
  have hd0 := win_disj0 (L := L)
  have hd1 := win_disj1 (L := L)
  sl_exec
  have hv : trip_stepB.sl.v93 k = 1#1 := (c93 k).mpr hk1
  ihave G0 := (Guarded.elim_pos hv) $$ if1
  icases G0 with ⟨B6, HsO1, Ho⟩
  have hc3 : k1_cond3 k = 1#1 := (c3 k).mpr (by omega)
  have hc6 : k1_cond6 k = 1#1 := (c6 k).mpr (by omega)
  have hd0 := win_disj0 (L := L)
  have hd1 := win_disj1 (L := L)
  sl_exec
  have hv71 : trip_stepB.sl.v71 k = 1#1 := (c71 k).mpr (by omega)
  ihave G1 := (Guarded.elim_pos hv71) $$ if1
  icases G1 with ⟨Hi, HsI0, B3, Hx, HsX0, HsO0, Ho, HsG0⟩
  ihave Htab2 := (show ((tabV).view.loc thrV ↦[Finset.univ \ gset (trip_stepB.sl.v71 k = 1#1) (fun _ => (tabW).view.set)]{tok16 (jL L)} f7 : sProp 𝕄)
      ⊢ ((tabV).view.loc thrV ↦[Finset.univ \ (tabW).view.set]{tok16 (jL L)} f7) from by
    rw [gset.pos hv71]) $$ Htab
  sl_exec
  sl_unfold_run_names
  sl_step
  isplitr [HsO1 B6 Ho]
  · iexists (k1_off5 L k), (k1_off5_inb L k hc3), (k1_off7 L k), (k1_off7_inb L k hc6), _, _, _, _, _, _, (hin0 _ _ _)
    isplitr
    swap
    isplitl [HO]; · iexact HO
    isplitr; · iexact Hmw
    isplitl [HsI1]; · iexact HsI1
    isplitl [HsX1]; · iexact HsX1
    isplitl [Hi]; · iexact Hi
    isplitl [Hx]; · iexact Hx
    isplitl [HsI0]; · iexact HsI0
    isplitl [HsX0]; · iexact HsX0
    isplitl [B3]; · iexact B3
    isplitl [HsG0]; · iexact HsG0
    isplitl [Htab2]; · iexact Htab2
    isplitl [HsG1]; · iexact HsG1
    iexact HsO0
    ipureintro
    refine ⟨off5_eq L k, off7_eq L k, ?_⟩
    repeat' split
    all_goals repeat (first | exact hW' | refine waits_okB ?_ _)
  · iexists _, _, k
    isplitr
    swap
    isplitl [HsO1]; · iexact HsO1
    isplitl [B6]; · iexact B6
    iexact Ho
    ipureintro
    refine ⟨rfl, ?_⟩
    rw [show 2 * (k.val + 1) = 2 * k.val + 2 from by omega]
    refine valF_trip L f7 f8 f9 (2 * k.val) fo hVal
      (k1_off4 L k 0#32) (k1_off4_inb L k 0) (k1_off4 L k 1#32) (k1_off4_inb L k 1) (off40B_eq L k) (off41B_eq L k) _ _ ?_ ?_
    · intro j
      rw [pix_congrB (off40B_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congrB (off41B_eq L k) (k1_off4_inb L k 1) h1 j]
      exact payB f7 f8 f9 _ _ _ _ h1 rfl (hin1 a2 _ h1) (fun i => gathered_at1 _ _ i) (ci_at1 f8 a2 _ h1) (x_at1 f9 a4 _ h1) j

end Cert.Proof.KernelSc

end
-- ==== Proof.ScTileStepCBits.lean ====
/-
  One trip of the loop over pairs of chunks, THE LAST TRIP: there is no chunk after the next, so nothing more is fetched or
  gathered; the two chunks are multiplied and their result copies are started and left under way, which is the state the kernel's
  two final waits start from.
-/
import proofs.«215733_g63187558859118_cont_9to1_m_256_17_alg».proof.Proof.ScTileValBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))

theorem waits_okC {W W' : Waits sig (HIx 1)} (hW' : ∀ p ∈ W', p ∈ W ∨ p.2 = none ∨ p.2 = some (0 : Fin 1)) (s : SemLoc sig) :
    ∀ p ∈ insert (s, (default : HIx 1)) W', p ∈ W ∨ p.2 = none ∨ p.2 = some (0 : Fin 1) := by
  intro p hp
  rcases Finset.mem_insert.mp hp with rfl | hp
  · exact .inr (.inl rfl)
  · exact hW' p hp
theorem off40C_eq (k : Fin k1_t1_loop.trips) : k1_off4 L k 0#32 = offC L (2 * k.val) := by
  have e := k1_off4_eq L k (0 : Fin 2)
  rw [show (BitVec.ofNat 32 (0 : Fin 2).val : BitVec 32) = 0#32 from rfl] at e
  rw [e]; unfold offC
  rw [show 1048576 * (L 1).val + 524288 * (L 0).val + 16384 * k.val + 8192 * (0 : Fin 2).val = 1048576 * (L 1).val + 524288 * (L 0).val + 8192 * (2 * k.val) from by simp; omega]
theorem off41C_eq (k : Fin k1_t1_loop.trips) : k1_off4 L k 1#32 = offC L (2 * k.val + 1) := by
  have e := k1_off4_eq L k (1 : Fin 2)
  rw [show (BitVec.ofNat 32 (1 : Fin 2).val : BitVec 32) = 1#32 from rfl] at e
  rw [e]; unfold offC
  rw [show 1048576 * (L 1).val + 524288 * (L 0).val + 16384 * k.val + 8192 * (1 : Fin 2).val = 1048576 * (L 1).val + 524288 * (L 0).val + 8192 * (2 * k.val + 1) from by simp; omega]
theorem pix_congrC {off off' : Fin 1 → Nat} (e : off = off') (h : ∀ a, off a + S8192.size a ≤ S16777216.size a) (h' : ∀ a, off' a + S8192.size a ≤ S16777216.size a) (j : Fin 8192) :
    pix off h j = pix off' h' j := by subst e; rfl

set_option maxHeartbeats 4000000 in
/-- The last trip: nothing more is fetched or gathered; both chunks' result copies are left under way. -/
theorem trip_stepC (hidx : ∀ p, (f8 p : BitVec 32).toNat < 1048576) (k : Fin k1_t1_loop.trips) (hk31 : k.val = 31) :
    Inv d L f7 f8 f9 f10 O W k.val ⊢ (wp frame (wpE (defs₀ (F := F)) 𝒱₀ (V d (cV L) (jV L)) none) Set.univ (tripProg (F := F) L k)
      fun _ => Inv d L f7 f8 f9 f10 O W 32 : sProp 𝕄) := by
  have hin0 := hinW0 d L f8 hidx
  have hin1 := hinW1 d L f8 hidx
  unfold Inv
  rw [if_pos (show k.val < 32 from by rw [hk31]; decide), if_neg (show ¬ (32 : ℕ) < 32 from by decide), if_neg (show ¬ k.val = 0 from by rw [hk31]; decide)]
  unfold InvA OutB1 InvX
  iintro ⟨⟨%off0, %h0, %off1, %h1, %a1, %a2, %a3, %a4, %a5, %W', %hc, %hp, HO, #Hmw, HsI1, HsX1, Hi, Hx, HsI0, HsX0, B3, HsG0, Htab, HsG1, HsO0⟩, ⟨%fo, %cg, %k', %hk', HsO1, B6, Ho⟩⟩
  obtain ⟨rfl, rfl, hW'⟩ := hp
  obtain ⟨hk'e, hVal⟩ := hk'
  have hd0 := win_disj0 (L := L)
  have hd1 := win_disj1 (L := L)
  sl_exec
  have hv : trip_stepC.sl.v93 k = 1#1 := (c93 k).mpr (by omega)
  ihave G0 := (Guarded.elim_pos hv) $$ if1
  icases G0 with ⟨B6, HsO1, Ho⟩
  have hc3 : ¬ k1_cond3 k = 1#1 := fun h => absurd ((c3 k).mp h) (by omega)
  have hc6 : ¬ k1_cond6 k = 1#1 := fun h => absurd ((c6 k).mp h) (by omega)
  sl_exec
  have hv71 : ¬ trip_stepC.sl.v71 k = 1#1 := fun h => absurd ((c71 k).mp h) (by omega)
  sl_exec
  sl_unfold_run_names
  sl_step
  iexists _, _, _, _, _, _, _, _, _, k
  isplitr
  swap
  isplitl [HO]; · iexact HO
  isplitr; · iexact Hmw
  isplitl [Hi]; · iexact Hi
  isplitl [Hx]; · iexact Hx
  isplitl [HsI0]; · iexact HsI0
  isplitl [HsX0]; · iexact HsX0
  isplitl [HsI1]; · iexact HsI1
  isplitl [HsX1]; · iexact HsX1
  isplitl [HsG0]; · iexact HsG0
  isplitl [HsG1]; · iexact HsG1
  isplitl [HsG0_dst_and]; · iexact HsG0_dst_and
  isplitl [HsI1_dst]; · iexact HsI1_dst
  isplitl [B3]; · iexact B3
  isplitl [HsX1_dst]; · iexact HsX1_dst
  isplitl [Htab]; · iexact Htab
  isplitl [HsO0]; · iexact HsO0
  isplitl [HsG0_dst]; · iexact HsG0_dst
  isplitl [HsO1]; · iexact HsO1
  isplitl [B6]; · iexact B6
  iexact Ho
  ipureintro
  refine ⟨hk31, ?_, ?_⟩
  · rw [show (64 : ℕ) = 2 * k.val + 2 from by omega]
    refine valF_trip L f7 f8 f9 (2 * k.val) fo hVal
      (k1_off4 L k 0#32) (k1_off4_inb L k 0) (k1_off4 L k 1#32) (k1_off4_inb L k 1) (off40C_eq L k) (off41C_eq L k) _ _ ?_ ?_
    · intro j
      rw [pix_congrC (off40C_eq L k) (k1_off4_inb L k 0) h0 j]
      exact payA f7 f8 f9 _ _ _ _ h0 rfl hc (fun i => gathered_at0 _ _ i) (ci_at0 f8 a1 _ h0) (x_at0 f9 a3 _ h0) j
    · intro j
      rw [pix_congrC (off41C_eq L k) (k1_off4_inb L k 1) h1 j]
      exact payB f7 f8 f9 _ _ _ _ h1 rfl (hin1 a2 _ h1) (fun i => gathered_at1 _ _ i) (ci_at1 f8 a2 _ h1) (x_at1 f9 a4 _ h1) j
  · split <;> repeat (first | exact hW' | refine waits_okC ?_ _)

end Cert.Proof.KernelSc

end
-- ==== Proof.ScTileStepBits.lean ====
/-
  One trip of the loop over pairs of chunks, whichever trip it is: the first, a middle one, or the last.
-/
import proofs.«215733_g63187558859118_cont_9to1_m_256_17_alg».proof.Proof.ScTileStepABits
import proofs.«215733_g63187558859118_cont_9to1_m_256_17_alg».proof.Proof.ScTileStepBBits
import proofs.«215733_g63187558859118_cont_9to1_m_256_17_alg».proof.Proof.ScTileStepCBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)
variable (f7 : S1048576.Idx → Elt F .f32) (f8 : S16777216.Idx → Elt F .i32) (f9 f10 : S16777216.Idx → Elt F .f32)
variable (O : CellTallies nD τ sig (HIx 1)) (W : Waits sig (HIx 1))

theorem trip_step (hidx : ∀ p, (f8 p : BitVec 32).toNat < 1048576) (k : Fin k1_t1_loop.trips) :
    Inv d L f7 f8 f9 f10 O W k.val ⊢ (wp frame (wpE (defs₀ (F := F)) 𝒱₀ (V d (cV L) (jV L)) none) Set.univ (tripProg (F := F) L k)
      fun _ => Inv d L f7 f8 f9 f10 O W (k.val + 1) : sProp 𝕄) := by
  have hk : k.val < 32 := Nat.lt_of_lt_of_le k.isLt k1_t1_abs.2.1
  rcases Nat.eq_zero_or_pos k.val with h0 | h1
  · exact trip_stepA d L f7 f8 f9 f10 O W hidx k h0
  · by_cases h31 : k.val = 31
    · have e : k.val + 1 = 32 := by omega
      rw [e]
      exact trip_stepC d L f7 f8 f9 f10 O W hidx k h31
    · exact trip_stepB d L f7 f8 f9 f10 O W hidx k h1 (by omega)

end Cert.Proof.KernelSc

end
-- ==== Proof.ScTileBits.lean ====
/-
  The task of one tile (vector subcore) of the SparseCore kernel, whole. It fetches the first two chunks' component numbers and
  inputs, copies its segment of the score table into its SparseCore's shared copy, and meets the other fifteen tiles at the
  barrier, where every tile hands every tile a read share of its segment: past it each tile reads the whole table. Then, chunk
  by chunk, it gathers the table's entries at the chunk's component numbers (all in range by the precondition), multiplies
  them by the chunk's inputs and copies the products into its part of the result array, the next chunk's fetches and gather
  under way meanwhile (the loop's invariant, ScTileInvIdeal; one trip, ScTileStepIdeal). After the last two copies have landed
  it hands back its read shares, its chunks of the result holding component-score × input at every pixel, its share of the
  shared table and its own buffers and cells.
-/
import proofs.«215733_g63187558859118_cont_9to1_m_256_17_alg».proof.Proof.ScTileStepBits

noncomputable section

namespace Cert.Proof.KernelSc

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "scV" => (Memref.whole Cert.Kernel.main_v7_scv : Memref Cert.Kernel.sig Kind.scVector Space.hbm Cert.Kernel.S1048576 EltTy.f32)
local notation "xV" => (Memref.whole Cert.Kernel.main_v9_scv : Memref Cert.Kernel.sig Kind.scVector Space.hbm Cert.Kernel.S16777216 EltTy.f32)
local notation "iV" => (Memref.whole Cert.Kernel.main_v8_scv : Memref Cert.Kernel.sig Kind.scVector Space.hbm Cert.Kernel.S16777216 EltTy.i32)
local notation "oV" => (Memref.whole Cert.Kernel.main_v10_scv : Memref Cert.Kernel.sig Kind.scVector Space.hbm Cert.Kernel.S16777216 EltTy.f32)
local notation "tabV" => (Memref.whole Cert.Kernel.cc1_scratch0 : Memref Cert.Kernel.sig Kind.scVector Space.shared Cert.Kernel.S1048576 EltTy.f32)
local notation "i0V" => (Memref.whole Cert.Kernel.cc1_scratch1 : Memref Cert.Kernel.sig Kind.scVector Space.vmem Cert.Kernel.S8192 EltTy.i32)
local notation "i1V" => (Memref.whole Cert.Kernel.cc1_scratch2 : Memref Cert.Kernel.sig Kind.scVector Space.vmem Cert.Kernel.S8192 EltTy.i32)
local notation "x0V" => (Memref.whole Cert.Kernel.cc1_scratch3 : Memref Cert.Kernel.sig Kind.scVector Space.vmem Cert.Kernel.S8192 EltTy.f32)
local notation "x1V" => (Memref.whole Cert.Kernel.cc1_scratch4 : Memref Cert.Kernel.sig Kind.scVector Space.vmem Cert.Kernel.S8192 EltTy.f32)
local notation "g0V" => (Memref.whole Cert.Kernel.cc1_scratch5 : Memref Cert.Kernel.sig Kind.scVector Space.vmem Cert.Kernel.S8192 EltTy.f32)
local notation "g1V" => (Memref.whole Cert.Kernel.cc1_scratch6 : Memref Cert.Kernel.sig Kind.scVector Space.vmem Cert.Kernel.S8192 EltTy.f32)

variable (d : Dev nD) (L : grid1.Coords)

local notation "thrV" => (V d (cV L) (jV L))
variable (f7 : S1048576.Idx → Elt F .f32) (f8 : S16777216.Idx → Elt F .i32) (f9 f10 : S16777216.Idx → Elt F .f32)
variable (O : CellTallies nD τ sig (HIx 1)) (W : Waits sig (HIx 1))

theorem off10_eq : k1_off1 L 0#32 = offC L (2 * 0) := by
  have e := k1_off1_eq L (0 : Fin 2)
  rw [show (BitVec.ofNat 32 (8192 * (0 : Fin 2).val) : BitVec 32) = 0#32 from rfl] at e
  rw [e]; unfold offC; simp
theorem off11_eq : k1_off1 L 8192#32 = offC L (2 * 0 + 1) := by
  have e := k1_off1_eq L (1 : Fin 2)
  rw [show (BitVec.ofNat 32 (8192 * (1 : Fin 2).val) : BitVec 32) = 8192#32 from rfl] at e
  rw [e]; unfold offC; simp

theorem waits_ok0 {W W' : Waits sig (HIx 1)} (hW' : ∀ p ∈ W', p ∈ W ∨ p.2 = none ∨ p.2 = some (0 : Fin 1)) (s : SemLoc sig) :
    ∀ p ∈ insert (s, (some 0 : HIx 1)) W', p ∈ W ∨ p.2 = none ∨ p.2 = some (0 : Fin 1) := by
  intro p hp
  rcases Finset.mem_insert.mp hp with rfl | hp
  · exact .inr (.inr rfl)
  · exact hW' p hp

theorem Inv_exit : Inv d L f7 f8 f9 f10 O W 32 = InvX d L f7 f8 f9 O W := by
  unfold Inv; rw [if_neg (by decide : ¬ (32 : ℕ) < 32)]
theorem Inv_zero : Inv d L f7 f8 f9 f10 O W 0 = iprop(InvA d L f7 f8 f9 O W 0 ∗ OutB0 d L f10) := by
  unfold Inv; rw [if_pos (by decide : (0 : ℕ) < 32), if_pos rfl]

theorem trips_eq : Scf.trips k1_t1_loop.lb k1_t1_loop.ub k1_t1_loop.st = 32 := by decide +kernel

set_option maxHeartbeats 4000000 in
theorem tile_body_of (hF : (K (F := F)).Facts) (hidx : ∀ p, (f8 p : BitVec 32).toNat < 1048576)
    (hstep : ∀ k : Fin k1_t1_loop.trips, Inv d L f7 f8 f9 f10 O W k.val ⊢ (wp frame (wpE (defs₀ (F := F)) 𝒱₀ (V d (cV L) (jV L)) none) Set.univ (tripProg (F := F) L k) fun _ => Inv d L f7 f8 f9 f10 O W (k.val + 1) : sProp 𝕄))
    (hO : ∀ g, O g none = 0)
    (hOlev : ∀ g ι, 0 < O g ι → 8 * (0 : Fin 1).val + 6 ≤ (K (F := F)).lev g ι) :
    iprop(levAts (K (F := F)).L (K (F := F)).lev ∗ bkit f7 d (cV L) (jV L)
        ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ (wp frame (wpE (defs₀ (F := F)) 𝒱₀ (V d (cV L) (jV L)) none) Set.univ
          (cc1_body L scV (Memref.isWhole_whole _) xV (Memref.isWhole_whole _) iV (Memref.isWhole_whole _) oV (Memref.isWhole_whole _)
            tabV (Memref.isWhole_whole _) i0V (Memref.isWhole_whole _) i1V (Memref.isWhole_whole _) x0V (Memref.isWhole_whole _) x1V (Memref.isWhole_whole _)
            g0V (Memref.isWhole_whole _) g1V (Memref.isWhole_whole _) cc1_scratch7 cc1_scratch8 cc1_scratch9 cc1_scratch10 cc1_scoped0)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [cc1_body_eq_skeleton]; unfold cc1_body_skel
  rw [k1_part2_eq_skeleton]; unfold k1_part2_skel
  rw [(K (F := F)).scopedBufs_V hF d (cV L) (jV L), SparseCore.Cfg.scopedSems0_V (Val := Elt F) d (cV L) (jV L), ownSems0_V, ownBufs_V]
  unfold bkit goH goS
  iintro ⟨#Hlv, ⟨⟨%κ, #Hinv⟩, Htoks, #Hrch, Hat, Hcred⟩, ⟨⟨H7, H8, H9, Hout⟩, ⟨%fsh, Hsh⟩⟩,
    ⟨⟨%a1, H1⟩, ⟨%a2, H2⟩, ⟨%a3, H3⟩, ⟨%a4, H4⟩, ⟨%a5, H5⟩, ⟨%a6, H6⟩, Hbufs⟩,
    ⟨HsI0, HsI1, HsX0, HsX1, HsG0, HsG1, HsO0, HsO1, HsT, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  have hin0 := hinW0 d L f8 hidx
  have hin1 := hinW1 d L f8 hidx
  -- the arrays and buffers as the kernel's memrefs name them
  ihave Hs := (Entails.of_eq (pts7 (F := F) d L (tok L) f7).symm) $$ H7
  ihave Hi := (Entails.of_eq (pts8 (F := F) d L (tok L) f8).symm) $$ H8
  ihave Hx := (Entails.of_eq (pts9 (F := F) d L (tok L) f9).symm) $$ H9
  ihave Ho := (Entails.of_eq (out_join (F := F) d L f10)) $$ Hout
  ihave B1 := (Entails.of_eq (ptsI0 (F := F) d L a1).symm) $$ H1
  ihave B2 := (Entails.of_eq (ptsI1 (F := F) d L a2).symm) $$ H2
  ihave B3 := (Entails.of_eq (ptsX0 (F := F) d L a3).symm) $$ H3
  ihave B4 := (Entails.of_eq (ptsX1 (F := F) d L a4).symm) $$ H4
  ihave B5 := (Entails.of_eq (ptsG0 (F := F) d L a5).symm) $$ H5
  ihave B6 := (Entails.of_eq (ptsG1 (F := F) d L a6).symm) $$ H6
  ihave Hseg := (show (shLoc d (cV L) ↦[segSet (jL L)]{fullShare} fsh : sProp 𝕄)
      ⊢ (((tabV).slice (Rect.unit (s := S1048576) (k1_off2 L) S65536.size (k1_off2_inb L)) (fun _ => rfl)).view.loc (V d (cV L) (jV L)) ↦[((tabV).slice (Rect.unit (s := S1048576) (k1_off2 L) S65536.size (k1_off2_inb L)) (fun _ => rfl)).view.set]{fullShare} fsh) from by
    rw [seg_spell]; exact BI.Entails.refl _) $$ Hsh
  -- the four input copies, the segment's copy and its wait
  sl_exec
  -- the segment now holds the score table's entries: a read share of it to every tile's round, the rest kept
  sl_unfold_run_names
  ihave Hseg2 := (seg_done (F := F) d L f7 fsh) $$ Hseg
  ihave Hp := (pays_intro f7 d L) $$ Hseg2
  icases Hp with ⟨Hrest, Hpays⟩
  sl_rw [bind_assoc]
  iapply (SparseCore.wp_subcoreBarrier 𝒱₀ none EB (bRd f7) d (sc := cV L) (i := jV L) sc_bar0 (grid1.bound 1) hsub1 (L 1) rfl κ (fun _ => 0) (jV L).val
      (fun j => bRd_mem₀ f7 d _ _ _) (fun _ => rfl) (bRd_expect f7 d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab0 := (pays_elim f7 d L) $$ Hgot
  ihave Htab := (Entails.of_eq (ptsTab (F := F) d L (tok16 (jL L)) f7).symm) $$ Htab0
  -- the first chunk's waits and its gather
  sl_exec
  sl_unfold_run_names
  sl_for (fun (t : Nat) (_ : PUnit) => (Inv d L f7 f8 f9 f10 O W t : sProp 𝕄)) $$ [HsI1 HsX1 Hi Hx HsI0 HsX0 B3 HsG0 Htab HsG1 HsO0 HO Ho B6 HsO1 Hmw2]
  · -- one trip
    intro k acc
    exact hstep k
  · -- before the first trip
    rw [Inv_zero]
    unfold InvA OutB0
    isplitr [Ho B6 HsO1]
    · iexists (k1_off1 L 0#32), (k1_off1_inb L 0), (k1_off1 L 8192#32), (k1_off1_inb L 1), a1, a2, a3, a4, a5, _, (hin0 _ _ _)
      isplitr
      swap
      isplitl [HO]; · iexact HO
      isplitr; · iexact Hmw2
      isplitl [HsI1]; · iexact HsI1
      isplitl [HsX1]; · iexact HsX1
      isplitl [Hi]; · iexact Hi
      isplitl [Hx]; · iexact Hx
      isplitl [HsI0]; · iexact HsI0
      isplitl [HsX0]; · iexact HsX0
      isplitl [B3]; · iexact B3
      isplitl [HsG0]; · iexact HsG0
      isplitl [Htab]; · iexact Htab
      isplitl [HsG1]; · iexact HsG1
      iexact HsO0
      ipureintro
      refine ⟨off10_eq L, off11_eq L, ?_⟩
      exact waits_ok (waits_ok (waits_ok0 (waits_ok (fun p hp => .inl hp) _) _) _) _
    · iexists a6
      isplitl [Ho]; · iexact Ho
      isplitl [B6]; · iexact B6
      iexact HsO1
  · -- after the last trip: the two result copies still under way, then everything handed back
    rw [trips_eq, Inv_exit]
    unfold InvX
    iintro %acc ⟨%fo, %w1, %cg0, %cg1, %c1, %c2, %c3, %c4, %W', %kl, %hp, HO, #Hmw, Hi, Hx, HsI0, HsX0, HsI1, HsX1, HsG0, HsG1, B1, B2, B3, B4, Htab, HsO0, G0r, HsO1, G1r, Ho⟩
    obtain ⟨hkl, hVal, hW'⟩ := hp
    have hd0 := win_disj0 (L := L)
    have hd1 := win_disj1 (L := L)
    sl_exec
    sl_step
    have hfin := valF_final L f7 f8 f9 _ hVal
    ihave Ho2 := (show ((oV).view.loc thrV ↦[Finset.univ \ Others L]{fullShare} (View.write (Elt F) (oSl (k1_off4 L kl 1#32) (k1_off4_inb L kl 1)).view fo w1 Finset.univ) : sProp 𝕄)
        ⊢ ((oV).view.loc thrV ↦[Finset.univ \ Others L]{fullShare} outV f7 f8 f9) from Entails.of_eq (pointsTo_congr hfin)) $$ Ho
    ihave Hout := (Entails.of_eq (out_join (F := F) d L (outV f7 f8 f9)).symm) $$ Ho2
    isplitl [Hs Hi Hx Hout Hrest Htab]
    · isplitl [Hs Hi Hx Hout]
      · unfold tdH
        isplitl [Hs]; · iapply (Entails.of_eq (pts7 (F := F) d L (tok L) f7)); iexact Hs
        isplitl [Hi]; · iapply (Entails.of_eq (pts8 (F := F) d L (tok L) f8)); iexact Hi
        isplitl [Hx]; · iapply (Entails.of_eq (pts9 (F := F) d L (tok L) f9)); iexact Hx
        iexact Hout
      · unfold tdS
        isplitl [Hrest]; · iexact Hrest
        iapply (Entails.of_eq (ptsTab (F := F) d L (tok16 (jL L)) f7)); iexact Htab
    isplitl [B1 B2 B3 B4 G0r G1r Hbufs]
    · isplitl [B1]; · iexists c1; iapply (Entails.of_eq (ptsI0 (F := F) d L c1)); iexact B1
      isplitl [B2]; · iexists c2; iapply (Entails.of_eq (ptsI1 (F := F) d L c2)); iexact B2
      isplitl [B3]; · iexists c3; iapply (Entails.of_eq (ptsX0 (F := F) d L c3)); iexact B3
      isplitl [B4]; · iexists c4; iapply (Entails.of_eq (ptsX1 (F := F) d L c4)); iexact B4
      isplitl [G0r]; · iexists cg0; iapply (Entails.of_eq (ptsG0 (F := F) d L cg0)); iexact G0r
      isplitl [G1r]; · iexists cg1; iapply (Entails.of_eq (ptsG1 (F := F) d L cg1)); iexact G1r
      iexact Hbufs
    isplitl [HsI0 HsI1 HsX0 HsX1 HsG0 HsG1 HsO0 HsO1 HsT Hsems]
    · isplitl [HsI0]; · iexact HsI0
      isplitl [HsI1]; · iexact HsI1
      isplitl [HsX0]; · iexact HsX0
      isplitl [HsX1]; · iexact HsX1
      isplitl [HsG0]; · iexact HsG0
      isplitl [HsG1]; · iexact HsG1
      isplitl [HsO0]; · iexact HsO0
      isplitl [HsO1]; · iexact HsO1
      isplitl [HsT]; · iexact HsT
      iexact Hsems
    iexists _
    isplitr
    swap
    iexact HO
    ipureintro
    exact waits_ok (waits_ok hW' _) _

/-- The tile's task, with the trip's step supplied. -/
theorem tile_body (hF : (K (F := F)).Facts) (d : Dev nD) (L : grid1.Coords)
    (f7 : S1048576.Idx → Elt F .f32) (f8 : S16777216.Idx → Elt F .i32) (f9 f10 : S16777216.Idx → Elt F .f32)
    (hidx : ∀ p, (f8 p : BitVec 32).toNat < 1048576)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit f7 d (cV L) (jV L)
        ∗ (goH d f7 f8 f9 f10 L ∗ goS d (cV L) (jL L))
        ∗ scopedBufs (V d (cV L) (jV L)) ∗ scopedSems0 (V d (cV L) (jV L)) ∗ owes (V d (cV L) (jV L)) (O + oxV d (cV L)) W)
      ⊢ (wp frame (wpE (defs₀ (F := F)) 𝒱₀ (V d (cV L) (jV L)) none) Set.univ
          (cc1_body L scV (Memref.isWhole_whole _) xV (Memref.isWhole_whole _) iV (Memref.isWhole_whole _) oV (Memref.isWhole_whole _)
            tabV (Memref.isWhole_whole _) i0V (Memref.isWhole_whole _) i1V (Memref.isWhole_whole _) x0V (Memref.isWhole_whole _) x1V (Memref.isWhole_whole _)
            g0V (Memref.isWhole_whole _) g1V (Memref.isWhole_whole _) cc1_scratch7 cc1_scratch8 cc1_scratch9 cc1_scratch10 cc1_scoped0)
          fun _ => iprop((tdH d f7 f8 f9 L ∗ tdS d f7 (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) :=
  tile_body_of d L f7 f8 f9 f10 O W hF hidx (fun k => trip_step d L f7 f8 f9 f10 O W hidx k) hO hOlev

end Cert.Proof.KernelSc

end
-- ==== Proof.lean ====
/-
  The certificate of the component-score filter.

  WHAT IS COMPUTED. An image of 4096 × 4096 pixels comes with, per pixel, the number of the component it belongs to
  (one of a million) and a table of fifteen raw attributes per component. A component's SCORE is the logistic function
  1 / (1 + e^(-z)) of the affine form z = Σₖ featureₖ · weightₖ + bias over seventeen features rescaled from the
  attributes (four box coordinates, the logarithm of the area, nine signed logarithms log(|x| + ε) · sign x, the shape
  ratio √small / (√big + ε), the cosine and the sine of the angle). The result at a pixel is its input value times the
  score of its component. The reference computes the million scores, takes the score at each pixel's component number
  and multiplies.
  HOW THE KERNEL DOES IT. A first kernel computes the scores of 1048576 padded rows as a 1024 × 1024 table on the
  TensorCore, sixteen blocks of 64 × 1024, from the attribute planes and eighteen words (the weights, then the bias).
  A second kernel runs on the 32 tiles of the two SparseCores: tile s of SparseCore c is worker 2 s + c and owns the
  524288 consecutive pixels from 1048576 s + 524288 c on, in 64 chunks of 8192. Each tile first copies segment s (65536
  entries) of the flat table into its SparseCore's shared memory; the sixteen tiles meet at a barrier; then, chunk by
  chunk, a tile fetches the component numbers and the inputs, gathers the table's entries at those numbers from the
  shared copy, multiplies entry by input in pieces of sixteen lanes, and writes the chunk out.
  WHAT CROSSES THE BARRIER. A tile that has written its segment cuts the full share of it into sixteen read shares and
  a remainder; its arrival at tile j's barrier semaphore hands tile j the j-th read share. After the barrier a tile
  holds its read share of every segment, that is of the whole shared table, which is what its gathers read.
  WHY THE TWO SIDES AGREE. The precondition puts every component number in 0 … 999999, so every index names a row on
  both sides, the reference's wrap-around, clamp and mask do nothing, and the padded rows are never read. Below one
  million the padded table's row is the component's own, the eighteen words are the weight column and the bias, so the
  table's entry is the component's score, feature by feature the same extended real on both sides (the same operations
  in the same order, the same words for ε and for one; the kernel's sign is the reference's at every extended real).
  What remains is that the kernel multiplies score × input and the reference input × score: commutativity. No law that
  could fail at an infinity is used, so the finiteness of the inputs is never needed. The word-level kernel and its
  idealization differ at nine places where "one with x's sign bit" is replaced by a comparison with zero: the rule's
  own statement. Every thread of every program terminates from any memory satisfying the precondition, and no argument
  array is written: the reference is a straight line of operations; the kernel's threads are the launch theorem's, from
  a tile's body, the split of a SparseCore's operands among its tiles, and the entry function on the TensorCore.
-/
import proofs.«215733_g63187558859118_cont_9to1_m_256_17_alg».proof.Defs
import proofs.«215733_g63187558859118_cont_9to1_m_256_17_alg».proof.Proof.Gen.Kernel
import proofs.«215733_g63187558859118_cont_9to1_m_256_17_alg».proof.Proof.Gen.KernelIdeal
import proofs.«215733_g63187558859118_cont_9to1_m_256_17_alg».proof.Proof.Gen.Kernel.Skeleton
import proofs.«215733_g63187558859118_cont_9to1_m_256_17_alg».proof.Proof.Gen.Kernel.Launch
import proofs.«215733_g63187558859118_cont_9to1_m_256_17_alg».proof.Proof.Gen.Kernel.Points
import proofs.«215733_g63187558859118_cont_9to1_m_256_17_alg».proof.Proof.Gen.KernelIdeal.Skeleton
import proofs.«215733_g63187558859118_cont_9to1_m_256_17_alg».proof.Proof.Gen.KernelIdeal.Launch
import proofs.«215733_g63187558859118_cont_9to1_m_256_17_alg».proof.Proof.Gen.KernelIdeal.Points
import proofs.«215733_g63187558859118_cont_9to1_m_256_17_alg».proof.Proof.Gen.ReferenceIdeal
import proofs.«215733_g63187558859118_cont_9to1_m_256_17_alg».proof.Proof.Gen.Pre_input_domain
import proofs.«215733_g63187558859118_cont_9to1_m_256_17_alg».proof.Proof.Preserves
import proofs.«215733_g63187558859118_cont_9to1_m_256_17_alg».proof.Proof.KernelRunIdeal
import proofs.«215733_g63187558859118_cont_9to1_m_256_17_alg».proof.Proof.TcSideH7
import proofs.«215733_g63187558859118_cont_9to1_m_256_17_alg».proof.Proof.ScRunBits
import proofs.«215733_g63187558859118_cont_9to1_m_256_17_alg».proof.Proof.TcSideFinBits
import proofs.«215733_g63187558859118_cont_9to1_m_256_17_alg».proof.Proof.ScTileIdeal
import proofs.«215733_g63187558859118_cont_9to1_m_256_17_alg».proof.Proof.ScTileBits
import Idealize.ShloMosaic.Adequacy
import Idealize.ShloMosaic.Init

noncomputable section

namespace Cert.Proof

open Idealize.ShloMosaic Idealize.SL.Sem

/-! ## At the extended reals -/

/-- The kernel's run at the specification's function: the launch theorem's run for the contents the launch memory
    fixes, its result read as the specification's function. -/
theorem kernelRun : Cert.Proof.Claims.KernelRun :=
  Cert.Proof.Claims.kernelRun
    (Cert.Proof.KernelIdealTc.f7 (F := Ideal)) (Cert.Proof.KernelIdealTc.f8 (F := Ideal))
    (Cert.Proof.KernelIdealTc.f9 (F := Ideal)) (Cert.Proof.KernelIdealTc.f10 (F := Ideal))
    Cert.Proof.KernelIdealTc.h7 (Cert.Proof.KernelIdealTc.v8_eq (F := Ideal)) (Cert.Proof.KernelIdealTc.v9_eq (F := Ideal))
    (fun g7 g8 g9 g10 hF d L hidx O W hO hOlev => Cert.Proof.KernelIdealSc.tile_body hF d L g7 g8 g9 g10 hidx O W hO hOlev)
    (fun m ρ κ d => Cert.Proof.KernelIdealTc.hmainFIN (F := Ideal) m ρ κ d)

/-! ## At the words -/

/-- The word-level kernel's frame: the same run at the words, its value dropped. The index range holds at the words as
    it does at the extended reals: the precondition's integer conjunct does not look at the floats. -/
theorem frame_Kernel : Cert.frame_Kernel (hKernel := Cert.Kernel.Gen.facts) (hPre_input_domain := Cert.Pre_input_domain.Gen.facts) := fun m g hpre =>
  (θ_run (Cert.Kernel.defs (F := Bits)) _ _).mono (fun _ h c => (h c).2)
    (Cert.Proof.KernelSc.run_main (F := Bits) m g
      (Cert.Proof.KernelTc.f7 (F := Bits) m) (Cert.Proof.KernelTc.f8 (F := Bits) m) (Cert.Proof.KernelTc.f9 (F := Bits) m)
      (Cert.Proof.KernelTc.f10 (F := Bits) m)
      (by
        rw [Cert.Proof.KernelTc.v8_eq]
        exact Cert.Proof.Claims.hidx_of_range _ fun p =>
          Cert.ReferenceIdeal.RefValue.cc_range (F := Bits) _ _ _ _ _ (hpre ⟨0, Nat.one_pos⟩) p)
      (fun hF d L hidx O W hO hOlev => Cert.Proof.KernelSc.tile_body hF d L _ _ _ _ hidx O W hO hOlev)
      (fun κ d => Cert.Proof.KernelTc.hmainFIN (F := Bits) m g κ d))

/-! ## The claim -/

theorem claim : Cert.Claim :=
  ⟨Cert.Kernel.Gen.facts, Cert.KernelIdeal.Gen.facts, Cert.ReferenceIdeal.Gen.facts, Cert.Pre_input_domain.Gen.facts,
    frame_Kernel,
    Cert.Proof.Claims.frame_KernelIdeal_of (kernelRun),
    Cert.Proof.Claims.frame_ReferenceIdeal,
    Cert.Proof.Preserves.preserves,
    Cert.Proof.Claims.algebraic_of (kernelRun)⟩

end Cert.Proof

end
